-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64x64 : Shape := ⟨2, ![64, 64]⟩
abbrev S64 : Shape := ⟨1, ![64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S64 .f32) (main_arg7 : FVec F S64 .f32) (main_arg8 : FVec F S64x64 .f32) (main_arg9 : FVec F S64 .f32) (main_arg10 : FVec F S64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x32 .f32) (main_arg1 : IVec S2x1600000 32) (main_arg2 : IVec S100000 32) (main_arg3 : FVec F S32x64 .f32) (main_arg4 : FVec F S64x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S4000x32 : Shape := ⟨2, ![4000, 32]⟩
abbrev S4000x64 : Shape := ⟨2, ![4000, 64]⟩
abbrev S1600000x64 : Shape := ⟨2, ![1600000, 64]⟩
abbrev S1x64 : Shape := ⟨2, ![1, 64]⟩
abbrev S4000x1 : Shape := ⟨2, ![4000, 1]⟩
abbrev S128x64 : Shape := ⟨2, ![128, 64]⟩

abbrev nBuf : Space → Nat
  | .hbm => 123
  | .vmem => 53
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S100000, .i32⟩
  | .hbm, ⟨3, _⟩ => ⟨S32x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S_, .f32⟩
  | .hbm, ⟨27, _⟩ => ⟨S1600000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S100000, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S1600000x1, .f32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S1x64, .f32⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S_, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S1600000x1, .f32⟩
  | .hbm, ⟨98, _⟩ => ⟨S1600000x64, .f32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S1x64, .f32⟩
  | .hbm, ⟨107, _⟩ => ⟨S1x64, .f32⟩
  | .hbm, ⟨108, _⟩ => ⟨S_, .f32⟩
  | .hbm, ⟨109, _⟩ => ⟨S1x64, .f32⟩
  | .hbm, ⟨110, _⟩ => ⟨S1x64, .f32⟩
  | .hbm, ⟨111, _⟩ => ⟨S_, .f32⟩
  | .hbm, ⟨112, _⟩ => ⟨S1x64, .f32⟩
  | .hbm, ⟨113, _⟩ => ⟨S1x64, .f32⟩
  | .hbm, ⟨114, _⟩ => ⟨S1x64, .f32⟩
  | .hbm, ⟨115, _⟩ => ⟨S1x64, .f32⟩
  | .hbm, ⟨116, _⟩ => ⟨S1x64, .f32⟩
  | .hbm, ⟨117, _⟩ => ⟨S1x64, .f32⟩
  | .hbm, ⟨118, _⟩ => ⟨S100000x64, .f32⟩
  | .hbm, ⟨119, _⟩ => ⟨S_, .f32⟩
  | .hbm, ⟨120, _⟩ => ⟨S128x64, .f32⟩
  | .hbm, ⟨121, _⟩ => ⟨S100000x1, .i32⟩
  | .hbm, ⟨122, _⟩ => ⟨S128x64, .f32⟩
  | .local _ .vmem, ⟨0, _⟩ => ⟨S4000x32, .f32⟩
  | .local _ .vmem, ⟨1, _⟩ => ⟨S4000x32, .f32⟩
  | .local _ .vmem, ⟨2, _⟩ => ⟨S32x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S64x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x1, .f32⟩
  | .local _ .vmem, ⟨15, _⟩ => ⟨S4000x1, .f32⟩
  | .local _ .vmem, ⟨16, _⟩ => ⟨S1x64, .f32⟩
  | .local _ .vmem, ⟨17, _⟩ => ⟨S4000x64, .f32⟩
  | .local _ .vmem, ⟨18, _⟩ => ⟨S4000x64, .f32⟩
  | .local _ .vmem, ⟨19, _⟩ => ⟨S1x64, .f32⟩
  | .local _ .vmem, ⟨20, _⟩ => ⟨S1x64, .f32⟩
  | .local _ .vmem, ⟨21, _⟩ => ⟨S4000x64, .f32⟩
  | .local _ .vmem, ⟨22, _⟩ => ⟨S4000x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S64x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S4000x1, .f32⟩
  | .local _ .vmem, ⟨39, _⟩ => ⟨S4000x1, .f32⟩
  | .local _ .vmem, ⟨40, _⟩ => ⟨S1x64, .f32⟩
  | .local _ .vmem, ⟨41, _⟩ => ⟨S4000x64, .f32⟩
  | .local _ .vmem, ⟨42, _⟩ => ⟨S4000x64, .f32⟩
  | .local _ .vmem, ⟨43, _⟩ => ⟨S1x64, .f32⟩
  | .local _ .vmem, ⟨44, _⟩ => ⟨S1x64, .f32⟩
  | .local _ .vmem, ⟨45, _⟩ => ⟨S4000x64, .f32⟩
  | .local _ .vmem, ⟨46, _⟩ => ⟨S4000x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S4000x64, .f32⟩
  | .local _ .vmem, ⟨52, _⟩ => ⟨S4000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49_0 : Ref sig .tc := ⟨.hbm, 73, rfl⟩
abbrev main_v49_1 : Ref sig .tc := ⟨.hbm, 74, rfl⟩
abbrev main_v49_2 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_12 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74_0 : Ref sig .tc := ⟨.hbm, 105, rfl⟩
abbrev main_v74_1 : Ref sig .tc := ⟨.hbm, 106, rfl⟩
abbrev main_v74_2 : Ref sig .tc := ⟨.hbm, 107, rfl⟩
abbrev main_cst_15 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg4_1 : Ref sig .tc := ⟨.vmem, 42, rfl⟩
abbrev cc5_stg5_0 : Ref sig .tc := ⟨.vmem, 43, rfl⟩
abbrev cc5_stg6_0 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg5_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18
abbrev cc2_sem5_0 : DmaSem sig := 19
abbrev cc2_sem6_0 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem5_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem4_0 : DmaSem sig := 41
abbrev cc5_sem4_1 : DmaSem sig := 42
abbrev cc5_sem5_0 : DmaSem sig := 43
abbrev cc5_sem6_0 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem5_1 : DmaSem sig := 52

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  shapeCasts_S1x64_S1x64 : S1x64.ShapeCasts S1x64
  broadcasts_S1x64_S4000x64 : S1x64.Broadcasts S4000x64
  reduces_S4000x64_S64 : S4000x64.Reduces [0] S64
  bcast_S_S1x64 : S_.BroadcastsInDim S1x64 (![] : Fin 0 → Fin S1x64.rank)
  bcast_S_S128x64 : S_.BroadcastsInDim S128x64 (![] : Fin 0 → Fin S128x64.rank)
  bcast_S100000_S100000x1_0 : S100000.BroadcastsInDim S100000x1 (![0] : Fin 1 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x32_S32x64_S4000x64_1_0_0_1_n_n_wf : DotDims.WF S4000x32 S32x64 S4000x64 [1] [0] [0] [1] [] []
  dot_S4000x64_S64x64_S4000x64_1_0_0_1_n_n_wf : DotDims.WF S4000x64 S64x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S128x64_S100000x1_S100000x64_1_0_0_1_wf : ScatterDims.WF S128x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S100000x64.size a
  hwx3_5 : ∀ i : grid3.Coords, EltTy.bits .f32 = 32 ∨ (Rect.block (s := S100000x64) S4000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S100000x64.size a
  hwx5_1 : ∀ i : grid5.Coords, EltTy.bits .f32 = 32 ∨ (Rect.block (s := S100000x64) S4000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x64.size a ≤ S100000x64.size a
  hwx5_4 : ∀ i : grid5.Coords, EltTy.bits .f32 = 32 ∨ (Rect.block (s := S100000x64) S4000x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x64.size a ≤ S100000x64.size a
  hwx6_5 : ∀ i : grid6.Coords, EltTy.bits .f32 = 32 ∨ (Rect.block (s := S100000x64) S4000x64.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49_0) S4000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v49_1) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49_2) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49_0) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S4000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v58) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v74_0) S4000x64.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v74_1) S1x64.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v74_2) S1x64.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v74_0) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v81) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v82) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v83) S4000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S128x64 : Shape := ⟨2, ![128, 64]⟩

abbrev nBuf : Space → Nat
  | .hbm => 197
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x64, .f32⟩
  | 4 => ⟨S64x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S_, .f32⟩
  | 27 => ⟨S1600000, .f32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S100000, .f32⟩
  | 53 => ⟨S100000x64, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S1600000x1, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000x1, .f32⟩
  | 72 => ⟨S100000x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S_, .f32⟩
  | 81 => ⟨S64, .f32⟩
  | 82 => ⟨S64, .f32⟩
  | 83 => ⟨S_, .i32⟩
  | 84 => ⟨S_, .f32⟩
  | 85 => ⟨S64, .f32⟩
  | 86 => ⟨S1x64, .f32⟩
  | 87 => ⟨S_, .f32⟩
  | 88 => ⟨S1x64, .f32⟩
  | 89 => ⟨S1x64, .f32⟩
  | 90 => ⟨S100000x64, .f32⟩
  | 91 => ⟨S100000x64, .f32⟩
  | 92 => ⟨S100000x64, .f32⟩
  | 93 => ⟨S_, .f32⟩
  | 94 => ⟨S_, .f32⟩
  | 95 => ⟨S_, .f32⟩
  | 96 => ⟨S_, .f32⟩
  | 97 => ⟨S64, .f32⟩
  | 98 => ⟨S64, .f32⟩
  | 99 => ⟨S64, .f32⟩
  | 100 => ⟨S_, .f32⟩
  | 101 => ⟨S_, .i1⟩
  | 102 => ⟨S_, .f32⟩
  | 103 => ⟨S_, .f32⟩
  | 104 => ⟨S64, .f32⟩
  | 105 => ⟨S64, .f32⟩
  | 106 => ⟨S1x64, .f32⟩
  | 107 => ⟨S100000x64, .f32⟩
  | 108 => ⟨S100000x64, .f32⟩
  | 109 => ⟨S_, .f32⟩
  | 110 => ⟨S64, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S100000x64, .f32⟩
  | 126 => ⟨S_, .i32⟩
  | 127 => ⟨S1600000, .i32⟩
  | _ => ⟨S100000x32, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x64, .f32⟩
  | 7 => ⟨S1600000x1, .f32⟩
  | 8 => ⟨S1600000x64, .f32⟩
  | 9 => ⟨S1600000x64, .f32⟩
  | 10 => ⟨S_, .f32⟩
  | 11 => ⟨S100000x64, .f32⟩
  | 12 => ⟨S1600000x1, .i32⟩
  | 13 => ⟨S100000x64, .f32⟩
  | 14 => ⟨S100000x1, .f32⟩
  | 15 => ⟨S100000x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S64, .f32⟩
  | 23 => ⟨S_, .f32⟩
  | 24 => ⟨S64, .f32⟩
  | 25 => ⟨S64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S100000x64, .f32⟩
  | 34 => ⟨S100000x64, .f32⟩
  | 35 => ⟨S100000x64, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S_, .f32⟩
  | 44 => ⟨S_, .i1⟩
  | 45 => ⟨S_, .f32⟩
  | 46 => ⟨S_, .f32⟩
  | 47 => ⟨S64, .f32⟩
  | 48 => ⟨S64, .f32⟩
  | 49 => ⟨S1x64, .f32⟩
  | 50 => ⟨S100000x64, .f32⟩
  | 51 => ⟨S100000x64, .f32⟩
  | 52 => ⟨S_, .f32⟩
  | 53 => ⟨S64, .f32⟩
  | 54 => ⟨S64, .f32⟩
  | 55 => ⟨S64, .f32⟩
  | 56 => ⟨S1x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S128x64, .f32⟩
  | 67 => ⟨S100000x1, .i32⟩
  | 68 => ⟨S128x64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_cst_0 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_v7 : Ref sig .tc := ⟨.hbm, 93, rfl⟩
abbrev main_call0_cst_1 : Ref sig .tc := ⟨.hbm, 94, rfl⟩
abbrev main_call0_v8 : Ref sig .tc := ⟨.hbm, 95, rfl⟩
abbrev main_call0_cst_2 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_call0_cst_3 : Ref sig .tc := ⟨.hbm, 100, rfl⟩
abbrev main_call0_v12 : Ref sig .tc := ⟨.hbm, 101, rfl⟩
abbrev main_call0_cst_4 : Ref sig .tc := ⟨.hbm, 102, rfl⟩
abbrev main_call0_call0_v0 : Ref sig .tc := ⟨.hbm, 103, rfl⟩
abbrev main_call0_call0_v1 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_13 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_14 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_c_15 : Ref sig .tc := ⟨.hbm, 126, rfl⟩
abbrev main_v76 : Ref sig .tc := ⟨.hbm, 127, rfl⟩
abbrev main_v77 : Ref sig .tc := ⟨.hbm, 128, rfl⟩
abbrev main_c_16 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_17 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_18 : Ref sig .tc := ⟨.hbm, 149, rfl⟩
abbrev main_v96 : Ref sig .tc := ⟨.hbm, 150, rfl⟩
abbrev main_cst_19 : Ref sig .tc := ⟨.hbm, 151, rfl⟩
abbrev main_v97 : Ref sig .tc := ⟨.hbm, 152, rfl⟩
abbrev main_v98 : Ref sig .tc := ⟨.hbm, 153, rfl⟩
abbrev main_c_20 : Ref sig .tc := ⟨.hbm, 154, rfl⟩
abbrev main_call1_cst : Ref sig .tc := ⟨.hbm, 155, rfl⟩
abbrev main_call1_v0 : Ref sig .tc := ⟨.hbm, 156, rfl⟩
abbrev main_call1_v1 : Ref sig .tc := ⟨.hbm, 157, rfl⟩
abbrev main_call1_cst_0 : Ref sig .tc := ⟨.hbm, 158, rfl⟩
abbrev main_call1_v2 : Ref sig .tc := ⟨.hbm, 159, rfl⟩
abbrev main_call1_v3 : Ref sig .tc := ⟨.hbm, 160, rfl⟩
abbrev main_call1_v4 : Ref sig .tc := ⟨.hbm, 161, rfl⟩
abbrev main_call1_v5 : Ref sig .tc := ⟨.hbm, 162, rfl⟩
abbrev main_call1_v6 : Ref sig .tc := ⟨.hbm, 163, rfl⟩
abbrev main_call1_v7 : Ref sig .tc := ⟨.hbm, 164, rfl⟩
abbrev main_call1_cst_1 : Ref sig .tc := ⟨.hbm, 165, rfl⟩
abbrev main_call1_v8 : Ref sig .tc := ⟨.hbm, 166, rfl⟩
abbrev main_call1_cst_2 : Ref sig .tc := ⟨.hbm, 167, rfl⟩
abbrev main_call1_v9 : Ref sig .tc := ⟨.hbm, 168, rfl⟩
abbrev main_call1_v10 : Ref sig .tc := ⟨.hbm, 169, rfl⟩
abbrev main_call1_v11 : Ref sig .tc := ⟨.hbm, 170, rfl⟩
abbrev main_call1_cst_3 : Ref sig .tc := ⟨.hbm, 171, rfl⟩
abbrev main_call1_v12 : Ref sig .tc := ⟨.hbm, 172, rfl⟩
abbrev main_call1_cst_4 : Ref sig .tc := ⟨.hbm, 173, rfl⟩
abbrev main_call1_call0_v0 : Ref sig .tc := ⟨.hbm, 174, rfl⟩
abbrev main_call1_call0_v1 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_cst_21 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_cst_22 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S128x64 : S_.BroadcastsInDim S128x64 (![] : Fin 0 → Fin S128x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S128x64_S100000x1_S100000x64_1_0_0_1_wf : ScatterDims.WF S128x64 S100000x1 S100000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf

class Facts : Prop extends Facts₀ where

variable [Facts]
-- ==== Proof.KRun.lean ====
/-
  The kernel program's run with its two results named. Every weakly fair execution of the program — seven kernel
  regions among stretches of host operations — terminates without a fault; at the end the two result buffers hold the
  contents the last boundary's fold gives them, and the twelve argument arrays are as launched.
-/
import proofs.«132265_j53532472378064_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's segments, the last thread state read against the final memory; the
    results at the last boundary's contents, each argument walked back to the launch memory. -/
theorem run_main : θ_run defs (onTc (τ := τ) (main (F := F))) ⟨m, fun _ => 0, ρ⟩ (fun r => ∀ c : Dev nD,
      r.2.mem ((c.tc : Thread nD τ).loc main_v83) = W13 m ρ c (Proc.devRef .tc main_v83)
      ∧ r.2.mem ((c.tc : Thread nD τ).loc main_v86) = W13 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v83 (by decide)),
       h c _ (mem_uc main_v86 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.Run

end
-- ==== Proof.KCarry.lean ====
/-
  The kernel program's buffers between its segments: a buffer that a stretch of host operations does not write, and
  that is not an array of a kernel region, holds after the segment what it held before it. Stated for the buffers
  the later segments read.
-/
import proofs.«132265_j53532472378064_1_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg) (c : Dev nD)

/-- No operation of the stretch writes the buffer: one inequality of references per operation. -/
local macro "host_skip" : tactic => `(tactic| exact StableHlo.after_of_forall_not_mem _ _ (List.forall_iff_forall_mem.mp (by
  simp only [hostOps0, hostOps2, hostOps3, hostOps5, hostOps6, hostOps7, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

/-- The launch contents. -/
theorem W0_eq (b : Ref sig .tc) : W0 m ρ c (Proc.devRef .tc b) = m ((c : Thread nD τ).loc b) := rfl

theorem W1_arg0 : W1 m ρ c (Proc.devRef .tc main_arg0) = W0 m ρ c (Proc.devRef .tc main_arg0) :=
  (show W1 m ρ c (Proc.devRef .tc main_arg0) = W0 m ρ c (Proc.devRef .tc main_arg0) by host_skip)

theorem W1_arg3 : W1 m ρ c (Proc.devRef .tc main_arg3) = W0 m ρ c (Proc.devRef .tc main_arg3) :=
  (show W1 m ρ c (Proc.devRef .tc main_arg3) = W0 m ρ c (Proc.devRef .tc main_arg3) by host_skip)

theorem W2_arg4 : W2 m ρ c (Proc.devRef .tc main_arg4) = W0 m ρ c (Proc.devRef .tc main_arg4) :=
  ((W2_of_ne m ρ c main_arg4 (by decide))).trans (show W1 m ρ c (Proc.devRef .tc main_arg4) = W0 m ρ c (Proc.devRef .tc main_arg4) by host_skip)

theorem W3_v1 : W3 m ρ c (Proc.devRef .tc main_v1) = W1 m ρ c (Proc.devRef .tc main_v1) :=
  ((W3_of_ne m ρ c main_v1 (by decide))).trans (W2_of_ne m ρ c main_v1 (by decide))

theorem W3_v3 : W3 m ρ c (Proc.devRef .tc main_v3) = W1 m ρ c (Proc.devRef .tc main_v3) :=
  ((W3_of_ne m ρ c main_v3 (by decide))).trans (W2_of_ne m ρ c main_v3 (by decide))

theorem W3_v30 : W3 m ρ c (Proc.devRef .tc main_v30) = W1 m ρ c (Proc.devRef .tc main_v30) :=
  ((W3_of_ne m ρ c main_v30 (by decide))).trans (W2_of_ne m ρ c main_v30 (by decide))

theorem W3_arg5 : W3 m ρ c (Proc.devRef .tc main_arg5) = W0 m ρ c (Proc.devRef .tc main_arg5) :=
  (((W3_of_ne m ρ c main_arg5 (by decide))).trans (W2_of_ne m ρ c main_arg5 (by decide))).trans (show W1 m ρ c (Proc.devRef .tc main_arg5) = W0 m ρ c (Proc.devRef .tc main_arg5) by host_skip)

theorem W4_v32 : W4 m ρ c (Proc.devRef .tc main_v32) = W1 m ρ c (Proc.devRef .tc main_v32) :=
  (((show W4 m ρ c (Proc.devRef .tc main_v32) = W3 m ρ c (Proc.devRef .tc main_v32) by host_skip)).trans (W3_of_ne m ρ c main_v32 (by decide))).trans (W2_of_ne m ρ c main_v32 (by decide))

theorem W4_v34 : W4 m ρ c (Proc.devRef .tc main_v34) = W3 m ρ c (Proc.devRef .tc main_v34) :=
  (show W4 m ρ c (Proc.devRef .tc main_v34) = W3 m ρ c (Proc.devRef .tc main_v34) by host_skip)

theorem W5_arg6 : W5 m ρ c (Proc.devRef .tc main_arg6) = W0 m ρ c (Proc.devRef .tc main_arg6) :=
  (((((W5_of_ne m ρ c main_arg6 (by decide))).trans (show W4 m ρ c (Proc.devRef .tc main_arg6) = W3 m ρ c (Proc.devRef .tc main_arg6) by host_skip)).trans (W3_of_ne m ρ c main_arg6 (by decide))).trans (W2_of_ne m ρ c main_arg6 (by decide))).trans (show W1 m ρ c (Proc.devRef .tc main_arg6) = W0 m ρ c (Proc.devRef .tc main_arg6) by host_skip)

theorem W5_arg7 : W5 m ρ c (Proc.devRef .tc main_arg7) = W0 m ρ c (Proc.devRef .tc main_arg7) :=
  (((((W5_of_ne m ρ c main_arg7 (by decide))).trans (show W4 m ρ c (Proc.devRef .tc main_arg7) = W3 m ρ c (Proc.devRef .tc main_arg7) by host_skip)).trans (W3_of_ne m ρ c main_arg7 (by decide))).trans (W2_of_ne m ρ c main_arg7 (by decide))).trans (show W1 m ρ c (Proc.devRef .tc main_arg7) = W0 m ρ c (Proc.devRef .tc main_arg7) by host_skip)

theorem W6_v49_0 : W6 m ρ c (Proc.devRef .tc main_v49_0) = W5 m ρ c (Proc.devRef .tc main_v49_0) :=
  (show W6 m ρ c (Proc.devRef .tc main_v49_0) = W5 m ρ c (Proc.devRef .tc main_v49_0) by host_skip)

theorem W7_arg8 : W7 m ρ c (Proc.devRef .tc main_arg8) = W0 m ρ c (Proc.devRef .tc main_arg8) :=
  (((((((W7_of_ne m ρ c main_arg8 (by decide))).trans (show W6 m ρ c (Proc.devRef .tc main_arg8) = W5 m ρ c (Proc.devRef .tc main_arg8) by host_skip)).trans (W5_of_ne m ρ c main_arg8 (by decide))).trans (show W4 m ρ c (Proc.devRef .tc main_arg8) = W3 m ρ c (Proc.devRef .tc main_arg8) by host_skip)).trans (W3_of_ne m ρ c main_arg8 (by decide))).trans (W2_of_ne m ρ c main_arg8 (by decide))).trans (show W1 m ρ c (Proc.devRef .tc main_arg8) = W0 m ρ c (Proc.devRef .tc main_arg8) by host_skip)

theorem W8_v1 : W8 m ρ c (Proc.devRef .tc main_v1) = W1 m ρ c (Proc.devRef .tc main_v1) :=
  (((((((W8_of_ne m ρ c main_v1 (by decide))).trans (W7_of_ne m ρ c main_v1 (by decide))).trans (show W6 m ρ c (Proc.devRef .tc main_v1) = W5 m ρ c (Proc.devRef .tc main_v1) by host_skip)).trans (W5_of_ne m ρ c main_v1 (by decide))).trans (show W4 m ρ c (Proc.devRef .tc main_v1) = W3 m ρ c (Proc.devRef .tc main_v1) by host_skip)).trans (W3_of_ne m ρ c main_v1 (by decide))).trans (W2_of_ne m ρ c main_v1 (by decide))

theorem W8_v3 : W8 m ρ c (Proc.devRef .tc main_v3) = W1 m ρ c (Proc.devRef .tc main_v3) :=
  (((((((W8_of_ne m ρ c main_v3 (by decide))).trans (W7_of_ne m ρ c main_v3 (by decide))).trans (show W6 m ρ c (Proc.devRef .tc main_v3) = W5 m ρ c (Proc.devRef .tc main_v3) by host_skip)).trans (W5_of_ne m ρ c main_v3 (by decide))).trans (show W4 m ρ c (Proc.devRef .tc main_v3) = W3 m ρ c (Proc.devRef .tc main_v3) by host_skip)).trans (W3_of_ne m ρ c main_v3 (by decide))).trans (W2_of_ne m ρ c main_v3 (by decide))

theorem W8_v30 : W8 m ρ c (Proc.devRef .tc main_v30) = W1 m ρ c (Proc.devRef .tc main_v30) :=
  (((((((W8_of_ne m ρ c main_v30 (by decide))).trans (W7_of_ne m ρ c main_v30 (by decide))).trans (show W6 m ρ c (Proc.devRef .tc main_v30) = W5 m ρ c (Proc.devRef .tc main_v30) by host_skip)).trans (W5_of_ne m ρ c main_v30 (by decide))).trans (show W4 m ρ c (Proc.devRef .tc main_v30) = W3 m ρ c (Proc.devRef .tc main_v30) by host_skip)).trans (W3_of_ne m ρ c main_v30 (by decide))).trans (W2_of_ne m ρ c main_v30 (by decide))

theorem W8_arg9 : W8 m ρ c (Proc.devRef .tc main_arg9) = W0 m ρ c (Proc.devRef .tc main_arg9) :=
  ((((((((W8_of_ne m ρ c main_arg9 (by decide))).trans (W7_of_ne m ρ c main_arg9 (by decide))).trans (show W6 m ρ c (Proc.devRef .tc main_arg9) = W5 m ρ c (Proc.devRef .tc main_arg9) by host_skip)).trans (W5_of_ne m ρ c main_arg9 (by decide))).trans (show W4 m ρ c (Proc.devRef .tc main_arg9) = W3 m ρ c (Proc.devRef .tc main_arg9) by host_skip)).trans (W3_of_ne m ρ c main_arg9 (by decide))).trans (W2_of_ne m ρ c main_arg9 (by decide))).trans (show W1 m ρ c (Proc.devRef .tc main_arg9) = W0 m ρ c (Proc.devRef .tc main_arg9) by host_skip)

theorem W9_v32 : W9 m ρ c (Proc.devRef .tc main_v32) = W1 m ρ c (Proc.devRef .tc main_v32) :=
  ((((((((show W9 m ρ c (Proc.devRef .tc main_v32) = W8 m ρ c (Proc.devRef .tc main_v32) by host_skip)).trans (W8_of_ne m ρ c main_v32 (by decide))).trans (W7_of_ne m ρ c main_v32 (by decide))).trans (show W6 m ρ c (Proc.devRef .tc main_v32) = W5 m ρ c (Proc.devRef .tc main_v32) by host_skip)).trans ((W5_arr m ρ c 2).trans (((dat2 (V4 m ρ) c).arrAt_in 2 rfl _).trans (A_eq2 (V4 m ρ) c 2)))).trans (show W4 m ρ c (Proc.devRef .tc main_v32) = W3 m ρ c (Proc.devRef .tc main_v32) by host_skip)).trans (W3_of_ne m ρ c main_v32 (by decide))).trans (W2_of_ne m ρ c main_v32 (by decide))

theorem W9_v59 : W9 m ρ c (Proc.devRef .tc main_v59) = W8 m ρ c (Proc.devRef .tc main_v59) :=
  (show W9 m ρ c (Proc.devRef .tc main_v59) = W8 m ρ c (Proc.devRef .tc main_v59) by host_skip)

theorem W10_arg10 : W10 m ρ c (Proc.devRef .tc main_arg10) = W0 m ρ c (Proc.devRef .tc main_arg10) :=
  ((((((((((W10_of_ne m ρ c main_arg10 (by decide))).trans (show W9 m ρ c (Proc.devRef .tc main_arg10) = W8 m ρ c (Proc.devRef .tc main_arg10) by host_skip)).trans (W8_of_ne m ρ c main_arg10 (by decide))).trans (W7_of_ne m ρ c main_arg10 (by decide))).trans (show W6 m ρ c (Proc.devRef .tc main_arg10) = W5 m ρ c (Proc.devRef .tc main_arg10) by host_skip)).trans (W5_of_ne m ρ c main_arg10 (by decide))).trans (show W4 m ρ c (Proc.devRef .tc main_arg10) = W3 m ρ c (Proc.devRef .tc main_arg10) by host_skip)).trans (W3_of_ne m ρ c main_arg10 (by decide))).trans (W2_of_ne m ρ c main_arg10 (by decide))).trans (show W1 m ρ c (Proc.devRef .tc main_arg10) = W0 m ρ c (Proc.devRef .tc main_arg10) by host_skip)

theorem W10_arg11 : W10 m ρ c (Proc.devRef .tc main_arg11) = W0 m ρ c (Proc.devRef .tc main_arg11) :=
  ((((((((((W10_of_ne m ρ c main_arg11 (by decide))).trans (show W9 m ρ c (Proc.devRef .tc main_arg11) = W8 m ρ c (Proc.devRef .tc main_arg11) by host_skip)).trans (W8_of_ne m ρ c main_arg11 (by decide))).trans (W7_of_ne m ρ c main_arg11 (by decide))).trans (show W6 m ρ c (Proc.devRef .tc main_arg11) = W5 m ρ c (Proc.devRef .tc main_arg11) by host_skip)).trans (W5_of_ne m ρ c main_arg11 (by decide))).trans (show W4 m ρ c (Proc.devRef .tc main_arg11) = W3 m ρ c (Proc.devRef .tc main_arg11) by host_skip)).trans (W3_of_ne m ρ c main_arg11 (by decide))).trans (W2_of_ne m ρ c main_arg11 (by decide))).trans (show W1 m ρ c (Proc.devRef .tc main_arg11) = W0 m ρ c (Proc.devRef .tc main_arg11) by host_skip)

theorem W11_v74_0 : W11 m ρ c (Proc.devRef .tc main_v74_0) = W10 m ρ c (Proc.devRef .tc main_v74_0) :=
  (show W11 m ρ c (Proc.devRef .tc main_v74_0) = W10 m ρ c (Proc.devRef .tc main_v74_0) by host_skip)

theorem W12_arg2 : W12 m ρ c (Proc.devRef .tc main_arg2) = W0 m ρ c (Proc.devRef .tc main_arg2) :=
  ((((((((((((W12_of_ne m ρ c main_arg2 (by decide))).trans (show W11 m ρ c (Proc.devRef .tc main_arg2) = W10 m ρ c (Proc.devRef .tc main_arg2) by host_skip)).trans (W10_of_ne m ρ c main_arg2 (by decide))).trans (show W9 m ρ c (Proc.devRef .tc main_arg2) = W8 m ρ c (Proc.devRef .tc main_arg2) by host_skip)).trans (W8_of_ne m ρ c main_arg2 (by decide))).trans (W7_of_ne m ρ c main_arg2 (by decide))).trans (show W6 m ρ c (Proc.devRef .tc main_arg2) = W5 m ρ c (Proc.devRef .tc main_arg2) by host_skip)).trans (W5_of_ne m ρ c main_arg2 (by decide))).trans (show W4 m ρ c (Proc.devRef .tc main_arg2) = W3 m ρ c (Proc.devRef .tc main_arg2) by host_skip)).trans (W3_of_ne m ρ c main_arg2 (by decide))).trans (W2_of_ne m ρ c main_arg2 (by decide))).trans (show W1 m ρ c (Proc.devRef .tc main_arg2) = W0 m ρ c (Proc.devRef .tc main_arg2) by host_skip)

theorem W13_v83 : W13 m ρ c (Proc.devRef .tc main_v83) = W12 m ρ c (Proc.devRef .tc main_v83) :=
  (show W13 m ρ c (Proc.devRef .tc main_v83) = W12 m ρ c (Proc.devRef .tc main_v83) by host_skip)

end Cert.KernelIdeal.Chain

end
-- ==== Proof.RefDefs.lean ====
/-
  The reference's graph convolution, stage by stage, as functions of whole arrays on the extended reals.

  The graph has 100000 nodes and 1600000 edges; the edge table's row 0 holds each edge's source node and row 1 its
  destination. A node's degree counts the edges that end in it, plus one for its self-loop; d = 1/sqrt(degree).
  An edge from s to t weighs d[s] * d[t], a self-loop d[p] * d[p]. One layer maps node features h (already multiplied
  by the layer's weight matrix) to, at node p and feature q,

      sum over the edges e into p of h[src e, q] * weight e   +   h[p, q] * d[p] * d[p]   +   bias[q],

  then normalises every feature column by its mean and variance over the nodes, scales and shifts it, and (in the
  first layer) clamps it below at zero. Each function below is the composition of the host operations the reference
  applies for that stage, in its order and with its dimension records: nothing is rearranged.
-/
import proofs.«132265_j53532472378064_1_alg».proof.ReferenceIdeal
import Idealize.ShloMosaic.PureOps.Ideal

noncomputable section

namespace Cert.Gcn.Ref

open Idealize.ShloMosaic
open Cert.ReferenceIdeal
open Cert.ReferenceIdeal.Facts₀ Cert.ReferenceIdeal.Facts

variable [Facts]

/-- The edges' source nodes: row 0 of the edge table, as a flat vector. -/
def srcFlat (ei : IVec S2x1600000 32) : IVec S1600000 32 :=
  shapeCast S1600000 (extractStridedSlice S1x1600000 ![0, 0] ei slices_S2x1600000_S1x1600000_0_0) shapeCasts_S1x1600000_S1600000

/-- The edges' destination nodes: row 1 of the edge table, as a flat vector. -/
def dstFlat (ei : IVec S2x1600000 32) : IVec S1600000 32 :=
  shapeCast S1600000 (extractStridedSlice S1x1600000 ![1, 0] ei slices_S2x1600000_S1x1600000_1_0) shapeCasts_S1x1600000_S1600000

/-- A vector of node numbers with every negative entry raised by 100000 (an index counted from the end), set out as a column. -/
def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The source nodes, wrapped, as a column of indices. -/
def srcIx (ei : IVec S2x1600000 32) : IVec S1600000x1 32 := wrapCol (srcFlat ei)

/-- The destination nodes, wrapped, as a column of indices. -/
def dstIx (ei : IVec S2x1600000 32) : IVec S1600000x1 32 := wrapCol (dstFlat ei)

/-- The destination nodes as they stand (not wrapped), as a column of indices. -/
def dstRaw (ei : IVec S2x1600000 32) : IVec S1600000x1 32 :=
  broadcastInDim S1600000x1 ![0] bcast_S1600000_S1600000x1_0 (dstFlat ei)

/-- d = 1/sqrt(1 + the number of edges into the node). -/
def dis (ei : IVec S2x1600000 32) : FVec Ideal S100000 .f32 :=
  Host.rsqrt
    (addf
      (Host.scatterAdd scatter_S100000_S1600000x1_S1600000_n_0_0_1
        (broadcastInDim S100000 ![] bcast_S_S100000 (constant (F := Ideal) S_ .f32 0x00000000#32))
        (dstIx ei)
        (broadcastInDim S1600000 ![] bcast_S_S1600000 (constant (F := Ideal) S_ .f32 0x3F800000#32)))
      (broadcastInDim S100000 ![] bcast_S_S100000 (constant (F := Ideal) S_ .f32 0x3F800000#32)))

/-- An edge's weight: d at its source times d at its destination. -/
def enorm (ei : IVec S2x1600000 32) : FVec Ideal S1600000 .f32 :=
  mulf (Host.gather gather_S100000_S1600000x1_S1600000_n_0_n_n_0_1_1 (dis ei) (srcIx ei))
    (Host.gather gather_S100000_S1600000x1_S1600000_n_0_n_n_0_1_1 (dis ei) (dstIx ei))

/-- A self-loop's weight: d squared. -/
def selfw (ei : IVec S2x1600000 32) : FVec Ideal S100000 .f32 := mulf (dis ei) (dis ei)

/-- The edges' part of a layer: at node p, the sum over the edges into p of the source's row times the edge's weight. -/
def edgeAgg (hw : FVec Ideal S100000x64 .f32) (ei : IVec S2x1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (dstRaw ei)
    (mulf (Host.gather gather_S100000x64_S1600000x1_S1600000x64_1_0_n_n_0_1_164 hw (srcIx ei))
      (broadcastInDim S1600000x64 ![0, 1] bcast_S1600000x1_S1600000x64_0_1
        (broadcastInDim S1600000x1 ![0] bcast_S1600000_S1600000x1_0 (enorm ei))))

/-- A layer before normalisation: the edges' part, plus the node's own row times its self-loop weight, plus the bias. -/
def agg (hw : FVec Ideal S100000x64 .f32) (ei : IVec S2x1600000 32) (b : FVec Ideal S64 .f32) : FVec Ideal S100000x64 .f32 :=
  addf
    (addf (edgeAgg hw ei)
      (mulf hw
        (broadcastInDim S100000x64 ![0, 1] bcast_S100000x1_S100000x64_0_1
          (broadcastInDim S100000x1 ![0] bcast_S100000_S100000x1_0 (selfw ei)))))
    (broadcastInDim S100000x64 ![0, 1] bcast_S1x64_S100000x64_0_1 (broadcastInDim S1x64 ![1] bcast_S64_S1x64_1 b))

/-- A column's mean over the nodes: its sum divided by 100000. -/
def mean (a : FVec Ideal S100000x64 .f32) : FVec Ideal S64 .f32 :=
  Host.divf
    (Host.reduceAdd a (constant (F := Ideal) S_ .f32 0x00000000#32) reducesTo_S100000x64_S64_d0 h_S_)
    (broadcastInDim S64 ![] bcast_S_S64 (constant (F := Ideal) S_ .f32 0x47C35000#32))

/-- A column's deviations from its mean, squared: the mean is taken as a row, divided by 100000 and spread over the nodes. -/
def devSq (a : FVec Ideal S100000x64 .f32) : FVec Ideal S100000x64 .f32 :=
  mulf
    (subf a
      (broadcastInDim S100000x64 ![0, 1] bcast_S1x64_S100000x64_0_1
        (Host.divf
          (broadcastInDim S1x64 ![1] bcast_S64_S1x64_1
            (Host.reduceAdd a (constant (F := Ideal) S_ .f32 0x00000000#32) reducesTo_S100000x64_S64_d0 h_S_))
          (broadcastInDim S1x64 ![] bcast_S_S1x64 (constant (F := Ideal) S_ .f32 0x47C35000#32)))))
    (subf a
      (broadcastInDim S100000x64 ![0, 1] bcast_S1x64_S100000x64_0_1
        (Host.divf
          (broadcastInDim S1x64 ![1] bcast_S64_S1x64_1
            (Host.reduceAdd a (constant (F := Ideal) S_ .f32 0x00000000#32) reducesTo_S100000x64_S64_d0 h_S_))
          (broadcastInDim S1x64 ![] bcast_S_S1x64 (constant (F := Ideal) S_ .f32 0x47C35000#32)))))

/-- The count the variance divides by: 100000 less the correction, the integer zero converted to a float. -/
def varCount : FVec Ideal S_ .f32 :=
  subf (constant (F := Ideal) S_ .f32 0x47C35000#32) (sitofp .f32 (constantI S_ 32 0#32))

/-- A column's variance over the nodes: the sum of its squared deviations divided by the count, kept where the count
    is above zero and replaced by the fill word otherwise. -/
def var (a : FVec Ideal S100000x64 .f32) : FVec Ideal S64 .f32 :=
  select
    (broadcastInDim S64 ![] bcast_S_S64 (cmpf .ogt varCount (constant (F := Ideal) S_ .f32 0x00000000#32)))
    (Host.divf
      (Host.reduceAdd (devSq a) (constant (F := Ideal) S_ .f32 0x00000000#32) reducesTo_S100000x64_S64_d0 h_S_)
      (broadcastInDim S64 ![] bcast_S_S64 varCount))
    (broadcastInDim S64 ![] bcast_S_S64 (id (constant (F := Ideal) S_ .f32 0x7FC00000#32)))

/-- Batch normalisation over the nodes: (a - mean) * rsqrt(var + eps) * g + bt, column by column. -/
def bn (a : FVec Ideal S100000x64 .f32) (g bt : FVec Ideal S64 .f32) : FVec Ideal S100000x64 .f32 :=
  addf
    (mulf
      (mulf
        (subf a
          (broadcastInDim S100000x64 ![0, 1] bcast_S1x64_S100000x64_0_1 (broadcastInDim S1x64 ![1] bcast_S64_S1x64_1 (mean a))))
        (broadcastInDim S100000x64 ![0, 1] bcast_S1x64_S100000x64_0_1
          (broadcastInDim S1x64 ![1] bcast_S64_S1x64_1
            (Host.rsqrt (addf (var a) (broadcastInDim S64 ![] bcast_S_S64 (constant (F := Ideal) S_ .f32 0x3727C5AC#32)))))))
      (broadcastInDim S100000x64 ![0, 1] bcast_S1x64_S100000x64_0_1 (broadcastInDim S1x64 ![1] bcast_S64_S1x64_1 g)))
    (broadcastInDim S100000x64 ![0, 1] bcast_S1x64_S100000x64_0_1 (broadcastInDim S1x64 ![1] bcast_S64_S1x64_1 bt))

/-- Clamping below at zero. -/
def relu (a : FVec Ideal S100000x64 .f32) : FVec Ideal S100000x64 .f32 :=
  maximumf a (broadcastInDim S100000x64 ![] bcast_S_S100000x64 (constant (F := Ideal) S_ .f32 0x00000000#32))

/-- The first result: two layers over the embedded features, the first clamped, the second not. -/
def out0 (x : FVec Ideal S100000x32 .f32) (ei : IVec S2x1600000 32) (We : FVec Ideal S32x64 .f32)
    (W1 : FVec Ideal S64x64 .f32) (b1 g1 bt1 : FVec Ideal S64 .f32)
    (W2 : FVec Ideal S64x64 .f32) (b2 g2 bt2 : FVec Ideal S64 .f32) : FVec Ideal S100000x64 .f32 :=
  bn
    (agg
      (Host.dotGeneral dot_S100000x64_S64x64_S100000x64_1_0_0_1_n_n none
        (relu
          (bn
            (agg
              (Host.dotGeneral dot_S100000x64_S64x64_S100000x64_1_0_0_1_n_n none
                (Host.dotGeneral dot_S100000x32_S32x64_S100000x64_1_0_0_1_n_n none x We) W1)
              ei b1)
            g1 bt1))
        W2)
      ei b2)
    g2 bt2

/-- The second result: the first result's rows summed per graph of the batch (128 graphs). -/
def out1 (x : FVec Ideal S100000x32 .f32) (ei : IVec S2x1600000 32) (batch : IVec S100000 32) (We : FVec Ideal S32x64 .f32)
    (W1 : FVec Ideal S64x64 .f32) (b1 g1 bt1 : FVec Ideal S64 .f32)
    (W2 : FVec Ideal S64x64 .f32) (b2 g2 bt2 : FVec Ideal S64 .f32) : FVec Ideal S128x64 .f32 :=
  Host.scatterAdd scatter_S128x64_S100000x1_S100000x64_1_0_0_1
    (broadcastInDim S128x64 ![] bcast_S_S128x64 (constant (F := Ideal) S_ .f32 0x00000000#32))
    (broadcastInDim S100000x1 ![0] bcast_S100000_S100000x1_0 batch)
    (out0 x ei We W1 b1 g1 bt1 W2 b2 g2 bt2)

end Cert.Gcn.Ref

end
-- ==== Proof.Spec.lean ====
/-
  One graph-convolution layer followed by batch normalisation over the nodes, as functions of whole arrays on the
  extended reals: 100000 nodes, 64 features per node.

  * `lin a w`           the product of a node-by-K matrix with a K-by-64 matrix: entry (p, q) is Σ_k a[p,k] · w[k,q].
  * `comb e h s b`      the edges' sum plus the node's own row scaled by its self-loop weight, plus the bias:
                        entry (p, q) is (e[p,q] + h[p,q] · s[p,0]) + b[0,q].
  * `colSum a`, `colSumSq a`   the sums over all nodes of a column, and of its squares, as a 1-by-64 row.
  * `norm a μ v γ β`    the normalised layer: entry (p, q) is ((a[p,q] − μ[0,q]) · rsqrt(v[0,q] + ε)) · γ[0,q] + β[0,q],
                        ε the single-precision word nearest to 1e-5; `normRelu` clamps it below at zero.
-/
import Idealize.ShloMosaic.PureOps.Ideal
import Idealize.ShloMosaic.Lib.ValueIdx

noncomputable section

open scoped BigOperators

namespace Cert.Gcn

open Idealize.ShloMosaic Idealize.ShloMosaic.ValueIdx

/-- nodes × features -/
abbrev SND : Shape := ⟨2, ![100000, 64]⟩
/-- one column per node -/
abbrev SN1 : Shape := ⟨2, ![100000, 1]⟩
/-- one row of features -/
abbrev S1D : Shape := ⟨2, ![1, 64]⟩

/-- The word of ε (9.99999974E-6) read as an extended real. -/
abbrev eps : EReal := Ideal.ofBits .f32 0x3727C5AC#32
/-- The zero word read as an extended real. -/
abbrev zeroW : EReal := Ideal.ofBits .f32 0x00000000#32

/-- Entry (p, q) of a · w. -/
def linAt {K : ℕ} (a : FVec Ideal ⟨2, ![100000, K]⟩ .f32) (w : FVec Ideal ⟨2, ![K, 64]⟩ .f32) (p : Fin 100000) (q : Fin 64) : EReal :=
  ∑ k : Fin K, a (ix2 p k) * w (ix2 k q)

/-- a · w. -/
def lin {K : ℕ} (a : FVec Ideal ⟨2, ![100000, K]⟩ .f32) (w : FVec Ideal ⟨2, ![K, 64]⟩ .f32) : FVec Ideal SND .f32 :=
  fun j => linAt a w (j 0) (j 1)

theorem lin_apply {K : ℕ} (a : FVec Ideal ⟨2, ![100000, K]⟩ .f32) (w : FVec Ideal ⟨2, ![K, 64]⟩ .f32) (p : Fin 100000) (q : Fin 64) :
    lin a w (ix2 p q) = ∑ k : Fin K, a (ix2 p k) * w (ix2 k q) := rfl

/-- Entry (p, q) of the combined layer input. -/
def combAt (e h : FVec Ideal SND .f32) (s : FVec Ideal SN1 .f32) (b : FVec Ideal S1D .f32) (p : Fin 100000) (q : Fin 64) : EReal :=
  (e (ix2 p q) + h (ix2 p q) * s (ix2 p 0)) + b (ix2 0 q)

def comb (e h : FVec Ideal SND .f32) (s : FVec Ideal SN1 .f32) (b : FVec Ideal S1D .f32) : FVec Ideal SND .f32 :=
  fun j => combAt e h s b (j 0) (j 1)

theorem comb_apply (e h : FVec Ideal SND .f32) (s : FVec Ideal SN1 .f32) (b : FVec Ideal S1D .f32) (p : Fin 100000) (q : Fin 64) :
    comb e h s b (ix2 p q) = (e (ix2 p q) + h (ix2 p q) * s (ix2 p 0)) + b (ix2 0 q) := rfl

/-- The sum of column q over all nodes. -/
def colSum (a : FVec Ideal SND .f32) : FVec Ideal S1D .f32 := fun j => ∑ r : Fin 100000, a (ix2 r (j 1))

theorem colSum_apply (a : FVec Ideal SND .f32) (z : Fin 1) (q : Fin 64) : colSum a (ix2 z q) = ∑ r : Fin 100000, a (ix2 r q) := rfl

/-- The sum of the squares of column q over all nodes. -/
def colSumSq (a : FVec Ideal SND .f32) : FVec Ideal S1D .f32 := fun j => ∑ r : Fin 100000, a (ix2 r (j 1)) * a (ix2 r (j 1))

theorem colSumSq_apply (a : FVec Ideal SND .f32) (z : Fin 1) (q : Fin 64) :
    colSumSq a (ix2 z q) = ∑ r : Fin 100000, a (ix2 r q) * a (ix2 r q) := rfl

/-- Entry (p, q) of the normalised layer. -/
def normAt (a : FVec Ideal SND .f32) (mu var g bt : FVec Ideal S1D .f32) (p : Fin 100000) (q : Fin 64) : EReal :=
  ((a (ix2 p q) - mu (ix2 0 q)) * Ideal.rsqrt (var (ix2 0 q) + eps)) * g (ix2 0 q) + bt (ix2 0 q)

def norm (a : FVec Ideal SND .f32) (mu var g bt : FVec Ideal S1D .f32) : FVec Ideal SND .f32 :=
  fun j => normAt a mu var g bt (j 0) (j 1)

theorem norm_apply (a : FVec Ideal SND .f32) (mu var g bt : FVec Ideal S1D .f32) (p : Fin 100000) (q : Fin 64) :
    norm a mu var g bt (ix2 p q)
      = ((a (ix2 p q) - mu (ix2 0 q)) * Ideal.rsqrt (var (ix2 0 q) + eps)) * g (ix2 0 q) + bt (ix2 0 q) := rfl

def normRelu (a : FVec Ideal SND .f32) (mu var g bt : FVec Ideal S1D .f32) : FVec Ideal SND .f32 :=
  fun j => max (normAt a mu var g bt (j 0) (j 1)) zeroW

theorem normRelu_apply (a : FVec Ideal SND .f32) (mu var g bt : FVec Ideal S1D .f32) (p : Fin 100000) (q : Fin 64) :
    normRelu a mu var g bt (ix2 p q)
      = max (((a (ix2 p q) - mu (ix2 0 q)) * Ideal.rsqrt (var (ix2 0 q) + eps)) * g (ix2 0 q) + bt (ix2 0 q)) zeroW := rfl

end Cert.Gcn

end
-- ==== Proof.KDefs.lean ====
/-
  The kernel program's results as functions of its argument arrays: the graph part of a layer (degrees, edge
  weights, the sum over incoming edges) is the reference's own sequence of operations (Cert.Gcn.Ref); the dense parts
  are the Spec's forms; between them stand the kernel's small host steps (a vector set out as a row or a column, the
  column sums turned into mean and variance).
-/
import proofs.«132265_j53532472378064_1_alg».proof.KernelIdeal
import proofs.«132265_j53532472378064_1_alg».proof.Proof.Gen.KernelIdeal
import proofs.«132265_j53532472378064_1_alg».proof.Proof.Gen.ReferenceIdeal
import proofs.«132265_j53532472378064_1_alg».proof.Proof.RefDefs
import proofs.«132265_j53532472378064_1_alg».proof.Proof.Spec
import Idealize.ShloMosaic.PureOps.Ideal

set_option maxRecDepth 16384

noncomputable section

namespace Cert.KernelIdeal.Chain

open Cert.KernelIdeal Cert.KernelIdeal.Facts₀ Cert.KernelIdeal.Facts
open Idealize.ShloMosaic Idealize.ShloMosaic.TcCoe Idealize.ShloMosaic.Tactic
open Idealize.SL.Sem
open Cert.Gcn

/-! ## The kernel's small host steps, as functions -/

/-- The self-loop weights d·d as a column [100000, 1]. -/
def selfCol (ei : IVec S2x1600000 32) : FVec Ideal S100000x1 .f32 :=
  shapeCast S100000x1 (Ref.selfw ei) shapeCasts_S100000_S100000x1

/-- A feature vector as a row [1, 64]. -/
def rowOf (b : FVec Ideal S64 .f32) : FVec Ideal S1x64 .f32 := shapeCast S1x64 b shapeCasts_S64_S1x64

/-- A row of column sums divided by the number of nodes. -/
def muOf (s : FVec Ideal S1x64 .f32) : FVec Ideal S1x64 .f32 :=
  Host.divf s (broadcastInDim S1x64 ![] bcast_S_S1x64 (constant (F := Ideal) S_ .f32 0x47C35000#32))

/-- The variance from the running sums: the mean of the squares minus the square of the mean. -/
def varOf (s ss : FVec Ideal S1x64 .f32) : FVec Ideal S1x64 .f32 := subf (muOf ss) (mulf (muOf s) (muOf s))

/-- A layer before normalisation. -/
def layerPre (hw : FVec Ideal S100000x64 .f32) (ei : IVec S2x1600000 32) (b : FVec Ideal S64 .f32) : FVec Ideal S100000x64 .f32 :=
  comb (Ref.edgeAgg hw ei) hw (selfCol ei) (rowOf b)

/-- A layer, clamped at zero. -/
def layerRelu (hw : FVec Ideal S100000x64 .f32) (ei : IVec S2x1600000 32) (b g bt : FVec Ideal S64 .f32) : FVec Ideal S100000x64 .f32 :=
  normRelu (layerPre hw ei b) (muOf (colSum (layerPre hw ei b)))
    (varOf (colSum (layerPre hw ei b)) (colSumSq (layerPre hw ei b))) (rowOf g) (rowOf bt)

/-- A layer, not clamped. -/
def layerLin (hw : FVec Ideal S100000x64 .f32) (ei : IVec S2x1600000 32) (b g bt : FVec Ideal S64 .f32) : FVec Ideal S100000x64 .f32 :=
  norm (layerPre hw ei b) (muOf (colSum (layerPre hw ei b)))
    (varOf (colSum (layerPre hw ei b)) (colSumSq (layerPre hw ei b))) (rowOf g) (rowOf bt)

/-- The first result. -/
def out0K (x : FVec Ideal S100000x32 .f32) (ei : IVec S2x1600000 32) (We : FVec Ideal S32x64 .f32)
    (W1 : FVec Ideal S64x64 .f32) (b1 g1 bt1 : FVec Ideal S64 .f32)
    (W2 : FVec Ideal S64x64 .f32) (b2 g2 bt2 : FVec Ideal S64 .f32) : FVec Ideal S100000x64 .f32 :=
  layerLin (lin (layerRelu (lin (lin x We) W1) ei b1 g1 bt1) W2) ei b2 g2 bt2

/-- The second result: the first one's rows summed per graph. -/
def out1K (x : FVec Ideal S100000x32 .f32) (ei : IVec S2x1600000 32) (batch : IVec S100000 32) (We : FVec Ideal S32x64 .f32)
    (W1 : FVec Ideal S64x64 .f32) (b1 g1 bt1 : FVec Ideal S64 .f32)
    (W2 : FVec Ideal S64x64 .f32) (b2 g2 bt2 : FVec Ideal S64 .f32) : FVec Ideal S128x64 .f32 :=
  Host.scatterAdd scatter_S128x64_S100000x1_S100000x64_1_0_0_1
    (broadcastInDim S128x64 ![] bcast_S_S128x64 (constant (F := Ideal) S_ .f32 0x00000000#32))
    (broadcastInDim S100000x1 ![0] bcast_S100000_S100000x1_0 batch)
    (out0K x ei We W1 b1 g1 bt1 W2 b2 g2 bt2)

end Cert.KernelIdeal.Chain

end
-- ==== Proof.KChain.lean ====
/-
  The kernel program's two results walked back to its argument arrays. Between the segments: a region's output
  array is the region's function of its input arrays (taken here as hypotheses, one per region), a host stretch's
  result is the stretch's operations applied to the buffers before it.
-/
import proofs.«132265_j53532472378064_1_alg».proof.Proof.Gen.KernelIdeal.Frame
import proofs.«132265_j53532472378064_1_alg».proof.Proof.KCarry
import proofs.«132265_j53532472378064_1_alg».proof.Proof.KDefs
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem
open Idealize.ShloMosaic.StableHlo
open Cert.Gcn

variable (m : (ℓ : Loc nD τ sig) → Buf (Elt Ideal) ℓ) (ρ : Dev nD → PrngReg) (c : Dev nD)

/-! ## What each region computes, as hypotheses -/

/-- The seven regions' output arrays as functions of their input arrays, at any entry contents. -/
structure Regions : Prop where
  lin0 : ∀ (V : (c : Dev nD) → (b : Ref sig .tc) → Buf (Elt Ideal) ((c : Thread nD τ).loc b)) (c : Dev nD),
    (dat0 (F := Ideal) V c).arrAt 2 cfg0.N = lin (V c main_arg0) (V c main_arg3)
  lin1 : ∀ (V : (c : Dev nD) → (b : Ref sig .tc) → Buf (Elt Ideal) ((c : Thread nD τ).loc b)) (c : Dev nD),
    (dat1 (F := Ideal) V c).arrAt 2 cfg1.N = lin (V c main_v33) (V c main_arg4)
  comb2 : ∀ (V : (c : Dev nD) → (b : Ref sig .tc) → Buf (Elt Ideal) ((c : Thread nD τ).loc b)) (c : Dev nD),
    (dat2 (F := Ideal) V c).arrAt 4 cfg2.N = comb (V c main_v47) (V c main_v34) (V c main_v32) (V c main_v48)
  sum2 : ∀ (V : (c : Dev nD) → (b : Ref sig .tc) → Buf (Elt Ideal) ((c : Thread nD τ).loc b)) (c : Dev nD),
    (dat2 (F := Ideal) V c).arrAt 5 cfg2.N = colSum (comb (V c main_v47) (V c main_v34) (V c main_v32) (V c main_v48))
  sumsq2 : ∀ (V : (c : Dev nD) → (b : Ref sig .tc) → Buf (Elt Ideal) ((c : Thread nD τ).loc b)) (c : Dev nD),
    (dat2 (F := Ideal) V c).arrAt 6 cfg2.N = colSumSq (comb (V c main_v47) (V c main_v34) (V c main_v32) (V c main_v48))
  norm3 : ∀ (V : (c : Dev nD) → (b : Ref sig .tc) → Buf (Elt Ideal) ((c : Thread nD τ).loc b)) (c : Dev nD),
    (dat3 (F := Ideal) V c).arrAt 5 cfg3.N = normRelu (V c main_v49_0) (V c main_v51) (V c main_v55) (V c main_v56) (V c main_v57)
  lin4 : ∀ (V : (c : Dev nD) → (b : Ref sig .tc) → Buf (Elt Ideal) ((c : Thread nD τ).loc b)) (c : Dev nD),
    (dat4 (F := Ideal) V c).arrAt 2 cfg4.N = lin (V c main_v58) (V c main_arg8)
  comb5 : ∀ (V : (c : Dev nD) → (b : Ref sig .tc) → Buf (Elt Ideal) ((c : Thread nD τ).loc b)) (c : Dev nD),
    (dat5 (F := Ideal) V c).arrAt 4 cfg5.N = comb (V c main_v72) (V c main_v59) (V c main_v32) (V c main_v73)
  sum5 : ∀ (V : (c : Dev nD) → (b : Ref sig .tc) → Buf (Elt Ideal) ((c : Thread nD τ).loc b)) (c : Dev nD),
    (dat5 (F := Ideal) V c).arrAt 5 cfg5.N = colSum (comb (V c main_v72) (V c main_v59) (V c main_v32) (V c main_v73))
  sumsq5 : ∀ (V : (c : Dev nD) → (b : Ref sig .tc) → Buf (Elt Ideal) ((c : Thread nD τ).loc b)) (c : Dev nD),
    (dat5 (F := Ideal) V c).arrAt 6 cfg5.N = colSumSq (comb (V c main_v72) (V c main_v59) (V c main_v32) (V c main_v73))
  norm6 : ∀ (V : (c : Dev nD) → (b : Ref sig .tc) → Buf (Elt Ideal) ((c : Thread nD τ).loc b)) (c : Dev nD),
    (dat6 (F := Ideal) V c).arrAt 5 cfg6.N = norm (V c main_v74_0) (V c main_v76) (V c main_v80) (V c main_v81) (V c main_v82)

/-! ## The buffers at each boundary -/

section Walk

variable (RG : Regions)
include RG

/-- After the first host stretch: the edges' sources and destinations, the edge weights, the self-loop column. -/
theorem v1_1 : W1 m ρ c (Proc.devRef .tc main_v1) = Ref.srcFlat (m ((c : Thread nD τ).loc main_arg1)) := by
  show StableHlo.after hostOps0 (W0 m ρ c) (Proc.devRef .tc main_v1) = _
  after_results_simp
  rfl
theorem v3_1 : W1 m ρ c (Proc.devRef .tc main_v3) = Ref.dstFlat (m ((c : Thread nD τ).loc main_arg1)) := by
  show StableHlo.after hostOps0 (W0 m ρ c) (Proc.devRef .tc main_v3) = _
  after_results_simp
  rfl
theorem v30_1 : W1 m ρ c (Proc.devRef .tc main_v30) = Ref.enorm (m ((c : Thread nD τ).loc main_arg1)) := by
  show StableHlo.after hostOps0 (W0 m ρ c) (Proc.devRef .tc main_v30) = _
  after_results_simp
  rfl
theorem v32_1 : W1 m ρ c (Proc.devRef .tc main_v32) = selfCol (m ((c : Thread nD τ).loc main_arg1)) := by
  show StableHlo.after hostOps0 (W0 m ρ c) (Proc.devRef .tc main_v32) = _
  after_results_simp
  rfl

/-- Region 0: the embedding. -/
theorem v33_2 : W2 m ρ c (Proc.devRef .tc main_v33) = lin (m ((c : Thread nD τ).loc main_arg0)) (m ((c : Thread nD τ).loc main_arg3)) := by
  refine (W2_arr m ρ c 2).trans ((RG.lin0 (V1 m ρ) c).trans ?_)
  rw [show V1 m ρ c main_arg0 = (m ((c : Thread nD τ).loc main_arg0)) from W1_arg0 m ρ c, show V1 m ρ c main_arg3 = (m ((c : Thread nD τ).loc main_arg3)) from W1_arg3 m ρ c]

/-- Region 1: layer 1's features times its weights. -/
theorem v34_3 : W3 m ρ c (Proc.devRef .tc main_v34) = lin (lin (m ((c : Thread nD τ).loc main_arg0)) (m ((c : Thread nD τ).loc main_arg3))) (m ((c : Thread nD τ).loc main_arg4)) := by
  refine (W3_arr m ρ c 2).trans ((RG.lin1 (V2 m ρ) c).trans ?_)
  rw [show V2 m ρ c main_v33 = lin (m ((c : Thread nD τ).loc main_arg0)) (m ((c : Thread nD τ).loc main_arg3)) from v33_2 m ρ c RG, show V2 m ρ c main_arg4 = (m ((c : Thread nD τ).loc main_arg4)) from W2_arg4 m ρ c]

/-- The second host stretch: the edges' sum of layer 1, and the bias as a row. -/
theorem v47_4 : W4 m ρ c (Proc.devRef .tc main_v47) = Ref.edgeAgg (lin (lin (m ((c : Thread nD τ).loc main_arg0)) (m ((c : Thread nD τ).loc main_arg3))) (m ((c : Thread nD τ).loc main_arg4))) (m ((c : Thread nD τ).loc main_arg1)) := by
  show StableHlo.after hostOps2 (W3 m ρ c) (Proc.devRef .tc main_v47) = _
  after_results_simp
  rw [W3_v1 m ρ c, W3_v3 m ρ c, W3_v30 m ρ c, v1_1 m ρ c RG, v3_1 m ρ c RG, v30_1 m ρ c RG, v34_3 m ρ c RG]
  rfl
theorem v48_4 : W4 m ρ c (Proc.devRef .tc main_v48) = rowOf (m ((c : Thread nD τ).loc main_arg5)) := by
  show StableHlo.after hostOps2 (W3 m ρ c) (Proc.devRef .tc main_v48) = _
  after_results_simp
  rw [W3_arg5 m ρ c]
  rfl

end Walk

section Walk2

variable (RG : Regions)
include RG

/-- Region 2's four input arrays as it finds them. -/
theorem in2 : comb (V4 m ρ c main_v47) (V4 m ρ c main_v34) (V4 m ρ c main_v32) (V4 m ρ c main_v48) = (layerPre (lin (lin (m ((c : Thread nD τ).loc main_arg0)) (m ((c : Thread nD τ).loc main_arg3))) (m ((c : Thread nD τ).loc main_arg4))) (m ((c : Thread nD τ).loc main_arg1)) (m ((c : Thread nD τ).loc main_arg5))) := by
  rw [show V4 m ρ c main_v47 = Ref.edgeAgg (lin (lin (m ((c : Thread nD τ).loc main_arg0)) (m ((c : Thread nD τ).loc main_arg3))) (m ((c : Thread nD τ).loc main_arg4))) (m ((c : Thread nD τ).loc main_arg1)) from v47_4 m ρ c RG,
    show V4 m ρ c main_v34 = (lin (lin (m ((c : Thread nD τ).loc main_arg0)) (m ((c : Thread nD τ).loc main_arg3))) (m ((c : Thread nD τ).loc main_arg4))) from (W4_v34 m ρ c).trans (v34_3 m ρ c RG),
    show V4 m ρ c main_v32 = selfCol (m ((c : Thread nD τ).loc main_arg1)) from (W4_v32 m ρ c).trans (v32_1 m ρ c RG),
    show V4 m ρ c main_v48 = rowOf (m ((c : Thread nD τ).loc main_arg5)) from v48_4 m ρ c RG]
  rfl

/-- Region 2: layer 1 before normalisation, its column sums and the column sums of its squares. -/
theorem v49_0_5 : W5 m ρ c (Proc.devRef .tc main_v49_0) = (layerPre (lin (lin (m ((c : Thread nD τ).loc main_arg0)) (m ((c : Thread nD τ).loc main_arg3))) (m ((c : Thread nD τ).loc main_arg4))) (m ((c : Thread nD τ).loc main_arg1)) (m ((c : Thread nD τ).loc main_arg5))) :=
  (W5_arr m ρ c 4).trans ((RG.comb2 (V4 m ρ) c).trans (in2 m ρ c RG))
theorem v49_1_5 : W5 m ρ c (Proc.devRef .tc main_v49_1) = colSum (layerPre (lin (lin (m ((c : Thread nD τ).loc main_arg0)) (m ((c : Thread nD τ).loc main_arg3))) (m ((c : Thread nD τ).loc main_arg4))) (m ((c : Thread nD τ).loc main_arg1)) (m ((c : Thread nD τ).loc main_arg5))) :=
  (W5_arr m ρ c 5).trans ((RG.sum2 (V4 m ρ) c).trans (congrArg colSum (in2 m ρ c RG)))
theorem v49_2_5 : W5 m ρ c (Proc.devRef .tc main_v49_2) = colSumSq (layerPre (lin (lin (m ((c : Thread nD τ).loc main_arg0)) (m ((c : Thread nD τ).loc main_arg3))) (m ((c : Thread nD τ).loc main_arg4))) (m ((c : Thread nD τ).loc main_arg1)) (m ((c : Thread nD τ).loc main_arg5))) :=
  (W5_arr m ρ c 6).trans ((RG.sumsq2 (V4 m ρ) c).trans (congrArg colSumSq (in2 m ρ c RG)))

/-- The third host stretch: mean, variance, scale and shift rows of layer 1. -/
theorem v51_6 : W6 m ρ c (Proc.devRef .tc main_v51) = muOf (colSum (layerPre (lin (lin (m ((c : Thread nD τ).loc main_arg0)) (m ((c : Thread nD τ).loc main_arg3))) (m ((c : Thread nD τ).loc main_arg4))) (m ((c : Thread nD τ).loc main_arg1)) (m ((c : Thread nD τ).loc main_arg5)))) := by
  show StableHlo.after hostOps3 (W5 m ρ c) (Proc.devRef .tc main_v51) = _
  after_results_simp
  rw [v49_1_5 m ρ c RG]
  rfl
theorem v55_6 : W6 m ρ c (Proc.devRef .tc main_v55) = varOf (colSum (layerPre (lin (lin (m ((c : Thread nD τ).loc main_arg0)) (m ((c : Thread nD τ).loc main_arg3))) (m ((c : Thread nD τ).loc main_arg4))) (m ((c : Thread nD τ).loc main_arg1)) (m ((c : Thread nD τ).loc main_arg5)))) (colSumSq (layerPre (lin (lin (m ((c : Thread nD τ).loc main_arg0)) (m ((c : Thread nD τ).loc main_arg3))) (m ((c : Thread nD τ).loc main_arg4))) (m ((c : Thread nD τ).loc main_arg1)) (m ((c : Thread nD τ).loc main_arg5)))) := by
  show StableHlo.after hostOps3 (W5 m ρ c) (Proc.devRef .tc main_v55) = _
  after_results_simp
  rw [v49_1_5 m ρ c RG, v49_2_5 m ρ c RG]
  rfl
theorem v56_6 : W6 m ρ c (Proc.devRef .tc main_v56) = rowOf (m ((c : Thread nD τ).loc main_arg6)) := by
  show StableHlo.after hostOps3 (W5 m ρ c) (Proc.devRef .tc main_v56) = _
  after_results_simp
  rw [W5_arg6 m ρ c]
  rfl
theorem v57_6 : W6 m ρ c (Proc.devRef .tc main_v57) = rowOf (m ((c : Thread nD τ).loc main_arg7)) := by
  show StableHlo.after hostOps3 (W5 m ρ c) (Proc.devRef .tc main_v57) = _
  after_results_simp
  rw [W5_arg7 m ρ c]
  rfl

/-- Region 3: layer 1, normalised and clamped. -/
theorem v58_7 : W7 m ρ c (Proc.devRef .tc main_v58) = (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) := by
  refine (W7_arr m ρ c 5).trans ((RG.norm3 (V6 m ρ) c).trans ?_)
  rw [show V6 m ρ c main_v49_0 = (layerPre (lin (lin (m ((c : Thread nD τ).loc main_arg0)) (m ((c : Thread nD τ).loc main_arg3))) (m ((c : Thread nD τ).loc main_arg4))) (m ((c : Thread nD τ).loc main_arg1)) (m ((c : Thread nD τ).loc main_arg5))) from (W6_v49_0 m ρ c).trans (v49_0_5 m ρ c RG),
    show V6 m ρ c main_v51 = muOf (colSum (layerPre (lin (lin (m ((c : Thread nD τ).loc main_arg0)) (m ((c : Thread nD τ).loc main_arg3))) (m ((c : Thread nD τ).loc main_arg4))) (m ((c : Thread nD τ).loc main_arg1)) (m ((c : Thread nD τ).loc main_arg5)))) from v51_6 m ρ c RG,
    show V6 m ρ c main_v55 = varOf (colSum (layerPre (lin (lin (m ((c : Thread nD τ).loc main_arg0)) (m ((c : Thread nD τ).loc main_arg3))) (m ((c : Thread nD τ).loc main_arg4))) (m ((c : Thread nD τ).loc main_arg1)) (m ((c : Thread nD τ).loc main_arg5)))) (colSumSq (layerPre (lin (lin (m ((c : Thread nD τ).loc main_arg0)) (m ((c : Thread nD τ).loc main_arg3))) (m ((c : Thread nD τ).loc main_arg4))) (m ((c : Thread nD τ).loc main_arg1)) (m ((c : Thread nD τ).loc main_arg5)))) from v55_6 m ρ c RG,
    show V6 m ρ c main_v56 = rowOf (m ((c : Thread nD τ).loc main_arg6)) from v56_6 m ρ c RG,
    show V6 m ρ c main_v57 = rowOf (m ((c : Thread nD τ).loc main_arg7)) from v57_6 m ρ c RG]
  rfl

/-- Region 4: layer 2's features times its weights. -/
theorem v59_8 : W8 m ρ c (Proc.devRef .tc main_v59) = (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) := by
  refine (W8_arr m ρ c 2).trans ((RG.lin4 (V7 m ρ) c).trans ?_)
  rw [show V7 m ρ c main_v58 = (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) from v58_7 m ρ c RG, show V7 m ρ c main_arg8 = (m ((c : Thread nD τ).loc main_arg8)) from W7_arg8 m ρ c]

/-- The fifth host stretch: the edges' sum of layer 2, and its bias as a row. -/
theorem v72_9 : W9 m ρ c (Proc.devRef .tc main_v72) = Ref.edgeAgg (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) := by
  show StableHlo.after hostOps5 (W8 m ρ c) (Proc.devRef .tc main_v72) = _
  after_results_simp
  rw [W8_v1 m ρ c, W8_v3 m ρ c, W8_v30 m ρ c, v1_1 m ρ c RG, v3_1 m ρ c RG, v30_1 m ρ c RG, v59_8 m ρ c RG]
  rfl
theorem v73_9 : W9 m ρ c (Proc.devRef .tc main_v73) = rowOf (m ((c : Thread nD τ).loc main_arg9)) := by
  show StableHlo.after hostOps5 (W8 m ρ c) (Proc.devRef .tc main_v73) = _
  after_results_simp
  rw [W8_arg9 m ρ c]
  rfl

theorem in5 : comb (V9 m ρ c main_v72) (V9 m ρ c main_v59) (V9 m ρ c main_v32) (V9 m ρ c main_v73) = (layerPre (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9))) := by
  rw [show V9 m ρ c main_v72 = Ref.edgeAgg (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) from v72_9 m ρ c RG,
    show V9 m ρ c main_v59 = (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) from (W9_v59 m ρ c).trans (v59_8 m ρ c RG),
    show V9 m ρ c main_v32 = selfCol (m ((c : Thread nD τ).loc main_arg1)) from (W9_v32 m ρ c).trans (v32_1 m ρ c RG),
    show V9 m ρ c main_v73 = rowOf (m ((c : Thread nD τ).loc main_arg9)) from v73_9 m ρ c RG]
  rfl

/-- Region 5. -/
theorem v74_0_10 : W10 m ρ c (Proc.devRef .tc main_v74_0) = (layerPre (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9))) :=
  (W10_arr m ρ c 4).trans ((RG.comb5 (V9 m ρ) c).trans (in5 m ρ c RG))
theorem v74_1_10 : W10 m ρ c (Proc.devRef .tc main_v74_1) = colSum (layerPre (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9))) :=
  (W10_arr m ρ c 5).trans ((RG.sum5 (V9 m ρ) c).trans (congrArg colSum (in5 m ρ c RG)))
theorem v74_2_10 : W10 m ρ c (Proc.devRef .tc main_v74_2) = colSumSq (layerPre (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9))) :=
  (W10_arr m ρ c 6).trans ((RG.sumsq5 (V9 m ρ) c).trans (congrArg colSumSq (in5 m ρ c RG)))

/-- The sixth host stretch. -/
theorem v76_11 : W11 m ρ c (Proc.devRef .tc main_v76) = muOf (colSum (layerPre (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9)))) := by
  show StableHlo.after hostOps6 (W10 m ρ c) (Proc.devRef .tc main_v76) = _
  after_results_simp
  rw [v74_1_10 m ρ c RG]
  rfl
theorem v80_11 : W11 m ρ c (Proc.devRef .tc main_v80) = varOf (colSum (layerPre (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9)))) (colSumSq (layerPre (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9)))) := by
  show StableHlo.after hostOps6 (W10 m ρ c) (Proc.devRef .tc main_v80) = _
  after_results_simp
  rw [v74_1_10 m ρ c RG, v74_2_10 m ρ c RG]
  rfl
theorem v81_11 : W11 m ρ c (Proc.devRef .tc main_v81) = rowOf (m ((c : Thread nD τ).loc main_arg10)) := by
  show StableHlo.after hostOps6 (W10 m ρ c) (Proc.devRef .tc main_v81) = _
  after_results_simp
  rw [W10_arg10 m ρ c]
  rfl
theorem v82_11 : W11 m ρ c (Proc.devRef .tc main_v82) = rowOf (m ((c : Thread nD τ).loc main_arg11)) := by
  show StableHlo.after hostOps6 (W10 m ρ c) (Proc.devRef .tc main_v82) = _
  after_results_simp
  rw [W10_arg11 m ρ c]
  rfl

/-- Region 6: layer 2, normalised. -/
theorem v83_12 : W12 m ρ c (Proc.devRef .tc main_v83) = out0K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 5).trans ((RG.norm6 (V11 m ρ) c).trans ?_)
  rw [show V11 m ρ c main_v74_0 = (layerPre (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9))) from (W11_v74_0 m ρ c).trans (v74_0_10 m ρ c RG),
    show V11 m ρ c main_v76 = muOf (colSum (layerPre (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9)))) from v76_11 m ρ c RG,
    show V11 m ρ c main_v80 = varOf (colSum (layerPre (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9)))) (colSumSq (layerPre (lin (layerRelu (lin (lin (m ((c : Thread nD τ).loc main_arg0)) (m ((c : Thread nD τ).loc main_arg3))) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8))) (m ((c : Thread nD τ).loc main_arg1)) (m ((c : Thread nD τ).loc main_arg9)))) from v80_11 m ρ c RG,
    show V11 m ρ c main_v81 = rowOf (m ((c : Thread nD τ).loc main_arg10)) from v81_11 m ρ c RG,
    show V11 m ρ c main_v82 = rowOf (m ((c : Thread nD τ).loc main_arg11)) from v82_11 m ρ c RG]
  rfl

/-- The first result at the end of the program. -/
theorem res0 : W13 m ρ c (Proc.devRef .tc main_v83) = out0K (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W13_v83 m ρ c).trans (v83_12 m ρ c RG)

/-- The second result at the end of the program. -/
theorem res1 : W13 m ρ c (Proc.devRef .tc main_v86) = out1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps7 (W12 m ρ c) (Proc.devRef .tc main_v86) = _
  after_results_simp
  rw [W12_arg2 m ρ c, v83_12 m ρ c RG]
  rfl

end Walk2

end Cert.KernelIdeal.Chain

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.RegLin0.lean ====
/-
  Region 0: the node features times the embedding matrix, as a whole array. The result array (100000 × 64) after the
  region is `lin X W`: entry (p, q) is Σ_k X[p, k] · W[k, q], X the 100000 × 32 array and W the 32 × 64 array the region finds.

  The grid has 25 points. Point t takes rows 4000 t … 4000 t + 3999 of the left operand (all 32 columns) and the whole
  32-by-64 right operand, and writes rows 4000 t … 4000 t + 3999 of the result. The body multiplies the two blocks on the
  matrix unit into a zero accumulator; on the extended reals the change of format before the product is the identity, so
  entry (p, q) of the written block is Σ_k L[4000 t + p, k] · R[k, q]: the block is the restriction of the whole product
  to its rows. Row r lies in the block of point r / 4000, so the 25 blocks cover the array and the array after the region
  is the product.
-/
import proofs.«132265_j53532472378064_1_alg».proof.Proof.Gen.KernelIdeal.Frame
import proofs.«132265_j53532472378064_1_alg».proof.Proof.Spec
import proofs.«132265_j53532472378064_1_alg».proof.Proof.LibMatmul
import Idealize.ShloMosaic.Lib.Pipeline.Value
import Idealize.ShloMosaic.Lib.ValueIdx
import Idealize.ShloMosaic.PureOps.Ideal.Laws

noncomputable section

open scoped BigOperators

namespace Cert.Gcn.Reg

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem lin0_hz : (![0, 0] : Fin 2 → Nat) = fun _ => 0 := funext fun a => by fin_cases a <;> rfl

/-- The dimension numbers of the body's product are those of a plain 4000×32 by 32×64 product. -/
theorem lin0_dims : dot_S4000x32_S32x64_S4000x64_1_0_0_1_n_n = DotDims.plain 4000 32 64 := rfl

/-- Entry (p, q) of the body's product of two blocks: Σ_k x0[p, k] · x1[k, q]. -/
theorem lin0_pay (x0 : FVec Ideal S4000x32 .f32) (x1 : FVec Ideal S32x64 .f32) (p : Fin 4000) (q : Fin 64) :
    Gen.k0_pay1 (F := Ideal) x0 x1 (ix2 p q) = ∑ k : Fin 32, x0 (ix2 p k) * x1 (ix2 k q) := by
  unfold Gen.k0_pay1
  exact Cert.Bridge.LibMatmul.matmul_zero_apply (M := 4000) (K := 32) (N := 64) none x0 x1 p q

/-- The windows' block indices over the grid: the two row-blocked windows are at block (t, 0), the right operand at (0, 0). -/
theorem lin0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block at point t is row 4000 t + p of the array. -/
theorem lin0_lhs (c : Dev nD) (t : Fin cfg0.N) (p : Fin 4000) (k : Fin 32) (r : Fin 100000) (hr : r.val = t.val * 4000 + p.val) :
    (iblk0 V c 0 t : Vec Ideal S4000x32 .f32) (ix2 p k) = (V c main_arg0 : S100000x32.Idx → Elt Ideal .f32) (ix2 r k) := by
  obtain ⟨e0, e1, -⟩ := lin0_idx t
  unfold iblk0
  rw [View.read_apply]
  show V c main_arg0 _ = V c main_arg0 _
  congr 1
  funext a
  apply Fin.ext
  match a with
  | ⟨0, _⟩ => show win0_0.index t 0 * 4000 + 1 * p.val = r.val; rw [e0, hr]; omega
  | ⟨1, _⟩ => show win0_0.index t 1 * 32 + 1 * k.val = k.val; rw [e1]; omega

/-- The right operand's block at every point is the whole array. -/
theorem lin0_rhs (c : Dev nD) (t : Fin cfg0.N) (k : Fin 32) (q : Fin 64) :
    (iblk0 V c 1 t : Vec Ideal S32x64 .f32) (ix2 k q) = (V c main_arg3 : S32x64.Idx → Elt Ideal .f32) (ix2 k q) := by
  obtain ⟨-, -, e2, e3, -⟩ := lin0_idx t
  unfold iblk0
  rw [View.read_apply]
  show V c main_arg3 _ = V c main_arg3 _
  congr 1
  funext a
  apply Fin.ext
  match a with
  | ⟨0, _⟩ => show win0_1.index t 0 * 32 + 1 * k.val = k.val; rw [e2]; omega
  | ⟨1, _⟩ => show win0_1.index t 1 * 64 + 1 * q.val = q.val; rw [e3]; omega

/-- What point t writes back is block t of the product of the two arrays as the region finds them. -/
theorem lin0_flushed (c : Dev nD) (t : Fin cfg0.N) :
    (Gen.dat0 (F := Ideal) V c).flushed 2 t
      = ((cfg0.win 2).blk t).view.read (Elt Ideal) (Cert.Gcn.lin (K := 32) (V c main_arg0) (V c main_arg3)) := by
  show (cfg0.win 2).cut (grid0.coords t) ((Gen.dat0 (F := Ideal) V c).after 2 t) = _
  rw [after0_2]
  unfold out0_2
  rw [View.canon_unit_zero lin0_hz]
  simp only [View.ld_unit_zero (S := S4000x32) lin0_hz, View.ld_unit_zero (S := S32x64) lin0_hz]
  obtain ⟨-, -, -, -, e4, e5⟩ := lin0_idx t
  have ht : t.val < 25 := by have h := t.isLt; have hN : cfg0.N = 25 := N_0; omega
  funext j
  obtain ⟨p, q, rfl⟩ : ∃ (p : Fin 4000) (q : Fin 64), j = ix2 p q := ⟨j 0, j 1, eq_ix2 j⟩
  have hr : t.val * 4000 + p.val < 100000 := by have := p.isLt; omega
  have hemb : ((cfg0.win 2).blk t).view.emb (ix2 p q) = (ix2 (⟨t.val * 4000 + p.val, hr⟩ : Fin 100000) q : S100000x64.Idx) := by
    funext a
    apply Fin.ext
    match a with
    | ⟨0, _⟩ => show win0_2.index t 0 * 4000 + 1 * p.val = t.val * 4000 + p.val; rw [e4]; omega
    | ⟨1, _⟩ => show win0_2.index t 1 * 64 + 1 * q.val = q.val; rw [e5]; omega
  show Gen.k0_pay1 (F := Ideal) (iblk0 V c 0 t) (iblk0 V c 1 t) (ix2 p q)
      = Cert.Gcn.lin (K := 32) (V c main_arg0) (V c main_arg3) (((cfg0.win 2).blk t).view.emb (ix2 p q))
  rw [hemb, Cert.Gcn.lin_apply, lin0_pay]
  refine Finset.sum_congr rfl fun k _ => ?_
  rw [lin0_lhs V c t p k ⟨t.val * 4000 + p.val, hr⟩ rfl, lin0_rhs V c t k q]

/-- An index of the result array is in point t's block iff each coordinate is in the block's range on its axis. -/
theorem lin0_mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v33).slice (win0_2.rect t)).set ↔ _
  rw [View.set_slice_whole, Rect.mem_set_unit]
  exact Iff.rfl

/-- Every index of the result array lies in the block of the point its row selects: row r in block r / 4000. -/
theorem lin0_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  have htv : t.val = (i 0).val / 4000 := rfl
  obtain ⟨-, -, -, -, e4, e5⟩ := lin0_idx t
  refine ⟨t, flush0_2 t, ?_⟩
  rw [lin0_mem_blk]
  intro a
  match a with
  | ⟨0, _⟩ => show win0_2.index t (0 : Fin 2) * 4000 ≤ (i 0).val ∧ (i 0).val < win0_2.index t (0 : Fin 2) * 4000 + 4000; rw [e4, htv]; omega
  | ⟨1, _⟩ => show win0_2.index t (1 : Fin 2) * 64 ≤ (i 1).val ∧ (i 1).val < win0_2.index t (1 : Fin 2) * 64 + 64; rw [e5]; omega

/-- The result array after the region is the product of the two arrays the region found. -/
theorem lin0_value (c : Dev nD) :
    (Gen.dat0 (F := Ideal) V c).arrAt 2 cfg0.N = Cert.Gcn.lin (K := 32) (V c main_arg0) (V c main_arg3) :=
  (Gen.dat0 (F := Ideal) V c).arrAt_eq_of_cover 2 (Cert.Gcn.lin (K := 32) (V c main_arg0) (V c main_arg3))
    (fun t _ => lin0_flushed V c t) lin0_cover

end Cert.Gcn.Reg

end
-- ==== Proof.RegLin1.lean ====
/-
  Region 1: the embedded features times the first layer's weight matrix, as a whole array. The result array (100000 × 64)
  after the region is `lin H W`: entry (p, q) is Σ_k H[p, k] · W[k, q], H the 100000 × 64 array and W the 64 × 64 array the
  region finds.

  The grid has 25 points. Point t takes rows 4000 t … 4000 t + 3999 of the left operand (all 64 columns) and the whole
  64-by-64 right operand, and writes rows 4000 t … 4000 t + 3999 of the result. The body multiplies the two blocks (the left one first recast to its own shape, which changes nothing) on the
  matrix unit into a zero accumulator; on the extended reals the change of format before the product is the identity, so
  entry (p, q) of the written block is Σ_k L[4000 t + p, k] · R[k, q]: the block is the restriction of the whole product
  to its rows. Row r lies in the block of point r / 4000, so the 25 blocks cover the array and the array after the region
  is the product.
-/
import proofs.«132265_j53532472378064_1_alg».proof.Proof.Gen.KernelIdeal.Frame
import proofs.«132265_j53532472378064_1_alg».proof.Proof.Spec
import proofs.«132265_j53532472378064_1_alg».proof.Proof.LibMatmul
import Idealize.ShloMosaic.Lib.Pipeline.Value
import Idealize.ShloMosaic.Lib.ValueIdx
import Idealize.ShloMosaic.PureOps.Ideal.Laws

noncomputable section

open scoped BigOperators

namespace Cert.Gcn.Reg

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem lin1_hz : (![0, 0] : Fin 2 → Nat) = fun _ => 0 := funext fun a => by fin_cases a <;> rfl

/-- The dimension numbers of the body's product are those of a plain 4000×64 by 64×64 product. -/
theorem lin1_dims : dot_S4000x64_S64x64_S4000x64_1_0_0_1_n_n = DotDims.plain 4000 64 64 := rfl

/-- Entry (p, q) of the body's product of two blocks: Σ_k x0[p, k] · x1[k, q]. -/
theorem lin1_pay (x0 : FVec Ideal S4000x64 .f32) (x1 : FVec Ideal S64x64 .f32) (p : Fin 4000) (q : Fin 64) :
    Gen.k1_pay1 (F := Ideal) x0 x1 (ix2 p q) = ∑ k : Fin 64, x0 (ix2 p k) * x1 (ix2 k q) := by
  unfold Gen.k1_pay1
  simp only [shapeCast_self]
  exact Cert.Bridge.LibMatmul.matmul_zero_apply (M := 4000) (K := 64) (N := 64) none x0 x1 p q

/-- The windows' block indices over the grid: the two row-blocked windows are at block (t, 0), the right operand at (0, 0). -/
theorem lin1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left operand's block at point t is row 4000 t + p of the array. -/
theorem lin1_lhs (c : Dev nD) (t : Fin cfg1.N) (p : Fin 4000) (k : Fin 64) (r : Fin 100000) (hr : r.val = t.val * 4000 + p.val) :
    (iblk1 V c 0 t : Vec Ideal S4000x64 .f32) (ix2 p k) = (V c main_v33 : S100000x64.Idx → Elt Ideal .f32) (ix2 r k) := by
  obtain ⟨e0, e1, -⟩ := lin1_idx t
  unfold iblk1
  rw [View.read_apply]
  show V c main_v33 _ = V c main_v33 _
  congr 1
  funext a
  apply Fin.ext
  match a with
  | ⟨0, _⟩ => show win1_0.index t 0 * 4000 + 1 * p.val = r.val; rw [e0, hr]; omega
  | ⟨1, _⟩ => show win1_0.index t 1 * 64 + 1 * k.val = k.val; rw [e1]; omega

/-- The right operand's block at every point is the whole array. -/
theorem lin1_rhs (c : Dev nD) (t : Fin cfg1.N) (k : Fin 64) (q : Fin 64) :
    (iblk1 V c 1 t : Vec Ideal S64x64 .f32) (ix2 k q) = (V c main_arg4 : S64x64.Idx → Elt Ideal .f32) (ix2 k q) := by
  obtain ⟨-, -, e2, e3, -⟩ := lin1_idx t
  unfold iblk1
  rw [View.read_apply]
  show V c main_arg4 _ = V c main_arg4 _
  congr 1
  funext a
  apply Fin.ext
  match a with
  | ⟨0, _⟩ => show win1_1.index t 0 * 64 + 1 * k.val = k.val; rw [e2]; omega
  | ⟨1, _⟩ => show win1_1.index t 1 * 64 + 1 * q.val = q.val; rw [e3]; omega

/-- What point t writes back is block t of the product of the two arrays as the region finds them. -/
theorem lin1_flushed (c : Dev nD) (t : Fin cfg1.N) :
    (Gen.dat1 (F := Ideal) V c).flushed 2 t
      = ((cfg1.win 2).blk t).view.read (Elt Ideal) (Cert.Gcn.lin (K := 64) (V c main_v33) (V c main_arg4)) := by
  show (cfg1.win 2).cut (grid1.coords t) ((Gen.dat1 (F := Ideal) V c).after 2 t) = _
  rw [after1_2]
  unfold out1_2
  rw [View.canon_unit_zero lin1_hz]
  simp only [View.ld_unit_zero (S := S4000x64) lin1_hz, View.ld_unit_zero (S := S64x64) lin1_hz]
  obtain ⟨-, -, -, -, e4, e5⟩ := lin1_idx t
  have ht : t.val < 25 := by have h := t.isLt; have hN : cfg1.N = 25 := N_1; omega
  funext j
  obtain ⟨p, q, rfl⟩ : ∃ (p : Fin 4000) (q : Fin 64), j = ix2 p q := ⟨j 0, j 1, eq_ix2 j⟩
  have hr : t.val * 4000 + p.val < 100000 := by have := p.isLt; omega
  have hemb : ((cfg1.win 2).blk t).view.emb (ix2 p q) = (ix2 (⟨t.val * 4000 + p.val, hr⟩ : Fin 100000) q : S100000x64.Idx) := by
    funext a
    apply Fin.ext
    match a with
    | ⟨0, _⟩ => show win1_2.index t 0 * 4000 + 1 * p.val = t.val * 4000 + p.val; rw [e4]; omega
    | ⟨1, _⟩ => show win1_2.index t 1 * 64 + 1 * q.val = q.val; rw [e5]; omega
  show Gen.k1_pay1 (F := Ideal) (iblk1 V c 0 t) (iblk1 V c 1 t) (ix2 p q)
      = Cert.Gcn.lin (K := 64) (V c main_v33) (V c main_arg4) (((cfg1.win 2).blk t).view.emb (ix2 p q))
  rw [hemb, Cert.Gcn.lin_apply, lin1_pay]
  refine Finset.sum_congr rfl fun k _ => ?_
  rw [lin1_lhs V c t p k ⟨t.val * 4000 + p.val, hr⟩ rfl, lin1_rhs V c t k q]

/-- An index of the result array is in point t's block iff each coordinate is in the block's range on its axis. -/
theorem lin1_mem_blk (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v34).slice (win1_2.rect t)).set ↔ _
  rw [View.set_slice_whole, Rect.mem_set_unit]
  exact Iff.rfl

/-- Every index of the result array lies in the block of the point its row selects: row r in block r / 4000. -/
theorem lin1_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 25 := N_1
  let t : Fin cfg1.N := ⟨(i 0).val / 4000, by rw [hN]; omega⟩
  have htv : t.val = (i 0).val / 4000 := rfl
  obtain ⟨-, -, -, -, e4, e5⟩ := lin1_idx t
  refine ⟨t, flush1_2 t, ?_⟩
  rw [lin1_mem_blk]
  intro a
  match a with
  | ⟨0, _⟩ => show win1_2.index t (0 : Fin 2) * 4000 ≤ (i 0).val ∧ (i 0).val < win1_2.index t (0 : Fin 2) * 4000 + 4000; rw [e4, htv]; omega
  | ⟨1, _⟩ => show win1_2.index t (1 : Fin 2) * 64 ≤ (i 1).val ∧ (i 1).val < win1_2.index t (1 : Fin 2) * 64 + 64; rw [e5]; omega

/-- The result array after the region is the product of the two arrays the region found. -/
theorem lin1_value (c : Dev nD) :
    (Gen.dat1 (F := Ideal) V c).arrAt 2 cfg1.N = Cert.Gcn.lin (K := 64) (V c main_v33) (V c main_arg4) :=
  (Gen.dat1 (F := Ideal) V c).arrAt_eq_of_cover 2 (Cert.Gcn.lin (K := 64) (V c main_v33) (V c main_arg4))
    (fun t _ => lin1_flushed V c t) lin1_cover

end Cert.Gcn.Reg

end
-- ==== Proof.RegLin4.lean ====
/-
  Region 4: the first layer's normalised output times the second layer's weight matrix, as a whole array. The result array
  (100000 × 64) after the region is `lin H W`: entry (p, q) is Σ_k H[p, k] · W[k, q], H the 100000 × 64 array and W the 64 × 64
  array the region finds.

  The grid has 25 points. Point t takes rows 4000 t … 4000 t + 3999 of the left operand (all 64 columns) and the whole
  64-by-64 right operand, and writes rows 4000 t … 4000 t + 3999 of the result. The body multiplies the two blocks (the left one first recast to its own shape, which changes nothing) on the
  matrix unit into a zero accumulator; on the extended reals the change of format before the product is the identity, so
  entry (p, q) of the written block is Σ_k L[4000 t + p, k] · R[k, q]: the block is the restriction of the whole product
  to its rows. Row r lies in the block of point r / 4000, so the 25 blocks cover the array and the array after the region
  is the product.
-/
import proofs.«132265_j53532472378064_1_alg».proof.Proof.Gen.KernelIdeal.Frame
import proofs.«132265_j53532472378064_1_alg».proof.Proof.Spec
import proofs.«132265_j53532472378064_1_alg».proof.Proof.LibMatmul
import Idealize.ShloMosaic.Lib.Pipeline.Value
import Idealize.ShloMosaic.Lib.ValueIdx
import Idealize.ShloMosaic.PureOps.Ideal.Laws

noncomputable section

open scoped BigOperators

namespace Cert.Gcn.Reg

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem lin4_hz : (![0, 0] : Fin 2 → Nat) = fun _ => 0 := funext fun a => by fin_cases a <;> rfl

/-- The dimension numbers of the body's product are those of a plain 4000×64 by 64×64 product. -/
theorem lin4_dims : dot_S4000x64_S64x64_S4000x64_1_0_0_1_n_n = DotDims.plain 4000 64 64 := rfl

/-- Entry (p, q) of the body's product of two blocks: Σ_k x0[p, k] · x1[k, q]. -/
theorem lin4_pay (x0 : FVec Ideal S4000x64 .f32) (x1 : FVec Ideal S64x64 .f32) (p : Fin 4000) (q : Fin 64) :
    Gen.k4_pay1 (F := Ideal) x0 x1 (ix2 p q) = ∑ k : Fin 64, x0 (ix2 p k) * x1 (ix2 k q) := by
  unfold Gen.k4_pay1
  simp only [shapeCast_self]
  exact Cert.Bridge.LibMatmul.matmul_zero_apply (M := 4000) (K := 64) (N := 64) none x0 x1 p q

/-- The windows' block indices over the grid: the two row-blocked windows are at block (t, 0), the right operand at (0, 0). -/
theorem lin4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of the left operand's block at point t is row 4000 t + p of the array. -/
theorem lin4_lhs (c : Dev nD) (t : Fin cfg4.N) (p : Fin 4000) (k : Fin 64) (r : Fin 100000) (hr : r.val = t.val * 4000 + p.val) :
    (iblk4 V c 0 t : Vec Ideal S4000x64 .f32) (ix2 p k) = (V c main_v58 : S100000x64.Idx → Elt Ideal .f32) (ix2 r k) := by
  obtain ⟨e0, e1, -⟩ := lin4_idx t
  unfold iblk4
  rw [View.read_apply]
  show V c main_v58 _ = V c main_v58 _
  congr 1
  funext a
  apply Fin.ext
  match a with
  | ⟨0, _⟩ => show win4_0.index t 0 * 4000 + 1 * p.val = r.val; rw [e0, hr]; omega
  | ⟨1, _⟩ => show win4_0.index t 1 * 64 + 1 * k.val = k.val; rw [e1]; omega

/-- The right operand's block at every point is the whole array. -/
theorem lin4_rhs (c : Dev nD) (t : Fin cfg4.N) (k : Fin 64) (q : Fin 64) :
    (iblk4 V c 1 t : Vec Ideal S64x64 .f32) (ix2 k q) = (V c main_arg8 : S64x64.Idx → Elt Ideal .f32) (ix2 k q) := by
  obtain ⟨-, -, e2, e3, -⟩ := lin4_idx t
  unfold iblk4
  rw [View.read_apply]
  show V c main_arg8 _ = V c main_arg8 _
  congr 1
  funext a
  apply Fin.ext
  match a with
  | ⟨0, _⟩ => show win4_1.index t 0 * 64 + 1 * k.val = k.val; rw [e2]; omega
  | ⟨1, _⟩ => show win4_1.index t 1 * 64 + 1 * q.val = q.val; rw [e3]; omega

/-- What point t writes back is block t of the product of the two arrays as the region finds them. -/
theorem lin4_flushed (c : Dev nD) (t : Fin cfg4.N) :
    (Gen.dat4 (F := Ideal) V c).flushed 2 t
      = ((cfg4.win 2).blk t).view.read (Elt Ideal) (Cert.Gcn.lin (K := 64) (V c main_v58) (V c main_arg8)) := by
  show (cfg4.win 2).cut (grid4.coords t) ((Gen.dat4 (F := Ideal) V c).after 2 t) = _
  rw [after4_2]
  unfold out4_2
  rw [View.canon_unit_zero lin4_hz]
  simp only [View.ld_unit_zero (S := S4000x64) lin4_hz, View.ld_unit_zero (S := S64x64) lin4_hz]
  obtain ⟨-, -, -, -, e4, e5⟩ := lin4_idx t
  have ht : t.val < 25 := by have h := t.isLt; have hN : cfg4.N = 25 := N_4; omega
  funext j
  obtain ⟨p, q, rfl⟩ : ∃ (p : Fin 4000) (q : Fin 64), j = ix2 p q := ⟨j 0, j 1, eq_ix2 j⟩
  have hr : t.val * 4000 + p.val < 100000 := by have := p.isLt; omega
  have hemb : ((cfg4.win 2).blk t).view.emb (ix2 p q) = (ix2 (⟨t.val * 4000 + p.val, hr⟩ : Fin 100000) q : S100000x64.Idx) := by
    funext a
    apply Fin.ext
    match a with
    | ⟨0, _⟩ => show win4_2.index t 0 * 4000 + 1 * p.val = t.val * 4000 + p.val; rw [e4]; omega
    | ⟨1, _⟩ => show win4_2.index t 1 * 64 + 1 * q.val = q.val; rw [e5]; omega
  show Gen.k4_pay1 (F := Ideal) (iblk4 V c 0 t) (iblk4 V c 1 t) (ix2 p q)
      = Cert.Gcn.lin (K := 64) (V c main_v58) (V c main_arg8) (((cfg4.win 2).blk t).view.emb (ix2 p q))
  rw [hemb, Cert.Gcn.lin_apply, lin4_pay]
  refine Finset.sum_congr rfl fun k _ => ?_
  rw [lin4_lhs V c t p k ⟨t.val * 4000 + p.val, hr⟩ rfl, lin4_rhs V c t k q]

/-- An index of the result array is in point t's block iff each coordinate is in the block's range on its axis. -/
theorem lin4_mem_blk (t : Fin cfg4.N) (i : S100000x64.Idx) :
    i ∈ ((cfg4.win 2).blk t).view.set ↔ ∀ a : Fin 2, win4_2.index t a * S4000x64.size a ≤ (i a).val ∧ (i a).val < win4_2.index t a * S4000x64.size a + S4000x64.size a := by
  show i ∈ ((View.whole main_v59).slice (win4_2.rect t)).set ↔ _
  rw [View.set_slice_whole, Rect.mem_set_unit]
  exact Iff.rfl

/-- Every index of the result array lies in the block of the point its row selects: row r in block r / 4000. -/
theorem lin4_cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 25 := N_4
  let t : Fin cfg4.N := ⟨(i 0).val / 4000, by rw [hN]; omega⟩
  have htv : t.val = (i 0).val / 4000 := rfl
  obtain ⟨-, -, -, -, e4, e5⟩ := lin4_idx t
  refine ⟨t, flush4_2 t, ?_⟩
  rw [lin4_mem_blk]
  intro a
  match a with
  | ⟨0, _⟩ => show win4_2.index t (0 : Fin 2) * 4000 ≤ (i 0).val ∧ (i 0).val < win4_2.index t (0 : Fin 2) * 4000 + 4000; rw [e4, htv]; omega
  | ⟨1, _⟩ => show win4_2.index t (1 : Fin 2) * 64 ≤ (i 1).val ∧ (i 1).val < win4_2.index t (1 : Fin 2) * 64 + 64; rw [e5]; omega

/-- The result array after the region is the product of the two arrays the region found. -/
theorem lin4_value (c : Dev nD) :
    (Gen.dat4 (F := Ideal) V c).arrAt 2 cfg4.N = Cert.Gcn.lin (K := 64) (V c main_v58) (V c main_arg8) :=
  (Gen.dat4 (F := Ideal) V c).arrAt_eq_of_cover 2 (Cert.Gcn.lin (K := 64) (V c main_v58) (V c main_arg8))
    (fun t _ => lin4_flushed V c t) lin4_cover

end Cert.Gcn.Reg

end
-- ==== Proof.LibTileSum.lean ====
/- Regrouping a sum over n = a · b consecutive positions into a tiles of b, and the running sum over the tiles:
   only associativity and commutativity of + (any additive commutative monoid; used on the extended reals). -/
import Mathlib.Algebra.BigOperators.Fin
import Mathlib.Algebra.BigOperators.Intervals

open scoped BigOperators

namespace Cert.Lib.TileSum

variable {M : Type*} [AddCommMonoid M]

/-- Position c of tile j is below a · b. -/
theorem tile_lt {a b : ℕ} {j c : ℕ} (hj : j < a) (hc : c < b) : j * b + c < a * b :=
  calc j * b + c < j * b + b := Nat.add_lt_add_left hc _
    _ = (j + 1) * b := (Nat.succ_mul j b).symm
    _ ≤ a * b := Nat.mul_le_mul_right b hj

/-- The first a · b positions, tile by tile: position j · b + c is place c of tile j. -/
theorem sum_range_tiles (a b : ℕ) (h : ℕ → M) :
    ∑ i ∈ Finset.range (a * b), h i = ∑ j ∈ Finset.range a, ∑ c : Fin b, h (j * b + c.val) := by
  induction a with
  | zero => simp
  | succ a ih =>
    rw [Nat.succ_mul, Finset.sum_range_add, ih, Finset.sum_range_succ,
      Fin.sum_univ_eq_sum_range (fun x => h (a * b + x)) b]

/-- A sum over Fin (a · b) of a function of the position is the sum over the a tiles of the tile's b places. -/
theorem sum_tiles (a b : ℕ) (h : ℕ → M) :
    ∑ q : Fin (a * b), h q.val = ∑ j ∈ Finset.range a, ∑ c : Fin b, h (j * b + c.val) := by
  rw [Fin.sum_univ_eq_sum_range h (a * b)]; exact sum_range_tiles a b h

/-- The same over Fin n for n = a · b given as an equation (so that a literal n need not be spelt as a product). -/
theorem sum_tiles_of_eq (n a b : ℕ) (hn : n = a * b) (h : ℕ → M) :
    ∑ q : Fin n, h q.val = ∑ j ∈ Finset.range a, ∑ c : Fin b, h (j * b + c.val) := by
  subst hn; exact sum_tiles a b h

/-- The same with both sides indexed by Fin: f at place c of tile j is f at position j · b + c. -/
theorem sum_tiles_fin (n a b : ℕ) (hn : n = a * b) (f : Fin n → M) :
    ∑ q : Fin n, f q = ∑ j : Fin a, ∑ c : Fin b, f ⟨j.val * b + c.val, hn ▸ tile_lt j.isLt c.isLt⟩ := by
  subst hn
  have key := sum_tiles a b (fun i => if hi : i < a * b then f ⟨i, hi⟩ else 0)
  rw [← Fin.sum_univ_eq_sum_range (fun j => ∑ c : Fin b, (fun i => if hi : i < a * b then f ⟨i, hi⟩ else 0) (j * b + c.val)) a] at key
  refine (Finset.sum_congr rfl fun q _ => ?_).trans (key.trans (Finset.sum_congr rfl fun j _ => Finset.sum_congr rfl fun c _ => ?_))
  · rw [dif_pos q.isLt]
  · exact dif_pos (tile_lt j.isLt c.isLt)

/-- A running sum from z over a list of tiles, each tile's own sum started from z too, is z plus the tiles' sums,
    when z is the zero (as the zero word of a float format is, read as an extended real). -/
theorem foldl_tiles_list {ι : Type*} (z : M) (hz : z = 0) (G : ι → M) (L : List ι) :
    L.foldl (fun acc j => acc + (z + G j)) z = z + (L.map G).sum := by
  subst hz
  suffices H : ∀ acc : M, L.foldl (fun acc j => acc + (0 + G j)) acc = acc + (L.map G).sum from H 0
  induction L with
  | nil => intro acc; simp
  | cons j L ih => intro acc; rw [List.foldl_cons, ih, List.map_cons, List.sum_cons, zero_add, add_assoc]

/-- The running sum over the tiles 0 … a − 1 in order. -/
theorem foldl_tiles_range (z : M) (hz : z = 0) (a : ℕ) (G : ℕ → M) :
    (List.range a).foldl (fun acc j => acc + (z + G j)) z = z + ∑ j ∈ Finset.range a, G j := by
  rw [foldl_tiles_list z hz G, ← Fin.sum_univ_eq_sum_range G a, Fin.sum_univ_def,
    ← List.map_coe_finRange_eq_range, List.map_map]
  rfl

/-- The tiled running sum is the whole sum: folding, over the tiles j = 0 … a − 1, acc + (z + Σ_c h (j·b + c))
    from z gives z + Σ_q h q over all n = a · b positions. -/
theorem foldl_tiles (n a b : ℕ) (hn : n = a * b) (z : M) (hz : z = 0) (h : ℕ → M) :
    (List.range a).foldl (fun acc j => acc + (z + ∑ c : Fin b, h (j * b + c.val))) z = z + ∑ q : Fin n, h q.val := by
  rw [foldl_tiles_range z hz a (fun j => ∑ c : Fin b, h (j * b + c.val)), sum_tiles_of_eq n a b hn h]

end Cert.Lib.TileSum
-- ==== Proof.RegComb2a.lean ====
/-
  The arithmetic of one point of the combine-and-statistics body, read index by index on the extended reals.

  One point holds a block of 4000 rows.  With e, h the block's rows of the edge sums and of the node features, s the
  rows' self-loop weights (one per row) and b the bias row, the body forms

      y[r, q] = (e[r, q] + h[r, q] · s[r, 0]) + b[0, q],

  stores y, and adds to the two running rows their share of the block: Σ_r y[r, q] and Σ_r y[r, q]².
-/
import proofs.«132265_j53532472378064_1_alg».proof.Proof.Gen.KernelIdeal.Skeleton
import Idealize.ShloMosaic.Lib.ValueLayout
import Idealize.ShloMosaic.PureOps.Ideal.Laws

noncomputable section

open scoped BigOperators

namespace Cert.Gcn.Reg2

open Cert.KernelIdeal Cert.KernelIdeal.Gen Idealize.ShloMosaic Idealize.ShloMosaic.ValueIdx

/-- A column [a, 1] broadcast along the second axis reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The combined block at (r, q). -/
theorem pay3_apply (x0 x1 : Vec Ideal S4000x64 .f32) (x2 : Vec Ideal S4000x1 .f32) (x3 : Vec Ideal S1x64 .f32)
    (r : Fin 4000) (q : Fin 64) :
    k2_pay3 (F := Ideal) x0 x1 x2 x3 (ix2 r q)
      = (x0 (ix2 r q) + x1 (ix2 r q) * x2 (ix2 r (0 : Fin 1))) + x3 (ix2 (0 : Fin 1) q) := by
  unfold k2_pay3
  show (shapeCast S4000x64 x0 shapeCasts_S4000x64_S4000x64 (ix2 r q)
      + shapeCast S4000x64 x1 shapeCasts_S4000x64_S4000x64 (ix2 r q)
        * broadcastTo S4000x64 (shapeCast S4000x1 x2 shapeCasts_S4000x1_S4000x1) broadcasts_S4000x1_S4000x64 (ix2 r q))
      + broadcastTo S4000x64 (shapeCast S1x64 x3 shapeCasts_S1x64_S1x64) broadcasts_S1x64_S4000x64 (ix2 r q) = _
  rw [shapeCast_self, shapeCast_self, shapeCast_self, shapeCast_self]
  rw [broadcastTo_a1_ab_apply, broadcastTo_1b_ab_apply]

/-- Index (r, q) of the block is what the column reduction at q meets at row r. -/
theorem lift_eq (q : Fin 64) (r : Fin 4000) :
    reduces_S4000x64_S64.lift (ix1 q) r = ix2 r q := by
  funext a
  apply Fin.ext
  match a with
  | ⟨0, _⟩ => rfl
  | ⟨1, _⟩ => rfl

/-- The column sum of a block of 4000 rows, as a row [1, 64], at (z, q). -/
theorem colsum_block (src : FVec Ideal S4000x64 .f32) (hφ : FKind.Formats .f32)
    (hacc : (0x00000000#32 : BitVec 32) = FKind.add.neutral .f32 hφ) (z : Fin 1) (q : Fin 64) :
    shapeCast S1x64 (multiReduction .add [0] S64 src 0x00000000#32 reduces_S4000x64_S64 hφ hacc) shapeCasts_S64_S1x64 (ix2 z q)
      = ∑ r : Fin 4000, src (ix2 r q) := by
  refine (shapeCast_a_1a_apply _ shapeCasts_S64_S1x64 z q).trans ?_
  refine (Ideal.multiReduction_add_single src 0x00000000#32 reduces_S4000x64_S64 hφ hacc (ix1 q)).trans ?_
  exact Finset.sum_congr rfl fun r _ => congrArg src (lift_eq q r)

/-- The running column sum after a point: what it was plus the block's column sum. -/
theorem pay4_apply (x0 x1 : Vec Ideal S4000x64 .f32) (x2 : Vec Ideal S4000x1 .f32) (x3 : Vec Ideal S1x64 .f32)
    (acc : Vec Ideal S1x64 .f32) (z : Fin 1) (q : Fin 64) :
    k2_pay4 (F := Ideal) x0 x1 x2 x3 acc (ix2 z q)
      = acc (ix2 z q) + ∑ r : Fin 4000, k2_pay3 (F := Ideal) x0 x1 x2 x3 (ix2 r q) := by
  unfold k2_pay4
  show shapeCast S1x64 acc shapeCasts_S1x64_S1x64 (ix2 z q)
      + shapeCast S1x64 (multiReduction .add [0] S64 (k2_pay3 (F := Ideal) x0 x1 x2 x3) 0x00000000#32 reduces_S4000x64_S64 (.inl rfl) rfl)
          shapeCasts_S64_S1x64 (ix2 z q) = _
  rw [shapeCast_self]
  exact congrArg (acc (ix2 z q) + ·) (colsum_block _ _ _ z q)

/-- The running column sum of squares after a point: what it was plus the block's column sum of squares. -/
theorem pay5_apply (x0 x1 : Vec Ideal S4000x64 .f32) (x2 : Vec Ideal S4000x1 .f32) (x3 : Vec Ideal S1x64 .f32)
    (acc : Vec Ideal S1x64 .f32) (z : Fin 1) (q : Fin 64) :
    k2_pay5 (F := Ideal) x0 x1 x2 x3 acc (ix2 z q)
      = acc (ix2 z q) + ∑ r : Fin 4000, k2_pay3 (F := Ideal) x0 x1 x2 x3 (ix2 r q) * k2_pay3 (F := Ideal) x0 x1 x2 x3 (ix2 r q) := by
  unfold k2_pay5
  show shapeCast S1x64 acc shapeCasts_S1x64_S1x64 (ix2 z q)
      + shapeCast S1x64 (multiReduction .add [0] S64 (mulf (k2_pay3 (F := Ideal) x0 x1 x2 x3) (k2_pay3 (F := Ideal) x0 x1 x2 x3))
          0x00000000#32 reduces_S4000x64_S64 (.inl rfl) rfl) shapeCasts_S64_S1x64 (ix2 z q) = _
  rw [shapeCast_self]
  exact congrArg (acc (ix2 z q) + ·) (colsum_block _ _ _ z q)

/-- The row stored at the first point, before anything is added, is zero. -/
theorem pay1_apply (z : Fin 1) (q : Fin 64) : k2_pay1 (F := Ideal) (ix2 z q) = 0 :=
  Ideal.ofBits_zero_f32

theorem pay2_apply (z : Fin 1) (q : Fin 64) : k2_pay2 (F := Ideal) (ix2 z q) = 0 :=
  Ideal.ofBits_zero_f32

end Cert.Gcn.Reg2

end
-- ==== Proof.RegComb2b.lean ====
/-
  What one point of the combine-and-statistics body leaves in its three output blocks, for the two kinds of point:
  the first point stores zero rows into the two running rows before it adds to them; every later point adds to what
  the point before left.  In both, the stored block is the combined block of the point's rows, and each running row
  ends as its value before the point plus the block's column sum (of the entries, or of their squares).
-/
import proofs.«132265_j53532472378064_1_alg».proof.Proof.Gen.KernelIdeal.Frame
import Idealize.ShloMosaic.Lib.Pipeline.Value
import Idealize.ShloMosaic.Lib.Tactic
import Idealize.ShloMosaic.Lib.ValueLayout

noncomputable section

namespace Cert.Gcn.Reg2

open Cert.KernelIdeal Cert.KernelIdeal.Gen Idealize.ShloMosaic Idealize.ShloMosaic.ValueIdx
open Idealize.ShloMosaic.TcCoe Idealize.SL.Sem

variable {F : FTy → Type} [FloatOps F]

theorem hz : (![0, 0] : Fin 2 → Nat) = fun _ => 0 := funext fun a => by fin_cases a <;> rfl

/-- After a later point the stored block is the combined block of the point's rows. -/
theorem out_B_4 (c : Dev nD) (i : grid2.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : ¬cond2_0 i) (x0 : Vec F S4000x64 .f32) (x1 : Vec F S4000x64 .f32) (x2 : Vec F S4000x1 .f32) (x3 : Vec F S1x64 .f32) (xo5 xo6 : Vec F S1x64 .f32) :
    out2_B_4 c i arg1 harg1 arg2 harg2 arg3 harg3 arg4 harg4 arg5 harg5 arg6 harg6 arg7 harg7 hc0 x0 x1 x2 x3 xo5 xo6 = k2_pay3 x0 x1 x2 x3 := by
  unfold out2_B_4
  rw [View.read_writes_eq_canon _ _ _ (cover2_B_4 c i arg1 harg1 arg2 harg2 arg3 harg3 arg4 harg4 arg5 harg5 arg6 harg6 arg7 harg7 hc0 x0 x1 x2 x3 xo5 xo6)]
  unfold kernelRun2_B
  dsimp only
  rw [View.canon_unit_zero hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- After a later point the running column sum is what the point found plus the block's column sum. -/
theorem out_B_5 (c : Dev nD) (i : grid2.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : ¬cond2_0 i) (x0 : Vec F S4000x64 .f32) (x1 : Vec F S4000x64 .f32) (x2 : Vec F S4000x1 .f32) (x3 : Vec F S1x64 .f32) (xo5 xo6 : Vec F S1x64 .f32) :
    out2_B_5 c i arg1 harg1 arg2 harg2 arg3 harg3 arg4 harg4 arg5 harg5 arg6 harg6 arg7 harg7 hc0 x0 x1 x2 x3 xo5 xo6 = k2_pay4 x0 x1 x2 x3 xo5 := by
  unfold out2_B_5
  rw [View.read_writes_eq_canon _ _ _ (cover2_B_5 c i arg1 harg1 arg2 harg2 arg3 harg3 arg4 harg4 arg5 harg5 arg6 harg6 arg7 harg7 hc0 x0 x1 x2 x3 xo5 xo6)]
  unfold kernelRun2_B
  dsimp only
  rw [View.canon_unit_zero hz]
  simp only [View.readAt_eq_ld, harg1.read_unread, harg2.read_unread, harg3.read_unread, harg4.read_unread, harg6.read_unread,
    View.ld_unit_zero (S := S4000x64) hz, View.ld_unit_zero (S := S4000x1) hz, View.ld_unit_zero (S := S1x64) hz]

/-- After a later point the running column sum of squares is what the point found plus the block's. -/
theorem out_B_6 (c : Dev nD) (i : grid2.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : ¬cond2_0 i) (x0 : Vec F S4000x64 .f32) (x1 : Vec F S4000x64 .f32) (x2 : Vec F S4000x1 .f32) (x3 : Vec F S1x64 .f32) (xo5 xo6 : Vec F S1x64 .f32) :
    out2_B_6 c i arg1 harg1 arg2 harg2 arg3 harg3 arg4 harg4 arg5 harg5 arg6 harg6 arg7 harg7 hc0 x0 x1 x2 x3 xo5 xo6 = k2_pay5 x0 x1 x2 x3 xo6 := by
  unfold out2_B_6
  rw [View.read_writes_eq_canon _ _ _ (cover2_B_6 c i arg1 harg1 arg2 harg2 arg3 harg3 arg4 harg4 arg5 harg5 arg6 harg6 arg7 harg7 hc0 x0 x1 x2 x3 xo5 xo6)]
  unfold kernelRun2_B
  dsimp only
  rw [View.canon_unit_zero hz]
  simp only [View.readAt_eq_ld, harg1.read_unread, harg2.read_unread, harg3.read_unread, harg4.read_unread, harg7.read_unread,
    View.ld_unit_zero (S := S4000x64) hz, View.ld_unit_zero (S := S4000x1) hz, View.ld_unit_zero (S := S1x64) hz]

/-- After the first point the stored block is the combined block of the point's rows. -/
theorem out_A_4 (c : Dev nD) (i : grid2.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : cond2_0 i) (x0 : Vec F S4000x64 .f32) (x1 : Vec F S4000x64 .f32) (x2 : Vec F S4000x1 .f32) (x3 : Vec F S1x64 .f32) :
    out2_A_4 c i arg1 harg1 arg2 harg2 arg3 harg3 arg4 harg4 arg5 harg5 arg6 harg6 arg7 harg7 hc0 x0 x1 x2 x3 = k2_pay3 x0 x1 x2 x3 := by
  unfold out2_A_4
  rw [View.read_writes_eq_canon _ _ _ (cover2_A_4 c i arg1 harg1 arg2 harg2 arg3 harg3 arg4 harg4 arg5 harg5 arg6 harg6 arg7 harg7 hc0 x0 x1 x2 x3)]
  unfold kernelRun2_A
  dsimp only
  rw [View.canon_unit_zero hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- After the first point the running column sum is the zero row plus the block's column sum. -/
theorem out_A_5 (c : Dev nD) (i : grid2.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : cond2_0 i) (x0 : Vec F S4000x64 .f32) (x1 : Vec F S4000x64 .f32) (x2 : Vec F S4000x1 .f32) (x3 : Vec F S1x64 .f32) :
    out2_A_5 c i arg1 harg1 arg2 harg2 arg3 harg3 arg4 harg4 arg5 harg5 arg6 harg6 arg7 harg7 hc0 x0 x1 x2 x3 = k2_pay4 x0 x1 x2 x3 k2_pay1 := by
  unfold out2_A_5
  rw [View.read_writes_eq_canon _ _ _ (cover2_A_5 c i arg1 harg1 arg2 harg2 arg3 harg3 arg4 harg4 arg5 harg5 arg6 harg6 arg7 harg7 hc0 x0 x1 x2 x3)]
  unfold kernelRun2_A
  dsimp only
  sl_unfold_words

  rw [View.canon_cons_unit_zero (S := S1x64) hz, View.readCov_unit_zero (S := S1x64) _ hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- After the first point the running column sum of squares is the zero row plus the block's. -/
theorem out_A_6 (c : Dev nD) (i : grid2.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : cond2_0 i) (x0 : Vec F S4000x64 .f32) (x1 : Vec F S4000x64 .f32) (x2 : Vec F S4000x1 .f32) (x3 : Vec F S1x64 .f32) :
    out2_A_6 c i arg1 harg1 arg2 harg2 arg3 harg3 arg4 harg4 arg5 harg5 arg6 harg6 arg7 harg7 hc0 x0 x1 x2 x3 = k2_pay5 x0 x1 x2 x3 k2_pay2 := by
  unfold out2_A_6
  rw [View.read_writes_eq_canon _ _ _ (cover2_A_6 c i arg1 harg1 arg2 harg2 arg3 harg3 arg4 harg4 arg5 harg5 arg6 harg6 arg7 harg7 hc0 x0 x1 x2 x3)]
  unfold kernelRun2_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

end Cert.Gcn.Reg2

end
-- ==== Proof.RegComb2.lean ====
/-
  The combine-and-statistics region as whole arrays on the extended reals.

  The grid has 25 points; point t holds rows 4000·t … 4000·t + 3999 of the 100000 nodes.  With e the edge sums,
  h the node features, s the self-loop weights and b the bias row, write A = comb e h s b, so
  A[p, q] = (e[p, q] + h[p, q] · s[p, 0]) + b[0, q].

  * Every point stores its 4000 rows of A; the 25 blocks tile the array, so the first output ends as A.
  * The two running rows start from zero at point 0 and every point adds its block's column sums, Σ_r A[4000·t + r, q]
    and Σ_r A[4000·t + r, q]².  Only associativity and commutativity of + on the extended reals, and 0 + x = x, are
    used: after point t a running row holds the sum over the rows of blocks 0 … t, and after the last point the 25
    blocks of 4000 rows regroup into the sum over all 100000 rows.  The rows are written back once, after the last
    point, and their block is the whole 1 × 64 array.
-/
import proofs.«132265_j53532472378064_1_alg».proof.Proof.Gen.KernelIdeal.Frame
import proofs.«132265_j53532472378064_1_alg».proof.Proof.Spec
import proofs.«132265_j53532472378064_1_alg».proof.Proof.LibTileSum
import proofs.«132265_j53532472378064_1_alg».proof.Proof.RegComb2a
import proofs.«132265_j53532472378064_1_alg».proof.Proof.RegComb2b
import Idealize.ShloMosaic.Lib.Pipeline.Value
import Idealize.ShloMosaic.Lib.ValueLayout

noncomputable section

open scoped BigOperators

namespace Cert.Gcn.Reg2

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The combined layer input, from the arrays the region finds. -/
def A (c : Dev nD) : FVec Ideal SND .f32 := Cert.Gcn.comb (V c main_v47) (V c main_v34) (V c main_v32) (V c main_v48)

/-- The windows' index maps over the grid: a row-blocked window is at block (t, 0) at point t, a whole small window at (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem row_lt (t : Fin cfg2.N) (r : Fin 4000) : t.val * 4000 + r.val < 100000 := by
  have hN : cfg2.N = 25 := N_2
  have := t.isLt
  have := r.isLt
  omega

/-! ## The input blocks at a point -/

/-- Row r of the edge sums' block at point t is row 4000·t + r of the array. -/
theorem blk0_apply (c : Dev nD) (t : Fin cfg2.N) (r : Fin 4000) (q : Fin 64) :
    (iblk2 (F := Ideal) V c 0 t : Vec Ideal S4000x64 .f32) (ix2 r q) = (V c main_v47 : SND.Idx → EReal) (ix2 ⟨t.val * 4000 + r.val, row_lt t r⟩ q) := by
  obtain ⟨e0, e1, -⟩ := idx_facts t
  show V c main_v47 (((cfg2.win 0).blk t).view.emb (ix2 r q)) = V c main_v47 (ix2 ⟨t.val * 4000 + r.val, row_lt t r⟩ q)
  refine congrArg (V c main_v47) ?_
  funext a; apply Fin.ext
  match a with
  | ⟨0, _⟩ => show win2_0.index t (0 : Fin 2) * 4000 + 1 * r.val = t.val * 4000 + r.val; omega
  | ⟨1, _⟩ => show win2_0.index t (1 : Fin 2) * 64 + 1 * q.val = q.val; omega

/-- Row r of the node features' block at point t is row 4000·t + r of the array. -/
theorem blk1_apply (c : Dev nD) (t : Fin cfg2.N) (r : Fin 4000) (q : Fin 64) :
    (iblk2 (F := Ideal) V c 1 t : Vec Ideal S4000x64 .f32) (ix2 r q) = (V c main_v34 : SND.Idx → EReal) (ix2 ⟨t.val * 4000 + r.val, row_lt t r⟩ q) := by
  obtain ⟨-, -, e0, e1, -⟩ := idx_facts t
  show V c main_v34 (((cfg2.win 1).blk t).view.emb (ix2 r q)) = V c main_v34 (ix2 ⟨t.val * 4000 + r.val, row_lt t r⟩ q)
  refine congrArg (V c main_v34) ?_
  funext a; apply Fin.ext
  match a with
  | ⟨0, _⟩ => show win2_1.index t (0 : Fin 2) * 4000 + 1 * r.val = t.val * 4000 + r.val; omega
  | ⟨1, _⟩ => show win2_1.index t (1 : Fin 2) * 64 + 1 * q.val = q.val; omega

/-- Row r of the self-loop weights' block at point t is row 4000·t + r of the column. -/
theorem blk2_apply (c : Dev nD) (t : Fin cfg2.N) (r : Fin 4000) :
    (iblk2 (F := Ideal) V c 2 t : Vec Ideal S4000x1 .f32) (ix2 r (0 : Fin 1)) = (V c main_v32 : SN1.Idx → EReal) (ix2 ⟨t.val * 4000 + r.val, row_lt t r⟩ (0 : Fin 1)) := by
  obtain ⟨-, -, -, -, e0, e1, -⟩ := idx_facts t
  show V c main_v32 (((cfg2.win 2).blk t).view.emb (ix2 r (0 : Fin 1))) = V c main_v32 (ix2 ⟨t.val * 4000 + r.val, row_lt t r⟩ (0 : Fin 1))
  refine congrArg (V c main_v32) ?_
  funext a; apply Fin.ext
  match a with
  | ⟨0, _⟩ => show win2_2.index t (0 : Fin 2) * 4000 + 1 * r.val = t.val * 4000 + r.val; omega
  | ⟨1, _⟩ => show win2_2.index t (1 : Fin 2) * 1 + 1 * 0 = 0; omega

/-- The bias window's block is the whole row at every point. -/
theorem blk3_apply (c : Dev nD) (t : Fin cfg2.N) (q : Fin 64) :
    (iblk2 (F := Ideal) V c 3 t : Vec Ideal S1x64 .f32) (ix2 (0 : Fin 1) q) = (V c main_v48 : S1D.Idx → EReal) (ix2 (0 : Fin 1) q) := by
  obtain ⟨-, -, -, -, -, -, e0, e1, -⟩ := idx_facts t
  show V c main_v48 (((cfg2.win 3).blk t).view.emb (ix2 (0 : Fin 1) q)) = V c main_v48 (ix2 (0 : Fin 1) q)
  refine congrArg (V c main_v48) ?_
  funext a; apply Fin.ext
  match a with
  | ⟨0, _⟩ => show win2_3.index t (0 : Fin 2) * 1 + 1 * 0 = 0; omega
  | ⟨1, _⟩ => show win2_3.index t (1 : Fin 2) * 64 + 1 * q.val = q.val; omega

/-! ## The combined block of a point -/

/-- The block the body combines at point t. -/
def B (c : Dev nD) (t : Fin cfg2.N) : FVec Ideal S4000x64 .f32 :=
  k2_pay3 (F := Ideal) (iblk2 V c 0 t) (iblk2 V c 1 t) (iblk2 V c 2 t) (iblk2 V c 3 t)

/-- Row r of the combined block at point t is row 4000·t + r of A. -/
theorem B_apply (c : Dev nD) (t : Fin cfg2.N) (r : Fin 4000) (q : Fin 64) :
    B V c t (ix2 r q) = A V c (ix2 ⟨t.val * 4000 + r.val, row_lt t r⟩ q) := by
  unfold B
  refine (pay3_apply (iblk2 V c 0 t) (iblk2 V c 1 t) (iblk2 V c 2 t) (iblk2 V c 3 t) r q).trans ?_
  rw [blk0_apply V c t r q, blk1_apply V c t r q, blk2_apply V c t r, blk3_apply V c t q]
  rfl

/-- What the first output's buffer holds after point t: the combined block. -/
theorem out4_eq (c : Dev nD) (t : Fin cfg2.N) : (outsAt2 V c t.val t.isLt).1 = B V c t := by
  unfold B
  by_cases h0 : t.val % 25 = 0
  · rw [outsAt2_A V c t h0]
    dsimp only
    exact out_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)
  · rw [outsAt2_B V c t h0]
    dsimp only
    exact out_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) _ _

/-! ## The running rows -/

/-- The column sum of the block at point n (zero past the grid). -/
def blockSum (c : Dev nD) (q : Fin 64) (n : ℕ) : EReal :=
  if h : n < cfg2.N then ∑ r : Fin 4000, B V c ⟨n, h⟩ (ix2 r q) else 0

/-- The column sum of squares of the block at point n (zero past the grid). -/
def blockSumSq (c : Dev nD) (q : Fin 64) (n : ℕ) : EReal :=
  if h : n < cfg2.N then ∑ r : Fin 4000, B V c ⟨n, h⟩ (ix2 r q) * B V c ⟨n, h⟩ (ix2 r q) else 0

/-- After point n the running column sum is the sum of the column sums of blocks 0 … n. -/
theorem sum_upto (c : Dev nD) (z : Fin 1) (q : Fin 64) : ∀ (n : ℕ) (h : n < cfg2.N),
    (outsAt2 V c n h).2.1 (ix2 z q) = ∑ i ∈ Finset.range (n + 1), blockSum V c q i
  | 0, h => by
    rw [outsAt2_A V c ⟨0, h⟩ rfl]
    dsimp only
    rw [out_A_5 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩)]
    refine (pay4_apply (iblk2 V c 0 ⟨0, h⟩) (iblk2 V c 1 ⟨0, h⟩) (iblk2 V c 2 ⟨0, h⟩) (iblk2 V c 3 ⟨0, h⟩) (k2_pay1 (F := Ideal)) z q).trans ?_
    rw [pay1_apply, zero_add, Finset.sum_range_one]
    unfold blockSum B
    rw [dif_pos h]
  | n + 1, h => by
    have hN : cfg2.N = 25 := N_2
    have hB : ¬(⟨n + 1, h⟩ : Fin cfg2.N).val % 25 = 0 := by dsimp only; omega
    rw [outsAt2_B V c ⟨n + 1, h⟩ hB]
    dsimp only
    rw [out_B_5 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (fun h' => hB ((hcond2_0 ⟨n + 1, h⟩).mp h')) (iblk2 V c 0 ⟨n + 1, h⟩) (iblk2 V c 1 ⟨n + 1, h⟩) (iblk2 V c 2 ⟨n + 1, h⟩) (iblk2 V c 3 ⟨n + 1, h⟩) _ _]
    refine (pay4_apply (iblk2 V c 0 ⟨n + 1, h⟩) (iblk2 V c 1 ⟨n + 1, h⟩) (iblk2 V c 2 ⟨n + 1, h⟩) (iblk2 V c 3 ⟨n + 1, h⟩) _ z q).trans ?_
    rw [Finset.sum_range_succ _ (n + 1)]
    refine congrArg₂ (· + ·) ?_ ?_
    · exact sum_upto c z q n (Nat.lt_of_succ_lt h)
    · unfold blockSum B
      rw [dif_pos h]

/-- After point n the running column sum of squares is the sum of those of blocks 0 … n. -/
theorem sumsq_upto (c : Dev nD) (z : Fin 1) (q : Fin 64) : ∀ (n : ℕ) (h : n < cfg2.N),
    (outsAt2 V c n h).2.2 (ix2 z q) = ∑ i ∈ Finset.range (n + 1), blockSumSq V c q i
  | 0, h => by
    rw [outsAt2_A V c ⟨0, h⟩ rfl]
    dsimp only
    rw [out_A_6 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩)]
    refine (pay5_apply (iblk2 V c 0 ⟨0, h⟩) (iblk2 V c 1 ⟨0, h⟩) (iblk2 V c 2 ⟨0, h⟩) (iblk2 V c 3 ⟨0, h⟩) (k2_pay2 (F := Ideal)) z q).trans ?_
    rw [pay2_apply, zero_add, Finset.sum_range_one]
    unfold blockSumSq B
    rw [dif_pos h]
  | n + 1, h => by
    have hN : cfg2.N = 25 := N_2
    have hB : ¬(⟨n + 1, h⟩ : Fin cfg2.N).val % 25 = 0 := by dsimp only; omega
    rw [outsAt2_B V c ⟨n + 1, h⟩ hB]
    dsimp only
    rw [out_B_6 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (fun h' => hB ((hcond2_0 ⟨n + 1, h⟩).mp h')) (iblk2 V c 0 ⟨n + 1, h⟩) (iblk2 V c 1 ⟨n + 1, h⟩) (iblk2 V c 2 ⟨n + 1, h⟩) (iblk2 V c 3 ⟨n + 1, h⟩) _ _]
    refine (pay5_apply (iblk2 V c 0 ⟨n + 1, h⟩) (iblk2 V c 1 ⟨n + 1, h⟩) (iblk2 V c 2 ⟨n + 1, h⟩) (iblk2 V c 3 ⟨n + 1, h⟩) _ z q).trans ?_
    rw [Finset.sum_range_succ _ (n + 1)]
    refine congrArg₂ (· + ·) ?_ ?_
    · exact sumsq_upto c z q n (Nat.lt_of_succ_lt h)
    · unfold blockSumSq B
      rw [dif_pos h]

/-- The 25 blocks of 4000 rows are all 100000 rows: the blocks' column sums add up to the column sum of A. -/
theorem blocks_sum (c : Dev nD) (q : Fin 64) :
    ∑ i ∈ Finset.range 25, blockSum V c q i = ∑ p : Fin 100000, A V c (ix2 p q) := by
  have hN : cfg2.N = 25 := N_2
  rw [Finset.sum_range, Cert.Lib.TileSum.sum_tiles_fin 100000 25 4000 rfl (fun p => A V c (ix2 p q))]
  refine Finset.sum_congr rfl fun j _ => ?_
  have hj : j.val < cfg2.N := by have := j.isLt; omega
  unfold blockSum
  rw [dif_pos hj]
  exact Finset.sum_congr rfl fun r _ => B_apply V c ⟨j.val, hj⟩ r q

theorem blocks_sumsq (c : Dev nD) (q : Fin 64) :
    ∑ i ∈ Finset.range 25, blockSumSq V c q i = ∑ p : Fin 100000, A V c (ix2 p q) * A V c (ix2 p q) := by
  have hN : cfg2.N = 25 := N_2
  rw [Finset.sum_range, Cert.Lib.TileSum.sum_tiles_fin 100000 25 4000 rfl (fun p => A V c (ix2 p q) * A V c (ix2 p q))]
  refine Finset.sum_congr rfl fun j _ => ?_
  have hj : j.val < cfg2.N := by have := j.isLt; omega
  unfold blockSumSq
  rw [dif_pos hj]
  exact Finset.sum_congr rfl fun r _ => by rw [B_apply V c ⟨j.val, hj⟩ r q]

/-- After the last point the running column sum is the column sum of A. -/
theorem sum_last (c : Dev nD) (t : Fin cfg2.N) (ht : t.val = 24) :
    (outsAt2 V c t.val t.isLt).2.1 = Cert.Gcn.colSum (A V c) := by
  funext j
  obtain ⟨z, q, rfl⟩ : ∃ (z : Fin 1) (q : Fin 64), j = ix2 z q := ⟨j 0, j 1, eq_ix2 j⟩
  rw [sum_upto V c z q t.val t.isLt, ht, blocks_sum V c q]
  rfl

theorem sumsq_last (c : Dev nD) (t : Fin cfg2.N) (ht : t.val = 24) :
    (outsAt2 V c t.val t.isLt).2.2 = Cert.Gcn.colSumSq (A V c) := by
  funext j
  obtain ⟨z, q, rfl⟩ : ∃ (z : Fin 1) (q : Fin 64), j = ix2 z q := ⟨j 0, j 1, eq_ix2 j⟩
  rw [sumsq_upto V c z q t.val t.isLt, ht, blocks_sumsq V c q]
  rfl

/-! ## From blocks to the arrays -/

/-- Point t writes back block t of A. -/
theorem B_read (c : Dev nD) (t : Fin cfg2.N) (y : S4000x64.Idx) :
    B V c t y = A V c (((cfg2.win 4).blk t).view.emb y) := by
  obtain ⟨r, q, rfl⟩ : ∃ (r : Fin 4000) (q : Fin 64), y = ix2 r q := ⟨y 0, y 1, eq_ix2 y⟩
  obtain ⟨-, -, -, -, -, -, -, -, e0, e1, -⟩ := idx_facts t
  refine (B_apply V c t r q).trans (congrArg (A V c) ?_)
  funext a; apply Fin.ext
  match a with
  | ⟨0, _⟩ => show t.val * 4000 + r.val = win2_4.index t (0 : Fin 2) * 4000 + 1 * r.val; omega
  | ⟨1, _⟩ => show q.val = win2_4.index t (1 : Fin 2) * 64 + 1 * q.val; omega

theorem flushed4_eq (c : Dev nD) (t : Fin cfg2.N) :
    (dat2 V c).flushed 4 t = ((cfg2.win 4).blk t).view.read (Elt Ideal) (A V c) := by
  show (cfg2.win 4).cut (grid2.coords t) ((dat2 V c).after 4 t) = _
  rw [after2_4, out4_eq]
  funext j
  exact B_read V c t j

/-- An index of the array is in point t's block iff each coordinate is in the block's range on its axis. -/
theorem mem_blk4 (t : Fin cfg2.N) (i : SND.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v49_0).slice (win2_4.rect t)).set ↔ _
  rw [View.set_slice_whole, Rect.mem_set_unit]
  exact Iff.rfl

/-- Row p lies in the block of point p / 4000. -/
theorem cover4 (i : SND.Idx) : ∃ t : Fin cfg2.N, (cfg2.win 4).flush t = true ∧ i ∈ ((cfg2.win 4).blk t).view.set := by
  have hN : cfg2.N = 25 := N_2
  have hi0 : (i 0).val < 100000 := (i 0).isLt
  have hi1 : (i 1).val < 64 := (i 1).isLt
  have ht : (i 0).val / 4000 < cfg2.N := by omega
  obtain ⟨-, -, -, -, -, -, -, -, e0, e1, -⟩ := idx_facts ⟨(i 0).val / 4000, ht⟩
  have e0' : win2_4.index ⟨(i 0).val / 4000, ht⟩ (0 : Fin 2) = (i 0).val / 4000 := e0
  refine ⟨⟨(i 0).val / 4000, ht⟩, flush2_4 _, ?_⟩
  rw [mem_blk4]
  intro a
  match a with
  | ⟨0, _⟩ => show win2_4.index ⟨(i 0).val / 4000, ht⟩ (0 : Fin 2) * 4000 ≤ (i 0).val ∧ (i 0).val < win2_4.index ⟨(i 0).val / 4000, ht⟩ (0 : Fin 2) * 4000 + 4000; omega
  | ⟨1, _⟩ => show win2_4.index ⟨(i 0).val / 4000, ht⟩ (1 : Fin 2) * 64 ≤ (i 1).val ∧ (i 1).val < win2_4.index ⟨(i 0).val / 4000, ht⟩ (1 : Fin 2) * 64 + 64; omega

/-- The first output array after the region: the combined layer input. -/
theorem comb_value (c : Dev nD) : (dat2 (F := Ideal) V c).arrAt 4 cfg2.N = A V c :=
  (dat2 V c).arrAt_eq_of_cover 4 (A V c) (fun t _ => flushed4_eq V c t) (cover4)

/-- The one write-back of the running column sum, after the last point: its block is the whole row array. -/
theorem flushed5_eq (c : Dev nD) (t : Fin cfg2.N) (hf : (cfg2.win 5).flush t = true) :
    (dat2 V c).flushed 5 t = ((cfg2.win 5).blk t).view.read (Elt Ideal) (Cert.Gcn.colSum (A V c)) := by
  have hN : cfg2.N = 25 := N_2
  have h24 : t.val = 24 := by have := (flush2_5 t).mp hf; have := t.isLt; omega
  show (cfg2.win 5).cut (grid2.coords t) ((dat2 V c).after 5 t) = _
  rw [after2_5, sum_last V c t h24]
  obtain ⟨-, -, -, -, -, -, -, -, -, -, e0, e1, -⟩ := idx_facts t
  have hz' : (fun a => win2_5.index t a * main_v49_1.ty.shape.size a) = fun _ => 0 := funext fun a => by
    match a with
    | ⟨0, _⟩ => show win2_5.index t (0 : Fin 2) * 1 = 0; omega
    | ⟨1, _⟩ => show win2_5.index t (1 : Fin 2) * 64 = 0; omega
  exact (Memref.read_access_unit_zero (Elt Ideal) main_v49_1 hz' (fun a => by rw [congrFun hz' a]; simp) (Cert.Gcn.colSum (A V c))).symm

theorem flushed6_eq (c : Dev nD) (t : Fin cfg2.N) (hf : (cfg2.win 6).flush t = true) :
    (dat2 V c).flushed 6 t = ((cfg2.win 6).blk t).view.read (Elt Ideal) (Cert.Gcn.colSumSq (A V c)) := by
  have hN : cfg2.N = 25 := N_2
  have h24 : t.val = 24 := by have := (flush2_6 t).mp hf; have := t.isLt; omega
  show (cfg2.win 6).cut (grid2.coords t) ((dat2 V c).after 6 t) = _
  rw [after2_6, sumsq_last V c t h24]
  obtain ⟨-, -, -, -, -, -, -, -, -, -, -, -, e0, e1⟩ := idx_facts t
  have hz' : (fun a => win2_6.index t a * main_v49_2.ty.shape.size a) = fun _ => 0 := funext fun a => by
    match a with
    | ⟨0, _⟩ => show win2_6.index t (0 : Fin 2) * 1 = 0; omega
    | ⟨1, _⟩ => show win2_6.index t (1 : Fin 2) * 64 = 0; omega
  exact (Memref.read_access_unit_zero (Elt Ideal) main_v49_2 hz' (fun a => by rw [congrFun hz' a]; simp) (Cert.Gcn.colSumSq (A V c))).symm

/-- The last point's block of a running row covers the whole 1 × 64 array. -/
theorem cover5 (i : S1D.Idx) : ∃ t : Fin cfg2.N, (cfg2.win 5).flush t = true ∧ i ∈ ((cfg2.win 5).blk t).view.set := by
  have hN : cfg2.N = 25 := N_2
  have ht : 24 < cfg2.N := by omega
  have hi0 : (i 0).val < 1 := (i 0).isLt
  have hi1 : (i 1).val < 64 := (i 1).isLt
  obtain ⟨-, -, -, -, -, -, -, -, -, -, e0, e1, -⟩ := idx_facts ⟨24, ht⟩
  refine ⟨⟨24, ht⟩, (flush2_5 _).mpr rfl, ?_⟩
  show i ∈ ((View.whole main_v49_1).slice (win2_5.rect ⟨24, ht⟩)).set
  rw [View.set_slice_whole, Rect.mem_set_unit]
  intro a
  match a with
  | ⟨0, _⟩ => show win2_5.index ⟨24, ht⟩ (0 : Fin 2) * 1 ≤ (i 0).val ∧ (i 0).val < win2_5.index ⟨24, ht⟩ (0 : Fin 2) * 1 + 1; omega
  | ⟨1, _⟩ => show win2_5.index ⟨24, ht⟩ (1 : Fin 2) * 64 ≤ (i 1).val ∧ (i 1).val < win2_5.index ⟨24, ht⟩ (1 : Fin 2) * 64 + 64; omega

theorem cover6 (i : S1D.Idx) : ∃ t : Fin cfg2.N, (cfg2.win 6).flush t = true ∧ i ∈ ((cfg2.win 6).blk t).view.set := by
  have hN : cfg2.N = 25 := N_2
  have ht : 24 < cfg2.N := by omega
  have hi0 : (i 0).val < 1 := (i 0).isLt
  have hi1 : (i 1).val < 64 := (i 1).isLt
  obtain ⟨-, -, -, -, -, -, -, -, -, -, -, -, e0, e1⟩ := idx_facts ⟨24, ht⟩
  refine ⟨⟨24, ht⟩, (flush2_6 _).mpr rfl, ?_⟩
  show i ∈ ((View.whole main_v49_2).slice (win2_6.rect ⟨24, ht⟩)).set
  rw [View.set_slice_whole, Rect.mem_set_unit]
  intro a
  match a with
  | ⟨0, _⟩ => show win2_6.index ⟨24, ht⟩ (0 : Fin 2) * 1 ≤ (i 0).val ∧ (i 0).val < win2_6.index ⟨24, ht⟩ (0 : Fin 2) * 1 + 1; omega
  | ⟨1, _⟩ => show win2_6.index ⟨24, ht⟩ (1 : Fin 2) * 64 ≤ (i 1).val ∧ (i 1).val < win2_6.index ⟨24, ht⟩ (1 : Fin 2) * 64 + 64; omega

/-- The second output array after the region: the column sums of the combined layer input. -/
theorem sum_value (c : Dev nD) : (dat2 (F := Ideal) V c).arrAt 5 cfg2.N = Cert.Gcn.colSum (A V c) :=
  (dat2 V c).arrAt_eq_of_cover 5 (Cert.Gcn.colSum (A V c)) (flushed5_eq V c) cover5

/-- The third output array after the region: the column sums of squares of the combined layer input. -/
theorem sumsq_value (c : Dev nD) : (dat2 (F := Ideal) V c).arrAt 6 cfg2.N = Cert.Gcn.colSumSq (A V c) :=
  (dat2 V c).arrAt_eq_of_cover 6 (Cert.Gcn.colSumSq (A V c)) (flushed6_eq V c) cover6

end Cert.Gcn.Reg2

/-! ## The three outputs, in the shared specification's words -/

namespace Cert.Gcn.Reg

open Cert.KernelIdeal Cert.KernelIdeal.Gen Idealize.ShloMosaic Idealize.ShloMosaic.ValueIdx
open Idealize.ShloMosaic.TcCoe Idealize.SL.Sem

theorem comb2_value (V : (c : Dev nD) → (b : Ref sig .tc) → Buf (Elt Ideal) ((c : Thread nD τ).loc b)) (c : Dev nD) :
    (Gen.dat2 (F := Ideal) V c).arrAt 4 cfg2.N
      = Cert.Gcn.comb (V c main_v47) (V c main_v34) (V c main_v32) (V c main_v48) :=
  Cert.Gcn.Reg2.comb_value V c

theorem sum2_value (V : (c : Dev nD) → (b : Ref sig .tc) → Buf (Elt Ideal) ((c : Thread nD τ).loc b)) (c : Dev nD) :
    (Gen.dat2 (F := Ideal) V c).arrAt 5 cfg2.N
      = Cert.Gcn.colSum (Cert.Gcn.comb (V c main_v47) (V c main_v34) (V c main_v32) (V c main_v48)) :=
  Cert.Gcn.Reg2.sum_value V c

theorem sumsq2_value (V : (c : Dev nD) → (b : Ref sig .tc) → Buf (Elt Ideal) ((c : Thread nD τ).loc b)) (c : Dev nD) :
    (Gen.dat2 (F := Ideal) V c).arrAt 6 cfg2.N
      = Cert.Gcn.colSumSq (Cert.Gcn.comb (V c main_v47) (V c main_v34) (V c main_v32) (V c main_v48)) :=
  Cert.Gcn.Reg2.sumsq_value V c

end Cert.Gcn.Reg

end
-- ==== Proof.RegComb5a.lean ====
/-
  The arithmetic of one point of the combine-and-statistics body, read index by index on the extended reals.

  One point holds a block of 4000 rows.  With e, h the block's rows of the edge sums and of the node features, s the
  rows' self-loop weights (one per row) and b the bias row, the body forms

      y[r, q] = (e[r, q] + h[r, q] · s[r, 0]) + b[0, q],

  stores y, and adds to the two running rows their share of the block: Σ_r y[r, q] and Σ_r y[r, q]².
-/
import proofs.«132265_j53532472378064_1_alg».proof.Proof.Gen.KernelIdeal.Skeleton
import Idealize.ShloMosaic.Lib.ValueLayout
import Idealize.ShloMosaic.PureOps.Ideal.Laws

noncomputable section

open scoped BigOperators

namespace Cert.Gcn.Reg5

open Cert.KernelIdeal Cert.KernelIdeal.Gen Idealize.ShloMosaic Idealize.ShloMosaic.ValueIdx

/-- A column [a, 1] broadcast along the second axis reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The combined block at (r, q). -/
theorem pay3_apply (x0 x1 : Vec Ideal S4000x64 .f32) (x2 : Vec Ideal S4000x1 .f32) (x3 : Vec Ideal S1x64 .f32)
    (r : Fin 4000) (q : Fin 64) :
    k5_pay3 (F := Ideal) x0 x1 x2 x3 (ix2 r q)
      = (x0 (ix2 r q) + x1 (ix2 r q) * x2 (ix2 r (0 : Fin 1))) + x3 (ix2 (0 : Fin 1) q) := by
  unfold k5_pay3
  show (shapeCast S4000x64 x0 shapeCasts_S4000x64_S4000x64 (ix2 r q)
      + shapeCast S4000x64 x1 shapeCasts_S4000x64_S4000x64 (ix2 r q)
        * broadcastTo S4000x64 (shapeCast S4000x1 x2 shapeCasts_S4000x1_S4000x1) broadcasts_S4000x1_S4000x64 (ix2 r q))
      + broadcastTo S4000x64 (shapeCast S1x64 x3 shapeCasts_S1x64_S1x64) broadcasts_S1x64_S4000x64 (ix2 r q) = _
  rw [shapeCast_self, shapeCast_self, shapeCast_self, shapeCast_self]
  rw [broadcastTo_a1_ab_apply, broadcastTo_1b_ab_apply]

/-- Index (r, q) of the block is what the column reduction at q meets at row r. -/
theorem lift_eq (q : Fin 64) (r : Fin 4000) :
    reduces_S4000x64_S64.lift (ix1 q) r = ix2 r q := by
  funext a
  apply Fin.ext
  match a with
  | ⟨0, _⟩ => rfl
  | ⟨1, _⟩ => rfl

/-- The column sum of a block of 4000 rows, as a row [1, 64], at (z, q). -/
theorem colsum_block (src : FVec Ideal S4000x64 .f32) (hφ : FKind.Formats .f32)
    (hacc : (0x00000000#32 : BitVec 32) = FKind.add.neutral .f32 hφ) (z : Fin 1) (q : Fin 64) :
    shapeCast S1x64 (multiReduction .add [0] S64 src 0x00000000#32 reduces_S4000x64_S64 hφ hacc) shapeCasts_S64_S1x64 (ix2 z q)
      = ∑ r : Fin 4000, src (ix2 r q) := by
  refine (shapeCast_a_1a_apply _ shapeCasts_S64_S1x64 z q).trans ?_
  refine (Ideal.multiReduction_add_single src 0x00000000#32 reduces_S4000x64_S64 hφ hacc (ix1 q)).trans ?_
  exact Finset.sum_congr rfl fun r _ => congrArg src (lift_eq q r)

/-- The running column sum after a point: what it was plus the block's column sum. -/
theorem pay4_apply (x0 x1 : Vec Ideal S4000x64 .f32) (x2 : Vec Ideal S4000x1 .f32) (x3 : Vec Ideal S1x64 .f32)
    (acc : Vec Ideal S1x64 .f32) (z : Fin 1) (q : Fin 64) :
    k5_pay4 (F := Ideal) x0 x1 x2 x3 acc (ix2 z q)
      = acc (ix2 z q) + ∑ r : Fin 4000, k5_pay3 (F := Ideal) x0 x1 x2 x3 (ix2 r q) := by
  unfold k5_pay4
  show shapeCast S1x64 acc shapeCasts_S1x64_S1x64 (ix2 z q)
      + shapeCast S1x64 (multiReduction .add [0] S64 (k5_pay3 (F := Ideal) x0 x1 x2 x3) 0x00000000#32 reduces_S4000x64_S64 (.inl rfl) rfl)
          shapeCasts_S64_S1x64 (ix2 z q) = _
  rw [shapeCast_self]
  exact congrArg (acc (ix2 z q) + ·) (colsum_block _ _ _ z q)

/-- The running column sum of squares after a point: what it was plus the block's column sum of squares. -/
theorem pay5_apply (x0 x1 : Vec Ideal S4000x64 .f32) (x2 : Vec Ideal S4000x1 .f32) (x3 : Vec Ideal S1x64 .f32)
    (acc : Vec Ideal S1x64 .f32) (z : Fin 1) (q : Fin 64) :
    k5_pay5 (F := Ideal) x0 x1 x2 x3 acc (ix2 z q)
      = acc (ix2 z q) + ∑ r : Fin 4000, k5_pay3 (F := Ideal) x0 x1 x2 x3 (ix2 r q) * k5_pay3 (F := Ideal) x0 x1 x2 x3 (ix2 r q) := by
  unfold k5_pay5
  show shapeCast S1x64 acc shapeCasts_S1x64_S1x64 (ix2 z q)
      + shapeCast S1x64 (multiReduction .add [0] S64 (mulf (k5_pay3 (F := Ideal) x0 x1 x2 x3) (k5_pay3 (F := Ideal) x0 x1 x2 x3))
          0x00000000#32 reduces_S4000x64_S64 (.inl rfl) rfl) shapeCasts_S64_S1x64 (ix2 z q) = _
  rw [shapeCast_self]
  exact congrArg (acc (ix2 z q) + ·) (colsum_block _ _ _ z q)

/-- The row stored at the first point, before anything is added, is zero. -/
theorem pay1_apply (z : Fin 1) (q : Fin 64) : k5_pay1 (F := Ideal) (ix2 z q) = 0 :=
  Ideal.ofBits_zero_f32

theorem pay2_apply (z : Fin 1) (q : Fin 64) : k5_pay2 (F := Ideal) (ix2 z q) = 0 :=
  Ideal.ofBits_zero_f32

end Cert.Gcn.Reg5

end
-- ==== Proof.RegComb5b.lean ====
/-
  What one point of the combine-and-statistics body leaves in its three output blocks, for the two kinds of point:
  the first point stores zero rows into the two running rows before it adds to them; every later point adds to what
  the point before left.  In both, the stored block is the combined block of the point's rows, and each running row
  ends as its value before the point plus the block's column sum (of the entries, or of their squares).
-/
import proofs.«132265_j53532472378064_1_alg».proof.Proof.Gen.KernelIdeal.Frame
import Idealize.ShloMosaic.Lib.Pipeline.Value
import Idealize.ShloMosaic.Lib.Tactic
import Idealize.ShloMosaic.Lib.ValueLayout

noncomputable section

namespace Cert.Gcn.Reg5

open Cert.KernelIdeal Cert.KernelIdeal.Gen Idealize.ShloMosaic Idealize.ShloMosaic.ValueIdx
open Idealize.ShloMosaic.TcCoe Idealize.SL.Sem

variable {F : FTy → Type} [FloatOps F]

theorem hz : (![0, 0] : Fin 2 → Nat) = fun _ => 0 := funext fun a => by fin_cases a <;> rfl

/-- After a later point the stored block is the combined block of the point's rows. -/
theorem out_B_4 (c : Dev nD) (i : grid5.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : ¬cond5_0 i) (x0 : Vec F S4000x64 .f32) (x1 : Vec F S4000x64 .f32) (x2 : Vec F S4000x1 .f32) (x3 : Vec F S1x64 .f32) (xo5 xo6 : Vec F S1x64 .f32) :
    out5_B_4 c i arg1 harg1 arg2 harg2 arg3 harg3 arg4 harg4 arg5 harg5 arg6 harg6 arg7 harg7 hc0 x0 x1 x2 x3 xo5 xo6 = k5_pay3 x0 x1 x2 x3 := by
  unfold out5_B_4
  rw [View.read_writes_eq_canon _ _ _ (cover5_B_4 c i arg1 harg1 arg2 harg2 arg3 harg3 arg4 harg4 arg5 harg5 arg6 harg6 arg7 harg7 hc0 x0 x1 x2 x3 xo5 xo6)]
  unfold kernelRun5_B
  dsimp only
  rw [View.canon_unit_zero hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- After a later point the running column sum is what the point found plus the block's column sum. -/
theorem out_B_5 (c : Dev nD) (i : grid5.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : ¬cond5_0 i) (x0 : Vec F S4000x64 .f32) (x1 : Vec F S4000x64 .f32) (x2 : Vec F S4000x1 .f32) (x3 : Vec F S1x64 .f32) (xo5 xo6 : Vec F S1x64 .f32) :
    out5_B_5 c i arg1 harg1 arg2 harg2 arg3 harg3 arg4 harg4 arg5 harg5 arg6 harg6 arg7 harg7 hc0 x0 x1 x2 x3 xo5 xo6 = k5_pay4 x0 x1 x2 x3 xo5 := by
  unfold out5_B_5
  rw [View.read_writes_eq_canon _ _ _ (cover5_B_5 c i arg1 harg1 arg2 harg2 arg3 harg3 arg4 harg4 arg5 harg5 arg6 harg6 arg7 harg7 hc0 x0 x1 x2 x3 xo5 xo6)]
  unfold kernelRun5_B
  dsimp only
  rw [View.canon_unit_zero hz]
  simp only [View.readAt_eq_ld, harg1.read_unread, harg2.read_unread, harg3.read_unread, harg4.read_unread, harg6.read_unread,
    View.ld_unit_zero (S := S4000x64) hz, View.ld_unit_zero (S := S4000x1) hz, View.ld_unit_zero (S := S1x64) hz]

/-- After a later point the running column sum of squares is what the point found plus the block's. -/
theorem out_B_6 (c : Dev nD) (i : grid5.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : ¬cond5_0 i) (x0 : Vec F S4000x64 .f32) (x1 : Vec F S4000x64 .f32) (x2 : Vec F S4000x1 .f32) (x3 : Vec F S1x64 .f32) (xo5 xo6 : Vec F S1x64 .f32) :
    out5_B_6 c i arg1 harg1 arg2 harg2 arg3 harg3 arg4 harg4 arg5 harg5 arg6 harg6 arg7 harg7 hc0 x0 x1 x2 x3 xo5 xo6 = k5_pay5 x0 x1 x2 x3 xo6 := by
  unfold out5_B_6
  rw [View.read_writes_eq_canon _ _ _ (cover5_B_6 c i arg1 harg1 arg2 harg2 arg3 harg3 arg4 harg4 arg5 harg5 arg6 harg6 arg7 harg7 hc0 x0 x1 x2 x3 xo5 xo6)]
  unfold kernelRun5_B
  dsimp only
  rw [View.canon_unit_zero hz]
  simp only [View.readAt_eq_ld, harg1.read_unread, harg2.read_unread, harg3.read_unread, harg4.read_unread, harg7.read_unread,
    View.ld_unit_zero (S := S4000x64) hz, View.ld_unit_zero (S := S4000x1) hz, View.ld_unit_zero (S := S1x64) hz]

/-- After the first point the stored block is the combined block of the point's rows. -/
theorem out_A_4 (c : Dev nD) (i : grid5.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : cond5_0 i) (x0 : Vec F S4000x64 .f32) (x1 : Vec F S4000x64 .f32) (x2 : Vec F S4000x1 .f32) (x3 : Vec F S1x64 .f32) :
    out5_A_4 c i arg1 harg1 arg2 harg2 arg3 harg3 arg4 harg4 arg5 harg5 arg6 harg6 arg7 harg7 hc0 x0 x1 x2 x3 = k5_pay3 x0 x1 x2 x3 := by
  unfold out5_A_4
  rw [View.read_writes_eq_canon _ _ _ (cover5_A_4 c i arg1 harg1 arg2 harg2 arg3 harg3 arg4 harg4 arg5 harg5 arg6 harg6 arg7 harg7 hc0 x0 x1 x2 x3)]
  unfold kernelRun5_A
  dsimp only
  rw [View.canon_unit_zero hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- After the first point the running column sum is the zero row plus the block's column sum. -/
theorem out_A_5 (c : Dev nD) (i : grid5.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : cond5_0 i) (x0 : Vec F S4000x64 .f32) (x1 : Vec F S4000x64 .f32) (x2 : Vec F S4000x1 .f32) (x3 : Vec F S1x64 .f32) :
    out5_A_5 c i arg1 harg1 arg2 harg2 arg3 harg3 arg4 harg4 arg5 harg5 arg6 harg6 arg7 harg7 hc0 x0 x1 x2 x3 = k5_pay4 x0 x1 x2 x3 k5_pay1 := by
  unfold out5_A_5
  rw [View.read_writes_eq_canon _ _ _ (cover5_A_5 c i arg1 harg1 arg2 harg2 arg3 harg3 arg4 harg4 arg5 harg5 arg6 harg6 arg7 harg7 hc0 x0 x1 x2 x3)]
  unfold kernelRun5_A
  dsimp only
  sl_unfold_words

  rw [View.canon_cons_unit_zero (S := S1x64) hz, View.readCov_unit_zero (S := S1x64) _ hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

/-- After the first point the running column sum of squares is the zero row plus the block's. -/
theorem out_A_6 (c : Dev nD) (i : grid5.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S4000x64 .f32) (harg5 : arg5.IsWhole) (arg6 : Memref sig .tc .vmem S1x64 .f32) (harg6 : arg6.IsWhole) (arg7 : Memref sig .tc .vmem S1x64 .f32) (harg7 : arg7.IsWhole) (hc0 : cond5_0 i) (x0 : Vec F S4000x64 .f32) (x1 : Vec F S4000x64 .f32) (x2 : Vec F S4000x1 .f32) (x3 : Vec F S1x64 .f32) :
    out5_A_6 c i arg1 harg1 arg2 harg2 arg3 harg3 arg4 harg4 arg5 harg5 arg6 harg6 arg7 harg7 hc0 x0 x1 x2 x3 = k5_pay5 x0 x1 x2 x3 k5_pay2 := by
  unfold out5_A_6
  rw [View.read_writes_eq_canon _ _ _ (cover5_A_6 c i arg1 harg1 arg2 harg2 arg3 harg3 arg4 harg4 arg5 harg5 arg6 harg6 arg7 harg7 hc0 x0 x1 x2 x3)]
  unfold kernelRun5_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread,
    View.ld_unit_zero (S := S4000x64) hz, View.ld_unit_zero (S := S4000x1) hz, View.ld_unit_zero (S := S1x64) hz]

end Cert.Gcn.Reg5

end
-- ==== Proof.RegComb5.lean ====
/-
  The combine-and-statistics region as whole arrays on the extended reals.

  The grid has 25 points; point t holds rows 4000·t … 4000·t + 3999 of the 100000 nodes.  With e the edge sums,
  h the node features, s the self-loop weights and b the bias row, write A = comb e h s b, so
  A[p, q] = (e[p, q] + h[p, q] · s[p, 0]) + b[0, q].

  * Every point stores its 4000 rows of A; the 25 blocks tile the array, so the first output ends as A.
  * The two running rows start from zero at point 0 and every point adds its block's column sums, Σ_r A[4000·t + r, q]
    and Σ_r A[4000·t + r, q]².  Only associativity and commutativity of + on the extended reals, and 0 + x = x, are
    used: after point t a running row holds the sum over the rows of blocks 0 … t, and after the last point the 25
    blocks of 4000 rows regroup into the sum over all 100000 rows.  The rows are written back once, after the last
    point, and their block is the whole 1 × 64 array.
-/
import proofs.«132265_j53532472378064_1_alg».proof.Proof.Gen.KernelIdeal.Frame
import proofs.«132265_j53532472378064_1_alg».proof.Proof.Spec
import proofs.«132265_j53532472378064_1_alg».proof.Proof.LibTileSum
import proofs.«132265_j53532472378064_1_alg».proof.Proof.RegComb5a
import proofs.«132265_j53532472378064_1_alg».proof.Proof.RegComb5b
import Idealize.ShloMosaic.Lib.Pipeline.Value
import Idealize.ShloMosaic.Lib.ValueLayout

noncomputable section

open scoped BigOperators

namespace Cert.Gcn.Reg5

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The combined layer input, from the arrays the region finds. -/
def A (c : Dev nD) : FVec Ideal SND .f32 := Cert.Gcn.comb (V c main_v72) (V c main_v59) (V c main_v32) (V c main_v73)

/-- The windows' index maps over the grid: a row-blocked window is at block (t, 0) at point t, a whole small window at (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

theorem row_lt (t : Fin cfg5.N) (r : Fin 4000) : t.val * 4000 + r.val < 100000 := by
  have hN : cfg5.N = 25 := N_5
  have := t.isLt
  have := r.isLt
  omega

/-! ## The input blocks at a point -/

/-- Row r of the edge sums' block at point t is row 4000·t + r of the array. -/
theorem blk0_apply (c : Dev nD) (t : Fin cfg5.N) (r : Fin 4000) (q : Fin 64) :
    (iblk5 (F := Ideal) V c 0 t : Vec Ideal S4000x64 .f32) (ix2 r q) = (V c main_v72 : SND.Idx → EReal) (ix2 ⟨t.val * 4000 + r.val, row_lt t r⟩ q) := by
  obtain ⟨e0, e1, -⟩ := idx_facts t
  show V c main_v72 (((cfg5.win 0).blk t).view.emb (ix2 r q)) = V c main_v72 (ix2 ⟨t.val * 4000 + r.val, row_lt t r⟩ q)
  refine congrArg (V c main_v72) ?_
  funext a; apply Fin.ext
  match a with
  | ⟨0, _⟩ => show win5_0.index t (0 : Fin 2) * 4000 + 1 * r.val = t.val * 4000 + r.val; omega
  | ⟨1, _⟩ => show win5_0.index t (1 : Fin 2) * 64 + 1 * q.val = q.val; omega

/-- Row r of the node features' block at point t is row 4000·t + r of the array. -/
theorem blk1_apply (c : Dev nD) (t : Fin cfg5.N) (r : Fin 4000) (q : Fin 64) :
    (iblk5 (F := Ideal) V c 1 t : Vec Ideal S4000x64 .f32) (ix2 r q) = (V c main_v59 : SND.Idx → EReal) (ix2 ⟨t.val * 4000 + r.val, row_lt t r⟩ q) := by
  obtain ⟨-, -, e0, e1, -⟩ := idx_facts t
  show V c main_v59 (((cfg5.win 1).blk t).view.emb (ix2 r q)) = V c main_v59 (ix2 ⟨t.val * 4000 + r.val, row_lt t r⟩ q)
  refine congrArg (V c main_v59) ?_
  funext a; apply Fin.ext
  match a with
  | ⟨0, _⟩ => show win5_1.index t (0 : Fin 2) * 4000 + 1 * r.val = t.val * 4000 + r.val; omega
  | ⟨1, _⟩ => show win5_1.index t (1 : Fin 2) * 64 + 1 * q.val = q.val; omega

/-- Row r of the self-loop weights' block at point t is row 4000·t + r of the column. -/
theorem blk2_apply (c : Dev nD) (t : Fin cfg5.N) (r : Fin 4000) :
    (iblk5 (F := Ideal) V c 2 t : Vec Ideal S4000x1 .f32) (ix2 r (0 : Fin 1)) = (V c main_v32 : SN1.Idx → EReal) (ix2 ⟨t.val * 4000 + r.val, row_lt t r⟩ (0 : Fin 1)) := by
  obtain ⟨-, -, -, -, e0, e1, -⟩ := idx_facts t
  show V c main_v32 (((cfg5.win 2).blk t).view.emb (ix2 r (0 : Fin 1))) = V c main_v32 (ix2 ⟨t.val * 4000 + r.val, row_lt t r⟩ (0 : Fin 1))
  refine congrArg (V c main_v32) ?_
  funext a; apply Fin.ext
  match a with
  | ⟨0, _⟩ => show win5_2.index t (0 : Fin 2) * 4000 + 1 * r.val = t.val * 4000 + r.val; omega
  | ⟨1, _⟩ => show win5_2.index t (1 : Fin 2) * 1 + 1 * 0 = 0; omega

/-- The bias window's block is the whole row at every point. -/
theorem blk3_apply (c : Dev nD) (t : Fin cfg5.N) (q : Fin 64) :
    (iblk5 (F := Ideal) V c 3 t : Vec Ideal S1x64 .f32) (ix2 (0 : Fin 1) q) = (V c main_v73 : S1D.Idx → EReal) (ix2 (0 : Fin 1) q) := by
  obtain ⟨-, -, -, -, -, -, e0, e1, -⟩ := idx_facts t
  show V c main_v73 (((cfg5.win 3).blk t).view.emb (ix2 (0 : Fin 1) q)) = V c main_v73 (ix2 (0 : Fin 1) q)
  refine congrArg (V c main_v73) ?_
  funext a; apply Fin.ext
  match a with
  | ⟨0, _⟩ => show win5_3.index t (0 : Fin 2) * 1 + 1 * 0 = 0; omega
  | ⟨1, _⟩ => show win5_3.index t (1 : Fin 2) * 64 + 1 * q.val = q.val; omega

/-! ## The combined block of a point -/

/-- The block the body combines at point t. -/
def B (c : Dev nD) (t : Fin cfg5.N) : FVec Ideal S4000x64 .f32 :=
  k5_pay3 (F := Ideal) (iblk5 V c 0 t) (iblk5 V c 1 t) (iblk5 V c 2 t) (iblk5 V c 3 t)

/-- Row r of the combined block at point t is row 4000·t + r of A. -/
theorem B_apply (c : Dev nD) (t : Fin cfg5.N) (r : Fin 4000) (q : Fin 64) :
    B V c t (ix2 r q) = A V c (ix2 ⟨t.val * 4000 + r.val, row_lt t r⟩ q) := by
  unfold B
  refine (pay3_apply (iblk5 V c 0 t) (iblk5 V c 1 t) (iblk5 V c 2 t) (iblk5 V c 3 t) r q).trans ?_
  rw [blk0_apply V c t r q, blk1_apply V c t r q, blk2_apply V c t r, blk3_apply V c t q]
  rfl

/-- What the first output's buffer holds after point t: the combined block. -/
theorem out4_eq (c : Dev nD) (t : Fin cfg5.N) : (outsAt5 V c t.val t.isLt).1 = B V c t := by
  unfold B
  by_cases h0 : t.val % 25 = 0
  · rw [outsAt5_A V c t h0]
    dsimp only
    exact out_A_4 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t)
  · rw [outsAt5_B V c t h0]
    dsimp only
    exact out_B_4 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) _ _

/-! ## The running rows -/

/-- The column sum of the block at point n (zero past the grid). -/
def blockSum (c : Dev nD) (q : Fin 64) (n : ℕ) : EReal :=
  if h : n < cfg5.N then ∑ r : Fin 4000, B V c ⟨n, h⟩ (ix2 r q) else 0

/-- The column sum of squares of the block at point n (zero past the grid). -/
def blockSumSq (c : Dev nD) (q : Fin 64) (n : ℕ) : EReal :=
  if h : n < cfg5.N then ∑ r : Fin 4000, B V c ⟨n, h⟩ (ix2 r q) * B V c ⟨n, h⟩ (ix2 r q) else 0

/-- After point n the running column sum is the sum of the column sums of blocks 0 … n. -/
theorem sum_upto (c : Dev nD) (z : Fin 1) (q : Fin 64) : ∀ (n : ℕ) (h : n < cfg5.N),
    (outsAt5 V c n h).2.1 (ix2 z q) = ∑ i ∈ Finset.range (n + 1), blockSum V c q i
  | 0, h => by
    rw [outsAt5_A V c ⟨0, h⟩ rfl]
    dsimp only
    rw [out_A_5 (F := Ideal) c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) (ms5_5 ⟨0, h⟩) (hs5_5 ⟨0, h⟩) (ms5_6 ⟨0, h⟩) (hs5_6 ⟨0, h⟩) ((hcond5_0 ⟨0, h⟩).mpr rfl) (iblk5 V c 0 ⟨0, h⟩) (iblk5 V c 1 ⟨0, h⟩) (iblk5 V c 2 ⟨0, h⟩) (iblk5 V c 3 ⟨0, h⟩)]
    refine (pay4_apply (iblk5 V c 0 ⟨0, h⟩) (iblk5 V c 1 ⟨0, h⟩) (iblk5 V c 2 ⟨0, h⟩) (iblk5 V c 3 ⟨0, h⟩) (k5_pay1 (F := Ideal)) z q).trans ?_
    rw [pay1_apply, zero_add, Finset.sum_range_one]
    unfold blockSum B
    rw [dif_pos h]
  | n + 1, h => by
    have hN : cfg5.N = 25 := N_5
    have hB : ¬(⟨n + 1, h⟩ : Fin cfg5.N).val % 25 = 0 := by dsimp only; omega
    rw [outsAt5_B V c ⟨n + 1, h⟩ hB]
    dsimp only
    rw [out_B_5 (F := Ideal) c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (ms5_5 ⟨n + 1, h⟩) (hs5_5 ⟨n + 1, h⟩) (ms5_6 ⟨n + 1, h⟩) (hs5_6 ⟨n + 1, h⟩) (fun h' => hB ((hcond5_0 ⟨n + 1, h⟩).mp h')) (iblk5 V c 0 ⟨n + 1, h⟩) (iblk5 V c 1 ⟨n + 1, h⟩) (iblk5 V c 2 ⟨n + 1, h⟩) (iblk5 V c 3 ⟨n + 1, h⟩) _ _]
    refine (pay4_apply (iblk5 V c 0 ⟨n + 1, h⟩) (iblk5 V c 1 ⟨n + 1, h⟩) (iblk5 V c 2 ⟨n + 1, h⟩) (iblk5 V c 3 ⟨n + 1, h⟩) _ z q).trans ?_
    rw [Finset.sum_range_succ _ (n + 1)]
    refine congrArg₂ (· + ·) ?_ ?_
    · exact sum_upto c z q n (Nat.lt_of_succ_lt h)
    · unfold blockSum B
      rw [dif_pos h]

/-- After point n the running column sum of squares is the sum of those of blocks 0 … n. -/
theorem sumsq_upto (c : Dev nD) (z : Fin 1) (q : Fin 64) : ∀ (n : ℕ) (h : n < cfg5.N),
    (outsAt5 V c n h).2.2 (ix2 z q) = ∑ i ∈ Finset.range (n + 1), blockSumSq V c q i
  | 0, h => by
    rw [outsAt5_A V c ⟨0, h⟩ rfl]
    dsimp only
    rw [out_A_6 (F := Ideal) c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) (ms5_5 ⟨0, h⟩) (hs5_5 ⟨0, h⟩) (ms5_6 ⟨0, h⟩) (hs5_6 ⟨0, h⟩) ((hcond5_0 ⟨0, h⟩).mpr rfl) (iblk5 V c 0 ⟨0, h⟩) (iblk5 V c 1 ⟨0, h⟩) (iblk5 V c 2 ⟨0, h⟩) (iblk5 V c 3 ⟨0, h⟩)]
    refine (pay5_apply (iblk5 V c 0 ⟨0, h⟩) (iblk5 V c 1 ⟨0, h⟩) (iblk5 V c 2 ⟨0, h⟩) (iblk5 V c 3 ⟨0, h⟩) (k5_pay2 (F := Ideal)) z q).trans ?_
    rw [pay2_apply, zero_add, Finset.sum_range_one]
    unfold blockSumSq B
    rw [dif_pos h]
  | n + 1, h => by
    have hN : cfg5.N = 25 := N_5
    have hB : ¬(⟨n + 1, h⟩ : Fin cfg5.N).val % 25 = 0 := by dsimp only; omega
    rw [outsAt5_B V c ⟨n + 1, h⟩ hB]
    dsimp only
    rw [out_B_6 (F := Ideal) c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (ms5_5 ⟨n + 1, h⟩) (hs5_5 ⟨n + 1, h⟩) (ms5_6 ⟨n + 1, h⟩) (hs5_6 ⟨n + 1, h⟩) (fun h' => hB ((hcond5_0 ⟨n + 1, h⟩).mp h')) (iblk5 V c 0 ⟨n + 1, h⟩) (iblk5 V c 1 ⟨n + 1, h⟩) (iblk5 V c 2 ⟨n + 1, h⟩) (iblk5 V c 3 ⟨n + 1, h⟩) _ _]
    refine (pay5_apply (iblk5 V c 0 ⟨n + 1, h⟩) (iblk5 V c 1 ⟨n + 1, h⟩) (iblk5 V c 2 ⟨n + 1, h⟩) (iblk5 V c 3 ⟨n + 1, h⟩) _ z q).trans ?_
    rw [Finset.sum_range_succ _ (n + 1)]
    refine congrArg₂ (· + ·) ?_ ?_
    · exact sumsq_upto c z q n (Nat.lt_of_succ_lt h)
    · unfold blockSumSq B
      rw [dif_pos h]

/-- The 25 blocks of 4000 rows are all 100000 rows: the blocks' column sums add up to the column sum of A. -/
theorem blocks_sum (c : Dev nD) (q : Fin 64) :
    ∑ i ∈ Finset.range 25, blockSum V c q i = ∑ p : Fin 100000, A V c (ix2 p q) := by
  have hN : cfg5.N = 25 := N_5
  rw [Finset.sum_range, Cert.Lib.TileSum.sum_tiles_fin 100000 25 4000 rfl (fun p => A V c (ix2 p q))]
  refine Finset.sum_congr rfl fun j _ => ?_
  have hj : j.val < cfg5.N := by have := j.isLt; omega
  unfold blockSum
  rw [dif_pos hj]
  exact Finset.sum_congr rfl fun r _ => B_apply V c ⟨j.val, hj⟩ r q

theorem blocks_sumsq (c : Dev nD) (q : Fin 64) :
    ∑ i ∈ Finset.range 25, blockSumSq V c q i = ∑ p : Fin 100000, A V c (ix2 p q) * A V c (ix2 p q) := by
  have hN : cfg5.N = 25 := N_5
  rw [Finset.sum_range, Cert.Lib.TileSum.sum_tiles_fin 100000 25 4000 rfl (fun p => A V c (ix2 p q) * A V c (ix2 p q))]
  refine Finset.sum_congr rfl fun j _ => ?_
  have hj : j.val < cfg5.N := by have := j.isLt; omega
  unfold blockSumSq
  rw [dif_pos hj]
  exact Finset.sum_congr rfl fun r _ => by rw [B_apply V c ⟨j.val, hj⟩ r q]

/-- After the last point the running column sum is the column sum of A. -/
theorem sum_last (c : Dev nD) (t : Fin cfg5.N) (ht : t.val = 24) :
    (outsAt5 V c t.val t.isLt).2.1 = Cert.Gcn.colSum (A V c) := by
  funext j
  obtain ⟨z, q, rfl⟩ : ∃ (z : Fin 1) (q : Fin 64), j = ix2 z q := ⟨j 0, j 1, eq_ix2 j⟩
  rw [sum_upto V c z q t.val t.isLt, ht, blocks_sum V c q]
  rfl

theorem sumsq_last (c : Dev nD) (t : Fin cfg5.N) (ht : t.val = 24) :
    (outsAt5 V c t.val t.isLt).2.2 = Cert.Gcn.colSumSq (A V c) := by
  funext j
  obtain ⟨z, q, rfl⟩ : ∃ (z : Fin 1) (q : Fin 64), j = ix2 z q := ⟨j 0, j 1, eq_ix2 j⟩
  rw [sumsq_upto V c z q t.val t.isLt, ht, blocks_sumsq V c q]
  rfl

/-! ## From blocks to the arrays -/

/-- Point t writes back block t of A. -/
theorem B_read (c : Dev nD) (t : Fin cfg5.N) (y : S4000x64.Idx) :
    B V c t y = A V c (((cfg5.win 4).blk t).view.emb y) := by
  obtain ⟨r, q, rfl⟩ : ∃ (r : Fin 4000) (q : Fin 64), y = ix2 r q := ⟨y 0, y 1, eq_ix2 y⟩
  obtain ⟨-, -, -, -, -, -, -, -, e0, e1, -⟩ := idx_facts t
  refine (B_apply V c t r q).trans (congrArg (A V c) ?_)
  funext a; apply Fin.ext
  match a with
  | ⟨0, _⟩ => show t.val * 4000 + r.val = win5_4.index t (0 : Fin 2) * 4000 + 1 * r.val; omega
  | ⟨1, _⟩ => show q.val = win5_4.index t (1 : Fin 2) * 64 + 1 * q.val; omega

theorem flushed4_eq (c : Dev nD) (t : Fin cfg5.N) :
    (dat5 V c).flushed 4 t = ((cfg5.win 4).blk t).view.read (Elt Ideal) (A V c) := by
  show (cfg5.win 4).cut (grid5.coords t) ((dat5 V c).after 4 t) = _
  rw [after5_4, out4_eq]
  funext j
  exact B_read V c t j

/-- An index of the array is in point t's block iff each coordinate is in the block's range on its axis. -/
theorem mem_blk4 (t : Fin cfg5.N) (i : SND.Idx) :
    i ∈ ((cfg5.win 4).blk t).view.set ↔ ∀ a : Fin 2, win5_4.index t a * S4000x64.size a ≤ (i a).val ∧ (i a).val < win5_4.index t a * S4000x64.size a + S4000x64.size a := by
  show i ∈ ((View.whole main_v74_0).slice (win5_4.rect t)).set ↔ _
  rw [View.set_slice_whole, Rect.mem_set_unit]
  exact Iff.rfl

/-- Row p lies in the block of point p / 4000. -/
theorem cover4 (i : SND.Idx) : ∃ t : Fin cfg5.N, (cfg5.win 4).flush t = true ∧ i ∈ ((cfg5.win 4).blk t).view.set := by
  have hN : cfg5.N = 25 := N_5
  have hi0 : (i 0).val < 100000 := (i 0).isLt
  have hi1 : (i 1).val < 64 := (i 1).isLt
  have ht : (i 0).val / 4000 < cfg5.N := by omega
  obtain ⟨-, -, -, -, -, -, -, -, e0, e1, -⟩ := idx_facts ⟨(i 0).val / 4000, ht⟩
  have e0' : win5_4.index ⟨(i 0).val / 4000, ht⟩ (0 : Fin 2) = (i 0).val / 4000 := e0
  refine ⟨⟨(i 0).val / 4000, ht⟩, flush5_4 _, ?_⟩
  rw [mem_blk4]
  intro a
  match a with
  | ⟨0, _⟩ => show win5_4.index ⟨(i 0).val / 4000, ht⟩ (0 : Fin 2) * 4000 ≤ (i 0).val ∧ (i 0).val < win5_4.index ⟨(i 0).val / 4000, ht⟩ (0 : Fin 2) * 4000 + 4000; omega
  | ⟨1, _⟩ => show win5_4.index ⟨(i 0).val / 4000, ht⟩ (1 : Fin 2) * 64 ≤ (i 1).val ∧ (i 1).val < win5_4.index ⟨(i 0).val / 4000, ht⟩ (1 : Fin 2) * 64 + 64; omega

/-- The first output array after the region: the combined layer input. -/
theorem comb_value (c : Dev nD) : (dat5 (F := Ideal) V c).arrAt 4 cfg5.N = A V c :=
  (dat5 V c).arrAt_eq_of_cover 4 (A V c) (fun t _ => flushed4_eq V c t) (cover4)

/-- The one write-back of the running column sum, after the last point: its block is the whole row array. -/
theorem flushed5_eq (c : Dev nD) (t : Fin cfg5.N) (hf : (cfg5.win 5).flush t = true) :
    (dat5 V c).flushed 5 t = ((cfg5.win 5).blk t).view.read (Elt Ideal) (Cert.Gcn.colSum (A V c)) := by
  have hN : cfg5.N = 25 := N_5
  have h24 : t.val = 24 := by have := (flush5_5 t).mp hf; have := t.isLt; omega
  show (cfg5.win 5).cut (grid5.coords t) ((dat5 V c).after 5 t) = _
  rw [after5_5, sum_last V c t h24]
  obtain ⟨-, -, -, -, -, -, -, -, -, -, e0, e1, -⟩ := idx_facts t
  have hz' : (fun a => win5_5.index t a * main_v74_1.ty.shape.size a) = fun _ => 0 := funext fun a => by
    match a with
    | ⟨0, _⟩ => show win5_5.index t (0 : Fin 2) * 1 = 0; omega
    | ⟨1, _⟩ => show win5_5.index t (1 : Fin 2) * 64 = 0; omega
  exact (Memref.read_access_unit_zero (Elt Ideal) main_v74_1 hz' (fun a => by rw [congrFun hz' a]; simp) (Cert.Gcn.colSum (A V c))).symm

theorem flushed6_eq (c : Dev nD) (t : Fin cfg5.N) (hf : (cfg5.win 6).flush t = true) :
    (dat5 V c).flushed 6 t = ((cfg5.win 6).blk t).view.read (Elt Ideal) (Cert.Gcn.colSumSq (A V c)) := by
  have hN : cfg5.N = 25 := N_5
  have h24 : t.val = 24 := by have := (flush5_6 t).mp hf; have := t.isLt; omega
  show (cfg5.win 6).cut (grid5.coords t) ((dat5 V c).after 6 t) = _
  rw [after5_6, sumsq_last V c t h24]
  obtain ⟨-, -, -, -, -, -, -, -, -, -, -, -, e0, e1⟩ := idx_facts t
  have hz' : (fun a => win5_6.index t a * main_v74_2.ty.shape.size a) = fun _ => 0 := funext fun a => by
    match a with
    | ⟨0, _⟩ => show win5_6.index t (0 : Fin 2) * 1 = 0; omega
    | ⟨1, _⟩ => show win5_6.index t (1 : Fin 2) * 64 = 0; omega
  exact (Memref.read_access_unit_zero (Elt Ideal) main_v74_2 hz' (fun a => by rw [congrFun hz' a]; simp) (Cert.Gcn.colSumSq (A V c))).symm

/-- The last point's block of a running row covers the whole 1 × 64 array. -/
theorem cover5 (i : S1D.Idx) : ∃ t : Fin cfg5.N, (cfg5.win 5).flush t = true ∧ i ∈ ((cfg5.win 5).blk t).view.set := by
  have hN : cfg5.N = 25 := N_5
  have ht : 24 < cfg5.N := by omega
  have hi0 : (i 0).val < 1 := (i 0).isLt
  have hi1 : (i 1).val < 64 := (i 1).isLt
  obtain ⟨-, -, -, -, -, -, -, -, -, -, e0, e1, -⟩ := idx_facts ⟨24, ht⟩
  refine ⟨⟨24, ht⟩, (flush5_5 _).mpr rfl, ?_⟩
  show i ∈ ((View.whole main_v74_1).slice (win5_5.rect ⟨24, ht⟩)).set
  rw [View.set_slice_whole, Rect.mem_set_unit]
  intro a
  match a with
  | ⟨0, _⟩ => show win5_5.index ⟨24, ht⟩ (0 : Fin 2) * 1 ≤ (i 0).val ∧ (i 0).val < win5_5.index ⟨24, ht⟩ (0 : Fin 2) * 1 + 1; omega
  | ⟨1, _⟩ => show win5_5.index ⟨24, ht⟩ (1 : Fin 2) * 64 ≤ (i 1).val ∧ (i 1).val < win5_5.index ⟨24, ht⟩ (1 : Fin 2) * 64 + 64; omega

theorem cover6 (i : S1D.Idx) : ∃ t : Fin cfg5.N, (cfg5.win 6).flush t = true ∧ i ∈ ((cfg5.win 6).blk t).view.set := by
  have hN : cfg5.N = 25 := N_5
  have ht : 24 < cfg5.N := by omega
  have hi0 : (i 0).val < 1 := (i 0).isLt
  have hi1 : (i 1).val < 64 := (i 1).isLt
  obtain ⟨-, -, -, -, -, -, -, -, -, -, -, -, e0, e1⟩ := idx_facts ⟨24, ht⟩
  refine ⟨⟨24, ht⟩, (flush5_6 _).mpr rfl, ?_⟩
  show i ∈ ((View.whole main_v74_2).slice (win5_6.rect ⟨24, ht⟩)).set
  rw [View.set_slice_whole, Rect.mem_set_unit]
  intro a
  match a with
  | ⟨0, _⟩ => show win5_6.index ⟨24, ht⟩ (0 : Fin 2) * 1 ≤ (i 0).val ∧ (i 0).val < win5_6.index ⟨24, ht⟩ (0 : Fin 2) * 1 + 1; omega
  | ⟨1, _⟩ => show win5_6.index ⟨24, ht⟩ (1 : Fin 2) * 64 ≤ (i 1).val ∧ (i 1).val < win5_6.index ⟨24, ht⟩ (1 : Fin 2) * 64 + 64; omega

/-- The second output array after the region: the column sums of the combined layer input. -/
theorem sum_value (c : Dev nD) : (dat5 (F := Ideal) V c).arrAt 5 cfg5.N = Cert.Gcn.colSum (A V c) :=
  (dat5 V c).arrAt_eq_of_cover 5 (Cert.Gcn.colSum (A V c)) (flushed5_eq V c) cover5

/-- The third output array after the region: the column sums of squares of the combined layer input. -/
theorem sumsq_value (c : Dev nD) : (dat5 (F := Ideal) V c).arrAt 6 cfg5.N = Cert.Gcn.colSumSq (A V c) :=
  (dat5 V c).arrAt_eq_of_cover 6 (Cert.Gcn.colSumSq (A V c)) (flushed6_eq V c) cover6

end Cert.Gcn.Reg5

/-! ## The three outputs, in the shared specification's words -/

namespace Cert.Gcn.Reg

open Cert.KernelIdeal Cert.KernelIdeal.Gen Idealize.ShloMosaic Idealize.ShloMosaic.ValueIdx
open Idealize.ShloMosaic.TcCoe Idealize.SL.Sem

theorem comb5_value (V : (c : Dev nD) → (b : Ref sig .tc) → Buf (Elt Ideal) ((c : Thread nD τ).loc b)) (c : Dev nD) :
    (Gen.dat5 (F := Ideal) V c).arrAt 4 cfg5.N
      = Cert.Gcn.comb (V c main_v72) (V c main_v59) (V c main_v32) (V c main_v73) :=
  Cert.Gcn.Reg5.comb_value V c

theorem sum5_value (V : (c : Dev nD) → (b : Ref sig .tc) → Buf (Elt Ideal) ((c : Thread nD τ).loc b)) (c : Dev nD) :
    (Gen.dat5 (F := Ideal) V c).arrAt 5 cfg5.N
      = Cert.Gcn.colSum (Cert.Gcn.comb (V c main_v72) (V c main_v59) (V c main_v32) (V c main_v73)) :=
  Cert.Gcn.Reg5.sum_value V c

theorem sumsq5_value (V : (c : Dev nD) → (b : Ref sig .tc) → Buf (Elt Ideal) ((c : Thread nD τ).loc b)) (c : Dev nD) :
    (Gen.dat5 (F := Ideal) V c).arrAt 6 cfg5.N
      = Cert.Gcn.colSumSq (Cert.Gcn.comb (V c main_v72) (V c main_v59) (V c main_v32) (V c main_v73)) :=
  Cert.Gcn.Reg5.sumsq_value V c

end Cert.Gcn.Reg

end
-- ==== Proof.RegNorm3.lean ====
/-
  Region 3 of the kernel's program: the normalisation of the layer, clamped below at zero, as a whole array.

  The region's grid has 25 points. At point t the body loads rows 4000·t … 4000·t + 3999 of the layer input (a
  4000-by-64 block) and the four one-row operands (mean, variance, scale, shift) whole, and stores one 4000-by-64 block:
  entry (p, q) of it is ((a[p,q] − μ[0,q]) · rsqrt(v[0,q] + ε)) · γ[0,q] + β[0,q], then the maximum with the zero word — the row operands
  are spread over the 4000 rows, so each is read at row 0. The block is written back to rows 4000·t … 4000·t + 3999 of
  the output. Row r of the output lies in block r / 4000, so the 25 blocks cover the array, and the array after the
  region is the specification's `normRelu` of the five input arrays as the region finds them.
-/
import proofs.«132265_j53532472378064_1_alg».proof.Proof.Gen.KernelIdeal.Frame
import proofs.«132265_j53532472378064_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Reg

open Cert.KernelIdeal Cert.KernelIdeal.Gen Idealize.ShloMosaic Idealize.ShloMosaic.ValueIdx
open Idealize.ShloMosaic.TcCoe
open Idealize.ShloMosaic.Pipeline (Dat)

/-- The zero offset of a whole-block rectangle, as a constant function. -/
theorem norm3_hz : (![0, 0] : Fin 2 → Nat) = fun _ => 0 := funext fun a => by fin_cases a <;> rfl

/-- The reciprocal square root of a vector, read at an index. -/
theorem norm3_rsqrt_apply {s : Shape} {φ : FTy} (a : FVec Ideal s φ) (i : s.Idx) : rsqrt a i = Ideal.rsqrt (a i) := rfl

/-- Entry (p, q) of the block the body stores: the row operands are read at row 0, column q. -/
theorem norm3_pay_apply (v0 : Vec Ideal S1x64 .f32) (v5 : Vec Ideal S4000x64 .f32) (v7 v13 v17 : Vec Ideal S1x64 .f32)
    (p : Fin 4000) (q : Fin 64) :
    k3_pay1 (F := Ideal) v0 v5 v7 v13 v17 (ix2 p q)
      = max (((v5 (ix2 p q) - v7 (ix2 (0 : Fin 1) q)) * Ideal.rsqrt (v0 (ix2 (0 : Fin 1) q) + Ideal.ofBits .f32 0x3727C5AC#32))
              * v13 (ix2 (0 : Fin 1) q) + v17 (ix2 (0 : Fin 1) q)) (Ideal.ofBits .f32 0x00000000#32) := by
  unfold k3_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rw [norm3_rsqrt_apply, addf_apply, broadcast_apply, broadcast_apply]
  rfl

/-- The program's block-index maps over the grid: the layer input and the output move one block of rows per point, the
    row operands stay at block (0, 0). -/
theorem norm3_idx : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

section
variable (V : (c : Dev nD) → (b : Ref sig .tc) → Buf (Elt Ideal) ((c : Thread nD τ).loc b))

/-- Entry (p, q) of the layer input's block at point t is entry (4000·t + p, q) of the array. -/
theorem norm3_blk_in (c : Dev nD) (t : Fin cfg3.N) (p : Fin 4000) (q : Fin 64) (P : Fin 100000)
    (hP : P.val = t.val * 4000 + p.val) :
    (iblk3 (F := Ideal) V c 0 t : Vec Ideal S4000x64 .f32) (ix2 p q) = (V c main_v49_0 : SND.Idx → EReal) (ix2 P q) := by
  obtain ⟨e0, e1, -⟩ := norm3_idx t
  unfold iblk3
  rw [View.read_apply]
  show V c main_v49_0 _ = V c main_v49_0 _
  congr 1
  funext a
  apply Fin.ext
  match a with
  | ⟨0, _⟩ => show win3_0.index t (0 : Fin 2) * 4000 + 1 * p.val = P.val; rw [e0, hP]; omega
  | ⟨1, _⟩ => show win3_0.index t (1 : Fin 2) * 64 + 1 * q.val = q.val; rw [e1]; omega

/-- A row operand's block is the whole one-row array at every point (window 1). -/
theorem norm3_blk_row1 (c : Dev nD) (t : Fin cfg3.N) (q : Fin 64) :
    (iblk3 (F := Ideal) V c 1 t : Vec Ideal S1x64 .f32) (ix2 (0 : Fin 1) q) = (V c main_v51 : S1D.Idx → EReal) (ix2 (0 : Fin 1) q) := by
  obtain ⟨-, -, -, -, e4, e5, -⟩ := norm3_idx t
  unfold iblk3
  rw [View.read_apply]
  show V c main_v51 _ = V c main_v51 _
  congr 1
  funext a
  apply Fin.ext
  match a with
  | ⟨0, _⟩ => show win3_1.index t (0 : Fin 2) * 1 + 1 * 0 = 0; rw [e4]
  | ⟨1, _⟩ => show win3_1.index t (1 : Fin 2) * 64 + 1 * q.val = q.val; rw [e5]; omega

/-- A row operand's block is the whole one-row array at every point (window 2). -/
theorem norm3_blk_row2 (c : Dev nD) (t : Fin cfg3.N) (q : Fin 64) :
    (iblk3 (F := Ideal) V c 2 t : Vec Ideal S1x64 .f32) (ix2 (0 : Fin 1) q) = (V c main_v55 : S1D.Idx → EReal) (ix2 (0 : Fin 1) q) := by
  obtain ⟨-, -, -, -, -, -, e6, e7, -⟩ := norm3_idx t
  unfold iblk3
  rw [View.read_apply]
  show V c main_v55 _ = V c main_v55 _
  congr 1
  funext a
  apply Fin.ext
  match a with
  | ⟨0, _⟩ => show win3_2.index t (0 : Fin 2) * 1 + 1 * 0 = 0; rw [e6]
  | ⟨1, _⟩ => show win3_2.index t (1 : Fin 2) * 64 + 1 * q.val = q.val; rw [e7]; omega

/-- A row operand's block is the whole one-row array at every point (window 3). -/
theorem norm3_blk_row3 (c : Dev nD) (t : Fin cfg3.N) (q : Fin 64) :
    (iblk3 (F := Ideal) V c 3 t : Vec Ideal S1x64 .f32) (ix2 (0 : Fin 1) q) = (V c main_v56 : S1D.Idx → EReal) (ix2 (0 : Fin 1) q) := by
  obtain ⟨-, -, -, -, -, -, -, -, e8, e9, -⟩ := norm3_idx t
  unfold iblk3
  rw [View.read_apply]
  show V c main_v56 _ = V c main_v56 _
  congr 1
  funext a
  apply Fin.ext
  match a with
  | ⟨0, _⟩ => show win3_3.index t (0 : Fin 2) * 1 + 1 * 0 = 0; rw [e8]
  | ⟨1, _⟩ => show win3_3.index t (1 : Fin 2) * 64 + 1 * q.val = q.val; rw [e9]; omega

/-- A row operand's block is the whole one-row array at every point (window 4). -/
theorem norm3_blk_row4 (c : Dev nD) (t : Fin cfg3.N) (q : Fin 64) :
    (iblk3 (F := Ideal) V c 4 t : Vec Ideal S1x64 .f32) (ix2 (0 : Fin 1) q) = (V c main_v57 : S1D.Idx → EReal) (ix2 (0 : Fin 1) q) := by
  obtain ⟨-, -, -, -, -, -, -, -, -, -, e10, e11⟩ := norm3_idx t
  unfold iblk3
  rw [View.read_apply]
  show V c main_v57 _ = V c main_v57 _
  congr 1
  funext a
  apply Fin.ext
  match a with
  | ⟨0, _⟩ => show win3_4.index t (0 : Fin 2) * 1 + 1 * 0 = 0; rw [e10]
  | ⟨1, _⟩ => show win3_4.index t (1 : Fin 2) * 64 + 1 * q.val = q.val; rw [e11]; omega

/-- Entry (p, q) of the output's block at point t sits at entry (4000·t + p, q) of the array. -/
theorem norm3_emb_out (t : Fin cfg3.N) (p : Fin 4000) (q : Fin 64) (P : Fin 100000)
    (hP : P.val = t.val * 4000 + p.val) :
    ((cfg3.win 5).blk t).view.emb (ix2 p q) = (ix2 P q : SND.Idx) := by
  obtain ⟨-, -, e2, e3, -⟩ := norm3_idx t
  funext a
  apply Fin.ext
  match a with
  | ⟨0, _⟩ => show win3_5.index t (0 : Fin 2) * 4000 + 1 * p.val = P.val; rw [e2, hP]; omega
  | ⟨1, _⟩ => show win3_5.index t (1 : Fin 2) * 64 + 1 * q.val = q.val; rw [e3]; omega

/-- What point t writes back is block t of the specification's array. -/
theorem norm3_flushed (c : Dev nD) (t : Fin cfg3.N) :
    (dat3 (F := Ideal) V c).flushed 5 t
      = ((cfg3.win 5).blk t).view.read (Elt Ideal)
          (Cert.Gcn.normRelu (V c main_v49_0) (V c main_v51) (V c main_v55) (V c main_v56) (V c main_v57)) := by
  show (cfg3.win 5).cut (grid3.coords t) ((dat3 (F := Ideal) V c).after 5 t) = _
  rw [after3_5]
  unfold out3_5
  rw [View.canon_unit_zero norm3_hz]
  simp only [View.ld_unit_zero (S := S4000x64) norm3_hz, View.ld_unit_zero (S := S1x64) norm3_hz]
  funext j
  obtain ⟨p, q, rfl⟩ : ∃ (p : Fin 4000) (q : Fin 64), j = (ix2 p q : S4000x64.Idx) := ⟨j 0, j 1, eq_ix2 j⟩
  have ht : t.val < 25 := lt_of_lt_of_eq t.isLt N_3
  have hp : p.val < 4000 := p.isLt
  obtain ⟨P, hP⟩ : ∃ P : Fin 100000, P.val = t.val * 4000 + p.val := ⟨⟨t.val * 4000 + p.val, by omega⟩, rfl⟩
  show k3_pay1 (F := Ideal) (iblk3 V c 2 t) (iblk3 V c 0 t) (iblk3 V c 1 t) (iblk3 V c 3 t) (iblk3 V c 4 t) (ix2 p q)
      = Cert.Gcn.normRelu (V c main_v49_0) (V c main_v51) (V c main_v55) (V c main_v56) (V c main_v57)
          (((cfg3.win 5).blk t).view.emb (ix2 p q))
  rw [norm3_emb_out t p q P hP, Cert.Gcn.normRelu_apply]
  refine (norm3_pay_apply (iblk3 V c 2 t) (iblk3 V c 0 t) (iblk3 V c 1 t) (iblk3 V c 3 t) (iblk3 V c 4 t) p q).trans ?_
  rw [norm3_blk_in V c t p q P hP, norm3_blk_row1 V c t q, norm3_blk_row2 V c t q, norm3_blk_row3 V c t q,
    norm3_blk_row4 V c t q]

/-- An index of the output array is in point t's block iff each coordinate is in the block's range on its axis. -/
theorem norm3_mem_blk (t : Fin cfg3.N) (i : S100000x64.Idx) :
    i ∈ ((cfg3.win 5).blk t).view.set
      ↔ ∀ a : Fin 2, win3_5.index t a * S4000x64.size a ≤ (i a).val
          ∧ (i a).val < win3_5.index t a * S4000x64.size a + S4000x64.size a := by
  show i ∈ ((View.whole main_v58).slice (win3_5.rect t)).set ↔ _
  rw [View.set_slice_whole, Rect.mem_set_unit]
  exact Iff.rfl

/-- Every index of the output array is in some point's block: row r lies in block r / 4000, and 100000 = 25 · 4000. -/
theorem norm3_cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 4000 :=
    ⟨⟨(i 0).val / 4000, lt_of_lt_of_eq (by omega : (i 0).val / 4000 < 25) N_3.symm⟩, rfl⟩
  obtain ⟨-, -, e2, e3, -⟩ := norm3_idx t
  refine ⟨t, flush3_5 t, ?_⟩
  rw [norm3_mem_blk]
  intro a
  match a with
  | ⟨0, _⟩ =>
    show win3_5.index t (0 : Fin 2) * 4000 ≤ (i 0).val ∧ (i 0).val < win3_5.index t (0 : Fin 2) * 4000 + 4000
    rw [e2, ht]; omega
  | ⟨1, _⟩ =>
    show win3_5.index t (1 : Fin 2) * 64 ≤ (i 1).val ∧ (i 1).val < win3_5.index t (1 : Fin 2) * 64 + 64
    rw [e3]; omega

/-- THE OUTPUT ARRAY after region 3: the specification's `normRelu` of the five input arrays as the region finds them. -/
theorem norm3_value (c : Dev nD) :
    (dat3 (F := Ideal) V c).arrAt 5 cfg3.N
      = Cert.Gcn.normRelu (V c main_v49_0) (V c main_v51) (V c main_v55) (V c main_v56) (V c main_v57) :=
  (dat3 (F := Ideal) V c).arrAt_eq_of_cover 5 _ (fun t _ => norm3_flushed V c t) (norm3_cover)

end

end Cert.Gcn.Reg

end
-- ==== Proof.RegNorm6.lean ====
/-
  Region 6 of the kernel's program: the normalisation of the layer, as a whole array.

  The region's grid has 25 points. At point t the body loads rows 4000·t … 4000·t + 3999 of the layer input (a
  4000-by-64 block) and the four one-row operands (mean, variance, scale, shift) whole, and stores one 4000-by-64 block:
  entry (p, q) of it is ((a[p,q] − μ[0,q]) · rsqrt(v[0,q] + ε)) · γ[0,q] + β[0,q] — the row operands
  are spread over the 4000 rows, so each is read at row 0. The block is written back to rows 4000·t … 4000·t + 3999 of
  the output. Row r of the output lies in block r / 4000, so the 25 blocks cover the array, and the array after the
  region is the specification's `norm` of the five input arrays as the region finds them.
-/
import proofs.«132265_j53532472378064_1_alg».proof.Proof.Gen.KernelIdeal.Frame
import proofs.«132265_j53532472378064_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Reg

open Cert.KernelIdeal Cert.KernelIdeal.Gen Idealize.ShloMosaic Idealize.ShloMosaic.ValueIdx
open Idealize.ShloMosaic.TcCoe
open Idealize.ShloMosaic.Pipeline (Dat)

/-- The zero offset of a whole-block rectangle, as a constant function. -/
theorem norm6_hz : (![0, 0] : Fin 2 → Nat) = fun _ => 0 := funext fun a => by fin_cases a <;> rfl

/-- The reciprocal square root of a vector, read at an index. -/
theorem norm6_rsqrt_apply {s : Shape} {φ : FTy} (a : FVec Ideal s φ) (i : s.Idx) : rsqrt a i = Ideal.rsqrt (a i) := rfl

/-- Entry (p, q) of the block the body stores: the row operands are read at row 0, column q. -/
theorem norm6_pay_apply (v0 : Vec Ideal S1x64 .f32) (v5 : Vec Ideal S4000x64 .f32) (v7 v13 v17 : Vec Ideal S1x64 .f32)
    (p : Fin 4000) (q : Fin 64) :
    k6_pay1 (F := Ideal) v0 v5 v7 v13 v17 (ix2 p q)
      = ((v5 (ix2 p q) - v7 (ix2 (0 : Fin 1) q)) * Ideal.rsqrt (v0 (ix2 (0 : Fin 1) q) + Ideal.ofBits .f32 0x3727C5AC#32))
              * v13 (ix2 (0 : Fin 1) q) + v17 (ix2 (0 : Fin 1) q) := by
  unfold k6_pay1
  simp only [shapeCast_self]
  rw [addf_apply, mulf_apply, mulf_apply, subf_apply]
  rw [broadcastTo_1b_ab_apply, broadcastTo_1b_ab_apply, broadcastTo_1b_ab_apply, broadcastTo_1b_ab_apply]
  rw [norm6_rsqrt_apply, addf_apply, broadcast_apply]
  rfl

/-- The program's block-index maps over the grid: the layer input and the output move one block of rows per point, the
    row operands stay at block (0, 0). -/
theorem norm6_idx : ∀ t : Fin cfg6.N,
    win6_0.index t (0 : Fin 2) = t.val ∧ win6_0.index t (1 : Fin 2) = 0
    ∧ win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

section
variable (V : (c : Dev nD) → (b : Ref sig .tc) → Buf (Elt Ideal) ((c : Thread nD τ).loc b))

/-- Entry (p, q) of the layer input's block at point t is entry (4000·t + p, q) of the array. -/
theorem norm6_blk_in (c : Dev nD) (t : Fin cfg6.N) (p : Fin 4000) (q : Fin 64) (P : Fin 100000)
    (hP : P.val = t.val * 4000 + p.val) :
    (iblk6 (F := Ideal) V c 0 t : Vec Ideal S4000x64 .f32) (ix2 p q) = (V c main_v74_0 : SND.Idx → EReal) (ix2 P q) := by
  obtain ⟨e0, e1, -⟩ := norm6_idx t
  unfold iblk6
  rw [View.read_apply]
  show V c main_v74_0 _ = V c main_v74_0 _
  congr 1
  funext a
  apply Fin.ext
  match a with
  | ⟨0, _⟩ => show win6_0.index t (0 : Fin 2) * 4000 + 1 * p.val = P.val; rw [e0, hP]; omega
  | ⟨1, _⟩ => show win6_0.index t (1 : Fin 2) * 64 + 1 * q.val = q.val; rw [e1]; omega

/-- A row operand's block is the whole one-row array at every point (window 1). -/
theorem norm6_blk_row1 (c : Dev nD) (t : Fin cfg6.N) (q : Fin 64) :
    (iblk6 (F := Ideal) V c 1 t : Vec Ideal S1x64 .f32) (ix2 (0 : Fin 1) q) = (V c main_v76 : S1D.Idx → EReal) (ix2 (0 : Fin 1) q) := by
  obtain ⟨-, -, -, -, e4, e5, -⟩ := norm6_idx t
  unfold iblk6
  rw [View.read_apply]
  show V c main_v76 _ = V c main_v76 _
  congr 1
  funext a
  apply Fin.ext
  match a with
  | ⟨0, _⟩ => show win6_1.index t (0 : Fin 2) * 1 + 1 * 0 = 0; rw [e4]
  | ⟨1, _⟩ => show win6_1.index t (1 : Fin 2) * 64 + 1 * q.val = q.val; rw [e5]; omega

/-- A row operand's block is the whole one-row array at every point (window 2). -/
theorem norm6_blk_row2 (c : Dev nD) (t : Fin cfg6.N) (q : Fin 64) :
    (iblk6 (F := Ideal) V c 2 t : Vec Ideal S1x64 .f32) (ix2 (0 : Fin 1) q) = (V c main_v80 : S1D.Idx → EReal) (ix2 (0 : Fin 1) q) := by
  obtain ⟨-, -, -, -, -, -, e6, e7, -⟩ := norm6_idx t
  unfold iblk6
  rw [View.read_apply]
  show V c main_v80 _ = V c main_v80 _
  congr 1
  funext a
  apply Fin.ext
  match a with
  | ⟨0, _⟩ => show win6_2.index t (0 : Fin 2) * 1 + 1 * 0 = 0; rw [e6]
  | ⟨1, _⟩ => show win6_2.index t (1 : Fin 2) * 64 + 1 * q.val = q.val; rw [e7]; omega

/-- A row operand's block is the whole one-row array at every point (window 3). -/
theorem norm6_blk_row3 (c : Dev nD) (t : Fin cfg6.N) (q : Fin 64) :
    (iblk6 (F := Ideal) V c 3 t : Vec Ideal S1x64 .f32) (ix2 (0 : Fin 1) q) = (V c main_v81 : S1D.Idx → EReal) (ix2 (0 : Fin 1) q) := by
  obtain ⟨-, -, -, -, -, -, -, -, e8, e9, -⟩ := norm6_idx t
  unfold iblk6
  rw [View.read_apply]
  show V c main_v81 _ = V c main_v81 _
  congr 1
  funext a
  apply Fin.ext
  match a with
  | ⟨0, _⟩ => show win6_3.index t (0 : Fin 2) * 1 + 1 * 0 = 0; rw [e8]
  | ⟨1, _⟩ => show win6_3.index t (1 : Fin 2) * 64 + 1 * q.val = q.val; rw [e9]; omega

/-- A row operand's block is the whole one-row array at every point (window 4). -/
theorem norm6_blk_row4 (c : Dev nD) (t : Fin cfg6.N) (q : Fin 64) :
    (iblk6 (F := Ideal) V c 4 t : Vec Ideal S1x64 .f32) (ix2 (0 : Fin 1) q) = (V c main_v82 : S1D.Idx → EReal) (ix2 (0 : Fin 1) q) := by
  obtain ⟨-, -, -, -, -, -, -, -, -, -, e10, e11⟩ := norm6_idx t
  unfold iblk6
  rw [View.read_apply]
  show V c main_v82 _ = V c main_v82 _
  congr 1
  funext a
  apply Fin.ext
  match a with
  | ⟨0, _⟩ => show win6_4.index t (0 : Fin 2) * 1 + 1 * 0 = 0; rw [e10]
  | ⟨1, _⟩ => show win6_4.index t (1 : Fin 2) * 64 + 1 * q.val = q.val; rw [e11]; omega

/-- Entry (p, q) of the output's block at point t sits at entry (4000·t + p, q) of the array. -/
theorem norm6_emb_out (t : Fin cfg6.N) (p : Fin 4000) (q : Fin 64) (P : Fin 100000)
    (hP : P.val = t.val * 4000 + p.val) :
    ((cfg6.win 5).blk t).view.emb (ix2 p q) = (ix2 P q : SND.Idx) := by
  obtain ⟨-, -, e2, e3, -⟩ := norm6_idx t
  funext a
  apply Fin.ext
  match a with
  | ⟨0, _⟩ => show win6_5.index t (0 : Fin 2) * 4000 + 1 * p.val = P.val; rw [e2, hP]; omega
  | ⟨1, _⟩ => show win6_5.index t (1 : Fin 2) * 64 + 1 * q.val = q.val; rw [e3]; omega

/-- What point t writes back is block t of the specification's array. -/
theorem norm6_flushed (c : Dev nD) (t : Fin cfg6.N) :
    (dat6 (F := Ideal) V c).flushed 5 t
      = ((cfg6.win 5).blk t).view.read (Elt Ideal)
          (Cert.Gcn.norm (V c main_v74_0) (V c main_v76) (V c main_v80) (V c main_v81) (V c main_v82)) := by
  show (cfg6.win 5).cut (grid6.coords t) ((dat6 (F := Ideal) V c).after 5 t) = _
  rw [after6_5]
  unfold out6_5
  rw [View.canon_unit_zero norm6_hz]
  simp only [View.ld_unit_zero (S := S4000x64) norm6_hz, View.ld_unit_zero (S := S1x64) norm6_hz]
  funext j
  obtain ⟨p, q, rfl⟩ : ∃ (p : Fin 4000) (q : Fin 64), j = (ix2 p q : S4000x64.Idx) := ⟨j 0, j 1, eq_ix2 j⟩
  have ht : t.val < 25 := lt_of_lt_of_eq t.isLt N_6
  have hp : p.val < 4000 := p.isLt
  obtain ⟨P, hP⟩ : ∃ P : Fin 100000, P.val = t.val * 4000 + p.val := ⟨⟨t.val * 4000 + p.val, by omega⟩, rfl⟩
  show k6_pay1 (F := Ideal) (iblk6 V c 2 t) (iblk6 V c 0 t) (iblk6 V c 1 t) (iblk6 V c 3 t) (iblk6 V c 4 t) (ix2 p q)
      = Cert.Gcn.norm (V c main_v74_0) (V c main_v76) (V c main_v80) (V c main_v81) (V c main_v82)
          (((cfg6.win 5).blk t).view.emb (ix2 p q))
  rw [norm6_emb_out t p q P hP, Cert.Gcn.norm_apply]
  refine (norm6_pay_apply (iblk6 V c 2 t) (iblk6 V c 0 t) (iblk6 V c 1 t) (iblk6 V c 3 t) (iblk6 V c 4 t) p q).trans ?_
  rw [norm6_blk_in V c t p q P hP, norm6_blk_row1 V c t q, norm6_blk_row2 V c t q, norm6_blk_row3 V c t q,
    norm6_blk_row4 V c t q]

/-- An index of the output array is in point t's block iff each coordinate is in the block's range on its axis. -/
theorem norm6_mem_blk (t : Fin cfg6.N) (i : S100000x64.Idx) :
    i ∈ ((cfg6.win 5).blk t).view.set
      ↔ ∀ a : Fin 2, win6_5.index t a * S4000x64.size a ≤ (i a).val
          ∧ (i a).val < win6_5.index t a * S4000x64.size a + S4000x64.size a := by
  show i ∈ ((View.whole main_v83).slice (win6_5.rect t)).set ↔ _
  rw [View.set_slice_whole, Rect.mem_set_unit]
  exact Iff.rfl

/-- Every index of the output array is in some point's block: row r lies in block r / 4000, and 100000 = 25 · 4000. -/
theorem norm6_cover (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  obtain ⟨t, ht⟩ : ∃ t : Fin cfg6.N, t.val = (i 0).val / 4000 :=
    ⟨⟨(i 0).val / 4000, lt_of_lt_of_eq (by omega : (i 0).val / 4000 < 25) N_6.symm⟩, rfl⟩
  obtain ⟨-, -, e2, e3, -⟩ := norm6_idx t
  refine ⟨t, flush6_5 t, ?_⟩
  rw [norm6_mem_blk]
  intro a
  match a with
  | ⟨0, _⟩ =>
    show win6_5.index t (0 : Fin 2) * 4000 ≤ (i 0).val ∧ (i 0).val < win6_5.index t (0 : Fin 2) * 4000 + 4000
    rw [e2, ht]; omega
  | ⟨1, _⟩ =>
    show win6_5.index t (1 : Fin 2) * 64 ≤ (i 1).val ∧ (i 1).val < win6_5.index t (1 : Fin 2) * 64 + 64
    rw [e3]; omega

/-- THE OUTPUT ARRAY after region 6: the specification's `norm` of the five input arrays as the region finds them. -/
theorem norm6_value (c : Dev nD) :
    (dat6 (F := Ideal) V c).arrAt 5 cfg6.N
      = Cert.Gcn.norm (V c main_v74_0) (V c main_v76) (V c main_v80) (V c main_v81) (V c main_v82) :=
  (dat6 (F := Ideal) V c).arrAt_eq_of_cover 5 _ (fun t _ => norm6_flushed V c t) (norm6_cover)

end

end Cert.Gcn.Reg

end
-- ==== Proof.RefRunA.lean ====
/-
  The reference program's first sixty host operations as lists, stage by stage, and the first part of @main as their sequence.
-/
import proofs.«132265_j53532472378064_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table as vectors: sources, then destinations. -/
abbrev s_idx : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

theorem s_idx_sub : (s_idx : List (HloOp τ sig (Elt F))).Forall fun op => op.bufs ⊆ tcRefs τ sig :=
  ⟨unary_bufs_sub .., reshape_bufs_sub .., unary_bufs_sub .., reshape_bufs_sub ..⟩

theorem s_idx_fresh : ∀ op ∈ (s_idx : List (HloOp τ sig (Elt F))), op.fresh = ∅ := by
  intro _ h; (repeat (cases h with | head => rfl | tail _ h => ?_)); exact nomatch h

/-- The buffers this stage writes. -/
abbrev s_idx_W : List (Ref sig .tc) := [main_v0, main_v1, main_v2, main_v3]

theorem s_idx_writes : (s_idx : List (HloOp τ sig (Elt F))).Forall fun op => op.writes ⊆ (s_idx_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_idx_keep (V0 : Valuation τ sig (Elt F)) (r : Ref sig .tc) (h : r ∉ s_idx_W) :
    after s_idx V0 (Proc.devRef .tc r) = V0 (Proc.devRef .tc r) :=
  after_of_writes_sub s_idx _ s_idx_writes h

/-- The in-degree of every node by a scatter of ones over the destinations, plus one, and its inverse square root. -/
abbrev s_deg : List (HloOp τ sig (Elt F)) :=
  [ StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v5 (broadcastInDim S1600000 ![] bcast_S_S1600000 : (⟨S_, .i32⟩ : BufTy).Contents (Elt F) → (⟨S1600000, .i32⟩ : BufTy).Contents (Elt F)),
    StableHlo.binary main_v3 main_v5 main_v6 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v7 (broadcastInDim S1600000 ![] bcast_S_S1600000 : (⟨S_, .i32⟩ : BufTy).Contents (Elt F) → (⟨S1600000, .i32⟩ : BufTy).Contents (Elt F)),
    StableHlo.binary main_v3 main_v7 main_v8 (addi : (⟨S1600000, .i32⟩ : BufTy).Contents (Elt F) → (⟨S1600000, .i32⟩ : BufTy).Contents (Elt F) → (⟨S1600000, .i32⟩ : BufTy).Contents (Elt F)),
    StableHlo.ternary main_v6 main_v8 main_v3 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v9 main_v10 (broadcastInDim S1600000x1 ![0] bcast_S1600000_S1600000x1_0 : (⟨S1600000, .i32⟩ : BufTy).Contents (Elt F) → (⟨S1600000x1, .i32⟩ : BufTy).Contents (Elt F)),
    StableHlo.nullary main_cst_1 (constant S_ .f32 0x3F800000#32),
    StableHlo.unary main_cst_1 main_v11 (broadcastInDim S1600000 ![] bcast_S_S1600000 : (⟨S_, .f32⟩ : BufTy).Contents (Elt F) → (⟨S1600000, .f32⟩ : BufTy).Contents (Elt F)),
    StableHlo.ternary main_v4 main_v10 main_v11 main_v12 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v12 main_v13 main_v14 (addf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)) ]

theorem s_deg_sub : (s_deg : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub ..⟩

theorem s_deg_fresh : ∀ op ∈ (s_deg : List (HloOp τ sig (Elt F))), op.fresh = ∅ := by
  intro _ h; (repeat (cases h with | head => rfl | tail _ h => ?_)); exact nomatch h

/-- The buffers this stage writes. -/
abbrev s_deg_W : List (Ref sig .tc) := [main_cst, main_v4, main_c, main_v5, main_v6, main_c_0, main_v7, main_v8, main_v9, main_v10, main_cst_1, main_v11, main_v12, main_cst_2, main_v13, main_v14, main_v15]

theorem s_deg_writes : (s_deg : List (HloOp τ sig (Elt F))).Forall fun op => op.writes ⊆ (s_deg_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_deg_keep (V0 : Valuation τ sig (Elt F)) (r : Ref sig .tc) (h : r ∉ s_deg_W) :
    after s_deg V0 (Proc.devRef .tc r) = V0 (Proc.devRef .tc r) :=
  after_of_writes_sub s_deg _ s_deg_writes h

/-- The weight of every edge, the product of the inverse square roots at its two ends (negative indices wrapped), and the self-loop weight, their square at the node. -/
abbrev s_enorm : List (HloOp τ sig (Elt F)) :=
  [ StableHlo.nullary main_c_3 (constantI S_ 32 0#32),
    StableHlo.unary main_c_3 main_v16 (broadcastInDim S1600000 ![] bcast_S_S1600000 : (⟨S_, .i32⟩ : BufTy).Contents (Elt F) → (⟨S1600000, .i32⟩ : BufTy).Contents (Elt F)),
    StableHlo.binary main_v1 main_v16 main_v17 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v18 (broadcastInDim S1600000 ![] bcast_S_S1600000 : (⟨S_, .i32⟩ : BufTy).Contents (Elt F) → (⟨S1600000, .i32⟩ : BufTy).Contents (Elt F)),
    StableHlo.binary main_v1 main_v18 main_v19 (addi : (⟨S1600000, .i32⟩ : BufTy).Contents (Elt F) → (⟨S1600000, .i32⟩ : BufTy).Contents (Elt F) → (⟨S1600000, .i32⟩ : BufTy).Contents (Elt F)),
    StableHlo.ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v20 main_v21 (broadcastInDim S1600000x1 ![0] bcast_S1600000_S1600000x1_0 : (⟨S1600000, .i32⟩ : BufTy).Contents (Elt F) → (⟨S1600000x1, .i32⟩ : BufTy).Contents (Elt F)),
    StableHlo.binary main_v15 main_v21 main_v22 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v23 (broadcastInDim S1600000 ![] bcast_S_S1600000 : (⟨S_, .i32⟩ : BufTy).Contents (Elt F) → (⟨S1600000, .i32⟩ : BufTy).Contents (Elt F)),
    StableHlo.binary main_v3 main_v23 main_v24 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v25 (broadcastInDim S1600000 ![] bcast_S_S1600000 : (⟨S_, .i32⟩ : BufTy).Contents (Elt F) → (⟨S1600000, .i32⟩ : BufTy).Contents (Elt F)),
    StableHlo.binary main_v3 main_v25 main_v26 (addi : (⟨S1600000, .i32⟩ : BufTy).Contents (Elt F) → (⟨S1600000, .i32⟩ : BufTy).Contents (Elt F) → (⟨S1600000, .i32⟩ : BufTy).Contents (Elt F)),
    StableHlo.ternary main_v24 main_v26 main_v3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v27 main_v28 (broadcastInDim S1600000x1 ![0] bcast_S1600000_S1600000x1_0 : (⟨S1600000, .i32⟩ : BufTy).Contents (Elt F) → (⟨S1600000x1, .i32⟩ : BufTy).Contents (Elt F)),
    StableHlo.binary main_v15 main_v28 main_v29 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v22 main_v29 main_v30 (mulf : (⟨S1600000, .f32⟩ : BufTy).Contents (Elt F) → (⟨S1600000, .f32⟩ : BufTy).Contents (Elt F) → (⟨S1600000, .f32⟩ : BufTy).Contents (Elt F)),
    StableHlo.binary main_v15 main_v15 main_v31 (mulf : (⟨S100000, .f32⟩ : BufTy).Contents (Elt F) → (⟨S100000, .f32⟩ : BufTy).Contents (Elt F) → (⟨S100000, .f32⟩ : BufTy).Contents (Elt F)) ]

theorem s_enorm_sub : (s_enorm : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

theorem s_enorm_fresh : ∀ op ∈ (s_enorm : List (HloOp τ sig (Elt F))), op.fresh = ∅ := by
  intro _ h; (repeat (cases h with | head => rfl | tail _ h => ?_)); exact nomatch h

/-- The buffers this stage writes. -/
abbrev s_enorm_W : List (Ref sig .tc) := [main_c_3, main_v16, main_v17, main_c_4, main_v18, main_v19, main_v20, main_v21, main_v22, main_c_5, main_v23, main_v24, main_c_6, main_v25, main_v26, main_v27, main_v28, main_v29, main_v30, main_v31]

theorem s_enorm_writes : (s_enorm : List (HloOp τ sig (Elt F))).Forall fun op => op.writes ⊆ (s_enorm_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_enorm_keep (V0 : Valuation τ sig (Elt F)) (r : Ref sig .tc) (h : r ∉ s_enorm_W) :
    after s_enorm V0 (Proc.devRef .tc r) = V0 (Proc.devRef .tc r) :=
  after_of_writes_sub s_enorm _ s_enorm_writes h

/-- The features times the embedding matrix, times the first layer's matrix. -/
abbrev s_lin1 : List (HloOp τ sig (Elt F)) :=
  [ StableHlo.binary main_arg0 main_arg3 main_v32 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.binary main_v32 main_arg4 main_v33 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

theorem s_lin1_sub : (s_lin1 : List (HloOp τ sig (Elt F))).Forall fun op => op.bufs ⊆ tcRefs τ sig :=
  ⟨binary_bufs_sub .., binary_bufs_sub ..⟩

theorem s_lin1_fresh : ∀ op ∈ (s_lin1 : List (HloOp τ sig (Elt F))), op.fresh = ∅ := by
  intro _ h; (repeat (cases h with | head => rfl | tail _ h => ?_)); exact nomatch h

/-- The buffers this stage writes. -/
abbrev s_lin1_W : List (Ref sig .tc) := [main_v32, main_v33]

theorem s_lin1_writes : (s_lin1 : List (HloOp τ sig (Elt F))).Forall fun op => op.writes ⊆ (s_lin1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_lin1_keep (V0 : Valuation τ sig (Elt F)) (r : Ref sig .tc) (h : r ∉ s_lin1_W) :
    after s_lin1 V0 (Proc.devRef .tc r) = V0 (Proc.devRef .tc r) :=
  after_of_writes_sub s_lin1 _ s_lin1_writes h

/-- First layer: the rows gathered at the sources, scaled by the edge weights, summed at the destinations; the self-loop weight as a column. -/
abbrev s_agg1a : List (HloOp τ sig (Elt F)) :=
  [ StableHlo.nullary main_c_7 (constantI S_ 32 0#32),
    StableHlo.unary main_c_7 main_v34 (broadcastInDim S1600000 ![] bcast_S_S1600000 : (⟨S_, .i32⟩ : BufTy).Contents (Elt F) → (⟨S1600000, .i32⟩ : BufTy).Contents (Elt F)),
    StableHlo.binary main_v1 main_v34 main_v35 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v36 (broadcastInDim S1600000 ![] bcast_S_S1600000 : (⟨S_, .i32⟩ : BufTy).Contents (Elt F) → (⟨S1600000, .i32⟩ : BufTy).Contents (Elt F)),
    StableHlo.binary main_v1 main_v36 main_v37 (addi : (⟨S1600000, .i32⟩ : BufTy).Contents (Elt F) → (⟨S1600000, .i32⟩ : BufTy).Contents (Elt F) → (⟨S1600000, .i32⟩ : BufTy).Contents (Elt F)),
    StableHlo.ternary main_v35 main_v37 main_v1 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v38 main_v39 (broadcastInDim S1600000x1 ![0] bcast_S1600000_S1600000x1_0 : (⟨S1600000, .i32⟩ : BufTy).Contents (Elt F) → (⟨S1600000x1, .i32⟩ : BufTy).Contents (Elt F)),
    StableHlo.binary main_v33 main_v39 main_v40 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v30 main_v41 (broadcastInDim S1600000x1 ![0] bcast_S1600000_S1600000x1_0 : (⟨S1600000, .f32⟩ : BufTy).Contents (Elt F) → (⟨S1600000x1, .f32⟩ : BufTy).Contents (Elt F)),
    StableHlo.unary main_v41 main_v42 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v40 main_v42 main_v43 (mulf : (⟨S1600000x64, .f32⟩ : BufTy).Contents (Elt F) → (⟨S1600000x64, .f32⟩ : BufTy).Contents (Elt F) → (⟨S1600000x64, .f32⟩ : BufTy).Contents (Elt F)),
    StableHlo.nullary main_cst_9 (constant S_ .f32 0x00000000#32),
    StableHlo.unary main_cst_9 main_v44 (broadcastInDim S100000x64 ![] bcast_S_S100000x64 : (⟨S_, .f32⟩ : BufTy).Contents (Elt F) → (⟨S100000x64, .f32⟩ : BufTy).Contents (Elt F)),
    StableHlo.unary main_v3 main_v45 (broadcastInDim S1600000x1 ![0] bcast_S1600000_S1600000x1_0 : (⟨S1600000, .i32⟩ : BufTy).Contents (Elt F) → (⟨S1600000x1, .i32⟩ : BufTy).Contents (Elt F)),
    StableHlo.ternary main_v44 main_v45 main_v43 main_v46 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v31 main_v47 (broadcastInDim S100000x1 ![0] bcast_S100000_S100000x1_0 : (⟨S100000, .f32⟩ : BufTy).Contents (Elt F) → (⟨S100000x1, .f32⟩ : BufTy).Contents (Elt F)) ]

theorem s_agg1a_sub : (s_agg1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub ..⟩

theorem s_agg1a_fresh : ∀ op ∈ (s_agg1a : List (HloOp τ sig (Elt F))), op.fresh = ∅ := by
  intro _ h; (repeat (cases h with | head => rfl | tail _ h => ?_)); exact nomatch h

/-- The buffers this stage writes. -/
abbrev s_agg1a_W : List (Ref sig .tc) := [main_c_7, main_v34, main_v35, main_c_8, main_v36, main_v37, main_v38, main_v39, main_v40, main_v41, main_v42, main_v43, main_cst_9, main_v44, main_v45, main_v46, main_v47]

theorem s_agg1a_writes : (s_agg1a : List (HloOp τ sig (Elt F))).Forall fun op => op.writes ⊆ (s_agg1a_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_agg1a_keep (V0 : Valuation τ sig (Elt F)) (r : Ref sig .tc) (h : r ∉ s_agg1a_W) :
    after s_agg1a V0 (Proc.devRef .tc r) = V0 (Proc.devRef .tc r) :=
  after_of_writes_sub s_agg1a _ s_agg1a_writes h

/-- The operations of this part of @main, in order. -/
abbrev ops0 : List (HloOp τ sig (Elt F)) := s_idx ++ (s_deg ++ (s_enorm ++ (s_lin1 ++ (s_agg1a))))

theorem ops0_sub : (ops0 : List (HloOp τ sig (Elt F))).Forall fun op => op.bufs ⊆ tcRefs τ sig :=
  List.forall_iff_forall_mem.mpr fun op h => by
    simp only [ops0, List.mem_append] at h
    rcases h with h | h | h | h | h
    exacts [List.forall_iff_forall_mem.mp s_idx_sub op h, List.forall_iff_forall_mem.mp s_deg_sub op h, List.forall_iff_forall_mem.mp s_enorm_sub op h, List.forall_iff_forall_mem.mp s_lin1_sub op h, List.forall_iff_forall_mem.mp s_agg1a_sub op h]

theorem ops0_fresh : ∀ op ∈ (ops0 : List (HloOp τ sig (Elt F))), op.fresh = ∅ := fun op h => by
  simp only [ops0, List.mem_append] at h
  rcases h with h | h | h | h | h
  exacts [s_idx_fresh op h, s_deg_fresh op h, s_enorm_fresh op h, s_lin1_fresh op h, s_agg1a_fresh op h]

/-- This part of @main is the sequence of its operations: each statement is one step, a called function's body stands in the
    call's place over the call's own buffers. -/
theorem main_part0_eq (c : Dev nD) : main_part0 (F := F) c = seq ops0 := rfl

end Cert.ReferenceIdeal.HandRun

end
-- ==== Proof.RefRunB.lean ====
/-
  The reference program's host operations 61 to 141 as lists, stage by stage (the first variance computation written out in place of its call), and the second part of @main as their sequence.
-/
import proofs.«132265_j53532472378064_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- First layer: the edges' sum plus the node's own row scaled by its self-loop weight, plus the bias. -/
abbrev s_agg1b : List (HloOp τ sig (Elt F)) :=
  [ StableHlo.unary main_v47 main_v48 (broadcastInDim S100000x64 ![0, 1] bcast_S100000x1_S100000x64_0_1 : (⟨S100000x1, .f32⟩ : BufTy).Contents (Elt F) → (⟨S100000x64, .f32⟩ : BufTy).Contents (Elt F)),
    StableHlo.binary main_v33 main_v48 main_v49 (mulf : (⟨S100000x64, .f32⟩ : BufTy).Contents (Elt F) → (⟨S100000x64, .f32⟩ : BufTy).Contents (Elt F) → (⟨S100000x64, .f32⟩ : BufTy).Contents (Elt F)),
    StableHlo.binary main_v46 main_v49 main_v50 (addf : (⟨S100000x64, .f32⟩ : BufTy).Contents (Elt F) → (⟨S100000x64, .f32⟩ : BufTy).Contents (Elt F) → (⟨S100000x64, .f32⟩ : BufTy).Contents (Elt F)),
    StableHlo.unary main_arg5 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v52 main_v53 (addf : (⟨S100000x64, .f32⟩ : BufTy).Contents (Elt F) → (⟨S100000x64, .f32⟩ : BufTy).Contents (Elt F) → (⟨S100000x64, .f32⟩ : BufTy).Contents (Elt F)) ]

theorem s_agg1b_sub : (s_agg1b : List (HloOp τ sig (Elt F))).Forall fun op => op.bufs ⊆ tcRefs τ sig :=
  ⟨unary_bufs_sub .., binary_bufs_sub .., binary_bufs_sub .., unary_bufs_sub .., unary_bufs_sub .., binary_bufs_sub ..⟩

theorem s_agg1b_fresh : ∀ op ∈ (s_agg1b : List (HloOp τ sig (Elt F))), op.fresh = ∅ := by
  intro _ h; (repeat (cases h with | head => rfl | tail _ h => ?_)); exact nomatch h

/-- The buffers this stage writes. -/
abbrev s_agg1b_W : List (Ref sig .tc) := [main_v48, main_v49, main_v50, main_v51, main_v52, main_v53]

theorem s_agg1b_writes : (s_agg1b : List (HloOp τ sig (Elt F))).Forall fun op => op.writes ⊆ (s_agg1b_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_agg1b_keep (V0 : Valuation τ sig (Elt F)) (r : Ref sig .tc) (h : r ∉ s_agg1b_W) :
    after s_agg1b V0 (Proc.devRef .tc r) = V0 (Proc.devRef .tc r) :=
  after_of_writes_sub s_agg1b _ s_agg1b_writes h

/-- First layer: the mean of every column over the nodes. -/
abbrev s_mean1 : List (HloOp τ sig (Elt F)) :=
  [ StableHlo.nullary main_cst_10 (constant S_ .f32 0x00000000#32),
    StableHlo.binary main_v53 main_cst_10 main_v54 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_11 (constant S_ .f32 0x47C35000#32),
    StableHlo.unary main_cst_11 main_v55 (broadcastInDim S64 ![] bcast_S_S64 : (⟨S_, .f32⟩ : BufTy).Contents (Elt F) → (⟨S64, .f32⟩ : BufTy).Contents (Elt F)),
    StableHlo.binary main_v54 main_v55 main_v56 (Host.divf : (⟨S64, .f32⟩ : BufTy).Contents (Elt F) → (⟨S64, .f32⟩ : BufTy).Contents (Elt F) → (⟨S64, .f32⟩ : BufTy).Contents (Elt F)) ]

theorem s_mean1_sub : (s_mean1 : List (HloOp τ sig (Elt F))).Forall fun op => op.bufs ⊆ tcRefs τ sig :=
  ⟨nullary_bufs_sub .., binary_bufs_sub .., nullary_bufs_sub .., unary_bufs_sub .., binary_bufs_sub ..⟩

theorem s_mean1_fresh : ∀ op ∈ (s_mean1 : List (HloOp τ sig (Elt F))), op.fresh = ∅ := by
  intro _ h; (repeat (cases h with | head => rfl | tail _ h => ?_)); exact nomatch h

/-- The buffers this stage writes. -/
abbrev s_mean1_W : List (Ref sig .tc) := [main_cst_10, main_v54, main_cst_11, main_v55, main_v56]

theorem s_mean1_writes : (s_mean1 : List (HloOp τ sig (Elt F))).Forall fun op => op.writes ⊆ (s_mean1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_mean1_keep (V0 : Valuation τ sig (Elt F)) (r : Ref sig .tc) (h : r ∉ s_mean1_W) :
    after s_mean1 V0 (Proc.devRef .tc r) = V0 (Proc.devRef .tc r) :=
  after_of_writes_sub s_mean1 _ s_mean1_writes h

/-- First layer: the variance of every column over the nodes: the mean of the squared deviations, with zero degrees of freedom removed. -/
abbrev s_var1 : List (HloOp τ sig (Elt F)) :=
  [ StableHlo.nullary main_c_12 (constantI S_ 32 0#32),
    StableHlo.nullary main_call0_cst (constant S_ .f32 0x00000000#32),
    StableHlo.binary main_v53 main_call0_cst main_call0_v0 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call0_v0 main_call0_v1 (broadcastInDim S1x64 ![1] bcast_S64_S1x64_1 : (⟨S64, .f32⟩ : BufTy).Contents (Elt F) → (⟨S1x64, .f32⟩ : BufTy).Contents (Elt F)),
    StableHlo.nullary main_call0_cst_0 (constant S_ .f32 0x47C35000#32),
    StableHlo.unary main_call0_cst_0 main_call0_v2 (broadcastInDim S1x64 ![] bcast_S_S1x64 : (⟨S_, .f32⟩ : BufTy).Contents (Elt F) → (⟨S1x64, .f32⟩ : BufTy).Contents (Elt F)),
    StableHlo.binary main_call0_v1 main_call0_v2 main_call0_v3 (Host.divf : (⟨S1x64, .f32⟩ : BufTy).Contents (Elt F) → (⟨S1x64, .f32⟩ : BufTy).Contents (Elt F) → (⟨S1x64, .f32⟩ : BufTy).Contents (Elt F)),
    StableHlo.unary main_call0_v3 main_call0_v4 (broadcastInDim S100000x64 ![0, 1] bcast_S1x64_S100000x64_0_1 : (⟨S1x64, .f32⟩ : BufTy).Contents (Elt F) → (⟨S100000x64, .f32⟩ : BufTy).Contents (Elt F)),
    StableHlo.binary main_v53 main_call0_v4 main_call0_v5 (subf : (⟨S100000x64, .f32⟩ : BufTy).Contents (Elt F) → (⟨S100000x64, .f32⟩ : BufTy).Contents (Elt F) → (⟨S100000x64, .f32⟩ : BufTy).Contents (Elt F)),
    StableHlo.binary main_call0_v5 main_call0_v5 main_call0_v6 (mulf : (⟨S100000x64, .f32⟩ : BufTy).Contents (Elt F) → (⟨S100000x64, .f32⟩ : BufTy).Contents (Elt F) → (⟨S100000x64, .f32⟩ : BufTy).Contents (Elt F)),
    StableHlo.unary main_c_12 main_call0_v7 (sitofp .f32 : (⟨S_, .i32⟩ : BufTy).Contents (Elt F) → (⟨S_, .f32⟩ : BufTy).Contents (Elt F)),
    StableHlo.nullary main_call0_cst_1 (constant S_ .f32 0x47C35000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call0_v8 main_call0_v10 (broadcastInDim S64 ![] bcast_S_S64 : (⟨S_, .f32⟩ : BufTy).Contents (Elt F) → (⟨S64, .f32⟩ : BufTy).Contents (Elt F)),
    StableHlo.binary main_call0_v9 main_call0_v10 main_call0_v11 (Host.divf : (⟨S64, .f32⟩ : BufTy).Contents (Elt F) → (⟨S64, .f32⟩ : BufTy).Contents (Elt F) → (⟨S64, .f32⟩ : BufTy).Contents (Elt F)),
    StableHlo.nullary main_call0_cst_3 (constant S_ .f32 0x00000000#32),
    StableHlo.binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 (broadcastInDim S64 ![] bcast_S_S64 : (⟨S_, .f32⟩ : BufTy).Contents (Elt F) → (⟨S64, .f32⟩ : BufTy).Contents (Elt F)),
    StableHlo.ternary main_call0_v12 main_call0_v11 main_call0_call0_v1 main_v57 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

theorem s_var1_sub : (s_var1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem s_var1_fresh : ∀ op ∈ (s_var1 : List (HloOp τ sig (Elt F))), op.fresh = ∅ := by
  intro _ h; (repeat (cases h with | head => rfl | tail _ h => ?_)); exact nomatch h

/-- The buffers this stage writes. -/
abbrev s_var1_W : List (Ref sig .tc) := [main_c_12, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v57]

theorem s_var1_writes : (s_var1 : List (HloOp τ sig (Elt F))).Forall fun op => op.writes ⊆ (s_var1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_var1_keep (V0 : Valuation τ sig (Elt F)) (r : Ref sig .tc) (h : r ∉ s_var1_W) :
    after s_var1 V0 (Proc.devRef .tc r) = V0 (Proc.devRef .tc r) :=
  after_of_writes_sub s_var1 _ s_var1_writes h

/-- First layer: the deviation times the inverse square root of variance plus epsilon, scaled and shifted, clamped below at zero. -/
abbrev s_bn1 : List (HloOp τ sig (Elt F)) :=
  [ StableHlo.unary main_v56 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v53 main_v59 main_v60 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v61 (broadcastInDim S64 ![] bcast_S_S64 : (⟨S_, .f32⟩ : BufTy).Contents (Elt F) → (⟨S64, .f32⟩ : BufTy).Contents (Elt F)),
    StableHlo.binary main_v57 main_v61 main_v62 (addf : (⟨S64, .f32⟩ : BufTy).Contents (Elt F) → (⟨S64, .f32⟩ : BufTy).Contents (Elt F) → (⟨S64, .f32⟩ : BufTy).Contents (Elt F)),
    StableHlo.unary main_v62 main_v63 (Host.rsqrt : (⟨S64, .f32⟩ : BufTy).Contents (Elt F) → (⟨S64, .f32⟩ : BufTy).Contents (Elt F)),
    StableHlo.unary main_v63 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v65 main_v66 (mulf : (⟨S100000x64, .f32⟩ : BufTy).Contents (Elt F) → (⟨S100000x64, .f32⟩ : BufTy).Contents (Elt F) → (⟨S100000x64, .f32⟩ : BufTy).Contents (Elt F)),
    StableHlo.unary main_arg6 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v68 main_v69 (mulf : (⟨S100000x64, .f32⟩ : BufTy).Contents (Elt F) → (⟨S100000x64, .f32⟩ : BufTy).Contents (Elt F) → (⟨S100000x64, .f32⟩ : BufTy).Contents (Elt F)),
    StableHlo.unary main_arg7 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S100000x64 ![0, 1] bcast_S1x64_S100000x64_0_1 : (⟨S1x64, .f32⟩ : BufTy).Contents (Elt F) → (⟨S100000x64, .f32⟩ : BufTy).Contents (Elt F)),
    StableHlo.binary main_v69 main_v71 main_v72 (addf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x00000000#32),
    StableHlo.unary main_cst_14 main_v73 (broadcastInDim S100000x64 ![] bcast_S_S100000x64 : (⟨S_, .f32⟩ : BufTy).Contents (Elt F) → (⟨S100000x64, .f32⟩ : BufTy).Contents (Elt F)),
    StableHlo.binary main_v72 main_v73 main_v74 (maximumf : (⟨S100000x64, .f32⟩ : BufTy).Contents (Elt F) → (⟨S100000x64, .f32⟩ : BufTy).Contents (Elt F) → (⟨S100000x64, .f32⟩ : BufTy).Contents (Elt F)) ]

theorem s_bn1_sub : (s_bn1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem s_bn1_fresh : ∀ op ∈ (s_bn1 : List (HloOp τ sig (Elt F))), op.fresh = ∅ := by
  intro _ h; (repeat (cases h with | head => rfl | tail _ h => ?_)); exact nomatch h

/-- The buffers this stage writes. -/
abbrev s_bn1_W : List (Ref sig .tc) := [main_v58, main_v59, main_v60, main_cst_13, main_v61, main_v62, main_v63, main_v64, main_v65, main_v66, main_v67, main_v68, main_v69, main_v70, main_v71, main_v72, main_cst_14, main_v73, main_v74]

theorem s_bn1_writes : (s_bn1 : List (HloOp τ sig (Elt F))).Forall fun op => op.writes ⊆ (s_bn1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_bn1_keep (V0 : Valuation τ sig (Elt F)) (r : Ref sig .tc) (h : r ∉ s_bn1_W) :
    after s_bn1 V0 (Proc.devRef .tc r) = V0 (Proc.devRef .tc r) :=
  after_of_writes_sub s_bn1 _ s_bn1_writes h

/-- The first layer's output times the second layer's matrix. -/
abbrev s_lin2 : List (HloOp τ sig (Elt F)) :=
  [ StableHlo.binary main_v74 main_arg8 main_v75 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

theorem s_lin2_sub : (s_lin2 : List (HloOp τ sig (Elt F))).Forall fun op => op.bufs ⊆ tcRefs τ sig :=
  binary_bufs_sub ..

theorem s_lin2_fresh : ∀ op ∈ (s_lin2 : List (HloOp τ sig (Elt F))), op.fresh = ∅ := by
  intro _ h; (repeat (cases h with | head => rfl | tail _ h => ?_)); exact nomatch h

/-- The buffers this stage writes. -/
abbrev s_lin2_W : List (Ref sig .tc) := [main_v75]

theorem s_lin2_writes : (s_lin2 : List (HloOp τ sig (Elt F))).Forall fun op => op.writes ⊆ (s_lin2_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))

/-- A buffer this stage does not write keeps its contents through it. -/
theorem s_lin2_keep (V0 : Valuation τ sig (Elt F)) (r : Ref sig .tc) (h : r ∉ s_lin2_W) :
    after s_lin2 V0 (Proc.devRef .tc r) = V0 (Proc.devRef .tc r) :=
  after_of_writes_sub s_lin2 _ s_lin2_writes h

/-- Second layer: gather, scale, sum at the destinations, add the self-loop term and the bias. -/
abbrev s_agg2 : List (HloOp τ sig (Elt F)) :=
  [ StableHlo.nullary main_c_15 (constantI S_ 32 0#32),
    StableHlo.unary main_c_15 main_v76 (broadcastInDim S1600000 ![] bcast_S_S1600000 : (⟨S_, .i32⟩ : BufTy).Contents (Elt F) → (⟨S1600000, .i32⟩ : BufTy).Contents (Elt F)),
    StableHlo.binary main_v1 main_v76 main_v77 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v78 (broadcastInDim S1600000 ![] bcast_S_S1600000 : (⟨S_, .i32⟩ : BufTy).Contents (Elt F) → (⟨S1600000, .i32⟩ : BufTy).Contents (Elt F)),
    StableHlo.binary main_v1 main_v78 main_v79 (addi : (⟨S1600000, .i32⟩ : BufTy).Contents (Elt F) → (⟨S1600000, .i32⟩ : BufTy).Contents (Elt F) → (⟨S1600000, .i32⟩ : BufTy).Contents (Elt F)),
    StableHlo.ternary main_v77 main_v79 main_v1 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v80 main_v81 (broadcastInDim S1600000x1 ![0] bcast_S1600000_S1600000x1_0 : (⟨S1600000, .i32⟩ : BufTy).Contents (Elt F) → (⟨S1600000x1, .i32⟩ : BufTy).Contents (Elt F)),
    StableHlo.binary main_v75 main_v81 main_v82 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v30 main_v83 (broadcastInDim S1600000x1 ![0] bcast_S1600000_S1600000x1_0 : (⟨S1600000, .f32⟩ : BufTy).Contents (Elt F) → (⟨S1600000x1, .f32⟩ : BufTy).Contents (Elt F)),
    StableHlo.unary main_v83 main_v84 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v82 main_v84 main_v85 (mulf : (⟨S1600000x64, .f32⟩ : BufTy).Contents (Elt F) → (⟨S1600000x64, .f32⟩ : BufTy).Contents (Elt F) → (⟨S1600000x64, .f32⟩ : BufTy).Contents (Elt F)),
    StableHlo.nullary main_cst_17 (constant S_ .f32 0x00000000#32),
    StableHlo.unary main_cst_17 main_v86 (broadcastInDim S100000x64 ![] bcast_S_S100000x64 : (⟨S_, .f32⟩ : BufTy).Contents (Elt F) → (⟨S100000x64, .f32⟩ : BufTy).Contents (Elt F)),
    StableHlo.unary main_v3 main_v87 (broadcastInDim S1600000x1 ![0] bcast_S1600000_S1600000x1_0 : (⟨S1600000, .i32⟩ : BufTy).Contents (Elt F) → (⟨S1600000x1, .i32⟩ : BufTy).Contents (Elt F)),
    StableHlo.ternary main_v86 main_v87 main_v85 main_v88 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v31 main_v89 (broadcastInDim S100000x1 ![0] bcast_S100000_S100000x1_0 : (⟨S100000, .f32⟩ : BufTy).Contents (Elt F) → (⟨S100000x1, .f32⟩ : BufTy).Contents (Elt F)),
    StableHlo.unary main_v89 main_v90 (broadcastInDim S100000x64 ![0, 1] bcast_S100000x1_S100000x64_0_1 : (⟨S100000x1, .f32⟩ : BufTy).Contents (Elt F) → (⟨S100000x64, .f32⟩ : BufTy).Contents (Elt F)),
    StableHlo.binary main_v75 main_v90 main_v91 (mulf : (⟨S100000x64, .f32⟩ : BufTy).Contents (Elt F) → (⟨S100000x64, .f32⟩ : BufTy).Contents (Elt F) → (⟨S100000x64, .f32⟩ : BufTy).Contents (Elt F)),
    StableHlo.binary main_v88 main_v91 main_v92 (addf : (⟨S100000x64, .f32⟩ : BufTy).Contents (Elt F) → (⟨S100000x64, .f32⟩ : BufTy).Contents (Elt F) → (⟨S100000x64, .f32⟩ : BufTy).Contents (Elt F)),
    StableHlo.unary main_arg9 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v94 main_v95 (addf : (⟨S100000x64, .f32⟩ : BufTy).Contents (Elt F) → (⟨S100000x64, .f32⟩ : BufTy).Contents (Elt F) → (⟨S100000x64, .f32⟩ : BufTy).Contents (Elt F)) ]

theorem s_agg2_sub : (s_agg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

theorem s_agg2_fresh : ∀ op ∈ (s_agg2 : List (HloOp τ sig (Elt F))), op.fresh = ∅ := by
  intro _ h; (repeat (cases h with | head => rfl | tail _ h => ?_)); exact nomatch h

/-- The buffers this stage writes. -/
abbrev s_agg2_W : List (Ref sig .tc) := [main_c_15, main_v76, main_v77, main_c_16, main_v78, main_v79, main_v80, main_v81, main_v82, main_v83, main_v84, main_v85, main_cst_17, main_v86, main_v87, main_v88, main_v89, main_v90, main_v91, main_v92, main_v93, main_v94, main_v95]

theorem s_agg2_writes : (s_agg2 : List (HloOp τ sig (Elt F))).Forall fun op => op.writes ⊆ (s_agg2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_agg2_keep (V0 : Valuation τ sig (Elt F)) (r : Ref sig .tc) (h : r ∉ s_agg2_W) :
    after s_agg2 V0 (Proc.devRef .tc r) = V0 (Proc.devRef .tc r) :=
  after_of_writes_sub s_agg2 _ s_agg2_writes h

/-- Second layer: the column sums and the node count as a row. -/
abbrev s_mean2a : List (HloOp τ sig (Elt F)) :=
  [ StableHlo.nullary main_cst_18 (constant S_ .f32 0x00000000#32),
    StableHlo.binary main_v95 main_cst_18 main_v96 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_19 (constant S_ .f32 0x47C35000#32),
    StableHlo.unary main_cst_19 main_v97 (broadcastInDim S64 ![] bcast_S_S64 : (⟨S_, .f32⟩ : BufTy).Contents (Elt F) → (⟨S64, .f32⟩ : BufTy).Contents (Elt F)) ]

theorem s_mean2a_sub : (s_mean2a : List (HloOp τ sig (Elt F))).Forall fun op => op.bufs ⊆ tcRefs τ sig :=
  ⟨nullary_bufs_sub .., binary_bufs_sub .., nullary_bufs_sub .., unary_bufs_sub ..⟩

theorem s_mean2a_fresh : ∀ op ∈ (s_mean2a : List (HloOp τ sig (Elt F))), op.fresh = ∅ := by
  intro _ h; (repeat (cases h with | head => rfl | tail _ h => ?_)); exact nomatch h

/-- The buffers this stage writes. -/
abbrev s_mean2a_W : List (Ref sig .tc) := [main_cst_18, main_v96, main_cst_19, main_v97]

theorem s_mean2a_writes : (s_mean2a : List (HloOp τ sig (Elt F))).Forall fun op => op.writes ⊆ (s_mean2a_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_mean2a_keep (V0 : Valuation τ sig (Elt F)) (r : Ref sig .tc) (h : r ∉ s_mean2a_W) :
    after s_mean2a V0 (Proc.devRef .tc r) = V0 (Proc.devRef .tc r) :=
  after_of_writes_sub s_mean2a _ s_mean2a_writes h

/-- The operations of this part of @main, in order. -/
abbrev ops1 : List (HloOp τ sig (Elt F)) := s_agg1b ++ (s_mean1 ++ (s_var1 ++ (s_bn1 ++ (s_lin2 ++ (s_agg2 ++ (s_mean2a))))))

theorem ops1_sub : (ops1 : List (HloOp τ sig (Elt F))).Forall fun op => op.bufs ⊆ tcRefs τ sig :=
  List.forall_iff_forall_mem.mpr fun op h => by
    simp only [ops1, List.mem_append] at h
    rcases h with h | h | h | h | h | h | h
    exacts [List.forall_iff_forall_mem.mp s_agg1b_sub op h, List.forall_iff_forall_mem.mp s_mean1_sub op h, List.forall_iff_forall_mem.mp s_var1_sub op h, List.forall_iff_forall_mem.mp s_bn1_sub op h, List.forall_iff_forall_mem.mp s_lin2_sub op h, List.forall_iff_forall_mem.mp s_agg2_sub op h, List.forall_iff_forall_mem.mp s_mean2a_sub op h]

theorem ops1_fresh : ∀ op ∈ (ops1 : List (HloOp τ sig (Elt F))), op.fresh = ∅ := fun op h => by
  simp only [ops1, List.mem_append] at h
  rcases h with h | h | h | h | h | h | h
  exacts [s_agg1b_fresh op h, s_mean1_fresh op h, s_var1_fresh op h, s_bn1_fresh op h, s_lin2_fresh op h, s_agg2_fresh op h, s_mean2a_fresh op h]

/-- This part of @main is the sequence of its operations: each statement is one step, a called function's body stands in the
    call's place over the call's own buffers. -/
theorem main_part1_eq (c : Dev nD) : main_part1 (F := F) c = seq ops1 := rfl

end Cert.ReferenceIdeal.HandRun

end
-- ==== Proof.RefRunC.lean ====
/-
  The reference program's last forty-four host operations as lists, stage by stage (the second variance computation written out in place of its call), and the last part of @main as their sequence.
-/
import proofs.«132265_j53532472378064_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Second layer: the mean of every column. -/
abbrev s_mean2b : List (HloOp τ sig (Elt F)) :=
  [ StableHlo.binary main_v96 main_v97 main_v98 (Host.divf : (⟨S64, .f32⟩ : BufTy).Contents (Elt F) → (⟨S64, .f32⟩ : BufTy).Contents (Elt F) → (⟨S64, .f32⟩ : BufTy).Contents (Elt F)) ]

theorem s_mean2b_sub : (s_mean2b : List (HloOp τ sig (Elt F))).Forall fun op => op.bufs ⊆ tcRefs τ sig :=
  binary_bufs_sub ..

theorem s_mean2b_fresh : ∀ op ∈ (s_mean2b : List (HloOp τ sig (Elt F))), op.fresh = ∅ := by
  intro _ h; (repeat (cases h with | head => rfl | tail _ h => ?_)); exact nomatch h

/-- The buffers this stage writes. -/
abbrev s_mean2b_W : List (Ref sig .tc) := [main_v98]

theorem s_mean2b_writes : (s_mean2b : List (HloOp τ sig (Elt F))).Forall fun op => op.writes ⊆ (s_mean2b_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))

/-- A buffer this stage does not write keeps its contents through it. -/
theorem s_mean2b_keep (V0 : Valuation τ sig (Elt F)) (r : Ref sig .tc) (h : r ∉ s_mean2b_W) :
    after s_mean2b V0 (Proc.devRef .tc r) = V0 (Proc.devRef .tc r) :=
  after_of_writes_sub s_mean2b _ s_mean2b_writes h

/-- Second layer: the variance of every column over the nodes. -/
abbrev s_var2 : List (HloOp τ sig (Elt F)) :=
  [ StableHlo.nullary main_c_20 (constantI S_ 32 0#32),
    StableHlo.nullary main_call1_cst (constant S_ .f32 0x00000000#32),
    StableHlo.binary main_v95 main_call1_cst main_call1_v0 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call1_v0 main_call1_v1 (broadcastInDim S1x64 ![1] bcast_S64_S1x64_1 : (⟨S64, .f32⟩ : BufTy).Contents (Elt F) → (⟨S1x64, .f32⟩ : BufTy).Contents (Elt F)),
    StableHlo.nullary main_call1_cst_0 (constant S_ .f32 0x47C35000#32),
    StableHlo.unary main_call1_cst_0 main_call1_v2 (broadcastInDim S1x64 ![] bcast_S_S1x64 : (⟨S_, .f32⟩ : BufTy).Contents (Elt F) → (⟨S1x64, .f32⟩ : BufTy).Contents (Elt F)),
    StableHlo.binary main_call1_v1 main_call1_v2 main_call1_v3 (Host.divf : (⟨S1x64, .f32⟩ : BufTy).Contents (Elt F) → (⟨S1x64, .f32⟩ : BufTy).Contents (Elt F) → (⟨S1x64, .f32⟩ : BufTy).Contents (Elt F)),
    StableHlo.unary main_call1_v3 main_call1_v4 (broadcastInDim S100000x64 ![0, 1] bcast_S1x64_S100000x64_0_1 : (⟨S1x64, .f32⟩ : BufTy).Contents (Elt F) → (⟨S100000x64, .f32⟩ : BufTy).Contents (Elt F)),
    StableHlo.binary main_v95 main_call1_v4 main_call1_v5 (subf : (⟨S100000x64, .f32⟩ : BufTy).Contents (Elt F) → (⟨S100000x64, .f32⟩ : BufTy).Contents (Elt F) → (⟨S100000x64, .f32⟩ : BufTy).Contents (Elt F)),
    StableHlo.binary main_call1_v5 main_call1_v5 main_call1_v6 (mulf : (⟨S100000x64, .f32⟩ : BufTy).Contents (Elt F) → (⟨S100000x64, .f32⟩ : BufTy).Contents (Elt F) → (⟨S100000x64, .f32⟩ : BufTy).Contents (Elt F)),
    StableHlo.unary main_c_20 main_call1_v7 (sitofp .f32 : (⟨S_, .i32⟩ : BufTy).Contents (Elt F) → (⟨S_, .f32⟩ : BufTy).Contents (Elt F)),
    StableHlo.nullary main_call1_cst_1 (constant S_ .f32 0x47C35000#32),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.unary main_call1_v8 main_call1_v10 (broadcastInDim S64 ![] bcast_S_S64 : (⟨S_, .f32⟩ : BufTy).Contents (Elt F) → (⟨S64, .f32⟩ : BufTy).Contents (Elt F)),
    StableHlo.binary main_call1_v9 main_call1_v10 main_call1_v11 (Host.divf : (⟨S64, .f32⟩ : BufTy).Contents (Elt F) → (⟨S64, .f32⟩ : BufTy).Contents (Elt F) → (⟨S64, .f32⟩ : BufTy).Contents (Elt F)),
    StableHlo.nullary main_call1_cst_3 (constant S_ .f32 0x00000000#32),
    StableHlo.binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 (broadcastInDim S64 ![] bcast_S_S64 : (⟨S_, .f32⟩ : BufTy).Contents (Elt F) → (⟨S64, .f32⟩ : BufTy).Contents (Elt F)),
    StableHlo.ternary main_call1_v12 main_call1_v11 main_call1_call0_v1 main_v99 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

theorem s_var2_sub : (s_var2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem s_var2_fresh : ∀ op ∈ (s_var2 : List (HloOp τ sig (Elt F))), op.fresh = ∅ := by
  intro _ h; (repeat (cases h with | head => rfl | tail _ h => ?_)); exact nomatch h

/-- The buffers this stage writes. -/
abbrev s_var2_W : List (Ref sig .tc) := [main_c_20, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v99]

theorem s_var2_writes : (s_var2 : List (HloOp τ sig (Elt F))).Forall fun op => op.writes ⊆ (s_var2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_var2_keep (V0 : Valuation τ sig (Elt F)) (r : Ref sig .tc) (h : r ∉ s_var2_W) :
    after s_var2 V0 (Proc.devRef .tc r) = V0 (Proc.devRef .tc r) :=
  after_of_writes_sub s_var2 _ s_var2_writes h

/-- Second layer: the normalised, scaled and shifted rows — the first result. -/
abbrev s_bn2 : List (HloOp τ sig (Elt F)) :=
  [ StableHlo.unary main_v98 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v95 main_v101 main_v102 (subf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32),
    StableHlo.unary main_cst_21 main_v103 (broadcastInDim S64 ![] bcast_S_S64 : (⟨S_, .f32⟩ : BufTy).Contents (Elt F) → (⟨S64, .f32⟩ : BufTy).Contents (Elt F)),
    StableHlo.binary main_v99 main_v103 main_v104 (addf : (⟨S64, .f32⟩ : BufTy).Contents (Elt F) → (⟨S64, .f32⟩ : BufTy).Contents (Elt F) → (⟨S64, .f32⟩ : BufTy).Contents (Elt F)),
    StableHlo.unary main_v104 main_v105 (Host.rsqrt : (⟨S64, .f32⟩ : BufTy).Contents (Elt F) → (⟨S64, .f32⟩ : BufTy).Contents (Elt F)),
    StableHlo.unary main_v105 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S100000x64 ![0, 1] bcast_S1x64_S100000x64_0_1 : (⟨S1x64, .f32⟩ : BufTy).Contents (Elt F) → (⟨S100000x64, .f32⟩ : BufTy).Contents (Elt F)),
    StableHlo.binary main_v102 main_v107 main_v108 (mulf : (⟨S100000x64, .f32⟩ : BufTy).Contents (Elt F) → (⟨S100000x64, .f32⟩ : BufTy).Contents (Elt F) → (⟨S100000x64, .f32⟩ : BufTy).Contents (Elt F)),
    StableHlo.unary main_arg10 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S100000x64 ![0, 1] bcast_S1x64_S100000x64_0_1 : (⟨S1x64, .f32⟩ : BufTy).Contents (Elt F) → (⟨S100000x64, .f32⟩ : BufTy).Contents (Elt F)),
    StableHlo.binary main_v108 main_v110 main_v111 (mulf : (⟨S100000x64, .f32⟩ : BufTy).Contents (Elt F) → (⟨S100000x64, .f32⟩ : BufTy).Contents (Elt F) → (⟨S100000x64, .f32⟩ : BufTy).Contents (Elt F)),
    StableHlo.unary main_arg11 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S100000x64 ![0, 1] bcast_S1x64_S100000x64_0_1 : (⟨S1x64, .f32⟩ : BufTy).Contents (Elt F) → (⟨S100000x64, .f32⟩ : BufTy).Contents (Elt F)),
    StableHlo.binary main_v111 main_v113 main_v114 (addf : (⟨S100000x64, .f32⟩ : BufTy).Contents (Elt F) → (⟨S100000x64, .f32⟩ : BufTy).Contents (Elt F) → (⟨S100000x64, .f32⟩ : BufTy).Contents (Elt F)) ]

theorem s_bn2_sub : (s_bn2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem s_bn2_fresh : ∀ op ∈ (s_bn2 : List (HloOp τ sig (Elt F))), op.fresh = ∅ := by
  intro _ h; (repeat (cases h with | head => rfl | tail _ h => ?_)); exact nomatch h

/-- The buffers this stage writes. -/
abbrev s_bn2_W : List (Ref sig .tc) := [main_v100, main_v101, main_v102, main_cst_21, main_v103, main_v104, main_v105, main_v106, main_v107, main_v108, main_v109, main_v110, main_v111, main_v112, main_v113, main_v114]

theorem s_bn2_writes : (s_bn2 : List (HloOp τ sig (Elt F))).Forall fun op => op.writes ⊆ (s_bn2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_bn2_keep (V0 : Valuation τ sig (Elt F)) (r : Ref sig .tc) (h : r ∉ s_bn2_W) :
    after s_bn2 V0 (Proc.devRef .tc r) = V0 (Proc.devRef .tc r) :=
  after_of_writes_sub s_bn2 _ s_bn2_writes h

/-- The rows summed per graph of the batch — the second result. -/
abbrev s_pool : List (HloOp τ sig (Elt F)) :=
  [ StableHlo.nullary main_cst_22 (constant S_ .f32 0x00000000#32),
    StableHlo.unary main_cst_22 main_v115 (broadcastInDim S128x64 ![] bcast_S_S128x64 : (⟨S_, .f32⟩ : BufTy).Contents (Elt F) → (⟨S128x64, .f32⟩ : BufTy).Contents (Elt F)),
    StableHlo.unary main_arg2 main_v116 (broadcastInDim S100000x1 ![0] bcast_S100000_S100000x1_0 : (⟨S100000, .i32⟩ : BufTy).Contents (Elt F) → (⟨S100000x1, .i32⟩ : BufTy).Contents (Elt F)),
    StableHlo.ternary main_v115 main_v116 main_v114 main_v117 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)) ]

theorem s_pool_sub : (s_pool : List (HloOp τ sig (Elt F))).Forall fun op => op.bufs ⊆ tcRefs τ sig :=
  ⟨nullary_bufs_sub .., unary_bufs_sub .., unary_bufs_sub .., ternary_bufs_sub ..⟩

theorem s_pool_fresh : ∀ op ∈ (s_pool : List (HloOp τ sig (Elt F))), op.fresh = ∅ := by
  intro _ h; (repeat (cases h with | head => rfl | tail _ h => ?_)); exact nomatch h

/-- The buffers this stage writes. -/
abbrev s_pool_W : List (Ref sig .tc) := [main_cst_22, main_v115, main_v116, main_v117]

theorem s_pool_writes : (s_pool : List (HloOp τ sig (Elt F))).Forall fun op => op.writes ⊆ (s_pool_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer this stage does not write keeps its contents through it. -/
theorem s_pool_keep (V0 : Valuation τ sig (Elt F)) (r : Ref sig .tc) (h : r ∉ s_pool_W) :
    after s_pool V0 (Proc.devRef .tc r) = V0 (Proc.devRef .tc r) :=
  after_of_writes_sub s_pool _ s_pool_writes h

/-- The operations of this part of @main, in order. -/
abbrev ops2 : List (HloOp τ sig (Elt F)) := s_mean2b ++ (s_var2 ++ (s_bn2 ++ (s_pool)))

theorem ops2_sub : (ops2 : List (HloOp τ sig (Elt F))).Forall fun op => op.bufs ⊆ tcRefs τ sig :=
  List.forall_iff_forall_mem.mpr fun op h => by
    simp only [ops2, List.mem_append] at h
    rcases h with h | h | h | h
    exacts [List.forall_iff_forall_mem.mp s_mean2b_sub op h, List.forall_iff_forall_mem.mp s_var2_sub op h, List.forall_iff_forall_mem.mp s_bn2_sub op h, List.forall_iff_forall_mem.mp s_pool_sub op h]

theorem ops2_fresh : ∀ op ∈ (ops2 : List (HloOp τ sig (Elt F))), op.fresh = ∅ := fun op h => by
  simp only [ops2, List.mem_append] at h
  rcases h with h | h | h | h
  exacts [s_mean2b_fresh op h, s_var2_fresh op h, s_bn2_fresh op h, s_pool_fresh op h]

/-- This part of @main is the sequence of its operations: each statement is one step, a called function's body stands in the
    call's place over the call's own buffers. -/
theorem main_part2_eq (c : Dev nD) : main_part2 (F := F) c = seq ops2 := rfl

end Cert.ReferenceIdeal.HandRun

end
-- ==== Proof.RefRun.lean ====
/-
  The reference program's run: @main is the sequence of its 185 host operations (the two variance computations written out in
  place of their calls), so every weakly fair execution terminates with every buffer at the operations' fold over the launch
  contents; the two results are named as that fold, and the twelve argument arrays, which no operation writes, end unchanged.
-/
import proofs.«132265_j53532472378064_1_alg».proof.Proof.RefRunA
import proofs.«132265_j53532472378064_1_alg».proof.Proof.RefRunB
import proofs.«132265_j53532472378064_1_alg».proof.Proof.RefRunC
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 185 operations, in order. -/
abbrev ops : List (HloOp τ sig (Elt F)) := ops0 ++ (ops1 ++ ops2)

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    · rcases List.mem_append.mp h with h | h
      · exact List.forall_iff_forall_mem.mp ops1_sub op h
      · exact List.forall_iff_forall_mem.mp ops2_sub op h

theorem ops_fresh : ∀ op ∈ (ops : List (HloOp τ sig (Elt F))), op.fresh = ∅ := fun op h => by
  rcases List.mem_append.mp h with h | h
  · exact ops0_fresh op h
  · rcases List.mem_append.mp h with h | h
    · exact ops1_fresh op h
    · exact ops2_fresh op h

/-- @main runs its three parts in order, and each part is the sequence of its operations. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, and every buffer of every device ends at the fold of the operations over
    the device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- Every buffer the program writes. -/
abbrev ops_W : List (Ref sig .tc) := s_idx_W ++ (s_deg_W ++ (s_enorm_W ++ (s_lin1_W ++ (s_agg1a_W ++ (s_agg1b_W ++ (s_mean1_W ++ (s_var1_W ++ (s_bn1_W ++ (s_lin2_W ++ (s_agg2_W ++ (s_mean2a_W ++ (s_mean2b_W ++ (s_var2_W ++ (s_bn2_W ++ (s_pool_W)))))))))))))))

/-- A buffer no operation writes keeps its launch contents to the end. -/
theorem ops_keep (V0 : Valuation τ sig (Elt F)) (r : Ref sig .tc) (h : r ∉ ops_W) :
    after ops V0 (Proc.devRef .tc r) = V0 (Proc.devRef .tc r) := by
  simp only [ops_W, List.mem_append, not_or] at h
  obtain ⟨h0, h1, h2, h3, h4, h5, h6, h7, h8, h9, h10, h11, h12, h13, h14, h15⟩ := h
  simp only [ops, ops0, ops1, ops2, after_append]
  rw [s_pool_keep _ _ h15, s_bn2_keep _ _ h14, s_var2_keep _ _ h13, s_mean2b_keep _ _ h12, s_mean2a_keep _ _ h11, s_agg2_keep _ _ h10, s_lin2_keep _ _ h9, s_bn1_keep _ _ h8, s_var1_keep _ _ h7, s_mean1_keep _ _ h6, s_agg1b_keep _ _ h5, s_agg1a_keep _ _ h4, s_lin1_keep _ _ h3, s_enorm_keep _ _ h2, s_deg_keep _ _ h1, s_idx_keep _ _ h0]

/-- The first result, node by feature: the fold of the operations at its buffer. -/
def res0 (m : (ℓ : Loc nD τ sig) → Buf (Elt F) ℓ) (c : Dev nD) : Buf (Elt F) ((c.tc : Thread nD τ).loc main_v114) :=
  after ops (launchContents m c) (Proc.devRef .tc main_v114)

/-- The second result, graph by feature: the fold of the operations at its buffer. -/
def res1 (m : (ℓ : Loc nD τ sig) → Buf (Elt F) ℓ) (c : Dev nD) : Buf (Elt F) ((c.tc : Thread nD τ).loc main_v117) :=
  after ops (launchContents m c) (Proc.devRef .tc main_v117)

/-- Every weakly fair execution of @main terminates with the two results at the operations' fold over the launch contents and
    the twelve argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = res0 m c
      ∧ r.2.mem ((c.tc : Thread nD τ).loc main_v117) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v114, h c main_v117,
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide))⟩)
    (run_after m ρ)

end Cert.ReferenceIdeal.HandRun

end
-- ==== Proof.RefFrame.lean ====
/-
  The reference program's frame: under the precondition every weakly fair execution of @main terminates without a fault and the
  twelve argument arrays end unchanged — the run with the two results dropped.
-/
import proofs.«132265_j53532472378064_1_alg».proof.Defs
import proofs.«132265_j53532472378064_1_alg».proof.Proof.Gen.Pre_finite_inputs
import proofs.«132265_j53532472378064_1_alg».proof.Proof.RefRun

noncomputable section

namespace Cert.ReferenceIdeal.HandRun

open Cert.ReferenceIdeal Cert.ReferenceIdeal.Gen Idealize.ShloMosaic Idealize.SL.Sem

theorem frame_ri : Cert.frame_ReferenceIdeal := fun m ρ _ =>
  (θ_run Cert.ReferenceIdeal.defs _ _).mono (fun _ h c => (h c).2.2) (run (F := Ideal) m ρ)

end Cert.ReferenceIdeal.HandRun

end
-- ==== Proof.RefVal.lean ====
/-
  The reference's two results as functions of the twelve argument arrays, at the extended reals: the fold of the 185 operations,
  read stage by stage. After each stage every buffer still to be read holds a named function of the arguments — the edge
  vectors, the inverse square roots of the degrees, the edge and self-loop weights, each layer's matrix product, its aggregate
  with the bias, its column means and variances, its normalised rows — so the first result is the two-layer composition and
  the second its per-graph sums.
-/
import proofs.«132265_j53532472378064_1_alg».proof.Proof.RefRun
import proofs.«132265_j53532472378064_1_alg».proof.Proof.RefDefs

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## The layers' intermediate arrays, as functions of the argument arrays' contents -/

/-- The features times the embedding matrix, times the first layer's matrix. -/
def lin1 (V0 : Valuation τ sig (Elt Ideal)) : FVec Ideal S100000x64 .f32 :=
  Host.dotGeneral (φ₁ := .f32) (φ₂ := .f32) dot_S100000x64_S64x64_S100000x64_1_0_0_1_n_n none
    (Host.dotGeneral (φ₁ := .f32) (φ₂ := .f32) dot_S100000x32_S32x64_S100000x64_1_0_0_1_n_n none (V0 (Proc.devRef .tc main_arg0)) (V0 (Proc.devRef .tc main_arg3))) (V0 (Proc.devRef .tc main_arg4))

/-- The first layer before normalisation. -/
def agg1 (V0 : Valuation τ sig (Elt Ideal)) : FVec Ideal S100000x64 .f32 :=
  Cert.Gcn.Ref.agg (lin1 V0) (V0 (Proc.devRef .tc main_arg1)) (V0 (Proc.devRef .tc main_arg5))

/-- The first layer: normalised, scaled, shifted, clamped below at zero. -/
def act1 (V0 : Valuation τ sig (Elt Ideal)) : FVec Ideal S100000x64 .f32 :=
  Cert.Gcn.Ref.relu (Cert.Gcn.Ref.bn (agg1 V0) (V0 (Proc.devRef .tc main_arg6)) (V0 (Proc.devRef .tc main_arg7)))

/-- The first layer's output times the second layer's matrix. -/
def lin2 (V0 : Valuation τ sig (Elt Ideal)) : FVec Ideal S100000x64 .f32 :=
  Host.dotGeneral (φ₁ := .f32) (φ₂ := .f32) dot_S100000x64_S64x64_S100000x64_1_0_0_1_n_n none (act1 V0) (V0 (Proc.devRef .tc main_arg8))

/-- The second layer before normalisation. -/
def agg2 (V0 : Valuation τ sig (Elt Ideal)) : FVec Ideal S100000x64 .f32 :=
  Cert.Gcn.Ref.agg (lin2 V0) (V0 (Proc.devRef .tc main_arg1)) (V0 (Proc.devRef .tc main_arg9))

/-- The first result: the second layer normalised, scaled and shifted. -/
def outA (V0 : Valuation τ sig (Elt Ideal)) : FVec Ideal S100000x64 .f32 :=
  Cert.Gcn.Ref.bn (agg2 V0) (V0 (Proc.devRef .tc main_arg10)) (V0 (Proc.devRef .tc main_arg11))

/-- The second result: the first result's rows summed per graph. -/
def outB (V0 : Valuation τ sig (Elt Ideal)) : FVec Ideal S128x64 .f32 :=
  Host.scatterAdd scatter_S128x64_S100000x1_S100000x64_1_0_0_1
    (broadcastInDim S128x64 ![] bcast_S_S128x64 (constant (F := Ideal) S_ .f32 0x00000000#32))
    (broadcastInDim S100000x1 ![0] bcast_S100000_S100000x1_0 (V0 (Proc.devRef .tc main_arg2)))
    (outA V0)

/-- The first result is the two-layer composition of the argument arrays. -/
theorem outA_eq (V0 : Valuation τ sig (Elt Ideal)) :
    outA V0 = Cert.Gcn.Ref.out0 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := rfl

/-- The second result is the per-graph sum of the first. -/
theorem outB_eq (V0 : Valuation τ sig (Elt Ideal)) :
    outB V0 = Cert.Gcn.Ref.out1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := rfl

/-! ## The buffers' contents after each stage -/

/-- The device's buffer contents before the first stage. -/
def val0 (V0 : Valuation τ sig (Elt Ideal)) : Valuation τ sig (Elt Ideal) := V0

theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl
theorem val0_main_arg3 (V0 : Valuation τ sig (Elt Ideal)) : val0 V0 (no_index (Proc.devRef .tc main_arg3)) = V0 (Proc.devRef .tc main_arg3) := rfl
theorem val0_main_arg4 (V0 : Valuation τ sig (Elt Ideal)) : val0 V0 (no_index (Proc.devRef .tc main_arg4)) = V0 (Proc.devRef .tc main_arg4) := rfl
theorem val0_main_arg5 (V0 : Valuation τ sig (Elt Ideal)) : val0 V0 (no_index (Proc.devRef .tc main_arg5)) = V0 (Proc.devRef .tc main_arg5) := rfl
theorem val0_main_arg6 (V0 : Valuation τ sig (Elt Ideal)) : val0 V0 (no_index (Proc.devRef .tc main_arg6)) = V0 (Proc.devRef .tc main_arg6) := rfl
theorem val0_main_arg7 (V0 : Valuation τ sig (Elt Ideal)) : val0 V0 (no_index (Proc.devRef .tc main_arg7)) = V0 (Proc.devRef .tc main_arg7) := rfl
theorem val0_main_arg8 (V0 : Valuation τ sig (Elt Ideal)) : val0 V0 (no_index (Proc.devRef .tc main_arg8)) = V0 (Proc.devRef .tc main_arg8) := rfl
theorem val0_main_arg9 (V0 : Valuation τ sig (Elt Ideal)) : val0 V0 (no_index (Proc.devRef .tc main_arg9)) = V0 (Proc.devRef .tc main_arg9) := rfl
theorem val0_main_arg10 (V0 : Valuation τ sig (Elt Ideal)) : val0 V0 (no_index (Proc.devRef .tc main_arg10)) = V0 (Proc.devRef .tc main_arg10) := rfl
theorem val0_main_arg11 (V0 : Valuation τ sig (Elt Ideal)) : val0 V0 (no_index (Proc.devRef .tc main_arg11)) = V0 (Proc.devRef .tc main_arg11) := rfl

/-- The device's buffer contents after the stage `s_idx`. -/
def val1 (V0 : Valuation τ sig (Elt Ideal)) : Valuation τ sig (Elt Ideal) := after s_idx (val0 V0)
theorem val1_main_arg0 (V0 : Valuation τ sig (Elt Ideal)) : val1 V0 (no_index (Proc.devRef .tc main_arg0)) = V0 (Proc.devRef .tc main_arg0) :=
  (s_idx_keep _ main_arg0 (by decide)).trans (val0_main_arg0 V0)
theorem val1_main_arg2 (V0 : Valuation τ sig (Elt Ideal)) : val1 V0 (no_index (Proc.devRef .tc main_arg2)) = V0 (Proc.devRef .tc main_arg2) :=
  (s_idx_keep _ main_arg2 (by decide)).trans (val0_main_arg2 V0)
theorem val1_main_arg3 (V0 : Valuation τ sig (Elt Ideal)) : val1 V0 (no_index (Proc.devRef .tc main_arg3)) = V0 (Proc.devRef .tc main_arg3) :=
  (s_idx_keep _ main_arg3 (by decide)).trans (val0_main_arg3 V0)
theorem val1_main_arg4 (V0 : Valuation τ sig (Elt Ideal)) : val1 V0 (no_index (Proc.devRef .tc main_arg4)) = V0 (Proc.devRef .tc main_arg4) :=
  (s_idx_keep _ main_arg4 (by decide)).trans (val0_main_arg4 V0)
theorem val1_main_arg5 (V0 : Valuation τ sig (Elt Ideal)) : val1 V0 (no_index (Proc.devRef .tc main_arg5)) = V0 (Proc.devRef .tc main_arg5) :=
  (s_idx_keep _ main_arg5 (by decide)).trans (val0_main_arg5 V0)
theorem val1_main_arg6 (V0 : Valuation τ sig (Elt Ideal)) : val1 V0 (no_index (Proc.devRef .tc main_arg6)) = V0 (Proc.devRef .tc main_arg6) :=
  (s_idx_keep _ main_arg6 (by decide)).trans (val0_main_arg6 V0)
theorem val1_main_arg7 (V0 : Valuation τ sig (Elt Ideal)) : val1 V0 (no_index (Proc.devRef .tc main_arg7)) = V0 (Proc.devRef .tc main_arg7) :=
  (s_idx_keep _ main_arg7 (by decide)).trans (val0_main_arg7 V0)
theorem val1_main_arg8 (V0 : Valuation τ sig (Elt Ideal)) : val1 V0 (no_index (Proc.devRef .tc main_arg8)) = V0 (Proc.devRef .tc main_arg8) :=
  (s_idx_keep _ main_arg8 (by decide)).trans (val0_main_arg8 V0)
theorem val1_main_arg9 (V0 : Valuation τ sig (Elt Ideal)) : val1 V0 (no_index (Proc.devRef .tc main_arg9)) = V0 (Proc.devRef .tc main_arg9) :=
  (s_idx_keep _ main_arg9 (by decide)).trans (val0_main_arg9 V0)
theorem val1_main_arg10 (V0 : Valuation τ sig (Elt Ideal)) : val1 V0 (no_index (Proc.devRef .tc main_arg10)) = V0 (Proc.devRef .tc main_arg10) :=
  (s_idx_keep _ main_arg10 (by decide)).trans (val0_main_arg10 V0)
theorem val1_main_arg11 (V0 : Valuation τ sig (Elt Ideal)) : val1 V0 (no_index (Proc.devRef .tc main_arg11)) = V0 (Proc.devRef .tc main_arg11) :=
  (s_idx_keep _ main_arg11 (by decide)).trans (val0_main_arg11 V0)
theorem val1_main_v1 (V0 : Valuation τ sig (Elt Ideal)) : val1 V0 (no_index (Proc.devRef .tc main_v1)) = Cert.Gcn.Ref.srcFlat (V0 (Proc.devRef .tc main_arg1)) := by
  unfold val1
  simp only [s_idx]
  after_results_simp
  simp only [val0_main_arg1] <;> rfl
theorem val1_main_v3 (V0 : Valuation τ sig (Elt Ideal)) : val1 V0 (no_index (Proc.devRef .tc main_v3)) = Cert.Gcn.Ref.dstFlat (V0 (Proc.devRef .tc main_arg1)) := by
  unfold val1
  simp only [s_idx]
  after_results_simp
  simp only [val0_main_arg1] <;> rfl

/-- The device's buffer contents after the stage `s_deg`. -/
def val2 (V0 : Valuation τ sig (Elt Ideal)) : Valuation τ sig (Elt Ideal) := after s_deg (val1 V0)
theorem val2_main_arg0 (V0 : Valuation τ sig (Elt Ideal)) : val2 V0 (no_index (Proc.devRef .tc main_arg0)) = V0 (Proc.devRef .tc main_arg0) :=
  (s_deg_keep _ main_arg0 (by decide)).trans (val1_main_arg0 V0)
theorem val2_main_arg2 (V0 : Valuation τ sig (Elt Ideal)) : val2 V0 (no_index (Proc.devRef .tc main_arg2)) = V0 (Proc.devRef .tc main_arg2) :=
  (s_deg_keep _ main_arg2 (by decide)).trans (val1_main_arg2 V0)
theorem val2_main_arg3 (V0 : Valuation τ sig (Elt Ideal)) : val2 V0 (no_index (Proc.devRef .tc main_arg3)) = V0 (Proc.devRef .tc main_arg3) :=
  (s_deg_keep _ main_arg3 (by decide)).trans (val1_main_arg3 V0)
theorem val2_main_arg4 (V0 : Valuation τ sig (Elt Ideal)) : val2 V0 (no_index (Proc.devRef .tc main_arg4)) = V0 (Proc.devRef .tc main_arg4) :=
  (s_deg_keep _ main_arg4 (by decide)).trans (val1_main_arg4 V0)
theorem val2_main_arg5 (V0 : Valuation τ sig (Elt Ideal)) : val2 V0 (no_index (Proc.devRef .tc main_arg5)) = V0 (Proc.devRef .tc main_arg5) :=
  (s_deg_keep _ main_arg5 (by decide)).trans (val1_main_arg5 V0)
theorem val2_main_arg6 (V0 : Valuation τ sig (Elt Ideal)) : val2 V0 (no_index (Proc.devRef .tc main_arg6)) = V0 (Proc.devRef .tc main_arg6) :=
  (s_deg_keep _ main_arg6 (by decide)).trans (val1_main_arg6 V0)
theorem val2_main_arg7 (V0 : Valuation τ sig (Elt Ideal)) : val2 V0 (no_index (Proc.devRef .tc main_arg7)) = V0 (Proc.devRef .tc main_arg7) :=
  (s_deg_keep _ main_arg7 (by decide)).trans (val1_main_arg7 V0)
theorem val2_main_arg8 (V0 : Valuation τ sig (Elt Ideal)) : val2 V0 (no_index (Proc.devRef .tc main_arg8)) = V0 (Proc.devRef .tc main_arg8) :=
  (s_deg_keep _ main_arg8 (by decide)).trans (val1_main_arg8 V0)
theorem val2_main_arg9 (V0 : Valuation τ sig (Elt Ideal)) : val2 V0 (no_index (Proc.devRef .tc main_arg9)) = V0 (Proc.devRef .tc main_arg9) :=
  (s_deg_keep _ main_arg9 (by decide)).trans (val1_main_arg9 V0)
theorem val2_main_arg10 (V0 : Valuation τ sig (Elt Ideal)) : val2 V0 (no_index (Proc.devRef .tc main_arg10)) = V0 (Proc.devRef .tc main_arg10) :=
  (s_deg_keep _ main_arg10 (by decide)).trans (val1_main_arg10 V0)
theorem val2_main_arg11 (V0 : Valuation τ sig (Elt Ideal)) : val2 V0 (no_index (Proc.devRef .tc main_arg11)) = V0 (Proc.devRef .tc main_arg11) :=
  (s_deg_keep _ main_arg11 (by decide)).trans (val1_main_arg11 V0)
theorem val2_main_v1 (V0 : Valuation τ sig (Elt Ideal)) : val2 V0 (no_index (Proc.devRef .tc main_v1)) = Cert.Gcn.Ref.srcFlat (V0 (Proc.devRef .tc main_arg1)) :=
  (s_deg_keep _ main_v1 (by decide)).trans (val1_main_v1 V0)
theorem val2_main_v3 (V0 : Valuation τ sig (Elt Ideal)) : val2 V0 (no_index (Proc.devRef .tc main_v3)) = Cert.Gcn.Ref.dstFlat (V0 (Proc.devRef .tc main_arg1)) :=
  (s_deg_keep _ main_v3 (by decide)).trans (val1_main_v3 V0)
set_option maxHeartbeats 1700000 in
theorem val2_main_v15 (V0 : Valuation τ sig (Elt Ideal)) : val2 V0 (no_index (Proc.devRef .tc main_v15)) = Cert.Gcn.Ref.dis (V0 (Proc.devRef .tc main_arg1)) := by
  unfold val2
  simp only [s_deg]
  after_results_simp
  simp only [val1_main_v3] <;> rfl

/-- The device's buffer contents after the stage `s_enorm`. -/
def val3 (V0 : Valuation τ sig (Elt Ideal)) : Valuation τ sig (Elt Ideal) := after s_enorm (val2 V0)
theorem val3_main_arg0 (V0 : Valuation τ sig (Elt Ideal)) : val3 V0 (no_index (Proc.devRef .tc main_arg0)) = V0 (Proc.devRef .tc main_arg0) :=
  (s_enorm_keep _ main_arg0 (by decide)).trans (val2_main_arg0 V0)
theorem val3_main_arg2 (V0 : Valuation τ sig (Elt Ideal)) : val3 V0 (no_index (Proc.devRef .tc main_arg2)) = V0 (Proc.devRef .tc main_arg2) :=
  (s_enorm_keep _ main_arg2 (by decide)).trans (val2_main_arg2 V0)
theorem val3_main_arg3 (V0 : Valuation τ sig (Elt Ideal)) : val3 V0 (no_index (Proc.devRef .tc main_arg3)) = V0 (Proc.devRef .tc main_arg3) :=
  (s_enorm_keep _ main_arg3 (by decide)).trans (val2_main_arg3 V0)
theorem val3_main_arg4 (V0 : Valuation τ sig (Elt Ideal)) : val3 V0 (no_index (Proc.devRef .tc main_arg4)) = V0 (Proc.devRef .tc main_arg4) :=
  (s_enorm_keep _ main_arg4 (by decide)).trans (val2_main_arg4 V0)
theorem val3_main_arg5 (V0 : Valuation τ sig (Elt Ideal)) : val3 V0 (no_index (Proc.devRef .tc main_arg5)) = V0 (Proc.devRef .tc main_arg5) :=
  (s_enorm_keep _ main_arg5 (by decide)).trans (val2_main_arg5 V0)
theorem val3_main_arg6 (V0 : Valuation τ sig (Elt Ideal)) : val3 V0 (no_index (Proc.devRef .tc main_arg6)) = V0 (Proc.devRef .tc main_arg6) :=
  (s_enorm_keep _ main_arg6 (by decide)).trans (val2_main_arg6 V0)
theorem val3_main_arg7 (V0 : Valuation τ sig (Elt Ideal)) : val3 V0 (no_index (Proc.devRef .tc main_arg7)) = V0 (Proc.devRef .tc main_arg7) :=
  (s_enorm_keep _ main_arg7 (by decide)).trans (val2_main_arg7 V0)
theorem val3_main_arg8 (V0 : Valuation τ sig (Elt Ideal)) : val3 V0 (no_index (Proc.devRef .tc main_arg8)) = V0 (Proc.devRef .tc main_arg8) :=
  (s_enorm_keep _ main_arg8 (by decide)).trans (val2_main_arg8 V0)
theorem val3_main_arg9 (V0 : Valuation τ sig (Elt Ideal)) : val3 V0 (no_index (Proc.devRef .tc main_arg9)) = V0 (Proc.devRef .tc main_arg9) :=
  (s_enorm_keep _ main_arg9 (by decide)).trans (val2_main_arg9 V0)
theorem val3_main_arg10 (V0 : Valuation τ sig (Elt Ideal)) : val3 V0 (no_index (Proc.devRef .tc main_arg10)) = V0 (Proc.devRef .tc main_arg10) :=
  (s_enorm_keep _ main_arg10 (by decide)).trans (val2_main_arg10 V0)
theorem val3_main_arg11 (V0 : Valuation τ sig (Elt Ideal)) : val3 V0 (no_index (Proc.devRef .tc main_arg11)) = V0 (Proc.devRef .tc main_arg11) :=
  (s_enorm_keep _ main_arg11 (by decide)).trans (val2_main_arg11 V0)
theorem val3_main_v1 (V0 : Valuation τ sig (Elt Ideal)) : val3 V0 (no_index (Proc.devRef .tc main_v1)) = Cert.Gcn.Ref.srcFlat (V0 (Proc.devRef .tc main_arg1)) :=
  (s_enorm_keep _ main_v1 (by decide)).trans (val2_main_v1 V0)
theorem val3_main_v3 (V0 : Valuation τ sig (Elt Ideal)) : val3 V0 (no_index (Proc.devRef .tc main_v3)) = Cert.Gcn.Ref.dstFlat (V0 (Proc.devRef .tc main_arg1)) :=
  (s_enorm_keep _ main_v3 (by decide)).trans (val2_main_v3 V0)
set_option maxHeartbeats 2000000 in
theorem val3_main_v30 (V0 : Valuation τ sig (Elt Ideal)) : val3 V0 (no_index (Proc.devRef .tc main_v30)) = Cert.Gcn.Ref.enorm (V0 (Proc.devRef .tc main_arg1)) := by
  unfold val3
  simp only [s_enorm]
  after_results_simp
  simp only [val2_main_v3, val2_main_v15, val2_main_v1] <;> rfl
set_option maxHeartbeats 2000000 in
theorem val3_main_v31 (V0 : Valuation τ sig (Elt Ideal)) : val3 V0 (no_index (Proc.devRef .tc main_v31)) = Cert.Gcn.Ref.selfw (V0 (Proc.devRef .tc main_arg1)) := by
  unfold val3
  simp only [s_enorm]
  after_results_simp
  simp only [val2_main_v15] <;> rfl

/-- The device's buffer contents after the stage `s_lin1`. -/
def val4 (V0 : Valuation τ sig (Elt Ideal)) : Valuation τ sig (Elt Ideal) := after s_lin1 (val3 V0)
theorem val4_main_arg2 (V0 : Valuation τ sig (Elt Ideal)) : val4 V0 (no_index (Proc.devRef .tc main_arg2)) = V0 (Proc.devRef .tc main_arg2) :=
  (s_lin1_keep _ main_arg2 (by decide)).trans (val3_main_arg2 V0)
theorem val4_main_arg5 (V0 : Valuation τ sig (Elt Ideal)) : val4 V0 (no_index (Proc.devRef .tc main_arg5)) = V0 (Proc.devRef .tc main_arg5) :=
  (s_lin1_keep _ main_arg5 (by decide)).trans (val3_main_arg5 V0)
theorem val4_main_arg6 (V0 : Valuation τ sig (Elt Ideal)) : val4 V0 (no_index (Proc.devRef .tc main_arg6)) = V0 (Proc.devRef .tc main_arg6) :=
  (s_lin1_keep _ main_arg6 (by decide)).trans (val3_main_arg6 V0)
theorem val4_main_arg7 (V0 : Valuation τ sig (Elt Ideal)) : val4 V0 (no_index (Proc.devRef .tc main_arg7)) = V0 (Proc.devRef .tc main_arg7) :=
  (s_lin1_keep _ main_arg7 (by decide)).trans (val3_main_arg7 V0)
theorem val4_main_arg8 (V0 : Valuation τ sig (Elt Ideal)) : val4 V0 (no_index (Proc.devRef .tc main_arg8)) = V0 (Proc.devRef .tc main_arg8) :=
  (s_lin1_keep _ main_arg8 (by decide)).trans (val3_main_arg8 V0)
theorem val4_main_arg9 (V0 : Valuation τ sig (Elt Ideal)) : val4 V0 (no_index (Proc.devRef .tc main_arg9)) = V0 (Proc.devRef .tc main_arg9) :=
  (s_lin1_keep _ main_arg9 (by decide)).trans (val3_main_arg9 V0)
theorem val4_main_arg10 (V0 : Valuation τ sig (Elt Ideal)) : val4 V0 (no_index (Proc.devRef .tc main_arg10)) = V0 (Proc.devRef .tc main_arg10) :=
  (s_lin1_keep _ main_arg10 (by decide)).trans (val3_main_arg10 V0)
theorem val4_main_arg11 (V0 : Valuation τ sig (Elt Ideal)) : val4 V0 (no_index (Proc.devRef .tc main_arg11)) = V0 (Proc.devRef .tc main_arg11) :=
  (s_lin1_keep _ main_arg11 (by decide)).trans (val3_main_arg11 V0)
theorem val4_main_v1 (V0 : Valuation τ sig (Elt Ideal)) : val4 V0 (no_index (Proc.devRef .tc main_v1)) = Cert.Gcn.Ref.srcFlat (V0 (Proc.devRef .tc main_arg1)) :=
  (s_lin1_keep _ main_v1 (by decide)).trans (val3_main_v1 V0)
theorem val4_main_v3 (V0 : Valuation τ sig (Elt Ideal)) : val4 V0 (no_index (Proc.devRef .tc main_v3)) = Cert.Gcn.Ref.dstFlat (V0 (Proc.devRef .tc main_arg1)) :=
  (s_lin1_keep _ main_v3 (by decide)).trans (val3_main_v3 V0)
theorem val4_main_v30 (V0 : Valuation τ sig (Elt Ideal)) : val4 V0 (no_index (Proc.devRef .tc main_v30)) = Cert.Gcn.Ref.enorm (V0 (Proc.devRef .tc main_arg1)) :=
  (s_lin1_keep _ main_v30 (by decide)).trans (val3_main_v30 V0)
theorem val4_main_v31 (V0 : Valuation τ sig (Elt Ideal)) : val4 V0 (no_index (Proc.devRef .tc main_v31)) = Cert.Gcn.Ref.selfw (V0 (Proc.devRef .tc main_arg1)) :=
  (s_lin1_keep _ main_v31 (by decide)).trans (val3_main_v31 V0)
theorem val4_main_v33 (V0 : Valuation τ sig (Elt Ideal)) : val4 V0 (no_index (Proc.devRef .tc main_v33)) = lin1 V0 := by
  unfold val4
  simp only [s_lin1]
  after_results_simp
  simp only [val3_main_arg4, val3_main_arg3, val3_main_arg0] <;> rfl

/-- The device's buffer contents after the stage `s_agg1a`. -/
def val5 (V0 : Valuation τ sig (Elt Ideal)) : Valuation τ sig (Elt Ideal) := after s_agg1a (val4 V0)
theorem val5_main_arg2 (V0 : Valuation τ sig (Elt Ideal)) : val5 V0 (no_index (Proc.devRef .tc main_arg2)) = V0 (Proc.devRef .tc main_arg2) :=
  (s_agg1a_keep _ main_arg2 (by decide)).trans (val4_main_arg2 V0)
theorem val5_main_arg5 (V0 : Valuation τ sig (Elt Ideal)) : val5 V0 (no_index (Proc.devRef .tc main_arg5)) = V0 (Proc.devRef .tc main_arg5) :=
  (s_agg1a_keep _ main_arg5 (by decide)).trans (val4_main_arg5 V0)
theorem val5_main_arg6 (V0 : Valuation τ sig (Elt Ideal)) : val5 V0 (no_index (Proc.devRef .tc main_arg6)) = V0 (Proc.devRef .tc main_arg6) :=
  (s_agg1a_keep _ main_arg6 (by decide)).trans (val4_main_arg6 V0)
theorem val5_main_arg7 (V0 : Valuation τ sig (Elt Ideal)) : val5 V0 (no_index (Proc.devRef .tc main_arg7)) = V0 (Proc.devRef .tc main_arg7) :=
  (s_agg1a_keep _ main_arg7 (by decide)).trans (val4_main_arg7 V0)
theorem val5_main_arg8 (V0 : Valuation τ sig (Elt Ideal)) : val5 V0 (no_index (Proc.devRef .tc main_arg8)) = V0 (Proc.devRef .tc main_arg8) :=
  (s_agg1a_keep _ main_arg8 (by decide)).trans (val4_main_arg8 V0)
theorem val5_main_arg9 (V0 : Valuation τ sig (Elt Ideal)) : val5 V0 (no_index (Proc.devRef .tc main_arg9)) = V0 (Proc.devRef .tc main_arg9) :=
  (s_agg1a_keep _ main_arg9 (by decide)).trans (val4_main_arg9 V0)
theorem val5_main_arg10 (V0 : Valuation τ sig (Elt Ideal)) : val5 V0 (no_index (Proc.devRef .tc main_arg10)) = V0 (Proc.devRef .tc main_arg10) :=
  (s_agg1a_keep _ main_arg10 (by decide)).trans (val4_main_arg10 V0)
theorem val5_main_arg11 (V0 : Valuation τ sig (Elt Ideal)) : val5 V0 (no_index (Proc.devRef .tc main_arg11)) = V0 (Proc.devRef .tc main_arg11) :=
  (s_agg1a_keep _ main_arg11 (by decide)).trans (val4_main_arg11 V0)
theorem val5_main_v1 (V0 : Valuation τ sig (Elt Ideal)) : val5 V0 (no_index (Proc.devRef .tc main_v1)) = Cert.Gcn.Ref.srcFlat (V0 (Proc.devRef .tc main_arg1)) :=
  (s_agg1a_keep _ main_v1 (by decide)).trans (val4_main_v1 V0)
theorem val5_main_v3 (V0 : Valuation τ sig (Elt Ideal)) : val5 V0 (no_index (Proc.devRef .tc main_v3)) = Cert.Gcn.Ref.dstFlat (V0 (Proc.devRef .tc main_arg1)) :=
  (s_agg1a_keep _ main_v3 (by decide)).trans (val4_main_v3 V0)
theorem val5_main_v30 (V0 : Valuation τ sig (Elt Ideal)) : val5 V0 (no_index (Proc.devRef .tc main_v30)) = Cert.Gcn.Ref.enorm (V0 (Proc.devRef .tc main_arg1)) :=
  (s_agg1a_keep _ main_v30 (by decide)).trans (val4_main_v30 V0)
theorem val5_main_v31 (V0 : Valuation τ sig (Elt Ideal)) : val5 V0 (no_index (Proc.devRef .tc main_v31)) = Cert.Gcn.Ref.selfw (V0 (Proc.devRef .tc main_arg1)) :=
  (s_agg1a_keep _ main_v31 (by decide)).trans (val4_main_v31 V0)
theorem val5_main_v33 (V0 : Valuation τ sig (Elt Ideal)) : val5 V0 (no_index (Proc.devRef .tc main_v33)) = lin1 V0 :=
  (s_agg1a_keep _ main_v33 (by decide)).trans (val4_main_v33 V0)
set_option maxHeartbeats 1700000 in
theorem val5_main_v46 (V0 : Valuation τ sig (Elt Ideal)) : val5 V0 (no_index (Proc.devRef .tc main_v46)) = Cert.Gcn.Ref.edgeAgg (lin1 V0) (V0 (Proc.devRef .tc main_arg1)) := by
  unfold val5
  simp only [s_agg1a]
  after_results_simp
  simp only [val4_main_v30, val4_main_v1, val4_main_v33, val4_main_v3] <;> rfl
set_option maxHeartbeats 1700000 in
theorem val5_main_v47 (V0 : Valuation τ sig (Elt Ideal)) : val5 V0 (no_index (Proc.devRef .tc main_v47)) = broadcastInDim S100000x1 ![0] bcast_S100000_S100000x1_0 (Cert.Gcn.Ref.selfw (V0 (Proc.devRef .tc main_arg1))) := by
  unfold val5
  simp only [s_agg1a]
  after_results_simp
  simp only [val4_main_v31] <;> rfl

/-- The device's buffer contents after the stage `s_agg1b`. -/
def val6 (V0 : Valuation τ sig (Elt Ideal)) : Valuation τ sig (Elt Ideal) := after s_agg1b (val5 V0)
theorem val6_main_arg2 (V0 : Valuation τ sig (Elt Ideal)) : val6 V0 (no_index (Proc.devRef .tc main_arg2)) = V0 (Proc.devRef .tc main_arg2) :=
  (s_agg1b_keep _ main_arg2 (by decide)).trans (val5_main_arg2 V0)
theorem val6_main_arg6 (V0 : Valuation τ sig (Elt Ideal)) : val6 V0 (no_index (Proc.devRef .tc main_arg6)) = V0 (Proc.devRef .tc main_arg6) :=
  (s_agg1b_keep _ main_arg6 (by decide)).trans (val5_main_arg6 V0)
theorem val6_main_arg7 (V0 : Valuation τ sig (Elt Ideal)) : val6 V0 (no_index (Proc.devRef .tc main_arg7)) = V0 (Proc.devRef .tc main_arg7) :=
  (s_agg1b_keep _ main_arg7 (by decide)).trans (val5_main_arg7 V0)
theorem val6_main_arg8 (V0 : Valuation τ sig (Elt Ideal)) : val6 V0 (no_index (Proc.devRef .tc main_arg8)) = V0 (Proc.devRef .tc main_arg8) :=
  (s_agg1b_keep _ main_arg8 (by decide)).trans (val5_main_arg8 V0)
theorem val6_main_arg9 (V0 : Valuation τ sig (Elt Ideal)) : val6 V0 (no_index (Proc.devRef .tc main_arg9)) = V0 (Proc.devRef .tc main_arg9) :=
  (s_agg1b_keep _ main_arg9 (by decide)).trans (val5_main_arg9 V0)
theorem val6_main_arg10 (V0 : Valuation τ sig (Elt Ideal)) : val6 V0 (no_index (Proc.devRef .tc main_arg10)) = V0 (Proc.devRef .tc main_arg10) :=
  (s_agg1b_keep _ main_arg10 (by decide)).trans (val5_main_arg10 V0)
theorem val6_main_arg11 (V0 : Valuation τ sig (Elt Ideal)) : val6 V0 (no_index (Proc.devRef .tc main_arg11)) = V0 (Proc.devRef .tc main_arg11) :=
  (s_agg1b_keep _ main_arg11 (by decide)).trans (val5_main_arg11 V0)
theorem val6_main_v1 (V0 : Valuation τ sig (Elt Ideal)) : val6 V0 (no_index (Proc.devRef .tc main_v1)) = Cert.Gcn.Ref.srcFlat (V0 (Proc.devRef .tc main_arg1)) :=
  (s_agg1b_keep _ main_v1 (by decide)).trans (val5_main_v1 V0)
theorem val6_main_v3 (V0 : Valuation τ sig (Elt Ideal)) : val6 V0 (no_index (Proc.devRef .tc main_v3)) = Cert.Gcn.Ref.dstFlat (V0 (Proc.devRef .tc main_arg1)) :=
  (s_agg1b_keep _ main_v3 (by decide)).trans (val5_main_v3 V0)
theorem val6_main_v30 (V0 : Valuation τ sig (Elt Ideal)) : val6 V0 (no_index (Proc.devRef .tc main_v30)) = Cert.Gcn.Ref.enorm (V0 (Proc.devRef .tc main_arg1)) :=
  (s_agg1b_keep _ main_v30 (by decide)).trans (val5_main_v30 V0)
theorem val6_main_v31 (V0 : Valuation τ sig (Elt Ideal)) : val6 V0 (no_index (Proc.devRef .tc main_v31)) = Cert.Gcn.Ref.selfw (V0 (Proc.devRef .tc main_arg1)) :=
  (s_agg1b_keep _ main_v31 (by decide)).trans (val5_main_v31 V0)
theorem val6_main_v53 (V0 : Valuation τ sig (Elt Ideal)) : val6 V0 (no_index (Proc.devRef .tc main_v53)) = agg1 V0 := by
  unfold val6
  simp only [s_agg1b]
  after_results_simp
  simp only [val5_main_arg5, val5_main_v47, val5_main_v33, val5_main_v46] <;> rfl

/-- The device's buffer contents after the stage `s_mean1`. -/
def val7 (V0 : Valuation τ sig (Elt Ideal)) : Valuation τ sig (Elt Ideal) := after s_mean1 (val6 V0)
theorem val7_main_arg2 (V0 : Valuation τ sig (Elt Ideal)) : val7 V0 (no_index (Proc.devRef .tc main_arg2)) = V0 (Proc.devRef .tc main_arg2) :=
  (s_mean1_keep _ main_arg2 (by decide)).trans (val6_main_arg2 V0)
theorem val7_main_arg6 (V0 : Valuation τ sig (Elt Ideal)) : val7 V0 (no_index (Proc.devRef .tc main_arg6)) = V0 (Proc.devRef .tc main_arg6) :=
  (s_mean1_keep _ main_arg6 (by decide)).trans (val6_main_arg6 V0)
theorem val7_main_arg7 (V0 : Valuation τ sig (Elt Ideal)) : val7 V0 (no_index (Proc.devRef .tc main_arg7)) = V0 (Proc.devRef .tc main_arg7) :=
  (s_mean1_keep _ main_arg7 (by decide)).trans (val6_main_arg7 V0)
theorem val7_main_arg8 (V0 : Valuation τ sig (Elt Ideal)) : val7 V0 (no_index (Proc.devRef .tc main_arg8)) = V0 (Proc.devRef .tc main_arg8) :=
  (s_mean1_keep _ main_arg8 (by decide)).trans (val6_main_arg8 V0)
theorem val7_main_arg9 (V0 : Valuation τ sig (Elt Ideal)) : val7 V0 (no_index (Proc.devRef .tc main_arg9)) = V0 (Proc.devRef .tc main_arg9) :=
  (s_mean1_keep _ main_arg9 (by decide)).trans (val6_main_arg9 V0)
theorem val7_main_arg10 (V0 : Valuation τ sig (Elt Ideal)) : val7 V0 (no_index (Proc.devRef .tc main_arg10)) = V0 (Proc.devRef .tc main_arg10) :=
  (s_mean1_keep _ main_arg10 (by decide)).trans (val6_main_arg10 V0)
theorem val7_main_arg11 (V0 : Valuation τ sig (Elt Ideal)) : val7 V0 (no_index (Proc.devRef .tc main_arg11)) = V0 (Proc.devRef .tc main_arg11) :=
  (s_mean1_keep _ main_arg11 (by decide)).trans (val6_main_arg11 V0)
theorem val7_main_v1 (V0 : Valuation τ sig (Elt Ideal)) : val7 V0 (no_index (Proc.devRef .tc main_v1)) = Cert.Gcn.Ref.srcFlat (V0 (Proc.devRef .tc main_arg1)) :=
  (s_mean1_keep _ main_v1 (by decide)).trans (val6_main_v1 V0)
theorem val7_main_v3 (V0 : Valuation τ sig (Elt Ideal)) : val7 V0 (no_index (Proc.devRef .tc main_v3)) = Cert.Gcn.Ref.dstFlat (V0 (Proc.devRef .tc main_arg1)) :=
  (s_mean1_keep _ main_v3 (by decide)).trans (val6_main_v3 V0)
theorem val7_main_v30 (V0 : Valuation τ sig (Elt Ideal)) : val7 V0 (no_index (Proc.devRef .tc main_v30)) = Cert.Gcn.Ref.enorm (V0 (Proc.devRef .tc main_arg1)) :=
  (s_mean1_keep _ main_v30 (by decide)).trans (val6_main_v30 V0)
theorem val7_main_v31 (V0 : Valuation τ sig (Elt Ideal)) : val7 V0 (no_index (Proc.devRef .tc main_v31)) = Cert.Gcn.Ref.selfw (V0 (Proc.devRef .tc main_arg1)) :=
  (s_mean1_keep _ main_v31 (by decide)).trans (val6_main_v31 V0)
theorem val7_main_v53 (V0 : Valuation τ sig (Elt Ideal)) : val7 V0 (no_index (Proc.devRef .tc main_v53)) = agg1 V0 :=
  (s_mean1_keep _ main_v53 (by decide)).trans (val6_main_v53 V0)
theorem val7_main_v56 (V0 : Valuation τ sig (Elt Ideal)) : val7 V0 (no_index (Proc.devRef .tc main_v56)) = Cert.Gcn.Ref.mean (agg1 V0) := by
  unfold val7
  simp only [s_mean1]
  after_results_simp
  simp only [val6_main_v53] <;> rfl

/-- The device's buffer contents after the stage `s_var1`. -/
def val8 (V0 : Valuation τ sig (Elt Ideal)) : Valuation τ sig (Elt Ideal) := after s_var1 (val7 V0)
theorem val8_main_arg2 (V0 : Valuation τ sig (Elt Ideal)) : val8 V0 (no_index (Proc.devRef .tc main_arg2)) = V0 (Proc.devRef .tc main_arg2) :=
  (s_var1_keep _ main_arg2 (by decide)).trans (val7_main_arg2 V0)
theorem val8_main_arg6 (V0 : Valuation τ sig (Elt Ideal)) : val8 V0 (no_index (Proc.devRef .tc main_arg6)) = V0 (Proc.devRef .tc main_arg6) :=
  (s_var1_keep _ main_arg6 (by decide)).trans (val7_main_arg6 V0)
theorem val8_main_arg7 (V0 : Valuation τ sig (Elt Ideal)) : val8 V0 (no_index (Proc.devRef .tc main_arg7)) = V0 (Proc.devRef .tc main_arg7) :=
  (s_var1_keep _ main_arg7 (by decide)).trans (val7_main_arg7 V0)
theorem val8_main_arg8 (V0 : Valuation τ sig (Elt Ideal)) : val8 V0 (no_index (Proc.devRef .tc main_arg8)) = V0 (Proc.devRef .tc main_arg8) :=
  (s_var1_keep _ main_arg8 (by decide)).trans (val7_main_arg8 V0)
theorem val8_main_arg9 (V0 : Valuation τ sig (Elt Ideal)) : val8 V0 (no_index (Proc.devRef .tc main_arg9)) = V0 (Proc.devRef .tc main_arg9) :=
  (s_var1_keep _ main_arg9 (by decide)).trans (val7_main_arg9 V0)
theorem val8_main_arg10 (V0 : Valuation τ sig (Elt Ideal)) : val8 V0 (no_index (Proc.devRef .tc main_arg10)) = V0 (Proc.devRef .tc main_arg10) :=
  (s_var1_keep _ main_arg10 (by decide)).trans (val7_main_arg10 V0)
theorem val8_main_arg11 (V0 : Valuation τ sig (Elt Ideal)) : val8 V0 (no_index (Proc.devRef .tc main_arg11)) = V0 (Proc.devRef .tc main_arg11) :=
  (s_var1_keep _ main_arg11 (by decide)).trans (val7_main_arg11 V0)
theorem val8_main_v1 (V0 : Valuation τ sig (Elt Ideal)) : val8 V0 (no_index (Proc.devRef .tc main_v1)) = Cert.Gcn.Ref.srcFlat (V0 (Proc.devRef .tc main_arg1)) :=
  (s_var1_keep _ main_v1 (by decide)).trans (val7_main_v1 V0)
theorem val8_main_v3 (V0 : Valuation τ sig (Elt Ideal)) : val8 V0 (no_index (Proc.devRef .tc main_v3)) = Cert.Gcn.Ref.dstFlat (V0 (Proc.devRef .tc main_arg1)) :=
  (s_var1_keep _ main_v3 (by decide)).trans (val7_main_v3 V0)
theorem val8_main_v30 (V0 : Valuation τ sig (Elt Ideal)) : val8 V0 (no_index (Proc.devRef .tc main_v30)) = Cert.Gcn.Ref.enorm (V0 (Proc.devRef .tc main_arg1)) :=
  (s_var1_keep _ main_v30 (by decide)).trans (val7_main_v30 V0)
theorem val8_main_v31 (V0 : Valuation τ sig (Elt Ideal)) : val8 V0 (no_index (Proc.devRef .tc main_v31)) = Cert.Gcn.Ref.selfw (V0 (Proc.devRef .tc main_arg1)) :=
  (s_var1_keep _ main_v31 (by decide)).trans (val7_main_v31 V0)
theorem val8_main_v53 (V0 : Valuation τ sig (Elt Ideal)) : val8 V0 (no_index (Proc.devRef .tc main_v53)) = agg1 V0 :=
  (s_var1_keep _ main_v53 (by decide)).trans (val7_main_v53 V0)
theorem val8_main_v56 (V0 : Valuation τ sig (Elt Ideal)) : val8 V0 (no_index (Proc.devRef .tc main_v56)) = Cert.Gcn.Ref.mean (agg1 V0) :=
  (s_var1_keep _ main_v56 (by decide)).trans (val7_main_v56 V0)
set_option maxHeartbeats 2000000 in
theorem val8_main_v57 (V0 : Valuation τ sig (Elt Ideal)) : val8 V0 (no_index (Proc.devRef .tc main_v57)) = Cert.Gcn.Ref.var (agg1 V0) := by
  unfold val8
  simp only [s_var1]
  after_results_simp
  simp only [val7_main_v53] <;> rfl

/-- The device's buffer contents after the stage `s_bn1`. -/
def val9 (V0 : Valuation τ sig (Elt Ideal)) : Valuation τ sig (Elt Ideal) := after s_bn1 (val8 V0)
theorem val9_main_arg2 (V0 : Valuation τ sig (Elt Ideal)) : val9 V0 (no_index (Proc.devRef .tc main_arg2)) = V0 (Proc.devRef .tc main_arg2) :=
  (s_bn1_keep _ main_arg2 (by decide)).trans (val8_main_arg2 V0)
theorem val9_main_arg8 (V0 : Valuation τ sig (Elt Ideal)) : val9 V0 (no_index (Proc.devRef .tc main_arg8)) = V0 (Proc.devRef .tc main_arg8) :=
  (s_bn1_keep _ main_arg8 (by decide)).trans (val8_main_arg8 V0)
theorem val9_main_arg9 (V0 : Valuation τ sig (Elt Ideal)) : val9 V0 (no_index (Proc.devRef .tc main_arg9)) = V0 (Proc.devRef .tc main_arg9) :=
  (s_bn1_keep _ main_arg9 (by decide)).trans (val8_main_arg9 V0)
theorem val9_main_arg10 (V0 : Valuation τ sig (Elt Ideal)) : val9 V0 (no_index (Proc.devRef .tc main_arg10)) = V0 (Proc.devRef .tc main_arg10) :=
  (s_bn1_keep _ main_arg10 (by decide)).trans (val8_main_arg10 V0)
theorem val9_main_arg11 (V0 : Valuation τ sig (Elt Ideal)) : val9 V0 (no_index (Proc.devRef .tc main_arg11)) = V0 (Proc.devRef .tc main_arg11) :=
  (s_bn1_keep _ main_arg11 (by decide)).trans (val8_main_arg11 V0)
theorem val9_main_v1 (V0 : Valuation τ sig (Elt Ideal)) : val9 V0 (no_index (Proc.devRef .tc main_v1)) = Cert.Gcn.Ref.srcFlat (V0 (Proc.devRef .tc main_arg1)) :=
  (s_bn1_keep _ main_v1 (by decide)).trans (val8_main_v1 V0)
theorem val9_main_v3 (V0 : Valuation τ sig (Elt Ideal)) : val9 V0 (no_index (Proc.devRef .tc main_v3)) = Cert.Gcn.Ref.dstFlat (V0 (Proc.devRef .tc main_arg1)) :=
  (s_bn1_keep _ main_v3 (by decide)).trans (val8_main_v3 V0)
theorem val9_main_v30 (V0 : Valuation τ sig (Elt Ideal)) : val9 V0 (no_index (Proc.devRef .tc main_v30)) = Cert.Gcn.Ref.enorm (V0 (Proc.devRef .tc main_arg1)) :=
  (s_bn1_keep _ main_v30 (by decide)).trans (val8_main_v30 V0)
theorem val9_main_v31 (V0 : Valuation τ sig (Elt Ideal)) : val9 V0 (no_index (Proc.devRef .tc main_v31)) = Cert.Gcn.Ref.selfw (V0 (Proc.devRef .tc main_arg1)) :=
  (s_bn1_keep _ main_v31 (by decide)).trans (val8_main_v31 V0)
set_option maxHeartbeats 1900000 in
theorem val9_main_v74 (V0 : Valuation τ sig (Elt Ideal)) : val9 V0 (no_index (Proc.devRef .tc main_v74)) = act1 V0 := by
  unfold val9
  simp only [s_bn1]
  after_results_simp
  simp only [val8_main_arg7, val8_main_arg6, val8_main_v57, val8_main_v56, val8_main_v53] <;> rfl

/-- The device's buffer contents after the stage `s_lin2`. -/
def val10 (V0 : Valuation τ sig (Elt Ideal)) : Valuation τ sig (Elt Ideal) := after s_lin2 (val9 V0)
theorem val10_main_arg2 (V0 : Valuation τ sig (Elt Ideal)) : val10 V0 (no_index (Proc.devRef .tc main_arg2)) = V0 (Proc.devRef .tc main_arg2) :=
  (s_lin2_keep _ main_arg2 (by decide)).trans (val9_main_arg2 V0)
theorem val10_main_arg9 (V0 : Valuation τ sig (Elt Ideal)) : val10 V0 (no_index (Proc.devRef .tc main_arg9)) = V0 (Proc.devRef .tc main_arg9) :=
  (s_lin2_keep _ main_arg9 (by decide)).trans (val9_main_arg9 V0)
theorem val10_main_arg10 (V0 : Valuation τ sig (Elt Ideal)) : val10 V0 (no_index (Proc.devRef .tc main_arg10)) = V0 (Proc.devRef .tc main_arg10) :=
  (s_lin2_keep _ main_arg10 (by decide)).trans (val9_main_arg10 V0)
theorem val10_main_arg11 (V0 : Valuation τ sig (Elt Ideal)) : val10 V0 (no_index (Proc.devRef .tc main_arg11)) = V0 (Proc.devRef .tc main_arg11) :=
  (s_lin2_keep _ main_arg11 (by decide)).trans (val9_main_arg11 V0)
theorem val10_main_v1 (V0 : Valuation τ sig (Elt Ideal)) : val10 V0 (no_index (Proc.devRef .tc main_v1)) = Cert.Gcn.Ref.srcFlat (V0 (Proc.devRef .tc main_arg1)) :=
  (s_lin2_keep _ main_v1 (by decide)).trans (val9_main_v1 V0)
theorem val10_main_v3 (V0 : Valuation τ sig (Elt Ideal)) : val10 V0 (no_index (Proc.devRef .tc main_v3)) = Cert.Gcn.Ref.dstFlat (V0 (Proc.devRef .tc main_arg1)) :=
  (s_lin2_keep _ main_v3 (by decide)).trans (val9_main_v3 V0)
theorem val10_main_v30 (V0 : Valuation τ sig (Elt Ideal)) : val10 V0 (no_index (Proc.devRef .tc main_v30)) = Cert.Gcn.Ref.enorm (V0 (Proc.devRef .tc main_arg1)) :=
  (s_lin2_keep _ main_v30 (by decide)).trans (val9_main_v30 V0)
theorem val10_main_v31 (V0 : Valuation τ sig (Elt Ideal)) : val10 V0 (no_index (Proc.devRef .tc main_v31)) = Cert.Gcn.Ref.selfw (V0 (Proc.devRef .tc main_arg1)) :=
  (s_lin2_keep _ main_v31 (by decide)).trans (val9_main_v31 V0)
theorem val10_main_v75 (V0 : Valuation τ sig (Elt Ideal)) : val10 V0 (no_index (Proc.devRef .tc main_v75)) = lin2 V0 := by
  unfold val10
  simp only [s_lin2]
  after_results_simp
  simp only [val9_main_arg8, val9_main_v74] <;> rfl

/-- The device's buffer contents after the stage `s_agg2`. -/
def val11 (V0 : Valuation τ sig (Elt Ideal)) : Valuation τ sig (Elt Ideal) := after s_agg2 (val10 V0)
theorem val11_main_arg2 (V0 : Valuation τ sig (Elt Ideal)) : val11 V0 (no_index (Proc.devRef .tc main_arg2)) = V0 (Proc.devRef .tc main_arg2) :=
  (s_agg2_keep _ main_arg2 (by decide)).trans (val10_main_arg2 V0)
theorem val11_main_arg10 (V0 : Valuation τ sig (Elt Ideal)) : val11 V0 (no_index (Proc.devRef .tc main_arg10)) = V0 (Proc.devRef .tc main_arg10) :=
  (s_agg2_keep _ main_arg10 (by decide)).trans (val10_main_arg10 V0)
theorem val11_main_arg11 (V0 : Valuation τ sig (Elt Ideal)) : val11 V0 (no_index (Proc.devRef .tc main_arg11)) = V0 (Proc.devRef .tc main_arg11) :=
  (s_agg2_keep _ main_arg11 (by decide)).trans (val10_main_arg11 V0)
set_option maxHeartbeats 2000000 in
theorem val11_main_v95 (V0 : Valuation τ sig (Elt Ideal)) : val11 V0 (no_index (Proc.devRef .tc main_v95)) = agg2 V0 := by
  unfold val11
  simp only [s_agg2]
  after_results_simp
  simp only [val10_main_arg9, val10_main_v31, val10_main_v75, val10_main_v30, val10_main_v1, val10_main_v3] <;> rfl

/-- The device's buffer contents after the stage `s_mean2a`. -/
def val12 (V0 : Valuation τ sig (Elt Ideal)) : Valuation τ sig (Elt Ideal) := after s_mean2a (val11 V0)
theorem val12_main_arg2 (V0 : Valuation τ sig (Elt Ideal)) : val12 V0 (no_index (Proc.devRef .tc main_arg2)) = V0 (Proc.devRef .tc main_arg2) :=
  (s_mean2a_keep _ main_arg2 (by decide)).trans (val11_main_arg2 V0)
theorem val12_main_arg10 (V0 : Valuation τ sig (Elt Ideal)) : val12 V0 (no_index (Proc.devRef .tc main_arg10)) = V0 (Proc.devRef .tc main_arg10) :=
  (s_mean2a_keep _ main_arg10 (by decide)).trans (val11_main_arg10 V0)
theorem val12_main_arg11 (V0 : Valuation τ sig (Elt Ideal)) : val12 V0 (no_index (Proc.devRef .tc main_arg11)) = V0 (Proc.devRef .tc main_arg11) :=
  (s_mean2a_keep _ main_arg11 (by decide)).trans (val11_main_arg11 V0)
theorem val12_main_v95 (V0 : Valuation τ sig (Elt Ideal)) : val12 V0 (no_index (Proc.devRef .tc main_v95)) = agg2 V0 :=
  (s_mean2a_keep _ main_v95 (by decide)).trans (val11_main_v95 V0)
theorem val12_main_v96 (V0 : Valuation τ sig (Elt Ideal)) : val12 V0 (no_index (Proc.devRef .tc main_v96)) = Host.reduceAdd (agg2 V0) (constant (F := Ideal) S_ .f32 0x00000000#32) reducesTo_S100000x64_S64_d0 h_S_ := by
  unfold val12
  simp only [s_mean2a]
  after_results_simp
  simp only [val11_main_v95] <;> rfl
theorem val12_main_v97 (V0 : Valuation τ sig (Elt Ideal)) : val12 V0 (no_index (Proc.devRef .tc main_v97)) = broadcastInDim S64 ![] bcast_S_S64 (constant (F := Ideal) S_ .f32 0x47C35000#32) := by
  unfold val12
  simp only [s_mean2a]
  after_results_simp
  all_goals rfl

/-- The device's buffer contents after the stage `s_mean2b`. -/
def val13 (V0 : Valuation τ sig (Elt Ideal)) : Valuation τ sig (Elt Ideal) := after s_mean2b (val12 V0)
theorem val13_main_arg2 (V0 : Valuation τ sig (Elt Ideal)) : val13 V0 (no_index (Proc.devRef .tc main_arg2)) = V0 (Proc.devRef .tc main_arg2) :=
  (s_mean2b_keep _ main_arg2 (by decide)).trans (val12_main_arg2 V0)
theorem val13_main_arg10 (V0 : Valuation τ sig (Elt Ideal)) : val13 V0 (no_index (Proc.devRef .tc main_arg10)) = V0 (Proc.devRef .tc main_arg10) :=
  (s_mean2b_keep _ main_arg10 (by decide)).trans (val12_main_arg10 V0)
theorem val13_main_arg11 (V0 : Valuation τ sig (Elt Ideal)) : val13 V0 (no_index (Proc.devRef .tc main_arg11)) = V0 (Proc.devRef .tc main_arg11) :=
  (s_mean2b_keep _ main_arg11 (by decide)).trans (val12_main_arg11 V0)
theorem val13_main_v95 (V0 : Valuation τ sig (Elt Ideal)) : val13 V0 (no_index (Proc.devRef .tc main_v95)) = agg2 V0 :=
  (s_mean2b_keep _ main_v95 (by decide)).trans (val12_main_v95 V0)
theorem val13_main_v98 (V0 : Valuation τ sig (Elt Ideal)) : val13 V0 (no_index (Proc.devRef .tc main_v98)) = Cert.Gcn.Ref.mean (agg2 V0) := by
  unfold val13
  simp only [s_mean2b]
  after_results_simp
  simp only [val12_main_v97, val12_main_v96] <;> rfl

/-- The device's buffer contents after the stage `s_var2`. -/
def val14 (V0 : Valuation τ sig (Elt Ideal)) : Valuation τ sig (Elt Ideal) := after s_var2 (val13 V0)
theorem val14_main_arg2 (V0 : Valuation τ sig (Elt Ideal)) : val14 V0 (no_index (Proc.devRef .tc main_arg2)) = V0 (Proc.devRef .tc main_arg2) :=
  (s_var2_keep _ main_arg2 (by decide)).trans (val13_main_arg2 V0)
theorem val14_main_arg10 (V0 : Valuation τ sig (Elt Ideal)) : val14 V0 (no_index (Proc.devRef .tc main_arg10)) = V0 (Proc.devRef .tc main_arg10) :=
  (s_var2_keep _ main_arg10 (by decide)).trans (val13_main_arg10 V0)
theorem val14_main_arg11 (V0 : Valuation τ sig (Elt Ideal)) : val14 V0 (no_index (Proc.devRef .tc main_arg11)) = V0 (Proc.devRef .tc main_arg11) :=
  (s_var2_keep _ main_arg11 (by decide)).trans (val13_main_arg11 V0)
theorem val14_main_v95 (V0 : Valuation τ sig (Elt Ideal)) : val14 V0 (no_index (Proc.devRef .tc main_v95)) = agg2 V0 :=
  (s_var2_keep _ main_v95 (by decide)).trans (val13_main_v95 V0)
theorem val14_main_v98 (V0 : Valuation τ sig (Elt Ideal)) : val14 V0 (no_index (Proc.devRef .tc main_v98)) = Cert.Gcn.Ref.mean (agg2 V0) :=
  (s_var2_keep _ main_v98 (by decide)).trans (val13_main_v98 V0)
set_option maxHeartbeats 2000000 in
theorem val14_main_v99 (V0 : Valuation τ sig (Elt Ideal)) : val14 V0 (no_index (Proc.devRef .tc main_v99)) = Cert.Gcn.Ref.var (agg2 V0) := by
  unfold val14
  simp only [s_var2]
  after_results_simp
  simp only [val13_main_v95] <;> rfl

/-- The device's buffer contents after the stage `s_bn2`. -/
def val15 (V0 : Valuation τ sig (Elt Ideal)) : Valuation τ sig (Elt Ideal) := after s_bn2 (val14 V0)
theorem val15_main_arg2 (V0 : Valuation τ sig (Elt Ideal)) : val15 V0 (no_index (Proc.devRef .tc main_arg2)) = V0 (Proc.devRef .tc main_arg2) :=
  (s_bn2_keep _ main_arg2 (by decide)).trans (val14_main_arg2 V0)
set_option maxHeartbeats 1600000 in
theorem val15_main_v114 (V0 : Valuation τ sig (Elt Ideal)) : val15 V0 (no_index (Proc.devRef .tc main_v114)) = outA V0 := by
  unfold val15
  simp only [s_bn2]
  after_results_simp
  simp only [val14_main_arg11, val14_main_arg10, val14_main_v99, val14_main_v98, val14_main_v95] <;> rfl

/-- The device's buffer contents after the stage `s_pool`. -/
def val16 (V0 : Valuation τ sig (Elt Ideal)) : Valuation τ sig (Elt Ideal) := after s_pool (val15 V0)
theorem val16_main_v114 (V0 : Valuation τ sig (Elt Ideal)) : val16 V0 (no_index (Proc.devRef .tc main_v114)) = outA V0 :=
  (s_pool_keep _ main_v114 (by decide)).trans (val15_main_v114 V0)
theorem val16_main_v117 (V0 : Valuation τ sig (Elt Ideal)) : val16 V0 (no_index (Proc.devRef .tc main_v117)) = outB V0 := by
  unfold val16
  simp only [s_pool]
  after_results_simp
  simp only [val15_main_v114, val15_main_arg2] <;> rfl

/-- The fold of all the operations is the contents after the last stage. -/
theorem after_ops (V0 : Valuation τ sig (Elt Ideal)) : after ops V0 = val16 V0 := by
  simp only [ops, ops0, ops1, ops2, after_append]
  rfl

/-- The first result is the two-layer composition of the launch contents of the argument arrays. -/
theorem res0_eq (m : (ℓ : Loc nD τ sig) → Buf (Elt Ideal) ℓ) (c : Dev nD) :
    res0 (F := Ideal) m c = Cert.Gcn.Ref.out0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold res0
  rw [after_ops, val16_main_v114, outA_eq]

/-- The second result is the per-graph sum of the first. -/
theorem res1_eq (m : (ℓ : Loc nD τ sig) → Buf (Elt Ideal) ℓ) (c : Dev nD) :
    res1 (F := Ideal) m c = Cert.Gcn.Ref.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold res1
  rw [after_ops, val16_main_v117, outB_eq]

/-- Every weakly fair execution of @main terminates with the first result at the two-layer composition of the argument arrays,
    the second at its per-graph sums, and the twelve argument arrays unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v114) = Cert.Gcn.Ref.out0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v117) = Cert.Gcn.Ref.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
    :=
  (θ_run defs _ _).mono (fun _ h c => ⟨(h c).1.trans (res0_eq m c), (h c).2.1.trans (res1_eq m c), (h c).2.2⟩) (run (F := Ideal) m ρ)

end Cert.ReferenceIdeal.HandRun

end
-- ==== Proof.Neuron.lean ====
/-
  The mathematics of one batch row of the network, on the extended reals.

  A row carries a sensory state `x` (4 entries), a hidden state `(E, O)` (64 entries each) and an output
  state (8 entries). Every layer is a leaky threshold neuron: the internal state decays by a factor, receives a
  drive, and is passed on (`gate`) where it reaches its threshold, else zero.

  * input layer:   E_in f  = dec_in f · x f,                       O_in  = gate E_in  th_in
  * output layer:  E_out o = dec_out o · E⁰_out o + Σ_k O⁰_hid k · S k o,  O_out = gate E_out th_out,
                   action  = tanh E_out
  * hidden layer:  four steps of  E ← dec j · E j + I j − deg j · E j  with the loop-invariant drive
                   I j = (−(Σ_k x k · P k j) + Σ_k O⁰_hid k · C k j) + Σ_k x k · M k j,  O_hid = gate E th_hid.

  The same hidden layer can be arranged with the two input matrices folded into one, W = M − P, and the
  two decay factors into one, a = dec − deg: I' j = Σ_k x k · W k j + Σ_k O⁰_hid k · C k j and
  E ← a j · E j + I' j. The two arrangements agree when every quantity involved is a real number
  (`hidden_fold`): the extended reals do not distribute a product over a difference at the infinities, so
  this is where finiteness is used.
-/
import Idealize.ShloMosaic.PureOps.Ideal
import Idealize.ShloMosaic.Lib.ValueIdx

noncomputable section

open scoped BigOperators

namespace Cert.Neuron

open Idealize.ShloMosaic Idealize.ShloMosaic.ValueIdx

/-! ## Arrays by coordinates -/

/-- Row `b` of a matrix given on rank-2 indices. -/
def row2 {n0 n1 : Nat} (A : (⟨2, ![n0, n1]⟩ : Shape).Idx → EReal) (b : Fin n0) : Fin n1 → EReal :=
  fun f => A (ix2 b f)
/-- A matrix given on rank-2 indices, by its two coordinates. -/
def mat2 {n0 n1 : Nat} (A : (⟨2, ![n0, n1]⟩ : Shape).Idx → EReal) : Fin n0 → Fin n1 → EReal :=
  fun k j => A (ix2 k j)
/-- A vector given on rank-1 indices, by its coordinate. -/
def vec1 {n : Nat} (A : (⟨1, ![n]⟩ : Shape).Idx → EReal) : Fin n → EReal := fun j => A (ix1 j)

/-! ## The gate -/

/-- The zero both programs write: the real the all-zero binary32 word denotes. -/
def zero : EReal := Ideal.ofBits .f32 0x00000000#32

/-- A neuron's output: its internal state where that reaches the threshold, else zero. -/
def gate (e th : EReal) : EReal :=
  Scalar.select (FloatOps.cmpf (F := Ideal) (φ := .f32) .oge e th) e zero

/-! ## Input layer -/

def eIn (dec_in x : Fin 4 → EReal) (f : Fin 4) : EReal := dec_in f * x f
def oIn (th_in dec_in x : Fin 4 → EReal) (f : Fin 4) : EReal := gate (eIn dec_in x f) (th_in f)

/-! ## Output layer -/

def eOut (dec_out : Fin 8 → EReal) (S : Fin 64 → Fin 8 → EReal) (oE : Fin 8 → EReal) (hO : Fin 64 → EReal)
    (o : Fin 8) : EReal :=
  dec_out o * oE o + ∑ k : Fin 64, hO k * S k o
def oOut (th_out dec_out : Fin 8 → EReal) (S : Fin 64 → Fin 8 → EReal) (oE : Fin 8 → EReal) (hO : Fin 64 → EReal)
    (o : Fin 8) : EReal :=
  gate (eOut dec_out S oE hO o) (th_out o)
def action (dec_out : Fin 8 → EReal) (S : Fin 64 → Fin 8 → EReal) (oE : Fin 8 → EReal) (hO : Fin 64 → EReal)
    (o : Fin 8) : EReal :=
  Ideal.tanh (eOut dec_out S oE hO o)

/-! ## Hidden layer, with the three influences and the two decay terms kept apart -/

/-- The loop-invariant drive: inhibitory dense input, recurrent dense input, gap-junction input. -/
def drive (P M : Fin 4 → Fin 64 → EReal) (C : Fin 64 → Fin 64 → EReal) (x : Fin 4 → EReal) (hO : Fin 64 → EReal)
    (j : Fin 64) : EReal :=
  (-(∑ k : Fin 4, x k * P k j) + ∑ k : Fin 64, hO k * C k j) + ∑ k : Fin 4, x k * M k j
/-- One step of the hidden state. -/
def step (dec deg I E : Fin 64 → EReal) (j : Fin 64) : EReal := dec j * E j + I j - deg j * E j
/-- The hidden state after the four steps. -/
def eHid (dec deg : Fin 64 → EReal) (P M : Fin 4 → Fin 64 → EReal) (C : Fin 64 → Fin 64 → EReal)
    (x : Fin 4 → EReal) (hE hO : Fin 64 → EReal) : Fin 64 → EReal :=
  step dec deg (drive P M C x hO) (step dec deg (drive P M C x hO) (step dec deg (drive P M C x hO)
    (step dec deg (drive P M C x hO) hE)))
def oHid (th dec deg : Fin 64 → EReal) (P M : Fin 4 → Fin 64 → EReal) (C : Fin 64 → Fin 64 → EReal)
    (x : Fin 4 → EReal) (hE hO : Fin 64 → EReal) (j : Fin 64) : EReal :=
  gate (eHid dec deg P M C x hE hO j) (th j)

/-! ## Hidden layer, folded -/

def driveF (W : Fin 4 → Fin 64 → EReal) (C : Fin 64 → Fin 64 → EReal) (x : Fin 4 → EReal) (hO : Fin 64 → EReal)
    (j : Fin 64) : EReal :=
  ∑ k : Fin 4, x k * W k j + ∑ k : Fin 64, hO k * C k j
def stepF (a I E : Fin 64 → EReal) (j : Fin 64) : EReal := a j * E j + I j
def eHidF (a : Fin 64 → EReal) (W : Fin 4 → Fin 64 → EReal) (C : Fin 64 → Fin 64 → EReal)
    (x : Fin 4 → EReal) (hE hO : Fin 64 → EReal) : Fin 64 → EReal :=
  stepF a (driveF W C x hO) (stepF a (driveF W C x hO) (stepF a (driveF W C x hO)
    (stepF a (driveF W C x hO) hE)))
def oHidF (th a : Fin 64 → EReal) (W : Fin 4 → Fin 64 → EReal) (C : Fin 64 → Fin 64 → EReal)
    (x : Fin 4 → EReal) (hE hO : Fin 64 → EReal) (j : Fin 64) : EReal :=
  gate (eHidF a W C x hE hO j) (th j)

/-! ## Being a real number -/

/-- An extended real that is a real number. -/
def IsReal (e : EReal) : Prop := ∃ r : ℝ, e = (r : EReal)

end Cert.Neuron

end
-- ==== Proof.LibRealOps.lean ====
/-
  Real numbers among the extended reals, and the host operations that keep them.

  An extended real is a real number (`Cert.Neuron.IsReal`) when it is neither infinity. The reals are closed
  under the field operations, under maxima and under finite sums; on an array whose every entry is a real
  number, softplus (spelt `max x 0 + log (1 + exp (-|x - 0|))`, guarded by a comparison of `x - 0` with itself that
  never fires on the extended reals) has real entries, an accumulating scatter of real updates into a real
  operand has real entries, a difference of two real arrays has real entries, and so has the array of zeros.
-/
import Idealize.ShloMosaic.PureOps.Ideal
import Idealize.ShloMosaic.PureOps.Ideal.Laws
import Idealize.ShloMosaic.Lib.ValueIdx
import Idealize.ShloMosaic.Lib.ReduceAll
import proofs.«132265_j53532472378064_1_alg».proof.Proof.Neuron

noncomputable section

open scoped BigOperators

namespace Cert.Neuron

open Idealize.ShloMosaic

/-! ## Closure of the reals inside the extended reals -/

/-- A real number, read as an extended real, is a real number. -/
theorem IsReal.coe (r : ℝ) : IsReal (r : EReal) := ⟨r, rfl⟩

/-- Zero is a real number. -/
theorem IsReal.zero : IsReal (0 : EReal) := ⟨0, EReal.coe_zero.symm⟩

/-- One is a real number. -/
theorem IsReal.one : IsReal (1 : EReal) := ⟨1, EReal.coe_one.symm⟩

/-- The sum of two real numbers is a real number. -/
theorem IsReal.add {a b : EReal} (ha : IsReal a) (hb : IsReal b) : IsReal (a + b) := by
  obtain ⟨r, rfl⟩ := ha; obtain ⟨s, rfl⟩ := hb; exact ⟨r + s, (EReal.coe_add r s).symm⟩

/-- The negative of a real number is a real number. -/
theorem IsReal.neg {a : EReal} (ha : IsReal a) : IsReal (-a) := by
  obtain ⟨r, rfl⟩ := ha; exact ⟨-r, (EReal.coe_neg r).symm⟩

/-- The difference of two real numbers is a real number. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The product of two real numbers is a real number. -/
theorem IsReal.mul {a b : EReal} (ha : IsReal a) (hb : IsReal b) : IsReal (a * b) := by
  obtain ⟨r, rfl⟩ := ha; obtain ⟨s, rfl⟩ := hb; exact ⟨r * s, (EReal.coe_mul r s).symm⟩

/-- The larger of two real numbers is a real number. -/
theorem IsReal.max {a b : EReal} (ha : IsReal a) (hb : IsReal b) : IsReal (max a b) := by
  rcases max_choice a b with h | h <;> rw [h] <;> assumption

/-- A sum of real numbers over a finite set is a real number. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A sum of real numbers over a finite index type is a real number. -/
theorem IsReal.sum_univ {ι : Type*} [Fintype ι] (f : ι → EReal) (h : ∀ i, IsReal (f i)) : IsReal (∑ i, f i) :=
  IsReal.sum _ f fun i _ => h i

/-- A sum of real numbers over the indices that pass a test is a real number. -/
theorem IsReal.sum_filter {ι : Type*} [Fintype ι] (p : ι → Prop) [DecidablePred p] (f : ι → EReal)
    (h : ∀ i, IsReal (f i)) : IsReal (∑ i ∈ Finset.univ.filter p, f i) :=
  IsReal.sum _ f fun i _ => h i

/-! ## The accumulating scatter -/

/-- The host's accumulating scatter of real updates into a real operand has real entries: each entry is the
    operand's entry plus the sum of the updates whose index lands on it. -/
theorem scatterAdd_isReal {s si su : Shape} (d : ScatterDims s si su) {w : Nat} (x : FVec Ideal s .f32)
    (idx : IVec si w) (u : FVec Ideal su .f32) (hx : ∀ i, IsReal (x i)) (hu : ∀ j, IsReal (u j)) :
    ∀ i, IsReal (Host.scatterAdd d x idx u i) := fun i =>
  (hx i).add (IsReal.sum_filter _ u hu)

/-! ## Softplus -/

/-- The logarithm of one plus the exponential of a real number is a real number: the exponential is positive, so
    the logarithm is taken of a positive real. -/
theorem log1p_exp_isReal {a : EReal} (ha : IsReal a) : IsReal (Ideal.log1p (Ideal.exp a)) := by
  obtain ⟨t, rfl⟩ := ha
  have hpos : ¬ (1 + Real.exp t ≤ 0) := not_le.2 (by positivity)
  refine ⟨Real.log (1 + Real.exp t), ?_⟩
  rw [Ideal.log1p, Ideal.exp_coe, ← EReal.coe_one, ← EReal.coe_add, Ideal.log_coe, if_neg hpos]

/-- Softplus at a real number, as the host spells it at one element — `max a 0 + log (1 + exp (-|a - 0|))`, chosen
    by a comparison of `a - 0` with itself for inequality, which on the extended reals is never true — is a real
    number. -/
theorem softplus_scalar_isReal {a : EReal} (ha : IsReal a) :
    IsReal (Scalar.select (Ideal.cmp .une (a - 0) (a - 0)) (a + 0)
      (max a 0 + Ideal.log1p (Ideal.exp (-(max (a - 0) (-(a - 0))))))) := by
  have hc : Ideal.cmp .une (a - 0) (a - 0) = 0#1 := by simp [Ideal.cmp]
  have hs : ∀ p q : EReal, Scalar.select 0#1 p q = q := fun p q => if_neg (by decide)
  rw [hc, hs]
  have h0 := IsReal.zero
  exact (ha.max h0).add (log1p_exp_isReal ((ha.sub h0).max (ha.sub h0).neg).neg)

/-- Softplus of an array of real numbers, as the host spells it (the zero it compares with and subtracts is the
    broadcast of the all-zero binary32 word), has real entries. -/
theorem softplus_isReal {S : Shape} (hb : (⟨0, ![]⟩ : Shape).BroadcastsInDim S (![] : Fin 0 → Fin S.rank))
    (x : FVec Ideal S .f32) (hx : ∀ i, IsReal (x i)) :
    ∀ i, IsReal (select
      (cmpf .une (subf x (broadcastInDim S ![] hb (constant (F := Ideal) ⟨0, ![]⟩ .f32 0x00000000#32)))
        (subf x (broadcastInDim S ![] hb (constant (F := Ideal) ⟨0, ![]⟩ .f32 0x00000000#32))))
      (addf x (broadcastInDim S ![] hb (constant (F := Ideal) ⟨0, ![]⟩ .f32 0x00000000#32)))
      (addf (maximumf x (broadcastInDim S ![] hb (constant (F := Ideal) ⟨0, ![]⟩ .f32 0x00000000#32)))
        (Host.log1p (Host.exp (Host.negf (Host.absf
          (subf x (broadcastInDim S ![] hb (constant (F := Ideal) ⟨0, ![]⟩ .f32 0x00000000#32)))))))) i) := by
  intro i
  have h := softplus_scalar_isReal (hx i)
  rw [← Ideal.ofBits_zero_f32] at h
  exact h

/-! ## Differences and zeros -/

/-- The elementwise difference of two arrays of real numbers has real entries. -/
theorem subf_isReal {S : Shape} (x y : FVec Ideal S .f32) (hx : ∀ i, IsReal (x i)) (hy : ∀ i, IsReal (y i)) :
    ∀ i, IsReal (subf x y i) := fun i => (hx i).sub (hy i)

/-- The elementwise sum of two arrays of real numbers has real entries. -/
theorem addf_isReal {S : Shape} (x y : FVec Ideal S .f32) (hx : ∀ i, IsReal (x i)) (hy : ∀ i, IsReal (y i)) :
    ∀ i, IsReal (addf x y i) := fun i => (hx i).add (hy i)

/-- The broadcast of the all-zero binary32 word is an array of real numbers. -/
theorem zeros_isReal {S : Shape} (hb : (⟨0, ![]⟩ : Shape).BroadcastsInDim S (![] : Fin 0 → Fin S.rank)) :
    ∀ i, IsReal (broadcastInDim S ![] hb (constant (F := Ideal) ⟨0, ![]⟩ .f32 0x00000000#32) i) := fun i => by
  show IsReal (Ideal.ofBits .f32 0x00000000#32)
  rw [Ideal.ofBits_zero_f32]; exact IsReal.zero

/-! ## Reading a finiteness test back -/

/-- The binary32 word of positive infinity denotes the top extended real. -/
theorem ofBits_inf_f32 : Ideal.ofBits .f32 0x7F800000#32 = ⊤ := by simp [Ideal.ofBits, Ideal.ieee]

/-- An extended real whose absolute value is below positive infinity is a real number. -/
theorem isReal_of_abs_lt_top {a : EReal} (h : max a (-a) < ⊤) : IsReal a := by
  induction a using EReal.rec with
  | bot => exact absurd h (by simp)
  | coe r => exact ⟨r, rfl⟩
  | top => exact absurd h (by simp)

/-- A test `all (|x| < +∞)` read back: when the conjunction, over every entry of `x`, of "the entry's absolute value
    compares below the binary32 word of positive infinity" is true, every entry of `x` is a real number. -/
theorem isReal_of_all_abs_lt_inf {S : Shape} (hb : (⟨0, ![]⟩ : Shape).BroadcastsInDim S (![] : Fin 0 → Fin S.rank))
    (x : FVec Ideal S .f32) {axes : List (Fin S.rank)} (hr : S.ReducesTo axes ⟨0, ![]⟩)
    (hu : 0 < (⟨0, ![]⟩ : Shape).numel) (j : (⟨0, ![]⟩ : Shape).Idx)
    (e : Host.reduce IntOp.andi
        (cmpf .olt (Host.absf x) (broadcastInDim S ![] hb (constant (F := Ideal) ⟨0, ![]⟩ .f32 0x7F800000#32)))
        (constantI ⟨0, ![]⟩ 1 1#1) hr hu j = 1#1) :
    ∀ i, IsReal (x i) := by
  intro i
  haveI : Subsingleton (⟨0, ![]⟩ : Shape).Idx := ⟨fun a b => funext fun d => d.elim0⟩
  have h := Host.reduce_andi_all _ _ hr hu j e i
  have h' : Ideal.cmp .olt (max (x i) (-(x i))) (Ideal.ofBits .f32 0x7F800000#32) = 1#1 := h
  rw [ofBits_inf_f32] at h'
  refine isReal_of_abs_lt_top ?_
  by_contra hn
  simp [Ideal.cmp, hn] at h'

end Cert.Neuron

end
-- ==== Proof.PreReal.lean ====
/-
  The precondition read back: when the test "every float input has absolute value below +∞" is true, every entry of
  each of the ten float arrays is a real number (the two integer arrays are not constrained).
-/
import proofs.«132265_j53532472378064_1_alg».proof.Pre_finite_inputs
import proofs.«132265_j53532472378064_1_alg».proof.Proof.LibRealOps
import Idealize.ShloMosaic.Lib.ReduceAll
import Idealize.ShloMosaic.Lib.ValueIdx

noncomputable section

namespace Cert.Gcn.PreReal

open Idealize.ShloMosaic Cert.Neuron Cert.Pre_finite_inputs Cert.Pre_finite_inputs.Facts

variable [Cert.Pre_finite_inputs.Facts]

/-- The conjunction of the ten tests is true exactly when each is; each test is a conjunction over the entries. -/
theorem reals (a0 : FVec Ideal S100000x32 .f32) (a1 : IVec S2x1600000 32) (a2 : IVec S100000 32)
    (a3 : FVec Ideal S32x64 .f32) (a4 : FVec Ideal S64x64 .f32) (a5 a6 a7 : FVec Ideal S64 .f32)
    (a8 : FVec Ideal S64x64 .f32) (a9 a10 a11 : FVec Ideal S64 .f32)
    (h : Cert.Pre_finite_inputs.fn (F := Ideal) a0 a1 a2 a3 a4 a5 a6 a7 a8 a9 a10 a11 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) ∧ (∀ i, IsReal (a11 i)) := by
  have h0 := congrFun h ValueIdx.ix0
  dsimp only [Cert.Pre_finite_inputs.fn, Cert.Pre_finite_inputs.fn_part1, Cert.Pre_finite_inputs.fn_part2,
    Idealize.ShloMosaic.andi] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨isReal_of_all_abs_lt_inf _ a0 _ _ _ e0, isReal_of_all_abs_lt_inf _ a3 _ _ _ e3,
    isReal_of_all_abs_lt_inf _ a4 _ _ _ e4, isReal_of_all_abs_lt_inf _ a5 _ _ _ e5,
    isReal_of_all_abs_lt_inf _ a6 _ _ _ e6, isReal_of_all_abs_lt_inf _ a7 _ _ _ e7,
    isReal_of_all_abs_lt_inf _ a8 _ _ _ e8, isReal_of_all_abs_lt_inf _ a9 _ _ _ e9,
    isReal_of_all_abs_lt_inf _ a10 _ _ _ e10, isReal_of_all_abs_lt_inf _ a11 _ _ _ e11⟩

end Cert.Gcn.PreReal

end
-- ==== Proof.LibBatchNormFold.lean ====
/-
  Batch normalisation folded into one multiply-add, on the extended reals.

  A layer  h ↦ ((h − μ) · r) · γ + β  with the batch statistics
      μ = (∑ h) / n,   v = (∑ (h − μ)²) / n,   r = (v + ε)^(−1/2)
  is often computed from the two running sums  s = ∑ h  and  q = ∑ h²  instead:
      μ = s / n,   v' = q / n − μ · μ,   r' = (v' + ε)^(−1/2),   a = γ · r',   b = β − μ · a,   h · a + b.
  For FINITE h, γ, β, a batch of n ≠ 0 elements and ε > 0 the two are one extended real. The lemmas below say so
  over the operations floats mean at the exact instance: the quotient `Ideal.div`, the inverse root
  `Ideal.rsqrt`, and the extended reals' own + − ·. Finiteness is what makes it true: with an infinite h the product
  (h − μ) · r · γ does not distribute over the difference. Also here: a quotient by √1024 is the product with 1/32
  at every extended real, and the three float words such a layer spells (1024, 32768, 1/32) as the reals they denote.
-/
import Idealize.ShloMosaic.PureOps.Ideal
import Mathlib.Tactic.Ring
import Mathlib.Tactic.FieldSimp
import Mathlib.Tactic.NormNum
import Mathlib.Tactic.Positivity

noncomputable section

namespace LibBatchNormFold

open Idealize.ShloMosaic
open scoped BigOperators

variable {ι : Type*}

/-! ## Finite sums and quotients of reals, read in the extended reals -/

/-- A finite sum of reals, read in the extended reals, is the sum of the readings. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exact quotient of two reals, the divisor not zero, is the real quotient. -/
theorem div_coe_coe (x y : ℝ) (hy : y ≠ 0) : Ideal.div (x : EReal) (y : EReal) = ((x / y : ℝ) : EReal) := by
  rw [Ideal.div_coe hy, ← EReal.coe_mul, mul_one_div]

/-! ## The variance from the two running sums -/

/-- Over the reals: the mean of the squared deviations from the mean is the mean of the squares less the squared
    mean (n is the number of elements, as a real). -/
theorem var_real [Fintype ι] (h : ι → ℝ) (n : ℝ) (hn : n ≠ 0) (hcard : (Fintype.card ι : ℝ) = n) :
    (∑ b, (h b - (∑ b, h b) / n) * (h b - (∑ b, h b) / n)) / n
      = (∑ b, h b * h b) / n - ((∑ b, h b) / n) * ((∑ b, h b) / n) := by
  have e : ∀ b, (h b - (∑ b, h b) / n) * (h b - (∑ b, h b) / n)
      = h b * h b - 2 * ((∑ b, h b) / n) * h b + ((∑ b, h b) / n) * ((∑ b, h b) / n) := fun b => by ring
  simp only [e, Finset.sum_add_distrib, Finset.sum_sub_distrib, ← Finset.mul_sum, Finset.sum_const,
    Finset.card_univ, nsmul_eq_mul, hcard]
  field_simp
  ring

/-- The mean of the squared deviations is not negative. -/
theorem var_real_nonneg [Fintype ι] (h : ι → ℝ) (n : ℝ) (hn : 0 < n) :
    0 ≤ (∑ b, (h b - (∑ b, h b) / n) * (h b - (∑ b, h b) / n)) / n :=
  div_nonneg (Finset.sum_nonneg fun b _ => mul_self_nonneg _) hn.le

/-- The same law on the extended reals, over the exact quotient: both variances of finite numbers are one value. -/
theorem var_fold [Fintype ι] (h : ι → ℝ) (n : ℝ) (hn : n ≠ 0) (hcard : (Fintype.card ι : ℝ) = n) :
    Ideal.div (∑ b, ((h b : EReal) - Ideal.div (∑ b, (h b : EReal)) (n : EReal))
        * ((h b : EReal) - Ideal.div (∑ b, (h b : EReal)) (n : EReal))) (n : EReal)
      = Ideal.div (∑ b, (h b : EReal) * (h b : EReal)) (n : EReal)
          - Ideal.div (∑ b, (h b : EReal)) (n : EReal) * Ideal.div (∑ b, (h b : EReal)) (n : EReal) := by
  rw [← coe_sum, div_coe_coe _ _ hn]
  simp only [← EReal.coe_sub, ← EReal.coe_mul, ← coe_sum]
  rw [div_coe_coe _ _ hn, div_coe_coe _ _ hn, ← EReal.coe_sub]
  exact congrArg _ (var_real h n hn hcard)

/-! ## The inverse root of a positive real -/

/-- The inverse root of a nonnegative real plus a positive one is a real: the reciprocal of the real root. -/
theorem rsqrt_add_pos (v ε : ℝ) (hv : 0 ≤ v) (hε : 0 < ε) :
    Ideal.rsqrt ((v : EReal) + (ε : EReal)) = (((Real.sqrt (v + ε))⁻¹ : ℝ) : EReal) := by
  have hpos : 0 < v + ε := by positivity
  rw [← EReal.coe_add, Ideal.rsqrt_coe, if_neg (not_lt.mpr hpos.le), if_neg hpos.ne']

/-! ## The fold -/

/-- Over finite numbers, normalise-scale-shift is one multiply-add with a folded scale and shift. -/
theorem affine_fold (h μ r g β : ℝ) :
    (((h : EReal) - (μ : EReal)) * (r : EReal)) * (g : EReal) + (β : EReal)
      = (h : EReal) * ((g : EReal) * (r : EReal)) + ((β : EReal) - (μ : EReal) * ((g : EReal) * (r : EReal))) := by
  simp only [← EReal.coe_sub, ← EReal.coe_mul, ← EReal.coe_add]
  exact congrArg _ (by ring)

/-- THE LAW. For a batch `h` of n finite numbers, finite γ and β, and ε > 0: the layer written with the two-pass
    variance, `((h − μ) · rsqrt (v + ε)) · γ + β`, is the layer written from the running sums,
    `h · (γ · rsqrt (q/n − μ·μ + ε)) + (β − μ · (γ · rsqrt (q/n − μ·μ + ε)))`, at every element. -/
theorem bn_fold [Fintype ι] (h : ι → ℝ) (n ε g β : ℝ) (hn : 0 < n) (hcard : (Fintype.card ι : ℝ) = n) (hε : 0 < ε)
    (b₀ : ι) :
    ((((h b₀ : ℝ) : EReal) - Ideal.div (∑ b, (h b : EReal)) (n : EReal))
        * Ideal.rsqrt (Ideal.div (∑ b, ((h b : EReal) - Ideal.div (∑ b, (h b : EReal)) (n : EReal))
            * ((h b : EReal) - Ideal.div (∑ b, (h b : EReal)) (n : EReal))) (n : EReal) + (ε : EReal)))
        * (g : EReal) + (β : EReal)
      = ((h b₀ : ℝ) : EReal) * ((g : EReal)
            * Ideal.rsqrt (Ideal.div (∑ b, (h b : EReal) * (h b : EReal)) (n : EReal)
                - Ideal.div (∑ b, (h b : EReal)) (n : EReal) * Ideal.div (∑ b, (h b : EReal)) (n : EReal) + (ε : EReal)))
          + ((β : EReal) - Ideal.div (∑ b, (h b : EReal)) (n : EReal) * ((g : EReal)
            * Ideal.rsqrt (Ideal.div (∑ b, (h b : EReal) * (h b : EReal)) (n : EReal)
                - Ideal.div (∑ b, (h b : EReal)) (n : EReal) * Ideal.div (∑ b, (h b : EReal)) (n : EReal) + (ε : EReal)))) := by
  rw [← var_fold h n hn.ne' hcard]
  have hμ : Ideal.div (∑ b, (h b : EReal)) (n : EReal) = (((∑ b, h b) / n : ℝ) : EReal) := by
    rw [← coe_sum, div_coe_coe _ _ hn.ne']
  have hv : Ideal.div (∑ b, ((h b : EReal) - Ideal.div (∑ b, (h b : EReal)) (n : EReal))
        * ((h b : EReal) - Ideal.div (∑ b, (h b : EReal)) (n : EReal))) (n : EReal)
      = (((∑ b, (h b - (∑ b, h b) / n) * (h b - (∑ b, h b) / n)) / n : ℝ) : EReal) := by
    rw [hμ]
    simp only [← EReal.coe_sub, ← EReal.coe_mul, ← coe_sum]
    rw [div_coe_coe _ _ hn.ne']
  rw [hv, rsqrt_add_pos _ _ (var_real_nonneg h n hn) hε, hμ]
  exact affine_fold _ _ _ _ _

/-! ## The attention scale and the words of the layer -/

/-- A quotient by the root of 1024 is the product with 1/32, at the infinities too. -/
theorem div_sqrt_1024 (x : EReal) : Ideal.div x (Ideal.sqrt ((1024 : ℝ) : EReal)) = x * ((1 / 32 : ℝ) : EReal) := by
  have h32 : Real.sqrt 1024 = 32 := by
    rw [show (1024 : ℝ) = 32 ^ 2 by norm_num]; exact Real.sqrt_sq (by norm_num)
  rw [Ideal.sqrt_coe, if_neg (by norm_num), h32, Ideal.div_coe (by norm_num)]

/-- The word of `1024.0` denotes the real 1024. -/
theorem ofBits_1024 : Ideal.ofBits .f32 0x44800000#32 = ((1024 : ℝ) : EReal) := by
  simp [Ideal.ofBits, Ideal.ieee, -EReal.coe_mul]; norm_num

/-- The word of `32768.0` denotes the real 32768. -/
theorem ofBits_32768 : Ideal.ofBits .f32 0x47000000#32 = ((32768 : ℝ) : EReal) := by
  simp [Ideal.ofBits, Ideal.ieee, -EReal.coe_mul]; norm_num

/-- The word of `0.03125` denotes the real 1/32. -/
theorem ofBits_inv32 : Ideal.ofBits .f32 0x3D000000#32 = ((1 / 32 : ℝ) : EReal) := by
  simp [Ideal.ofBits, Ideal.ieee, -EReal.coe_mul]; norm_num

end LibBatchNormFold

end
-- ==== Proof.Reals.lean ====
/-
  Finite values through one graph-convolution layer with batch normalisation, and the variance identity, on the
  extended reals.

  The extended reals [-∞, +∞] are not a field: the mean of the squared deviations from the mean equals the mean of the
  squares less the squared mean only where every entry is finite, because the proof expands a square and cancels. On
  the finite values — the images of real numbers — both sides are images of one real number. This file

  * reads the three words of the layer as the reals they denote: 100000 (the number of nodes), ε > 0, and 0;
  * proves the variance identity for a column of 100000 finite entries over the exact quotient, with the mean finite and
    the variance a nonnegative real, so that the inverse root of variance plus ε is finite;
  * shows that each form of the layer (matrix product, combination, column sums, normalisation, clamping at zero) maps
    arrays of finite entries to arrays of finite entries.
-/
import proofs.«132265_j53532472378064_1_alg».proof.Proof.Spec
import proofs.«132265_j53532472378064_1_alg».proof.Proof.LibRealOps
import proofs.«132265_j53532472378064_1_alg».proof.Proof.LibBatchNormFold
import Mathlib.Tactic

noncomputable section

open scoped BigOperators

namespace Cert.Gcn.Reals

open Idealize.ShloMosaic Idealize.ShloMosaic.ValueIdx
open Cert.Neuron (IsReal)

/-! ## The three words -/

/-- The word of 100000.0 read as an extended real. -/
abbrev n1e5 : EReal := Ideal.ofBits .f32 0x47C35000#32

/-- The word 0x47C35000 is (2^23 + 4411392) · 2^(143 − 127 − 23) = 12800000 / 128 = 100000. -/
theorem n1e5_eq : n1e5 = ((100000 : ℝ) : EReal) := by
  simp [n1e5, Ideal.ofBits, Ideal.ieee, -EReal.coe_mul]; norm_num

/-- The word of ε is (2^23 + 2606508) · 2^(110 − 127 − 23), a positive real. -/
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

/-- The zero word is 0. -/
theorem zeroW_eq : zeroW = 0 := Ideal.ofBits_zero_f32

/-! ## A column of finite entries -/

/-- A family of finite values is the image of a family of reals. -/
theorem exists_real_fun {ι : Type*} (z : ι → EReal) (hz : ∀ j, IsReal (z j)) :
    ∃ z' : ι → ℝ, z = fun j => (z' j : EReal) := by
  choose z' hz' using hz
  exact ⟨z', funext hz'⟩

/-- The number of nodes, as a real, is the number of elements of the index set. -/
theorem card_nodes : (Fintype.card (Fin 100000) : ℝ) = 100000 := by
  rw [Fintype.card_fin]; norm_num

/-- The mean of a column of finite entries is the image of the real mean. -/
theorem mean_coe (h' : Fin 100000 → ℝ) :
    Ideal.div (∑ r, (h' r : EReal)) n1e5 = (((∑ r, h' r) / 100000 : ℝ) : EReal) := by
  rw [n1e5_eq, ← LibBatchNormFold.coe_sum, LibBatchNormFold.div_coe_coe _ _ (by norm_num)]

/-- THE VARIANCE IDENTITY. For a column of 100000 finite entries, the mean of the squares less the squared mean is the
    mean of the squared deviations from the mean: both are images of one real number. -/
theorem var_eq (h : Fin 100000 → EReal) (hr : ∀ r, IsReal (h r)) :
    Ideal.div (∑ r, h r * h r) n1e5 - Ideal.div (∑ r, h r) n1e5 * Ideal.div (∑ r, h r) n1e5
      = Ideal.div (∑ r, (h r - Ideal.div (∑ r, h r) n1e5) * (h r - Ideal.div (∑ r, h r) n1e5)) n1e5 := by
  obtain ⟨h', rfl⟩ := exists_real_fun h hr
  rw [n1e5_eq]
  exact (LibBatchNormFold.var_fold h' 100000 (by norm_num) card_nodes).symm

/-- The mean of a column of finite entries is finite. -/
theorem mean_real (h : Fin 100000 → EReal) (hr : ∀ r, IsReal (h r)) : IsReal (Ideal.div (∑ r, h r) n1e5) := by
  obtain ⟨h', rfl⟩ := exists_real_fun h hr
  exact ⟨_, mean_coe h'⟩

/-- The mean of the squared deviations of a column of finite entries is a nonnegative real. -/
theorem var_real_nonneg (h : Fin 100000 → EReal) (hr : ∀ r, IsReal (h r)) :
    ∃ v : ℝ, 0 ≤ v ∧
      Ideal.div (∑ r, (h r - Ideal.div (∑ r, h r) n1e5) * (h r - Ideal.div (∑ r, h r) n1e5)) n1e5 = (v : EReal) := by
  obtain ⟨h', rfl⟩ := exists_real_fun h hr
  refine ⟨(∑ r, (h' r - (∑ r, h' r) / 100000) * (h' r - (∑ r, h' r) / 100000)) / 100000,
    LibBatchNormFold.var_real_nonneg h' 100000 (by norm_num), ?_⟩
  rw [mean_coe]
  simp only [← EReal.coe_sub, ← EReal.coe_mul, ← LibBatchNormFold.coe_sum]
  rw [n1e5_eq, LibBatchNormFold.div_coe_coe _ _ (by norm_num)]

/-- So the variance computed from the two running sums is that nonnegative real too. -/
theorem var_sums_real_nonneg (h : Fin 100000 → EReal) (hr : ∀ r, IsReal (h r)) :
    ∃ v : ℝ, 0 ≤ v ∧
      Ideal.div (∑ r, h r * h r) n1e5 - Ideal.div (∑ r, h r) n1e5 * Ideal.div (∑ r, h r) n1e5 = (v : EReal) := by
  rw [var_eq h hr]; exact var_real_nonneg h hr

/-- The inverse root of a nonnegative real plus ε is finite: the argument is a positive real. -/
theorem rsqrt_real : ∀ v : ℝ, 0 ≤ v → IsReal (Ideal.rsqrt ((v : EReal) + eps)) := by
  intro v hv
  obtain ⟨e, he, hE⟩ := eps_pos
  rw [hE, LibBatchNormFold.rsqrt_add_pos v e hv he]
  exact ⟨_, rfl⟩

/-! ## The forms of the layer keep finite entries -/

/-- Every entry of a · w is finite when the entries of a and of w are: a finite sum of products of finite values. -/
theorem lin_real {K : ℕ} (a : FVec Ideal ⟨2, ![100000, K]⟩ .f32) (w : FVec Ideal ⟨2, ![K, 64]⟩ .f32)
    (ha : ∀ j, IsReal (a j)) (hw : ∀ j, IsReal (w j)) : ∀ j, IsReal (lin a w j) := by
  intro j
  show IsReal (∑ k : Fin K, a (ix2 (j 0) k) * w (ix2 k (j 1)))
  exact Cert.Neuron.IsReal.sum_univ _ fun k => (ha _).mul (hw _)

/-- The combined layer input (edges' sum + own row · self-loop weight + bias) is finite when its four parts are. -/
theorem comb_real (e h : FVec Ideal SND .f32) (s : FVec Ideal SN1 .f32) (b : FVec Ideal S1D .f32)
    (he : ∀ j, IsReal (e j)) (hh : ∀ j, IsReal (h j)) (hs : ∀ j, IsReal (s j)) (hb : ∀ j, IsReal (b j)) :
    ∀ j, IsReal (comb e h s b j) := by
  intro j
  show IsReal ((e (ix2 (j 0) (j 1)) + h (ix2 (j 0) (j 1)) * s (ix2 (j 0) 0)) + b (ix2 0 (j 1)))
  exact ((he _).add ((hh _).mul (hs _))).add (hb _)

/-- A column's sum over the nodes is finite when the entries are. -/
theorem colSum_real (a : FVec Ideal SND .f32) (ha : ∀ j, IsReal (a j)) : ∀ j, IsReal (colSum a j) := by
  intro j
  show IsReal (∑ r : Fin 100000, a (ix2 r (j 1)))
  exact Cert.Neuron.IsReal.sum_univ _ fun r => ha _

/-- The sum of a column's squares over the nodes is finite when the entries are. -/
theorem colSumSq_real (a : FVec Ideal SND .f32) (ha : ∀ j, IsReal (a j)) : ∀ j, IsReal (colSumSq a j) := by
  intro j
  show IsReal (∑ r : Fin 100000, a (ix2 r (j 1)) * a (ix2 r (j 1)))
  exact Cert.Neuron.IsReal.sum_univ _ fun r => (ha _).mul (ha _)

/-- The normalised layer is finite when the entries, the mean, the scale and the shift are finite and the variance
    is a nonnegative real: the inverse root is then taken of a positive real. -/
theorem norm_real_of (a : FVec Ideal SND .f32) (mu var g bt : FVec Ideal S1D .f32)
    (ha : ∀ j, IsReal (a j)) (hmu : ∀ q : Fin 64, IsReal (mu (ix2 0 q)))
    (hvar : ∀ q : Fin 64, ∃ v : ℝ, 0 ≤ v ∧ var (ix2 0 q) = (v : EReal))
    (hg : ∀ j, IsReal (g j)) (hbt : ∀ j, IsReal (bt j)) : ∀ j, IsReal (norm a mu var g bt j) := by
  intro j
  show IsReal (((a (ix2 (j 0) (j 1)) - mu (ix2 0 (j 1))) * Ideal.rsqrt (var (ix2 0 (j 1)) + eps)) * g (ix2 0 (j 1))
    + bt (ix2 0 (j 1)))
  obtain ⟨v, hv, hE⟩ := hvar (j 1)
  rw [hE]
  exact ((((ha _).sub (hmu _)).mul (rsqrt_real v hv)).mul (hg _)).add (hbt _)

/-- With the mean and the variance computed from the two running sums of a finite array — mean = (column sum) / 100000,
    variance = (column sum of squares) / 100000 − mean · mean — the variance is the mean of the squared deviations,
    a nonnegative real. -/
theorem var_of_sums (a : FVec Ideal SND .f32) (mu var : FVec Ideal S1D .f32) (ha : ∀ j, IsReal (a j))
    (hmu : ∀ q : Fin 64, mu (ix2 0 q) = Ideal.div (colSum a (ix2 0 q)) n1e5)
    (hvar : ∀ q : Fin 64, var (ix2 0 q) = Ideal.div (colSumSq a (ix2 0 q)) n1e5 - mu (ix2 0 q) * mu (ix2 0 q))
    (q : Fin 64) :
    var (ix2 0 q) = Ideal.div (∑ r : Fin 100000, (a (ix2 r q) - mu (ix2 0 q)) * (a (ix2 r q) - mu (ix2 0 q))) n1e5 := by
  rw [hvar q, hmu q]
  exact var_eq (fun r => a (ix2 r q)) (fun r => ha _)

/-- The normalised layer of a finite array, with the mean and the variance computed from its two running sums, is
    finite. -/
theorem norm_real (a : FVec Ideal SND .f32) (mu var g bt : FVec Ideal S1D .f32)
    (ha : ∀ j, IsReal (a j))
    (hmu : ∀ q : Fin 64, mu (ix2 0 q) = Ideal.div (colSum a (ix2 0 q)) n1e5)
    (hvar : ∀ q : Fin 64, var (ix2 0 q) = Ideal.div (colSumSq a (ix2 0 q)) n1e5 - mu (ix2 0 q) * mu (ix2 0 q))
    (hg : ∀ j, IsReal (g j)) (hbt : ∀ j, IsReal (bt j)) : ∀ j, IsReal (norm a mu var g bt j) := by
  refine norm_real_of a mu var g bt ha (fun q => ?_) (fun q => ?_) hg hbt
  · rw [hmu q]; exact mean_real (fun r => a (ix2 r q)) (fun r => ha _)
  · rw [hvar q, hmu q]; exact var_sums_real_nonneg (fun r => a (ix2 r q)) (fun r => ha _)

/-- Clamping below at zero keeps finite entries. -/
theorem normRelu_real_of (a : FVec Ideal SND .f32) (mu var g bt : FVec Ideal S1D .f32)
    (ha : ∀ j, IsReal (a j)) (hmu : ∀ q : Fin 64, IsReal (mu (ix2 0 q)))
    (hvar : ∀ q : Fin 64, ∃ v : ℝ, 0 ≤ v ∧ var (ix2 0 q) = (v : EReal))
    (hg : ∀ j, IsReal (g j)) (hbt : ∀ j, IsReal (bt j)) : ∀ j, IsReal (normRelu a mu var g bt j) := by
  intro j
  have h := norm_real_of a mu var g bt ha hmu hvar hg hbt j
  show IsReal (max (norm a mu var g bt j) zeroW)
  exact h.max (zeroW_eq ▸ Cert.Neuron.IsReal.zero)

/-- The clamped normalised layer of a finite array, with the mean and the variance computed from its two running sums,
    is finite. -/
theorem normRelu_real (a : FVec Ideal SND .f32) (mu var g bt : FVec Ideal S1D .f32)
    (ha : ∀ j, IsReal (a j))
    (hmu : ∀ q : Fin 64, mu (ix2 0 q) = Ideal.div (colSum a (ix2 0 q)) n1e5)
    (hvar : ∀ q : Fin 64, var (ix2 0 q) = Ideal.div (colSumSq a (ix2 0 q)) n1e5 - mu (ix2 0 q) * mu (ix2 0 q))
    (hg : ∀ j, IsReal (g j)) (hbt : ∀ j, IsReal (bt j)) : ∀ j, IsReal (normRelu a mu var g bt j) := by
  intro j
  have h := norm_real a mu var g bt ha hmu hvar hg hbt j
  show IsReal (max (norm a mu var g bt j) zeroW)
  exact h.max (zeroW_eq ▸ Cert.Neuron.IsReal.zero)

end Cert.Gcn.Reals

end
-- ==== Proof.RealsEdge.lean ====
/-
  Finite values along the edges of the graph.

  A node's degree is one plus the number of edges that end in it: a count, hence a real number that is at least one,
  whatever the edge table holds (an edge whose destination lies outside the nodes lands nowhere and is not counted; a
  gather reads its index clamped into the table). The inverse root of a positive real is a real, so d = 1/sqrt(degree)
  is finite at every node, and with it every edge's weight d[s] * d[t] and every self-loop's weight d[p] * d[p]. The
  edges' part of a layer — at node p, the sum over the edges into p of the source's row times the edge's weight — is
  then a finite sum of products of finite values.
-/
import proofs.«132265_j53532472378064_1_alg».proof.Proof.LibRealOps
import proofs.«132265_j53532472378064_1_alg».proof.Proof.RefDefs
import Idealize.ShloMosaic.Lib.IdealHost

noncomputable section

open scoped BigOperators

namespace Cert.Gcn.Reals

open Idealize.ShloMosaic
open Cert.Neuron (IsReal)
open Cert.ReferenceIdeal
open Cert.ReferenceIdeal.Facts₀ Cert.ReferenceIdeal.Facts

/-! ## Nonnegative reals -/

/-- An extended real is a nonnegative real number. -/
def IsNonneg (x : EReal) : Prop := ∃ v : ℝ, 0 ≤ v ∧ x = (v : EReal)

theorem IsNonneg.isReal {x : EReal} (h : IsNonneg x) : IsReal x := by
  obtain ⟨v, _, rfl⟩ := h; exact ⟨v, rfl⟩

theorem IsNonneg.zero : IsNonneg (0 : EReal) := ⟨0, le_rfl, EReal.coe_zero.symm⟩

theorem IsNonneg.one : IsNonneg (1 : EReal) := ⟨1, zero_le_one, EReal.coe_one.symm⟩

/-- The sum of two nonnegative reals is one. -/
theorem IsNonneg.add {a b : EReal} (ha : IsNonneg a) (hb : IsNonneg b) : IsNonneg (a + b) := by
  obtain ⟨r, hr, rfl⟩ := ha; obtain ⟨s, hs, rfl⟩ := hb
  exact ⟨r + s, add_nonneg hr hs, (EReal.coe_add r s).symm⟩

/-- A finite sum of nonnegative reals is one. -/
theorem IsNonneg.sum {ι : Type*} (s : Finset ι) (f : ι → EReal) (h : ∀ i ∈ s, IsNonneg (f i)) :
    IsNonneg (∑ i ∈ s, f i) := by
  classical
  induction s using Finset.induction_on with
  | empty => rw [Finset.sum_empty]; exact IsNonneg.zero
  | insert a s ha ih =>
    rw [Finset.sum_insert ha]
    exact (h a (Finset.mem_insert_self a s)).add (ih fun i hi => h i (Finset.mem_insert_of_mem hi))

/-- An accumulating scatter of nonnegative reals into nonnegative reals has nonnegative real entries, whatever the
    indices: each entry is the operand's entry plus the sum of the updates that land on it. -/
theorem scatterAdd_nonneg {s si su : Shape} (d : ScatterDims s si su) {w : Nat} (x : FVec Ideal s .f32)
    (idx : IVec si w) (u : FVec Ideal su .f32) (hx : ∀ i, IsNonneg (x i)) (hu : ∀ j, IsNonneg (u j)) :
    ∀ i, IsNonneg (Host.scatterAdd d x idx u i) := fun i =>
  (hx i).add (IsNonneg.sum _ u fun j _ => hu j)

/-- The inverse root of a positive real is a real: the reciprocal of the real root. -/
theorem rsqrt_real_of_pos {v : ℝ} (hv : 0 < v) : IsReal (Ideal.rsqrt (v : EReal)) := by
  rw [Ideal.rsqrt_coe, if_neg (not_lt.mpr hv.le), if_neg hv.ne']
  exact ⟨_, rfl⟩

/-! ## Operations that only move or multiply entries -/

/-- A gather's entry is an entry of its operand, whatever the indices. -/
theorem gather_isReal {s si t : Shape} (d : GatherDims s si t) {w : Nat} (x : FVec Ideal s .f32) (idx : IVec si w)
    (hx : ∀ i, IsReal (x i)) : ∀ j, IsReal (Host.gather d x idx j) := fun _ => hx _

/-- A broadcast's entry is an entry of its operand. -/
theorem bcast_isReal {s t : Shape} (dims : Fin s.rank → Fin t.rank) (h : s.BroadcastsInDim t dims)
    (x : FVec Ideal s .f32) (hx : ∀ i, IsReal (x i)) : ∀ j, IsReal (broadcastInDim t dims h x j) := fun _ => hx _

/-- The elementwise product of two arrays of finite values has finite entries. -/
theorem mulf_isReal {S : Shape} (x y : FVec Ideal S .f32) (hx : ∀ i, IsReal (x i)) (hy : ∀ i, IsReal (y i)) :
    ∀ i, IsReal (mulf x y i) := fun i => (hx i).mul (hy i)

/-! ## Reading an entry of the elementwise operations -/

theorem addf_at {S : Shape} (x y : FVec Ideal S .f32) (i : S.Idx) : addf x y i = x i + y i := rfl

theorem mulf_at {S : Shape} (x y : FVec Ideal S .f32) (i : S.Idx) : mulf x y i = x i * y i := rfl

theorem rsqrt_at {S : Shape} (x : FVec Ideal S .f32) (i : S.Idx) : Host.rsqrt x i = Ideal.rsqrt (x i) := rfl

/-- Every entry of the broadcast of a one-word constant is that word's value. -/
theorem bcast_const_at {T : Shape} (h : (⟨0, ![]⟩ : Shape).BroadcastsInDim T (![] : Fin 0 → Fin T.rank)) (b : BitVec 32)
    (j : T.Idx) : broadcastInDim T ![] h (constant (F := Ideal) ⟨0, ![]⟩ .f32 b) j = Ideal.ofBits .f32 b := rfl

/-- The broadcast of the zero word has nonnegative real entries. -/
theorem zeros_nonneg {T : Shape} (h : (⟨0, ![]⟩ : Shape).BroadcastsInDim T (![] : Fin 0 → Fin T.rank)) :
    ∀ j, IsNonneg (broadcastInDim T ![] h (constant (F := Ideal) ⟨0, ![]⟩ .f32 0x00000000#32) j) := by
  intro j
  rw [bcast_const_at, Ideal.ofBits_zero_f32]
  exact IsNonneg.zero

/-- The broadcast of the word of one has nonnegative real entries. -/
theorem ones_nonneg {T : Shape} (h : (⟨0, ![]⟩ : Shape).BroadcastsInDim T (![] : Fin 0 → Fin T.rank)) :
    ∀ j, IsNonneg (broadcastInDim T ![] h (constant (F := Ideal) ⟨0, ![]⟩ .f32 0x3F800000#32) j) := by
  intro j
  rw [bcast_const_at, Ideal.ofBits_one_f32]
  exact IsNonneg.one

/-! ## The edge weights -/

variable [Facts]

/-- The degree of a node — one plus the number of edges that land on it — is a positive real (at least one). -/
theorem deg_pos (ei : IVec S2x1600000 32) (i : S100000.Idx) :
    ∃ v : ℝ, 0 < v ∧
      addf
        (Host.scatterAdd scatter_S100000_S1600000x1_S1600000_n_0_0_1
          (broadcastInDim S100000 ![] bcast_S_S100000 (constant (F := Ideal) S_ .f32 0x00000000#32))
          (Ref.dstIx ei)
          (broadcastInDim S1600000 ![] bcast_S_S1600000 (constant (F := Ideal) S_ .f32 0x3F800000#32)))
        (broadcastInDim S100000 ![] bcast_S_S100000 (constant (F := Ideal) S_ .f32 0x3F800000#32)) i = (v : EReal) := by
  obtain ⟨c, hc, hE⟩ := scatterAdd_nonneg scatter_S100000_S1600000x1_S1600000_n_0_0_1
    (broadcastInDim S100000 ![] bcast_S_S100000 (constant (F := Ideal) S_ .f32 0x00000000#32))
    (Ref.dstIx ei)
    (broadcastInDim S1600000 ![] bcast_S_S1600000 (constant (F := Ideal) S_ .f32 0x3F800000#32))
    (zeros_nonneg bcast_S_S100000) (ones_nonneg bcast_S_S1600000) i
  refine ⟨c + 1, by positivity, ?_⟩
  rw [addf_at, hE, bcast_const_at, Ideal.ofBits_one_f32, EReal.coe_add, EReal.coe_one]

/-- d = 1/sqrt(degree) is finite at every node, whatever the edge table holds. -/
theorem dis_real (ei : IVec S2x1600000 32) : ∀ i, IsReal (Ref.dis ei i) := by
  intro i
  obtain ⟨v, hv, hE⟩ := deg_pos ei i
  rw [Ref.dis, rsqrt_at, hE]
  exact rsqrt_real_of_pos hv

/-- Every edge's weight d[source] * d[destination] is finite. -/
theorem enorm_real (ei : IVec S2x1600000 32) : ∀ j, IsReal (Ref.enorm ei j) := by
  intro j
  rw [Ref.enorm]
  exact mulf_isReal _ _ (gather_isReal _ _ _ (dis_real ei)) (gather_isReal _ _ _ (dis_real ei)) j

/-- Every self-loop's weight d[p] * d[p] is finite. -/
theorem selfw_real (ei : IVec S2x1600000 32) : ∀ i, IsReal (Ref.selfw ei i) := by
  intro i
  rw [Ref.selfw]
  exact mulf_isReal _ _ (dis_real ei) (dis_real ei) i

/-- The edges' part of a layer over finite features is finite: a scatter-add, into zeros, of gathered rows times finite
    weights. -/
theorem edgeAgg_real (hw : FVec Ideal S100000x64 .f32) (ei : IVec S2x1600000 32) (hhw : ∀ j, IsReal (hw j)) :
    ∀ j, IsReal (Ref.edgeAgg hw ei j) := by
  intro j
  rw [Ref.edgeAgg]
  exact Cert.Neuron.scatterAdd_isReal _ _ _ _
    (fun i => (zeros_nonneg bcast_S_S100000x64 i).isReal)
    (mulf_isReal _ _ (gather_isReal _ _ _ hhw)
      (bcast_isReal _ _ _ (bcast_isReal _ _ _ (enorm_real ei)))) j

end Cert.Gcn.Reals

end
-- ==== Proof.BridgeReal.lean ====
/-
  Finite values through the two layers of the network.

  Every array the network computes from finite inputs is finite, whatever the edge table holds: a matrix product of
  finite arrays is finite; the edges' sum, the self-loop weights and the bias are finite, so a layer before
  normalisation is; its column sums give a finite mean and a variance that is a nonnegative real, so the normalised
  layer — clamped at zero or not — is finite again. A vector set out as a row or as a column keeps its entries, and
  the mean and the variance computed from the two running sums read, entry by entry, as the exact quotients by 100000.
-/
import proofs.«132265_j53532472378064_1_alg».proof.Proof.Reals
import proofs.«132265_j53532472378064_1_alg».proof.Proof.RealsEdge
import proofs.«132265_j53532472378064_1_alg».proof.Proof.RefDefs
import proofs.«132265_j53532472378064_1_alg».proof.Proof.Spec
import proofs.«132265_j53532472378064_1_alg».proof.Proof.KDefs

noncomputable section

namespace Cert.Gcn.Bridge

open Idealize.ShloMosaic Idealize.ShloMosaic.ValueIdx
open Cert.Neuron (IsReal)
open Cert.Gcn Cert.Gcn.Reals
open Cert.KernelIdeal Cert.KernelIdeal.Facts₀ Cert.KernelIdeal.Facts
open Cert.KernelIdeal.Chain

/-! ## Rows, columns, mean and variance read at an entry -/

/-- A cast keeps every element: an entry of the result is an entry of the operand. -/
theorem shapeCast_isReal {s t : Shape} (x : FVec Ideal s .f32) (h : s.ShapeCasts t) (hx : ∀ i, IsReal (x i)) :
    ∀ j, IsReal (shapeCast t x h j) := fun _ => hx _

/-- The mean row, entry by entry: the column sum divided by 100000. -/
theorem muOf_apply (s : FVec Ideal S1x64 .f32) (j : S1x64.Idx) : muOf s j = Ideal.div (s j) n1e5 := rfl

/-- The variance row, entry by entry: the column sum of squares divided by 100000, less the squared mean. -/
theorem varOf_apply (s ss : FVec Ideal S1x64 .f32) (j : S1x64.Idx) :
    varOf s ss j = Ideal.div (ss j) n1e5 - muOf s j * muOf s j := rfl

/-- The self-loop weights, set out as a column, are finite. -/
theorem selfCol_real (ei : IVec S2x1600000 32) : ∀ j, IsReal (selfCol ei j) := by
  intro j
  rw [selfCol]
  exact shapeCast_isReal _ _ (selfw_real ei) j

/-- A finite vector set out as a row is finite. -/
theorem rowOf_real (b : FVec Ideal S64 .f32) (hb : ∀ i, IsReal (b i)) : ∀ j, IsReal (rowOf b j) := by
  intro j
  rw [rowOf]
  exact shapeCast_isReal _ _ hb j

/-! ## One layer -/

/-- A layer before normalisation, over finite features and a finite bias, is finite. -/
theorem layerPre_real (hw : FVec Ideal S100000x64 .f32) (ei : IVec S2x1600000 32) (b : FVec Ideal S64 .f32)
    (hhw : ∀ j, IsReal (hw j)) (hb : ∀ i, IsReal (b i)) : ∀ j, IsReal (layerPre hw ei b j) := by
  intro j
  rw [layerPre]
  exact comb_real (Ref.edgeAgg hw ei) hw (selfCol ei) (rowOf b) (edgeAgg_real hw ei hhw) hhw (selfCol_real ei)
    (rowOf_real b hb) j

/-- A layer clamped at zero, over finite features, bias, scale and shift, is finite. -/
theorem layerRelu_real (hw : FVec Ideal S100000x64 .f32) (ei : IVec S2x1600000 32) (b g bt : FVec Ideal S64 .f32)
    (hhw : ∀ j, IsReal (hw j)) (hb : ∀ i, IsReal (b i)) (hg : ∀ i, IsReal (g i)) (hbt : ∀ i, IsReal (bt i)) :
    ∀ j, IsReal (layerRelu hw ei b g bt j) := by
  intro j
  rw [layerRelu]
  exact normRelu_real (layerPre hw ei b) (muOf (colSum (layerPre hw ei b)))
    (varOf (colSum (layerPre hw ei b)) (colSumSq (layerPre hw ei b))) (rowOf g) (rowOf bt)
    (layerPre_real hw ei b hhw hb)
    (fun q => muOf_apply (colSum (layerPre hw ei b)) (ix2 0 q))
    (fun q => varOf_apply (colSum (layerPre hw ei b)) (colSumSq (layerPre hw ei b)) (ix2 0 q))
    (rowOf_real g hg) (rowOf_real bt hbt) j

/-- A layer not clamped, over finite features, bias, scale and shift, is finite. -/
theorem layerLin_real (hw : FVec Ideal S100000x64 .f32) (ei : IVec S2x1600000 32) (b g bt : FVec Ideal S64 .f32)
    (hhw : ∀ j, IsReal (hw j)) (hb : ∀ i, IsReal (b i)) (hg : ∀ i, IsReal (g i)) (hbt : ∀ i, IsReal (bt i)) :
    ∀ j, IsReal (layerLin hw ei b g bt j) := by
  intro j
  rw [layerLin]
  exact norm_real (layerPre hw ei b) (muOf (colSum (layerPre hw ei b)))
    (varOf (colSum (layerPre hw ei b)) (colSumSq (layerPre hw ei b))) (rowOf g) (rowOf bt)
    (layerPre_real hw ei b hhw hb)
    (fun q => muOf_apply (colSum (layerPre hw ei b)) (ix2 0 q))
    (fun q => varOf_apply (colSum (layerPre hw ei b)) (colSumSq (layerPre hw ei b)) (ix2 0 q))
    (rowOf_real g hg) (rowOf_real bt hbt) j

/-! ## The chain through the two layers -/

section Chain

variable (x : FVec Ideal S100000x32 .f32) (ei : IVec S2x1600000 32) (We : FVec Ideal S32x64 .f32)
  (W1 : FVec Ideal S64x64 .f32) (b1 g1 bt1 : FVec Ideal S64 .f32) (W2 : FVec Ideal S64x64 .f32) (b2 : FVec Ideal S64 .f32)

/-- The first layer's features, x · We · W1, are finite. -/
theorem hw1_real (hx : ∀ i, IsReal (x i)) (hWe : ∀ i, IsReal (We i)) (hW1 : ∀ i, IsReal (W1 i)) :
    ∀ j, IsReal (lin (lin x We) W1 j) :=
  lin_real (lin x We) W1 (lin_real x We hx hWe) hW1

/-- The first layer before normalisation is finite. -/
theorem pre1_real (hx : ∀ i, IsReal (x i)) (hWe : ∀ i, IsReal (We i)) (hW1 : ∀ i, IsReal (W1 i))
    (hb1 : ∀ i, IsReal (b1 i)) : ∀ j, IsReal (layerPre (lin (lin x We) W1) ei b1 j) :=
  layerPre_real _ ei b1 (hw1_real x We W1 hx hWe hW1) hb1

/-- The first layer's output is finite. -/
theorem h1_real (hx : ∀ i, IsReal (x i)) (hWe : ∀ i, IsReal (We i)) (hW1 : ∀ i, IsReal (W1 i))
    (hb1 : ∀ i, IsReal (b1 i)) (hg1 : ∀ i, IsReal (g1 i)) (hbt1 : ∀ i, IsReal (bt1 i)) :
    ∀ j, IsReal (layerRelu (lin (lin x We) W1) ei b1 g1 bt1 j) :=
  layerRelu_real _ ei b1 g1 bt1 (hw1_real x We W1 hx hWe hW1) hb1 hg1 hbt1

/-- The second layer's features are finite. -/
theorem hw2_real (hx : ∀ i, IsReal (x i)) (hWe : ∀ i, IsReal (We i)) (hW1 : ∀ i, IsReal (W1 i))
    (hb1 : ∀ i, IsReal (b1 i)) (hg1 : ∀ i, IsReal (g1 i)) (hbt1 : ∀ i, IsReal (bt1 i)) (hW2 : ∀ i, IsReal (W2 i)) :
    ∀ j, IsReal (lin (layerRelu (lin (lin x We) W1) ei b1 g1 bt1) W2 j) :=
  lin_real _ W2 (h1_real x ei We W1 b1 g1 bt1 hx hWe hW1 hb1 hg1 hbt1) hW2

/-- The second layer before normalisation is finite. -/
theorem pre2_real (hx : ∀ i, IsReal (x i)) (hWe : ∀ i, IsReal (We i)) (hW1 : ∀ i, IsReal (W1 i))
    (hb1 : ∀ i, IsReal (b1 i)) (hg1 : ∀ i, IsReal (g1 i)) (hbt1 : ∀ i, IsReal (bt1 i)) (hW2 : ∀ i, IsReal (W2 i))
    (hb2 : ∀ i, IsReal (b2 i)) :
    ∀ j, IsReal (layerPre (lin (layerRelu (lin (lin x We) W1) ei b1 g1 bt1) W2) ei b2 j) :=
  layerPre_real _ ei b2 (hw2_real x ei We W1 b1 g1 bt1 W2 hx hWe hW1 hb1 hg1 hbt1 hW2) hb2

end Chain

end Cert.Gcn.Bridge

end
-- ==== Proof.LibBcastInDim.lean ====
/-
  The host's broadcast_in_dim in its unit-axis forms, read at an index, at any extents and element type:
  a vector [a] set out as a column [a, 1] (dims [0]) or as a row [1, b] (dims [1]); a column [a, 1] spread over the
  lanes [a, b] and a row [1, b] spread over the rows [a, b] (dims [0, 1]); a scalar spread over any shape (dims []).
  These are what jnp's v[:, None], v[None, :] and the implicit broadcasts of x * v[:, None], x + b[None, :] print as.
  Each entry of the result is one entry of the operand: the operand's index keeps the coordinates of the axes it has
  and is 0 on an axis of extent 1.
-/
import Idealize.ShloMosaic.Lib.Pipeline.Value
import Idealize.ShloMosaic.Lib.ValueIdx

noncomputable section

namespace Cert.Lib.BcastInDim

open Idealize.ShloMosaic Idealize.ShloMosaic.ValueIdx

variable {α : Type}

/-- A vector [a] set out as a column [a, 1]: entry (p, ·) is v[p]. -/
theorem bcast_vec_col {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split_ifs with h1
      · have := p.isLt; omega
      · rfl

/-- A column [a, 1] spread over the lanes [a, b]: entry (p, q) is the column's entry of row p. -/
theorem bcast_col_mat {a b : ℕ} (v : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h v (ix2 p q) = v (ix2 p (0 : Fin 1)) :=
  broadcastInDim_apply ![0, 1] h v (ix2 p q) (ix2 p (0 : Fin 1)) fun ax => by
    match ax with
    | ⟨0, _⟩ =>
      show p.val = if a = 1 then 0 else p.val
      split_ifs with h1
      · have := p.isLt; omega
      · rfl
    | ⟨1, _⟩ =>
      show (0 : ℕ) = if 1 = 1 then 0 else q.val
      rfl

/-- A vector [b] set out as a row [1, b]: entry (·, q) is v[q]. -/
theorem bcast_vec_row {b : ℕ} (v : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h v (ix2 u q) = v (ix1 q) :=
  broadcastInDim_apply ![1] h v (ix2 u q) (ix1 q) fun ax => by
    match ax with
    | ⟨0, _⟩ =>
      show q.val = if b = 1 then 0 else q.val
      split_ifs with h1
      · have := q.isLt; omega
      · rfl

/-- A row [1, b] spread over the rows [a, b]: entry (p, q) is the row's entry of lane q. -/
theorem bcast_row_mat {a b : ℕ} (v : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h v (ix2 p q) = v (ix2 (0 : Fin 1) q) :=
  broadcastInDim_apply ![0, 1] h v (ix2 p q) (ix2 (0 : Fin 1) q) fun ax => by
    match ax with
    | ⟨0, _⟩ =>
      show (0 : ℕ) = if 1 = 1 then 0 else p.val
      rfl
    | ⟨1, _⟩ =>
      show q.val = if b = 1 then 0 else q.val
      split_ifs with h1
      · have := q.isLt; omega
      · rfl

/-- A scalar spread over any shape reads the scalar. -/
theorem bcast_scalar {s : Shape} (v : (⟨0, ![]⟩ : Shape).Idx → α) (h : (⟨0, ![]⟩ : Shape).BroadcastsInDim s ![]) (j : s.Idx)
    (k : (⟨0, ![]⟩ : Shape).Idx) : broadcastInDim s ![] h v j = v k :=
  broadcastInDim_apply ![] h v j k fun ax => ax.elim0

end Cert.Lib.BcastInDim

end
-- ==== Proof.LibScalarGuard.lean ====
/-
  A selection guarded by one scalar comparison, read at an index, at the extended reals.

  A mean over a count that a correction may bring to zero is guarded: the quotient is kept where the corrected count is
  above zero and replaced by a fill value otherwise. The guard is one comparison of two scalars, spread over the shape
  of the quotient. Read at any index, the selection is its first operand when the comparison holds and its second
  when it does not. With it, the integer zero converted to a float is the extended real zero.
-/
import Idealize.ShloMosaic.PureOps.Ideal
import Idealize.ShloMosaic.PureOps.Ideal.Laws
import Idealize.ShloMosaic.Lib.ValueIdx
import Idealize.ShloMosaic.Lib.IdealHost

noncomputable section

namespace Cert.Lib.ScalarGuard

open Idealize.ShloMosaic Idealize.ShloMosaic.ValueIdx

variable {T : Shape} {φ : FTy}

/-- A selection on a scalar condition spread over a shape selects, at every index, on the scalar's one word. -/
theorem select_scalar_apply {α : Type} (h : (⟨0, ![]⟩ : Shape).BroadcastsInDim T ![]) (c : IVec ⟨0, ![]⟩ 1)
    (a b : T.Idx → α) (j : T.Idx) :
    select (broadcastInDim T ![] h c) a b j = Scalar.select (c ix0) (a j) (b j) := by
  rw [select_apply, broadcastInDim_scalar_apply]

/-- Guarded by "x is above z" for two scalars with z below x, the selection is its first operand. -/
theorem select_ogt_of_lt (h : (⟨0, ![]⟩ : Shape).BroadcastsInDim T ![]) (x z : FVec Ideal ⟨0, ![]⟩ φ)
    (a b : FVec Ideal T φ) (j : T.Idx) (hlt : z ix0 < x ix0) :
    select (broadcastInDim T ![] h (cmpf .ogt x z)) a b j = a j := by
  rw [select_scalar_apply, cmpf_apply, Ideal.cmpf_def]
  have h1 : Ideal.cmp .ogt (x ix0) (z ix0) = 1#1 := by
    unfold Ideal.cmp
    simp only [hlt, decide_true]
    rfl
  rw [h1, select_one]

/-- Guarded by "x is above z" for two scalars with z not below x, the selection is its second operand. -/
theorem select_ogt_of_not_lt (h : (⟨0, ![]⟩ : Shape).BroadcastsInDim T ![]) (x z : FVec Ideal ⟨0, ![]⟩ φ)
    (a b : FVec Ideal T φ) (j : T.Idx) (hlt : ¬ z ix0 < x ix0) :
    select (broadcastInDim T ![] h (cmpf .ogt x z)) a b j = b j := by
  rw [select_scalar_apply, cmpf_apply, Ideal.cmpf_def]
  have h0 : Ideal.cmp .ogt (x ix0) (z ix0) = 0#1 := by
    unfold Ideal.cmp
    simp only [hlt, decide_false]
    rfl
  rw [h0, select_zero]

/-- The integer zero word, converted signed to a float, is the extended real zero. -/
theorem sitofp_zero_apply {s : Shape} (i : s.Idx) :
    (sitofp φ (constantI s 32 0#32) : FVec Ideal s φ) i = 0 := by
  show ((((0#32 : BitVec 32).toInt : ℤ) : ℝ) : EReal) = 0
  simp

end Cert.Lib.ScalarGuard

end
-- ==== Proof.RefLayer.lean ====
/-
  The reference's layer read at an index, on the extended reals.

  Each stage of one graph-convolution layer (RefDefs) is a composition of whole-array host operations. Read at a node p
  and a feature q they say:

    * the layer before normalisation is the edges' sum at (p, q), plus the node's own entry times its self-loop
      weight, plus the bias of feature q;
    * a column's mean is its sum over the 100000 nodes divided by 100000 (the reduction starts from the zero word,
      which is the extended real 0 and drops out);
    * its variance is the sum of the squared deviations from that mean divided by 100000: the divisor is 100000 less
      the integer zero converted to a float, which is 100000 again, and the guard "the divisor is above zero" holds,
      so the selection keeps the quotient and the fill word is never read;
    * normalisation is ((a - mean) * rsqrt(var + eps)) * g + bt at feature q;
    * the clamp is the maximum with the zero word;
    * a product with a K-by-64 weight matrix is the sum over k of h[p, k] * W[k, q].

  Nothing here assumes the entries finite. The words of 100000, eps and zero stay words, except that 100000 is shown
  to be the real number 100000 once, to decide the guard.
-/
import proofs.«132265_j53532472378064_1_alg».proof.Proof.RefDefs
import proofs.«132265_j53532472378064_1_alg».proof.Proof.Spec
import proofs.«132265_j53532472378064_1_alg».proof.Proof.LibBcastInDim
import proofs.«132265_j53532472378064_1_alg».proof.Proof.LibScalarGuard
import proofs.«132265_j53532472378064_1_alg».proof.Proof.LibMatmul
import Idealize.ShloMosaic.PureOps.Ideal.Laws
import Idealize.ShloMosaic.Lib.ValueIdx

noncomputable section

open scoped BigOperators

namespace Cert.Gcn.Ref

open Idealize.ShloMosaic Idealize.ShloMosaic.ValueIdx
open Cert.ReferenceIdeal
open Cert.ReferenceIdeal.Facts₀ Cert.ReferenceIdeal.Facts
open Cert.Lib.BcastInDim Cert.Lib.ScalarGuard

variable [Facts]

/-- The word of 100000.0 read as an extended real. -/
abbrev n1e5 : EReal := Ideal.ofBits .f32 0x47C35000#32

/-- That word denotes the real number 100000. -/
theorem n1e5_eq : n1e5 = ((100000 : ℝ) : EReal) := by
  show Ideal.ofBits .f32 0x47C35000#32 = _
  simp [Ideal.ofBits, Ideal.ieee, -EReal.coe_mul]; norm_num

/-- Zero is below 100000. -/
theorem zero_lt_n1e5 : (0 : EReal) < n1e5 := by
  rw [n1e5_eq]; exact EReal.coe_pos.mpr (by norm_num)

/-! ## The layer before normalisation -/

theorem agg_apply (hw : FVec Ideal S100000x64 .f32) (ei : IVec S2x1600000 32) (b : FVec Ideal S64 .f32)
    (p : Fin 100000) (q : Fin 64) :
    agg hw ei b (ix2 p q) = (edgeAgg hw ei (ix2 p q) + hw (ix2 p q) * selfw ei (ix1 p)) + b (ix1 q) := by
  unfold agg
  rw [addf_apply, addf_apply, mulf_apply, bcast_col_mat, bcast_vec_col, bcast_row_mat, bcast_vec_row]

/-! ## A column's sum over the nodes -/

/-- The shape fact of the sum over the node axis, in the form that names the inserted coordinate. -/
theorem reduces_d0 : S100000x64.Reduces [0] S64 := by decide

/-- Feature q with node r inserted in front is the index (r, q). -/
theorem lift_d0 (h : S100000x64.Reduces [0] S64) (q : Fin 64) (r : Fin 100000) : h.lift (ix1 q) r = ix2 r q := by
  funext d
  refine Fin.ext ?_
  match d with
  | ⟨0, _⟩ => rfl
  | ⟨1, _⟩ => rfl

/-- The host's sum over the node axis from the zero word, at feature q: the sum of column q. -/
theorem colSum_apply (a : FVec Ideal S100000x64 .f32) (q : Fin 64) :
    Host.reduceAdd a (constant (F := Ideal) S_ .f32 0x00000000#32) reducesTo_S100000x64_S64_d0 h_S_ (ix1 q)
      = ∑ r : Fin 100000, a (ix2 r q) := by
  show Ideal.hostReduceAdd reducesTo_S100000x64_S64_d0 a (Ideal.ofBits .f32 0x00000000#32) (ix1 q) = _
  rw [Ideal.hostReduceAdd_single reducesTo_S100000x64_S64_d0 reduces_d0, Ideal.ofBits_zero_f32, zero_add]
  exact Finset.sum_congr rfl fun r _ => congrArg a (lift_d0 reduces_d0 q r)

/-! ## Mean and variance -/

theorem mean_apply (a : FVec Ideal S100000x64 .f32) (q : Fin 64) :
    mean a (ix1 q) = Ideal.div (∑ r : Fin 100000, a (ix2 r q)) n1e5 := by
  unfold mean
  show Ideal.div (Host.reduceAdd a (constant (F := Ideal) S_ .f32 0x00000000#32) reducesTo_S100000x64_S64_d0 h_S_ (ix1 q))
      (broadcastInDim S64 ![] bcast_S_S64 (constant (F := Ideal) S_ .f32 0x47C35000#32) (ix1 q)) = _
  rw [colSum_apply, bcast_scalar _ _ _ ix0]
  rfl

/-- The squared deviation at (r, q): the mean the variance subtracts — taken as a row, divided, spread over the nodes —
    is the column's mean. -/
theorem devSq_apply (a : FVec Ideal S100000x64 .f32) (r : Fin 100000) (q : Fin 64) :
    devSq a (ix2 r q) = (a (ix2 r q) - mean a (ix1 q)) * (a (ix2 r q) - mean a (ix1 q)) := by
  have hm : broadcastInDim S100000x64 ![0, 1] bcast_S1x64_S100000x64_0_1
        (Host.divf
          (broadcastInDim S1x64 ![1] bcast_S64_S1x64_1
            (Host.reduceAdd a (constant (F := Ideal) S_ .f32 0x00000000#32) reducesTo_S100000x64_S64_d0 h_S_))
          (broadcastInDim S1x64 ![] bcast_S_S1x64 (constant (F := Ideal) S_ .f32 0x47C35000#32))) (ix2 r q)
      = mean a (ix1 q) := by
    rw [bcast_row_mat, mean_apply]
    show Ideal.div (broadcastInDim S1x64 ![1] bcast_S64_S1x64_1
          (Host.reduceAdd a (constant (F := Ideal) S_ .f32 0x00000000#32) reducesTo_S100000x64_S64_d0 h_S_) (ix2 (0 : Fin 1) q))
        (broadcastInDim S1x64 ![] bcast_S_S1x64 (constant (F := Ideal) S_ .f32 0x47C35000#32) (ix2 (0 : Fin 1) q)) = _
    rw [bcast_vec_row, colSum_apply, bcast_scalar _ _ _ ix0]
    rfl
  unfold devSq
  rw [mulf_apply, subf_apply, hm]

/-- The variance's divisor: 100000 less the integer zero as a float, which is 100000. -/
theorem varCount_apply : varCount ix0 = n1e5 := by
  unfold varCount
  rw [subf_apply, sitofp_zero_apply, sub_zero]
  rfl

theorem var_apply (a : FVec Ideal S100000x64 .f32) (q : Fin 64) :
    var a (ix1 q)
      = Ideal.div (∑ r : Fin 100000, (a (ix2 r q) - mean a (ix1 q)) * (a (ix2 r q) - mean a (ix1 q))) n1e5 := by
  have hguard : (constant (F := Ideal) S_ .f32 0x00000000#32) ix0 < varCount ix0 := by
    rw [varCount_apply]
    show Ideal.ofBits .f32 0x00000000#32 < n1e5
    rw [Ideal.ofBits_zero_f32]
    exact zero_lt_n1e5
  unfold var
  rw [select_ogt_of_lt _ _ _ _ _ _ hguard]
  show Ideal.div (Host.reduceAdd (devSq a) (constant (F := Ideal) S_ .f32 0x00000000#32) reducesTo_S100000x64_S64_d0 h_S_ (ix1 q))
      (broadcastInDim S64 ![] bcast_S_S64 varCount (ix1 q)) = _
  rw [colSum_apply, bcast_scalar _ _ _ ix0, varCount_apply]
  exact congrArg (fun s => Ideal.div s n1e5) (Finset.sum_congr rfl fun r _ => devSq_apply a r q)

/-! ## Normalisation, the clamp, the products -/

/-- The host's reciprocal square root, entry by entry. -/
theorem hostRsqrt_apply {s : Shape} (x : FVec Ideal s .f32) (i : s.Idx) : Host.rsqrt x i = Ideal.rsqrt (x i) := rfl

theorem bn_apply (a : FVec Ideal S100000x64 .f32) (g bt : FVec Ideal S64 .f32) (p : Fin 100000) (q : Fin 64) :
    bn a g bt (ix2 p q)
      = ((a (ix2 p q) - mean a (ix1 q)) * Ideal.rsqrt (var a (ix1 q) + Cert.Gcn.eps)) * g (ix1 q) + bt (ix1 q) := by
  unfold bn
  rw [addf_apply, mulf_apply, mulf_apply, subf_apply]
  rw [bcast_row_mat, bcast_vec_row, bcast_row_mat, bcast_vec_row, bcast_row_mat, bcast_vec_row, bcast_row_mat, bcast_vec_row]
  rw [hostRsqrt_apply, addf_apply, bcast_scalar _ _ _ ix0, constant_apply]

theorem relu_apply (a : FVec Ideal S100000x64 .f32) (p : Fin 100000) (q : Fin 64) :
    relu a (ix2 p q) = max (a (ix2 p q)) Cert.Gcn.zeroW := by
  unfold relu
  rw [maximumf_apply, bcast_scalar _ _ _ ix0]
  rfl

/-- A product with a 64-by-64 weight matrix, at (p, q). -/
theorem lin64_apply (h : FVec Ideal S100000x64 .f32) (W : FVec Ideal S64x64 .f32) (p : Fin 100000) (q : Fin 64) :
    Host.dotGeneral (F := Ideal) dot_S100000x64_S64x64_S100000x64_1_0_0_1_n_n none h W (ix2 p q)
      = ∑ k : Fin 64, h (ix2 p k) * W (ix2 k q) :=
  Cert.Bridge.LibMatmul.dotGeneral_apply (M := 100000) (K := 64) (N := 64) none .single h W p q

/-- The embedding's product with the 32-by-64 weight matrix, at (p, q). -/
theorem lin32_apply (x : FVec Ideal S100000x32 .f32) (W : FVec Ideal S32x64 .f32) (p : Fin 100000) (q : Fin 64) :
    Host.dotGeneral (F := Ideal) dot_S100000x32_S32x64_S100000x64_1_0_0_1_n_n none x W (ix2 p q)
      = ∑ k : Fin 32, x (ix2 p k) * W (ix2 k q) :=
  Cert.Bridge.LibMatmul.dotGeneral_apply (M := 100000) (K := 32) (N := 64) none .single x W p q

end Cert.Gcn.Ref

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.Bridge.lean ====
/-
  The two arrangements of the network agree on finite arguments.

  One arrangement keeps, for every layer, two running sums over the nodes — of each feature column and of its
  squares — and takes the mean as the first sum divided by the number of nodes and the variance as the second sum
  divided by the number of nodes, less the squared mean. The other takes the mean first and then the mean of the
  squared deviations from it. The dense products, the layer before normalisation (the edges' sum, plus the node's own
  row times its self-loop weight, plus the bias) and the normalisation formula itself are the same in both, entry by
  entry, with no condition; the two variances agree for a column of finite entries (the variance identity), and every
  layer's input is finite when the arguments are. So the first result is the same array in both, and the second — the
  first one's rows summed per graph — is the same sum applied to equal arrays.
-/
import proofs.«132265_j53532472378064_1_alg».proof.Proof.BridgeReal
import proofs.«132265_j53532472378064_1_alg».proof.Proof.RefLayer
import proofs.«132265_j53532472378064_1_alg».proof.Proof.LibUnitAxis
import proofs.«132265_j53532472378064_1_alg».proof.Proof.LibMatmul
import Idealize.ShloMosaic.Lib.ValueLayout

noncomputable section

open scoped BigOperators

namespace Cert.Gcn.Bridge

open Idealize.ShloMosaic Idealize.ShloMosaic.ValueIdx
open Cert.KernelIdeal Cert.KernelIdeal.Chain
open Cert.Neuron (IsReal)
open Cert.Gcn.Reals (n1e5)

/-! ## A vector set out as a column or as a row, read at an index -/

/-- The self-loop weights set out as a column: entry (p, ·) is the weight of node p. -/
theorem selfCol_apply (ei : IVec S2x1600000 32) (p : Fin 100000) (u : Fin 1) :
    selfCol ei (ix2 p u) = Ref.selfw ei (ix1 p) := by
  unfold selfCol
  exact Cert.Lib.UnitAxis.shapeCast_a_a1_apply _ _ p u

/-- A feature vector set out as a row: entry (·, q) is its entry q. -/
theorem rowOf_apply (b : FVec Ideal S64 .f32) (u : Fin 1) (q : Fin 64) : rowOf b (ix2 u q) = b (ix1 q) := by
  unfold rowOf
  exact shapeCast_a_1a_apply _ _ u q

/-! ## The dense products -/

/-- The product with a 64-by-64 matrix is the host's product. -/
theorem lin_eq_dot64 (h : FVec Ideal S100000x64 .f32) (W : FVec Ideal S64x64 .f32) :
    lin (K := 64) h W = Host.dotGeneral Cert.ReferenceIdeal.dot_S100000x64_S64x64_S100000x64_1_0_0_1_n_n none h W := by
  funext j
  obtain ⟨p, q, rfl⟩ : ∃ (p : Fin 100000) (q : Fin 64), j = ix2 p q := ⟨j 0, j 1, eq_ix2 j⟩
  rw [lin_apply]
  exact (Cert.Bridge.LibMatmul.dotGeneral_apply (M := 100000) (K := 64) (N := 64) none .single h W p q).symm

/-- The product with the 32-by-64 matrix is the host's product. -/
theorem lin_eq_dot32 (x : FVec Ideal S100000x32 .f32) (W : FVec Ideal S32x64 .f32) :
    lin (K := 32) x W = Host.dotGeneral Cert.ReferenceIdeal.dot_S100000x32_S32x64_S100000x64_1_0_0_1_n_n none x W := by
  funext j
  obtain ⟨p, q, rfl⟩ : ∃ (p : Fin 100000) (q : Fin 64), j = ix2 p q := ⟨j 0, j 1, eq_ix2 j⟩
  rw [lin_apply]
  exact (Cert.Bridge.LibMatmul.dotGeneral_apply (M := 100000) (K := 32) (N := 64) none .single x W p q).symm

/-! ## A layer before normalisation -/

/-- The combined layer input is the reference's: the edges' sum, plus the node's own row times its self-loop weight,
    plus the bias, entry by entry. -/
theorem pre_eq (hw : FVec Ideal S100000x64 .f32) (ei : IVec S2x1600000 32) (b : FVec Ideal S64 .f32) :
    layerPre hw ei b = Ref.agg hw ei b := by
  funext j
  obtain ⟨p, q, rfl⟩ : ∃ (p : Fin 100000) (q : Fin 64), j = ix2 p q := ⟨j 0, j 1, eq_ix2 j⟩
  unfold layerPre
  rw [comb_apply, selfCol_apply, rowOf_apply, Ref.agg_apply]

/-! ## Normalisation -/

/-- For an array of finite entries, normalising with the mean and the variance computed from the column sums and the
    column sums of squares is the reference's batch normalisation: the two variances agree by the variance identity. -/
theorem norm_eq_bn (a : FVec Ideal S100000x64 .f32) (g bt : FVec Ideal S64 .f32) (hr : ∀ j, IsReal (a j)) :
    norm a (muOf (colSum a)) (varOf (colSum a) (colSumSq a)) (rowOf g) (rowOf bt) = Ref.bn a g bt := by
  funext j
  obtain ⟨p, q, rfl⟩ : ∃ (p : Fin 100000) (q : Fin 64), j = ix2 p q := ⟨j 0, j 1, eq_ix2 j⟩
  rw [norm_apply, Ref.bn_apply, varOf_apply, muOf_apply, rowOf_apply, rowOf_apply, colSum_apply, colSumSq_apply,
    Ref.var_apply, Ref.mean_apply]
  rw [Cert.Gcn.Reals.var_eq (fun r => a (ix2 r q)) (fun r => hr _)]

/-- The same, clamped below at zero. -/
theorem normRelu_eq_relu_bn (a : FVec Ideal S100000x64 .f32) (g bt : FVec Ideal S64 .f32) (hr : ∀ j, IsReal (a j)) :
    normRelu a (muOf (colSum a)) (varOf (colSum a) (colSumSq a)) (rowOf g) (rowOf bt) = Ref.relu (Ref.bn a g bt) := by
  funext j
  obtain ⟨p, q, rfl⟩ : ∃ (p : Fin 100000) (q : Fin 64), j = ix2 p q := ⟨j 0, j 1, eq_ix2 j⟩
  rw [Ref.relu_apply, ← norm_eq_bn a g bt hr]
  rfl

/-- A layer, not clamped, is the reference's, when the layer's input has finite entries. -/
theorem layerLin_eq (hw : FVec Ideal S100000x64 .f32) (ei : IVec S2x1600000 32) (b g bt : FVec Ideal S64 .f32)
    (hr : ∀ j, IsReal (Ref.agg hw ei b j)) : layerLin hw ei b g bt = Ref.bn (Ref.agg hw ei b) g bt := by
  unfold layerLin
  rw [pre_eq]
  exact norm_eq_bn _ g bt hr

/-- A layer, clamped, is the reference's, when the layer's input has finite entries. -/
theorem layerRelu_eq (hw : FVec Ideal S100000x64 .f32) (ei : IVec S2x1600000 32) (b g bt : FVec Ideal S64 .f32)
    (hr : ∀ j, IsReal (Ref.agg hw ei b j)) : layerRelu hw ei b g bt = Ref.relu (Ref.bn (Ref.agg hw ei b) g bt) := by
  unfold layerRelu
  rw [pre_eq]
  exact normRelu_eq_relu_bn _ g bt hr

/-- A layer's input, in the reference's form, is finite when the features and the bias are, whatever the edge table
    holds. -/
theorem agg_real (hw : FVec Ideal S100000x64 .f32) (ei : IVec S2x1600000 32) (b : FVec Ideal S64 .f32)
    (hhw : ∀ j, IsReal (hw j)) (hb : ∀ i, IsReal (b i)) : ∀ j, IsReal (Ref.agg hw ei b j) := by
  rw [← pre_eq]
  exact layerPre_real hw ei b hhw hb

/-! ## The two results -/

/-- THE FIRST RESULT: on finite arguments the two layers computed from the running sums are the reference's two
    layers. -/
theorem out0_eq (x : FVec Ideal S100000x32 .f32) (ei : IVec S2x1600000 32) (We : FVec Ideal S32x64 .f32)
    (W1 : FVec Ideal S64x64 .f32) (b1 g1 bt1 : FVec Ideal S64 .f32)
    (W2 : FVec Ideal S64x64 .f32) (b2 g2 bt2 : FVec Ideal S64 .f32)
    (hx : ∀ i, IsReal (x i)) (hWe : ∀ i, IsReal (We i)) (hW1 : ∀ i, IsReal (W1 i)) (hb1 : ∀ i, IsReal (b1 i))
    (hg1 : ∀ i, IsReal (g1 i)) (hbt1 : ∀ i, IsReal (bt1 i)) (hW2 : ∀ i, IsReal (W2 i)) (hb2 : ∀ i, IsReal (b2 i))
    (hg2 : ∀ i, IsReal (g2 i)) (hbt2 : ∀ i, IsReal (bt2 i)) :
    out0K x ei We W1 b1 g1 bt1 W2 b2 g2 bt2 = Ref.out0 x ei We W1 b1 g1 bt1 W2 b2 g2 bt2 := by
  have r1 : ∀ j, IsReal (Ref.agg (lin (K := 64) (lin (K := 32) x We) W1) ei b1 j) :=
    agg_real _ ei b1 (hw1_real x We W1 hx hWe hW1) hb1
  have r2 : ∀ j, IsReal (Ref.agg (lin (K := 64) (layerRelu (lin (K := 64) (lin (K := 32) x We) W1) ei b1 g1 bt1) W2) ei b2 j) :=
    agg_real _ ei b2 (hw2_real x ei We W1 b1 g1 bt1 W2 hx hWe hW1 hb1 hg1 hbt1 hW2) hb2
  unfold out0K Ref.out0
  rw [layerLin_eq _ ei b2 g2 bt2 r2, layerRelu_eq _ ei b1 g1 bt1 r1, lin_eq_dot64, lin_eq_dot64, lin_eq_dot32]

/-- THE SECOND RESULT: the same sum per graph applied to equal arrays. -/
theorem out1_eq (x : FVec Ideal S100000x32 .f32) (ei : IVec S2x1600000 32) (batch : IVec S100000 32)
    (We : FVec Ideal S32x64 .f32) (W1 : FVec Ideal S64x64 .f32) (b1 g1 bt1 : FVec Ideal S64 .f32)
    (W2 : FVec Ideal S64x64 .f32) (b2 g2 bt2 : FVec Ideal S64 .f32)
    (hx : ∀ i, IsReal (x i)) (hWe : ∀ i, IsReal (We i)) (hW1 : ∀ i, IsReal (W1 i)) (hb1 : ∀ i, IsReal (b1 i))
    (hg1 : ∀ i, IsReal (g1 i)) (hbt1 : ∀ i, IsReal (bt1 i)) (hW2 : ∀ i, IsReal (W2 i)) (hb2 : ∀ i, IsReal (b2 i))
    (hg2 : ∀ i, IsReal (g2 i)) (hbt2 : ∀ i, IsReal (bt2 i)) :
    out1K x ei batch We W1 b1 g1 bt1 W2 b2 g2 bt2 = Ref.out1 x ei batch We W1 b1 g1 bt1 W2 b2 g2 bt2 := by
  unfold out1K Ref.out1
  rw [out0_eq x ei We W1 b1 g1 bt1 W2 b2 g2 bt2 hx hWe hW1 hb1 hg1 hbt1 hW2 hb2 hg2 hbt2]
  rfl

end Cert.Gcn.Bridge

end
-- ==== Proof.lean ====
/-
  Two-layer graph convolution with batch normalisation over 100000 nodes: the kernel program (seven kernel regions
  among host operations) against the reference (host operations only), on the extended reals.

  Each dense step is one function of whole arrays on both sides: a matrix product is the sum over the contracted
  index whether the matrix unit accumulates it block by block or the host contracts it at once; the combination
  "edge sum + own row · self-loop weight + bias" and the normalisation "(a − μ) · rsqrt(v + ε) · γ + β" are entrywise.
  The graph steps (degrees, edge weights, the sum over incoming edges, the pooling per graph) are the same host
  operations in both programs. The one place where the two differ as formulas is the variance: the kernel takes the
  mean of the squares minus the square of the mean from its running column sums, the reference the mean of the squared
  deviations. These agree when every entry is a real number — which the precondition gives for the inputs, and which
  every step up to there keeps (a degree is a count plus one, so its inverse square root is real; sums and products of
  reals are real; a variance of reals is a non-negative real, so the inverse square root of it plus ε is real).
-/
import proofs.«132265_j53532472378064_1_alg».proof.Defs
import proofs.«132265_j53532472378064_1_alg».proof.Proof.Gen.Kernel
import proofs.«132265_j53532472378064_1_alg».proof.Proof.Gen.Kernel.Frame
import proofs.«132265_j53532472378064_1_alg».proof.Proof.Gen.KernelIdeal
import proofs.«132265_j53532472378064_1_alg».proof.Proof.Gen.KernelIdeal.Frame
import proofs.«132265_j53532472378064_1_alg».proof.Proof.Gen.ReferenceIdeal
import proofs.«132265_j53532472378064_1_alg».proof.Proof.Gen.Pre_finite_inputs
import proofs.«132265_j53532472378064_1_alg».proof.Proof.KRun
import proofs.«132265_j53532472378064_1_alg».proof.Proof.KChain
import proofs.«132265_j53532472378064_1_alg».proof.Proof.RegLin0
import proofs.«132265_j53532472378064_1_alg».proof.Proof.RegLin1
import proofs.«132265_j53532472378064_1_alg».proof.Proof.RegLin4
import proofs.«132265_j53532472378064_1_alg».proof.Proof.RegComb2
import proofs.«132265_j53532472378064_1_alg».proof.Proof.RegComb5
import proofs.«132265_j53532472378064_1_alg».proof.Proof.RegNorm3
import proofs.«132265_j53532472378064_1_alg».proof.Proof.RegNorm6
import proofs.«132265_j53532472378064_1_alg».proof.Proof.RefFrame
import proofs.«132265_j53532472378064_1_alg».proof.Proof.RefVal
import proofs.«132265_j53532472378064_1_alg».proof.Proof.PreReal
import proofs.«132265_j53532472378064_1_alg».proof.Proof.Bridge
import Idealize.ShloMosaic.Adequacy
import Idealize.ShloMosaic.Init

noncomputable section

namespace Cert.Proof

open Idealize.ShloMosaic Idealize.SL.Sem

/-- What each of the seven kernel regions computes, at any contents on entry. -/
theorem regions : Cert.KernelIdeal.Chain.Regions :=
  ⟨Cert.Gcn.Reg.lin0_value, Cert.Gcn.Reg.lin1_value, Cert.Gcn.Reg.comb2_value, Cert.Gcn.Reg.sum2_value,
    Cert.Gcn.Reg.sumsq2_value, Cert.Gcn.Reg.norm3_value, Cert.Gcn.Reg.lin4_value, Cert.Gcn.Reg.comb5_value,
    Cert.Gcn.Reg.sum5_value, Cert.Gcn.Reg.sumsq5_value, Cert.Gcn.Reg.norm6_value⟩

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := Cert.ReferenceIdeal.HandRun.frame_ri

/-- No rewrite separates the kernel program from its idealised form: the conjunct is `True`. -/
theorem preserves : Cert.preserves_Kernel_KernelIdeal := trivial

/-- Both programs end with the same two arrays: the kernel's results walked back to its arguments are the Spec's
    composition, the reference's are its own operations' composition, and the two compositions agree on real inputs. -/
theorem algebraic : Cert.algebraic_KernelIdeal_ReferenceIdeal := by
  intro m ρ m' ρ' hpre hagree
  refine ⟨fun c => Cert.KernelIdeal.Chain.out0K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Chain.out1K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.res0 m ρ c regions),
        (h c).2.1.trans (Cert.KernelIdeal.Chain.res1 m ρ c regions), (h c).2.2⟩)
      (Cert.KernelIdeal.Run.run_main (F := Ideal) m ρ)
  · refine (θ_run Cert.ReferenceIdeal.defs _ _).mono (fun r h c => ?_) (Cert.ReferenceIdeal.HandRun.run_out m' ρ')
    obtain ⟨e0, e1, e2, e3, e4, e5, e6, e7, e8, e9, e10, e11⟩ := hagree c
    obtain ⟨r0, r3, r4, r5, r6, r7, r8, r9, r10, r11⟩ := Cert.Gcn.PreReal.reals _ _ _ _ _ _ _ _ _ _ _ _ (hpre c)
    refine ⟨(h c).1.trans ?_, (h c).2.1.trans ?_, (h c).2.2⟩
    · rw [e0, e1, e3, e4, e5, e6, e7, e8, e9, e10, e11]
      exact (Cert.Gcn.Bridge.out0_eq _ _ _ _ _ _ _ _ _ _ _ r0 r3 r4 r5 r6 r7 r8 r9 r10 r11).symm
    · rw [e0, e1, e2, e3, e4, e5, e6, e7, e8, e9, e10, e11]
      exact (Cert.Gcn.Bridge.out1_eq _ _ _ _ _ _ _ _ _ _ _ _ r0 r3 r4 r5 r6 r7 r8 r9 r10 r11).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
